-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1024x128 : Shape := ⟨2, ![1024, 128]⟩
abbrev S128x512 : Shape := ⟨2, ![128, 512]⟩
abbrev S512 : Shape := ⟨1, ![512]⟩
abbrev S512x512 : Shape := ⟨2, ![512, 512]⟩
abbrev S512x128 : Shape := ⟨2, ![512, 128]⟩
abbrev S128 : Shape := ⟨1, ![128]⟩
abbrev S512x2 : Shape := ⟨2, ![512, 2]⟩
abbrev S2 : Shape := ⟨1, ![2]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S512x2 : S_.BroadcastsInDim S512x2 (![] : Fin 0 → Fin S512x2.rank)
  reducesTo_S512x2_S_d0_1 : S512x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg11 : FVec F S2 .f32) (main_v48 : IVec S_ 1) (main_v49 : FVec F S512x2 .f32) (main_v50 : FVec F S512x2 .f32) : IVec S_ 1 :=
  let main_v51 : IVec S512x2 1 := cmpf .olt main_v49 main_v50
  let main_c_19 : IVec S_ 1 := constantI S_ 1 1#1
  let main_v52 : IVec S_ 1 := (fun x v => Host.reduce IntOp.andi x v reducesTo_S512x2_S_d0_1 h_S_) main_v51 main_c_19
  let main_v53 : IVec S_ 1 := andi main_v48 main_v52
  let main_v54 : FVec F S2 .f32 := Host.absf main_arg11
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  main_v58

def fn_part2 {F : FTy → Type} [FloatOps F] (main_arg7 : FVec F S128 .f32) (main_arg8 : FVec F S128x512 .f32) (main_arg9 : FVec F S512 .f32) (main_arg10 : FVec F S512x2 .f32) (main_arg11 : FVec F S2 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x512 .f32 := Host.absf main_arg8
  let main_cst_14 : FVec F S_ .f32 := constant S_ .f32 0x7F800000#32
  let main_v40 : FVec F S128x512 .f32 := broadcastInDim S128x512 ![] bcast_S_S128x512 main_cst_14
  let main_v41 : IVec S128x512 1 := cmpf .olt main_v39 main_v40
  let main_c_15 : IVec S_ 1 := constantI S_ 1 1#1
  let main_v42 : IVec S_ 1 := (fun x v => Host.reduce IntOp.andi x v reducesTo_S128x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x2 .f32 := Host.absf main_arg10
  let main_cst_18 : FVec F S_ .f32 := constant S_ .f32 0x7F800000#32
  let main_v50 : FVec F S512x2 .f32 := broadcastInDim S512x2 ![] bcast_S_S512x2 main_cst_18
  fn_part3 (F := F) main_arg11 main_v48 main_v49 main_v50

def fn_part1 {F : FTy → Type} [FloatOps F] (main_arg4 : FVec F S512x512 .f32) (main_arg5 : FVec F S512 .f32) (main_arg6 : FVec F S512x128 .f32) (main_arg7 : FVec F S128 .f32) (main_arg8 : FVec F S128x512 .f32) (main_arg9 : FVec F S512 .f32) (main_arg10 : FVec F S512x2 .f32) (main_arg11 : FVec F S2 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x128 .f32 := Host.absf main_arg6
  let main_cst_10 : FVec F S_ .f32 := constant S_ .f32 0x7F800000#32
  let main_v30 : FVec F S512x128 .f32 := broadcastInDim S512x128 ![] bcast_S_S512x128 main_cst_10
  let main_v31 : IVec S512x128 1 := cmpf .olt main_v29 main_v30
  let main_c_11 : IVec S_ 1 := constantI S_ 1 1#1
  let main_v32 : IVec S_ 1 := (fun x v => Host.reduce IntOp.andi x v reducesTo_S512x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S1 .f32) (main_arg1 : FVec F S1024x128 .f32) (main_arg2 : FVec F S128x512 .f32) (main_arg3 : FVec F S512 .f32) (main_arg4 : FVec F S512x512 .f32) (main_arg5 : FVec F S512 .f32) (main_arg6 : FVec F S512x128 .f32) (main_arg7 : FVec F S128 .f32) (main_arg8 : FVec F S128x512 .f32) (main_arg9 : FVec F S512 .f32) (main_arg10 : FVec F S512x2 .f32) (main_arg11 : FVec F S2 .f32) : IVec S_ 1 :=
  let main_v0 : FVec F S1 .f32 := Host.absf main_arg0
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S128x512 .f32 := Host.absf main_arg2
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_v13 main_v16
-- ==== Kernel.lean ====
abbrev S1 : Shape := ⟨1, ![1]⟩
abbrev S1024x128 : Shape := ⟨2, ![1024, 128]⟩
abbrev S128x512 : Shape := ⟨2, ![128, 512]⟩
abbrev S512 : Shape := ⟨1, ![512]⟩
abbrev S512x512 : Shape := ⟨2, ![512, 512]⟩
abbrev S512x128 : Shape := ⟨2, ![512, 128]⟩
abbrev S128 : Shape := ⟨1, ![128]⟩
abbrev S512x2 : Shape := ⟨2, ![512, 2]⟩
abbrev S2 : Shape := ⟨1, ![2]⟩
abbrev S256x128 : Shape := ⟨2, ![256, 128]⟩
abbrev S256x512 : Shape := ⟨2, ![256, 512]⟩
abbrev S1x512 : Shape := ⟨2, ![1, 512]⟩
abbrev S1x128 : Shape := ⟨2, ![1, 128]⟩
abbrev S512x1 : Shape := ⟨2, ![512, 1]⟩
abbrev S1x1 : Shape := ⟨2, ![1, 1]⟩
abbrev S2x1024x1024 : Shape := ⟨3, ![2, 1024, 1024]⟩
abbrev S2x8x1024 : Shape := ⟨3, ![2, 8, 1024]⟩
abbrev S1024x1 : Shape := ⟨2, ![1024, 1]⟩
abbrev S1024x512 : Shape := ⟨2, ![1024, 512]⟩
abbrev S1024 : Shape := ⟨1, ![1024]⟩
abbrev S1024x2 : Shape := ⟨2, ![1024, 2]⟩
abbrev S2x1024 : Shape := ⟨2, ![2, 1024]⟩
abbrev S2x1x1024 : Shape := ⟨3, ![2, 1, 1024]⟩
abbrev S1024x1024x2 : Shape := ⟨3, ![1024, 1024, 2]⟩

abbrev nBuf : Space → Nat
  | .hbm => 25
  | .vmem => 17
  | .smem => 0
  | _ => 0

abbrev bufTy : (tb : Table) → Fin (tcTables nBuf tb) → BufTy
  | .hbm, ⟨0, _⟩ => ⟨S1, .f32⟩
  | .hbm, ⟨1, _⟩ => ⟨S1024x128, .f32⟩
  | .hbm, ⟨2, _⟩ => ⟨S128x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x128, .f32⟩
  | .hbm, ⟨7, _⟩ => ⟨S128, .f32⟩
  | .hbm, ⟨8, _⟩ => ⟨S128x512, .f32⟩
  | .hbm, ⟨9, _⟩ => ⟨S512, .f32⟩
  | .hbm, ⟨10, _⟩ => ⟨S512x2, .f32⟩
  | .hbm, ⟨11, _⟩ => ⟨S2, .f32⟩
  | .hbm, ⟨12, _⟩ => ⟨S1024x128, .f32⟩
  | .hbm, ⟨13, _⟩ => ⟨S512x1, .f32⟩
  | .hbm, ⟨14, _⟩ => ⟨S512, .f32⟩
  | .hbm, ⟨15, _⟩ => ⟨S512x1, .f32⟩
  | .hbm, ⟨16, _⟩ => ⟨S512, .f32⟩
  | .hbm, ⟨17, _⟩ => ⟨S512, .f32⟩
  | .hbm, ⟨18, _⟩ => ⟨S1x512, .f32⟩
  | .hbm, ⟨19, _⟩ => ⟨S1, .f32⟩
  | .hbm, ⟨20, _⟩ => ⟨S1, .f32⟩
  | .hbm, ⟨21, _⟩ => ⟨S1, .f32⟩
  | .hbm, ⟨22, _⟩ => ⟨S1x1, .f32⟩
  | .hbm, ⟨23, _⟩ => ⟨S2x1024x1024, .f32⟩
  | .hbm, ⟨24, _⟩ => ⟨S1024x1024x2, .f32⟩
  | .local _ .vmem, ⟨0, _⟩ => ⟨S256x128, .f32⟩
  | .local _ .vmem, ⟨1, _⟩ => ⟨S256x128, .f32⟩
  | .local _ .vmem, ⟨2, _⟩ => ⟨S128x512, .f32⟩
  | .local _ .vmem, ⟨3, _⟩ => ⟨S512, .f32⟩
  | .local _ .vmem, ⟨4, _⟩ => ⟨S512x512, .f32⟩
  | .local _ .vmem, ⟨5, _⟩ => ⟨S512, .f32⟩
  | .local _ .vmem, ⟨6, _⟩ => ⟨S512x128, .f32⟩
  | .local _ .vmem, ⟨7, _⟩ => ⟨S128, .f32⟩
  | .local _ .vmem, ⟨8, _⟩ => ⟨S256x128, .f32⟩
  | .local _ .vmem, ⟨9, _⟩ => ⟨S256x128, .f32⟩
  | .local _ .vmem, ⟨10, _⟩ => ⟨S1024x128, .f32⟩
  | .local _ .vmem, ⟨11, _⟩ => ⟨S128x512, .f32⟩
  | .local _ .vmem, ⟨12, _⟩ => ⟨S512, .f32⟩
  | .local _ .vmem, ⟨13, _⟩ => ⟨S1x512, .f32⟩
  | .local _ .vmem, ⟨14, _⟩ => ⟨S1x1, .f32⟩
  | .local _ .vmem, ⟨15, _⟩ => ⟨S2x8x1024, .f32⟩
  | .local _ .vmem, ⟨16, _⟩ => ⟨S2x8x1024, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![128], ![false]⟩

def k1_off1 (i : grid1.Coords) (c0_i32 : BitVec 32) : Fin 2 → Nat :=
  let arg0 : BitVec 32 := BitVec.ofNat 32 (i 0).val
  let c8_i32 : BitVec 32 := 8#32
  let v0 : BitVec 32 := Scalar.muli arg0 c8_i32
  let v12 : BitVec 32 := Scalar.addi v0 c0_i32
  let v13 : Index := Scalar.indexCast v12
  let c0_8 : Index := 0#32
  ![v13.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 1 → Memref sig .tc .vmem S1024x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2x8x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S256x128_S256x128_0_0 : ∀ a, (![0, 0] : Fin 2 → Nat) a + S256x128.size a ≤ S256x128.size a
  h_S256x128 : 0 < S256x128.numel
  inb_S128x512_S128x512_0_0 : ∀ a, (![0, 0] : Fin 2 → Nat) a + S128x512.size a ≤ S128x512.size a
  h_S128x512 : 0 < S128x512.numel
  bitsLt_bf16_f32 : FTy.bits .bf16 < FTy.bits .f32
  inb_S512_S512_0 : ∀ a, (![0] : Fin 1 → Nat) a + S512.size a ≤ S512.size a
  h_S512 : 0 < S512.numel
  shapeCasts_S512_S1x512 : S512.ShapeCasts S1x512
  broadcasts_S1x512_S256x512 : S1x512.Broadcasts S256x512
  inb_S512x512_S512x512_0_0 : ∀ a, (![0, 0] : Fin 2 → Nat) a + S512x512.size a ≤ S512x512.size a
  h_S512x512 : 0 < S512x512.numel
  inb_S512x128_S512x128_0_0 : ∀ a, (![0, 0] : Fin 2 → Nat) a + S512x128.size a ≤ S512x128.size a
  h_S512x128 : 0 < S512x128.numel
  inb_S128_S128_0 : ∀ a, (![0] : Fin 1 → Nat) a + S128.size a ≤ S128.size a
  h_S128 : 0 < S128.numel
  shapeCasts_S128_S1x128 : S128.ShapeCasts S1x128
  broadcasts_S1x128_S256x128 : S1x128.Broadcasts S256x128
  slices_S512x2_S512x1_0_0 : S512x2.Slices ![0, 0] S512x1
  shapeCasts_S512x1_S512 : S512x1.ShapeCasts S512
  slices_S512x2_S512x1_0_1 : S512x2.Slices ![0, 1] S512x1
  slices_S2_S1_0 : S2.Slices ![0] S1
  slices_S2_S1_1 : S2.Slices ![1] S1
  shapeCasts_S1_S1x1 : S1.ShapeCasts S1x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  iota_S1024x1_d0_w32 : S1024x1.Iotas .tc 32 [0]
  h_S1x128 : 0 < S1x128.numel
  shapeCasts_S1x128_S128 : S1x128.ShapeCasts S128
  broadcasts_S1x128_S1024x128 : S1x128.Broadcasts S1024x128
  broadcasts_S1x512_S1024x512 : S1x512.Broadcasts S1024x512
  reduces_S1024x512_S1024 : S1024x512.Reduces [1] S1024
  shapeCasts_S1024_S1024x1 : S1024.ShapeCasts S1024x1
  broadcasts_S1x1_S1024x1 : S1x1.Broadcasts S1024x1
  concatenates_S1024x1_S1024x1_S1024x2_d1 : Shape.Concatenates [S1024x1, S1024x1] S1024x2 1
  transposes_S1024x2_p1_0_S2x1024 : S1024x2.Transposes [1, 0] S2x1024
  inb_S2x8x1024_S2x1x1024_0_0_0 : ∀ a, (![0, 0, 0] : Fin 3 → Nat) a + S2x1x1024.size a ≤ S2x8x1024.size a
  h_S2x1x1024 : 0 < S2x1x1024.numel
  shapeCasts_S2x1x1024_S2x1024 : S2x1x1024.ShapeCasts S2x1024
  shapeCasts_S2x1024_S2x1x1024 : S2x1024.ShapeCasts S2x1x1024
  inb_S2x8x1024_S2x1x1024_0_1_0 : ∀ a, (![0, 1, 0] : Fin 3 → Nat) a + S2x1x1024.size a ≤ S2x8x1024.size a
  inb_S2x8x1024_S2x1x1024_0_2_0 : ∀ a, (![0, 2, 0] : Fin 3 → Nat) a + S2x1x1024.size a ≤ S2x8x1024.size a
  inb_S2x8x1024_S2x1x1024_0_3_0 : ∀ a, (![0, 3, 0] : Fin 3 → Nat) a + S2x1x1024.size a ≤ S2x8x1024.size a
  inb_S2x8x1024_S2x1x1024_0_4_0 : ∀ a, (![0, 4, 0] : Fin 3 → Nat) a + S2x1x1024.size a ≤ S2x8x1024.size a
  inb_S2x8x1024_S2x1x1024_0_5_0 : ∀ a, (![0, 5, 0] : Fin 3 → Nat) a + S2x1x1024.size a ≤ S2x8x1024.size a
  inb_S2x8x1024_S2x1x1024_0_6_0 : ∀ a, (![0, 6, 0] : Fin 3 → Nat) a + S2x1x1024.size a ≤ S2x8x1024.size a
  inb_S2x8x1024_S2x1x1024_0_7_0 : ∀ a, (![0, 7, 0] : Fin 3 → Nat) a + S2x1x1024.size a ≤ S2x8x1024.size a
  transposes_S2x1024x1024_S1024x1024x2_1_2_0 : S2x1024x1024.Transposes [1, 2, 0] S1024x1024x2
  dot_S256x128_S128x512_S256x512_1_0_0_1_n_n_wf : DotDims.WF S256x128 S128x512 S256x512 [1] [0] [0] [1] [] []
  dot_S256x512_S512x512_S256x512_1_0_0_1_n_n_wf : DotDims.WF S256x512 S512x512 S256x512 [1] [0] [0] [1] [] []
  dot_S256x512_S512x128_S256x128_1_0_0_1_n_n_wf : DotDims.WF S256x512 S512x128 S256x128 [1] [0] [0] [1] [] []
  dot_S1024x128_S128x512_S1024x512_1_0_0_1_n_n_wf : DotDims.WF S1024x128 S128x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S1024x128.size a
  hwx0_0 : ∀ i : grid0.Coords, EltTy.bits .f32 = 32 ∨ (Rect.block (s := S1024x128) S256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S512x128.size a
  hwx0_5 : ∀ i : grid0.Coords, EltTy.bits .f32 = 32 ∨ (Rect.block (s := S512x128) S512x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S1024x128.size a
  hwx0_7 : ∀ i : grid0.Coords, EltTy.bits .f32 = 32 ∨ (Rect.block (s := S1024x128) S256x128.size (cc0_transform_7 i) (hinb0_7 i)).WholeWords (EltTy.packing .f32)
  hrank1 : 0 < grid1.rank
  k1_off1_inb : ∀ i : grid1.Coords, ∀ (r : Fin 8), ∀ a, (k1_off1 i (BitVec.ofNat 32 r.val)) a + S1x128.size a ≤ S1024x128.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S1024x128.size a
  hwx1_0 : ∀ i : grid1.Coords, EltTy.bits .f32 = 32 ∨ (Rect.block (s := S1024x128) S1024x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x512.size a ≤ S128x512.size a
  hwx1_1 : ∀ i : grid1.Coords, EltTy.bits .f32 = 32 ∨ (Rect.block (s := S128x512) S128x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2x8x1024.size a ≤ S2x1024x1024.size a
  hwx1_5 : ∀ i : grid1.Coords, EltTy.bits .f32 = 32 ∨ (Rect.block (s := S2x1024x1024) S2x8x1024.size (cc1_transform_5 i) (hinb1_5 i)).WholeWords (EltTy.packing .f32)

variable [Facts₀]

def dot_S256x128_S128x512_S256x512_1_0_0_1_n_n : DotDims S256x128 S128x512 S256x512 where
  lhsContracting := [1]
  rhsContracting := [0]
  lhsNonContracting := [0]
  rhsNonContracting := [1]
  lhsBatch := []
  rhsBatch := []
  wf := dot_S256x128_S128x512_S256x512_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x512_S512x128_S256x128_1_0_0_1_n_n : DotDims S256x512 S512x128 S256x128 where
  lhsContracting := [1]
  rhsContracting := [0]
  lhsNonContracting := [0]
  rhsNonContracting := [1]
  lhsBatch := []
  rhsBatch := []
  wf := dot_S256x512_S512x128_S256x128_1_0_0_1_n_n_wf
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf

abbrev win0_0 : Pipeline.Window sig grid0 :=
  Pipeline.Window.ofSpec (Memref.whole main_arg1) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S512x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S256x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v0) S1024x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S128x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S2x8x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S1 : Shape := ⟨1, ![1]⟩
abbrev S1024x128 : Shape := ⟨2, ![1024, 128]⟩
abbrev S128x512 : Shape := ⟨2, ![128, 512]⟩
abbrev S512 : Shape := ⟨1, ![512]⟩
abbrev S512x512 : Shape := ⟨2, ![512, 512]⟩
abbrev S512x128 : Shape := ⟨2, ![512, 128]⟩
abbrev S128 : Shape := ⟨1, ![128]⟩
abbrev S512x2 : Shape := ⟨2, ![512, 2]⟩
abbrev S2 : Shape := ⟨1, ![2]⟩
abbrev S_ : Shape := ⟨0, ![]⟩
abbrev S1024x1024 : Shape := ⟨2, ![1024, 1024]⟩
abbrev S1048576 : Shape := ⟨1, ![1048576]⟩
abbrev S523776 : Shape := ⟨1, ![523776]⟩
abbrev S1048576x1 : Shape := ⟨2, ![1048576, 1]⟩
abbrev S1024x512 : Shape := ⟨2, ![1024, 512]⟩
abbrev S1x512 : Shape := ⟨2, ![1, 512]⟩
abbrev S1x128 : Shape := ⟨2, ![1, 128]⟩
abbrev S523776x1 : Shape := ⟨2, ![523776, 1]⟩
abbrev S523776x128 : Shape := ⟨2, ![523776, 128]⟩
abbrev S523776x512 : Shape := ⟨2, ![523776, 512]⟩
abbrev S523776x2 : Shape := ⟨2, ![523776, 2]⟩
abbrev S1x2 : Shape := ⟨2, ![1, 2]⟩
abbrev S1024x1024x2 : Shape := ⟨3, ![1024, 1024, 2]⟩

abbrev nBuf : Space → Nat
  | .hbm => 238
  | .vmem => 0
  | .smem => 0
  | _ => 0

abbrev hbmTy0_0 (i : Nat) : BufTy := match i % 128 with
  | 0 => ⟨S1, .f32⟩
  | 1 => ⟨S1024x128, .f32⟩
  | 2 => ⟨S128x512, .f32⟩
  | 3 => ⟨S512, .f32⟩
  | 4 => ⟨S512x512, .f32⟩
  | 5 => ⟨S512, .f32⟩
  | 6 => ⟨S512x128, .f32⟩
  | 7 => ⟨S128, .f32⟩
  | 8 => ⟨S128x512, .f32⟩
  | 9 => ⟨S512, .f32⟩
  | 10 => ⟨S512x2, .f32⟩
  | 11 => ⟨S2, .f32⟩
  | 12 => ⟨S_, .f32⟩
  | 13 => ⟨S1024x1024, .f32⟩
  | 14 => ⟨S1024x1024, .i32⟩
  | 15 => ⟨S_, .i32⟩
  | 16 => ⟨S1024x1024, .i32⟩
  | 17 => ⟨S1024x1024, .i32⟩
  | 18 => ⟨S1024x1024, .i32⟩
  | 19 => ⟨S1024x1024, .i1⟩
  | 20 => ⟨S_, .f32⟩
  | 21 => ⟨S1024x1024, .f32⟩
  | 22 => ⟨S1024x1024, .f32⟩
  | 23 => ⟨S_, .f32⟩
  | 24 => ⟨S1024x1024, .f32⟩
  | 25 => ⟨S1024x1024, .i1⟩
  | 26 => ⟨S1048576, .i1⟩
  | 27 => ⟨S1048576, .i32⟩
  | 28 => ⟨S_, .i32⟩
  | 29 => ⟨S_, .i32⟩
  | 30 => ⟨S1048576, .i32⟩
  | 31 => ⟨S_, .i32⟩
  | 32 => ⟨S523776, .i32⟩
  | 33 => ⟨S_, .i32⟩
  | 34 => ⟨S_, .i32⟩
  | 35 => ⟨S1048576, .i32⟩
  | 36 => ⟨S1048576, .i32⟩
  | 37 => ⟨S_, .i32⟩
  | 38 => ⟨S1048576, .i32⟩
  | 39 => ⟨S1048576, .i1⟩
  | 40 => ⟨S_, .i32⟩
  | 41 => ⟨S1048576, .i32⟩
  | 42 => ⟨S1048576, .i32⟩
  | 43 => ⟨S1048576, .i32⟩
  | 44 => ⟨S1048576x1, .i32⟩
  | 45 => ⟨S_, .i32⟩
  | 46 => ⟨S1048576, .i32⟩
  | 47 => ⟨S523776, .i32⟩
  | 48 => ⟨S_, .i32⟩
  | 49 => ⟨S_, .i32⟩
  | 50 => ⟨S523776, .i32⟩
  | 51 => ⟨S_, .i32⟩
  | 52 => ⟨S523776, .i32⟩
  | 53 => ⟨S523776, .i32⟩
  | 54 => ⟨S523776, .i32⟩
  | 55 => ⟨S_, .i32⟩
  | 56 => ⟨S523776, .i32⟩
  | 57 => ⟨S523776, .i1⟩
  | 58 => ⟨S523776, .i32⟩
  | 59 => ⟨S523776, .i32⟩
  | 60 => ⟨S_, .i32⟩
  | 61 => ⟨S523776, .i32⟩
  | 62 => ⟨S523776, .i1⟩
  | 63 => ⟨S523776, .i1⟩
  | 64 => ⟨S_, .i32⟩
  | 65 => ⟨S523776, .i32⟩
  | 66 => ⟨S523776, .i32⟩
  | 67 => ⟨S523776, .i32⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S523776, .i32⟩
  | 75 => ⟨S523776, .i32⟩
  | 76 => ⟨S_, .i32⟩
  | 77 => ⟨S523776, .i32⟩
  | 78 => ⟨S523776, .i1⟩
  | 79 => ⟨S_, .i32⟩
  | 80 => ⟨S523776, .i32⟩
  | 81 => ⟨S523776, .i1⟩
  | 82 => ⟨S_, .i32⟩
  | 83 => ⟨S_, .i1⟩
  | 84 => ⟨S523776, .i1⟩
  | 85 => ⟨S523776, .i1⟩
  | 86 => ⟨S523776, .i1⟩
  | 87 => ⟨S523776, .i32⟩
  | 88 => ⟨S523776, .i32⟩
  | 89 => ⟨S523776, .i32⟩
  | 90 => ⟨S_, .i32⟩
  | 91 => ⟨S523776, .i32⟩
  | 92 => ⟨S523776, .i32⟩
  | 93 => ⟨S523776, .i32⟩
  | 94 => ⟨S_, .i32⟩
  | 95 => ⟨S523776, .i32⟩
  | 96 => ⟨S523776, .i1⟩
  | 97 => ⟨S523776, .i32⟩
  | 98 => ⟨S523776, .i32⟩
  | 99 => ⟨S_, .i32⟩
  | 100 => ⟨S523776, .i32⟩
  | 101 => ⟨S523776, .i1⟩
  | 102 => ⟨S523776, .i1⟩
  | 103 => ⟨S_, .i32⟩
  | 104 => ⟨S523776, .i32⟩
  | 105 => ⟨S523776, .i32⟩
  | 106 => ⟨S523776, .i32⟩
  | 107 => ⟨S_, .i32⟩
  | 108 => ⟨S_, .i32⟩
  | 109 => ⟨S_, .i32⟩
  | 110 => ⟨S_, .i1⟩
  | 111 => ⟨S_, .i32⟩
  | 112 => ⟨S_, .i32⟩
  | 113 => ⟨S523776, .i32⟩
  | 114 => ⟨S523776, .i32⟩
  | 115 => ⟨S_, .i32⟩
  | 116 => ⟨S523776, .i32⟩
  | 117 => ⟨S523776, .i1⟩
  | 118 => ⟨S_, .i32⟩
  | 119 => ⟨S523776, .i32⟩
  | 120 => ⟨S523776, .i1⟩
  | 121 => ⟨S_, .i32⟩
  | 122 => ⟨S_, .i1⟩
  | 123 => ⟨S523776, .i1⟩
  | 124 => ⟨S523776, .i1⟩
  | 125 => ⟨S523776, .i1⟩
  | 126 => ⟨S523776, .i32⟩
  | 127 => ⟨S523776, .i32⟩
  | _ => ⟨S1, .f32⟩

abbrev hbmTy0_1 (i : Nat) : BufTy := match i % 128 with
  | 0 => ⟨S523776, .i32⟩
  | 1 => ⟨S1024x512, .f32⟩
  | 2 => ⟨S1x512, .f32⟩
  | 3 => ⟨S1024x512, .f32⟩
  | 4 => ⟨S1024x512, .f32⟩
  | 5 => ⟨S_, .f32⟩
  | 6 => ⟨S1024x512, .f32⟩
  | 7 => ⟨S1024x512, .i1⟩
  | 8 => ⟨S_, .f32⟩
  | 9 => ⟨S1024x512, .f32⟩
  | 10 => ⟨S1024x512, .f32⟩
  | 11 => ⟨S1024x512, .f32⟩
  | 12 => ⟨S1024x512, .f32⟩
  | 13 => ⟨S1x512, .f32⟩
  | 14 => ⟨S1024x512, .f32⟩
  | 15 => ⟨S1024x512, .f32⟩
  | 16 => ⟨S_, .f32⟩
  | 17 => ⟨S1024x512, .f32⟩
  | 18 => ⟨S1024x512, .i1⟩
  | 19 => ⟨S_, .f32⟩
  | 20 => ⟨S1024x512, .f32⟩
  | 21 => ⟨S1024x512, .f32⟩
  | 22 => ⟨S1024x512, .f32⟩
  | 23 => ⟨S1024x128, .f32⟩
  | 24 => ⟨S1x128, .f32⟩
  | 25 => ⟨S1024x128, .f32⟩
  | 26 => ⟨S1024x128, .f32⟩
  | 27 => ⟨S1024x128, .f32⟩
  | 28 => ⟨S_, .i32⟩
  | 29 => ⟨S523776, .i32⟩
  | 30 => ⟨S523776, .i1⟩
  | 31 => ⟨S_, .i32⟩
  | 32 => ⟨S523776, .i32⟩
  | 33 => ⟨S523776, .i32⟩
  | 34 => ⟨S523776, .i32⟩
  | 35 => ⟨S523776x1, .i32⟩
  | 36 => ⟨S523776x128, .f32⟩
  | 37 => ⟨S_, .i32⟩
  | 38 => ⟨S523776, .i32⟩
  | 39 => ⟨S523776, .i1⟩
  | 40 => ⟨S_, .i32⟩
  | 41 => ⟨S523776, .i32⟩
  | 42 => ⟨S523776, .i32⟩
  | 43 => ⟨S523776, .i32⟩
  | 44 => ⟨S523776x1, .i32⟩
  | 45 => ⟨S523776x128, .f32⟩
  | 46 => ⟨S523776x128, .f32⟩
  | 47 => ⟨S523776x512, .f32⟩
  | 48 => ⟨S1x512, .f32⟩
  | 49 => ⟨S523776x512, .f32⟩
  | 50 => ⟨S523776x512, .f32⟩
  | 51 => ⟨S_, .f32⟩
  | 52 => ⟨S523776x512, .f32⟩
  | 53 => ⟨S523776x512, .f32⟩
  | 54 => ⟨S523776x2, .f32⟩
  | 55 => ⟨S1x2, .f32⟩
  | 56 => ⟨S523776x2, .f32⟩
  | 57 => ⟨S523776x2, .f32⟩
  | 58 => ⟨S_, .f32⟩
  | 59 => ⟨S523776, .f32⟩
  | 60 => ⟨S_, .f32⟩
  | 61 => ⟨S523776, .f32⟩
  | 62 => ⟨S523776, .f32⟩
  | 63 => ⟨S523776x1, .f32⟩
  | 64 => ⟨S523776x2, .f32⟩
  | 65 => ⟨S523776x2, .f32⟩
  | 66 => ⟨S523776x2, .f32⟩
  | 67 => ⟨S_, .f32⟩
  | 68 => ⟨S523776, .f32⟩
  | 69 => ⟨S523776x1, .f32⟩
  | 70 => ⟨S523776x2, .f32⟩
  | 71 => ⟨S523776x2, .f32⟩
  | 72 => ⟨S_, .f32⟩
  | 73 => ⟨S1024x1024x2, .f32⟩
  | 74 => ⟨S_, .i32⟩
  | 75 => ⟨S523776, .i32⟩
  | 76 => ⟨S523776, .i1⟩
  | 77 => ⟨S_, .i32⟩
  | 78 => ⟨S523776, .i32⟩
  | 79 => ⟨S523776, .i32⟩
  | 80 => ⟨S523776, .i32⟩
  | 81 => ⟨S_, .i32⟩
  | 82 => ⟨S523776, .i32⟩
  | 83 => ⟨S523776, .i1⟩
  | 84 => ⟨S_, .i32⟩
  | 85 => ⟨S523776, .i32⟩
  | 86 => ⟨S523776, .i32⟩
  | 87 => ⟨S523776, .i32⟩
  | 88 => ⟨S523776x1, .i32⟩
  | 89 => ⟨S523776x1, .i32⟩
  | 90 => ⟨S523776x2, .i32⟩
  | 91 => ⟨S1024x1024x2, .f32⟩
  | 92 => ⟨S_, .i32⟩
  | 93 => ⟨S523776, .i32⟩
  | 94 => ⟨S523776, .i1⟩
  | 95 => ⟨S_, .i32⟩
  | 96 => ⟨S523776, .i32⟩
  | 97 => ⟨S523776, .i32⟩
  | 98 => ⟨S523776, .i32⟩
  | 99 => ⟨S_, .i32⟩
  | 100 => ⟨S523776, .i32⟩
  | 101 => ⟨S523776, .i1⟩
  | 102 => ⟨S_, .i32⟩
  | 103 => ⟨S523776, .i32⟩
  | 104 => ⟨S523776, .i32⟩
  | 105 => ⟨S523776, .i32⟩
  | 106 => ⟨S523776x1, .i32⟩
  | 107 => ⟨S523776x1, .i32⟩
  | 108 => ⟨S523776x2, .i32⟩
  | 109 => ⟨S1024x1024x2, .f32⟩
  | _ => ⟨S1, .f32⟩

abbrev hbmTy (i : Nat) : BufTy := match i / 128 with
  | 0 => hbmTy0_0 i
  | 1 => hbmTy0_1 i
  | _ => ⟨S1, .f32⟩

abbrev bufTy : (tb : Table) → Fin (tcTables nBuf tb) → BufTy
  | .hbm, ⟨i, _⟩ => hbmTy i
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_cst : Ref sig .tc := ⟨.hbm, 20, rfl⟩
abbrev main_call0_v5 : Ref sig .tc := ⟨.hbm, 21, rfl⟩
abbrev main_v1 : Ref sig .tc := ⟨.hbm, 22, rfl⟩
abbrev main_cst_0 : Ref sig .tc := ⟨.hbm, 23, rfl⟩
abbrev main_v2 : Ref sig .tc := ⟨.hbm, 24, rfl⟩
abbrev main_v3 : Ref sig .tc := ⟨.hbm, 25, rfl⟩
abbrev main_call1_v0 : Ref sig .tc := ⟨.hbm, 26, rfl⟩
abbrev main_call1_v1 : Ref sig .tc := ⟨.hbm, 27, rfl⟩
abbrev main_call1_call0_c : Ref sig .tc := ⟨.hbm, 28, rfl⟩
abbrev main_call1_call0_v0 : Ref sig .tc := ⟨.hbm, 29, rfl⟩
abbrev main_v4 : Ref sig .tc := ⟨.hbm, 30, rfl⟩
abbrev main_c : Ref sig .tc := ⟨.hbm, 31, rfl⟩
abbrev main_v5 : Ref sig .tc := ⟨.hbm, 32, rfl⟩
abbrev main_c_1 : Ref sig .tc := ⟨.hbm, 33, rfl⟩
abbrev main_call2_v0 : Ref sig .tc := ⟨.hbm, 34, rfl⟩
abbrev main_call2_v1 : Ref sig .tc := ⟨.hbm, 35, rfl⟩
abbrev main_v6 : Ref sig .tc := ⟨.hbm, 36, rfl⟩
abbrev main_c_2 : Ref sig .tc := ⟨.hbm, 37, rfl⟩
abbrev main_v7 : Ref sig .tc := ⟨.hbm, 38, rfl⟩
abbrev main_v8 : Ref sig .tc := ⟨.hbm, 39, rfl⟩
abbrev main_c_3 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_c_4 : Ref sig .tc := ⟨.hbm, 45, rfl⟩
abbrev main_v13 : Ref sig .tc := ⟨.hbm, 46, rfl⟩
abbrev main_v14 : Ref sig .tc := ⟨.hbm, 47, rfl⟩
abbrev main_call3_call0_c : Ref sig .tc := ⟨.hbm, 48, rfl⟩
abbrev main_call3_call0_v0 : Ref sig .tc := ⟨.hbm, 49, rfl⟩
abbrev main_v15 : Ref sig .tc := ⟨.hbm, 50, rfl⟩
abbrev main_c_5 : Ref sig .tc := ⟨.hbm, 51, rfl⟩
abbrev main_call4_v0 : Ref sig .tc := ⟨.hbm, 52, rfl⟩
abbrev main_call4_v1 : Ref sig .tc := ⟨.hbm, 53, rfl⟩
abbrev main_call4_v2 : Ref sig .tc := ⟨.hbm, 54, rfl⟩
abbrev main_call4_v3 : Ref sig .tc := ⟨.hbm, 55, rfl⟩
abbrev main_call4_v4 : Ref sig .tc := ⟨.hbm, 56, rfl⟩
abbrev main_call4_v5 : Ref sig .tc := ⟨.hbm, 57, rfl⟩
abbrev main_call4_v6 : Ref sig .tc := ⟨.hbm, 58, rfl⟩
abbrev main_call4_v7 : Ref sig .tc := ⟨.hbm, 59, rfl⟩
abbrev main_call4_c : Ref sig .tc := ⟨.hbm, 60, rfl⟩
abbrev main_call4_v8 : Ref sig .tc := ⟨.hbm, 61, rfl⟩
abbrev main_call4_v9 : Ref sig .tc := ⟨.hbm, 62, rfl⟩
abbrev main_call4_v10 : Ref sig .tc := ⟨.hbm, 63, rfl⟩
abbrev main_call4_c_0 : Ref sig .tc := ⟨.hbm, 64, rfl⟩
abbrev main_call4_v11 : Ref sig .tc := ⟨.hbm, 65, rfl⟩
abbrev main_call4_v12 : Ref sig .tc := ⟨.hbm, 66, rfl⟩
abbrev main_v16 : Ref sig .tc := ⟨.hbm, 67, rfl⟩
abbrev main_c_6 : Ref sig .tc := ⟨.hbm, 68, rfl⟩
abbrev main_call5_v0 : Ref sig .tc := ⟨.hbm, 69, rfl⟩
abbrev main_call5_c : Ref sig .tc := ⟨.hbm, 70, rfl⟩
abbrev main_call5_v1 : Ref sig .tc := ⟨.hbm, 71, rfl⟩
abbrev main_call5_c_0 : Ref sig .tc := ⟨.hbm, 72, rfl⟩
abbrev main_call5_v2 : Ref sig .tc := ⟨.hbm, 73, rfl⟩
abbrev main_call5_v3 : Ref sig .tc := ⟨.hbm, 74, rfl⟩
abbrev main_call5_v4 : Ref sig .tc := ⟨.hbm, 75, rfl⟩
abbrev main_call5_c_1 : Ref sig .tc := ⟨.hbm, 76, rfl⟩
abbrev main_call5_v5 : Ref sig .tc := ⟨.hbm, 77, rfl⟩
abbrev main_call5_v6 : Ref sig .tc := ⟨.hbm, 78, rfl⟩
abbrev main_call5_c_2 : Ref sig .tc := ⟨.hbm, 79, rfl⟩
abbrev main_call5_v7 : Ref sig .tc := ⟨.hbm, 80, rfl⟩
abbrev main_call5_v8 : Ref sig .tc := ⟨.hbm, 81, rfl⟩
abbrev main_call5_c_3 : Ref sig .tc := ⟨.hbm, 82, rfl⟩
abbrev main_call5_v9 : Ref sig .tc := ⟨.hbm, 83, rfl⟩
abbrev main_call5_v10 : Ref sig .tc := ⟨.hbm, 84, rfl⟩
abbrev main_call5_v11 : Ref sig .tc := ⟨.hbm, 85, rfl⟩
abbrev main_call5_v12 : Ref sig .tc := ⟨.hbm, 86, rfl⟩
abbrev main_call5_v13 : Ref sig .tc := ⟨.hbm, 87, rfl⟩
abbrev main_call5_v14 : Ref sig .tc := ⟨.hbm, 88, rfl⟩
abbrev main_v17 : Ref sig .tc := ⟨.hbm, 89, rfl⟩
abbrev main_c_7 : Ref sig .tc := ⟨.hbm, 90, rfl⟩
abbrev main_call6_v0 : Ref sig .tc := ⟨.hbm, 91, rfl⟩
abbrev main_call6_v1 : Ref sig .tc := ⟨.hbm, 92, rfl⟩
abbrev main_call6_v2 : Ref sig .tc := ⟨.hbm, 93, rfl⟩
abbrev main_call6_v3 : Ref sig .tc := ⟨.hbm, 94, rfl⟩
abbrev main_call6_v4 : Ref sig .tc := ⟨.hbm, 95, rfl⟩
abbrev main_call6_v5 : Ref sig .tc := ⟨.hbm, 96, rfl⟩
abbrev main_call6_v6 : Ref sig .tc := ⟨.hbm, 97, rfl⟩
abbrev main_call6_v7 : Ref sig .tc := ⟨.hbm, 98, rfl⟩
abbrev main_call6_c : Ref sig .tc := ⟨.hbm, 99, rfl⟩
abbrev main_call6_v8 : Ref sig .tc := ⟨.hbm, 100, rfl⟩
abbrev main_call6_v9 : Ref sig .tc := ⟨.hbm, 101, rfl⟩
abbrev main_call6_v10 : Ref sig .tc := ⟨.hbm, 102, rfl⟩
abbrev main_call6_c_0 : Ref sig .tc := ⟨.hbm, 103, rfl⟩
abbrev main_call6_v11 : Ref sig .tc := ⟨.hbm, 104, rfl⟩
abbrev main_call6_v12 : Ref sig .tc := ⟨.hbm, 105, rfl⟩
abbrev main_v18 : Ref sig .tc := ⟨.hbm, 106, rfl⟩
abbrev main_c_8 : Ref sig .tc := ⟨.hbm, 107, rfl⟩
abbrev main_call7_v0 : Ref sig .tc := ⟨.hbm, 108, rfl⟩
abbrev main_call7_c : Ref sig .tc := ⟨.hbm, 109, rfl⟩
abbrev main_call7_v1 : Ref sig .tc := ⟨.hbm, 110, rfl⟩
abbrev main_call7_c_0 : Ref sig .tc := ⟨.hbm, 111, rfl⟩
abbrev main_call7_v2 : Ref sig .tc := ⟨.hbm, 112, rfl⟩
abbrev main_call7_v3 : Ref sig .tc := ⟨.hbm, 113, rfl⟩
abbrev main_call7_v4 : Ref sig .tc := ⟨.hbm, 114, rfl⟩
abbrev main_call7_c_1 : Ref sig .tc := ⟨.hbm, 115, rfl⟩
abbrev main_call7_v5 : Ref sig .tc := ⟨.hbm, 116, rfl⟩
abbrev main_call7_v6 : Ref sig .tc := ⟨.hbm, 117, rfl⟩
abbrev main_call7_c_2 : Ref sig .tc := ⟨.hbm, 118, rfl⟩
abbrev main_call7_v7 : Ref sig .tc := ⟨.hbm, 119, rfl⟩
abbrev main_call7_v8 : Ref sig .tc := ⟨.hbm, 120, rfl⟩
abbrev main_call7_c_3 : Ref sig .tc := ⟨.hbm, 121, rfl⟩
abbrev main_call7_v9 : Ref sig .tc := ⟨.hbm, 122, rfl⟩
abbrev main_call7_v10 : Ref sig .tc := ⟨.hbm, 123, rfl⟩
abbrev main_call7_v11 : Ref sig .tc := ⟨.hbm, 124, rfl⟩
abbrev main_call7_v12 : Ref sig .tc := ⟨.hbm, 125, rfl⟩
abbrev main_call7_v13 : Ref sig .tc := ⟨.hbm, 126, rfl⟩
abbrev main_call7_v14 : Ref sig .tc := ⟨.hbm, 127, rfl⟩
abbrev main_v19 : Ref sig .tc := ⟨.hbm, 128, rfl⟩
abbrev main_v20 : Ref sig .tc := ⟨.hbm, 129, rfl⟩
abbrev main_v21 : Ref sig .tc := ⟨.hbm, 130, rfl⟩
abbrev main_v22 : Ref sig .tc := ⟨.hbm, 131, rfl⟩
abbrev main_v23 : Ref sig .tc := ⟨.hbm, 132, rfl⟩
abbrev main_call8_cst : Ref sig .tc := ⟨.hbm, 133, rfl⟩
abbrev main_call8_v0 : Ref sig .tc := ⟨.hbm, 134, rfl⟩
abbrev main_call8_v1 : Ref sig .tc := ⟨.hbm, 135, rfl⟩
abbrev main_call8_cst_0 : Ref sig .tc := ⟨.hbm, 136, rfl⟩
abbrev main_call8_v2 : Ref sig .tc := ⟨.hbm, 137, rfl⟩
abbrev main_call8_v3 : Ref sig .tc := ⟨.hbm, 138, rfl⟩
abbrev main_v24 : Ref sig .tc := ⟨.hbm, 139, rfl⟩
abbrev main_v25 : Ref sig .tc := ⟨.hbm, 140, rfl⟩
abbrev main_v26 : Ref sig .tc := ⟨.hbm, 141, rfl⟩
abbrev main_v27 : Ref sig .tc := ⟨.hbm, 142, rfl⟩
abbrev main_v28 : Ref sig .tc := ⟨.hbm, 143, rfl⟩
abbrev main_call9_cst : Ref sig .tc := ⟨.hbm, 144, rfl⟩
abbrev main_call9_v0 : Ref sig .tc := ⟨.hbm, 145, rfl⟩
abbrev main_call9_v1 : Ref sig .tc := ⟨.hbm, 146, rfl⟩
abbrev main_call9_cst_0 : Ref sig .tc := ⟨.hbm, 147, rfl⟩
abbrev main_call9_v2 : Ref sig .tc := ⟨.hbm, 148, rfl⟩
abbrev main_call9_v3 : Ref sig .tc := ⟨.hbm, 149, rfl⟩
abbrev main_v29 : Ref sig .tc := ⟨.hbm, 150, rfl⟩
abbrev main_v30 : Ref sig .tc := ⟨.hbm, 151, rfl⟩
abbrev main_v31 : Ref sig .tc := ⟨.hbm, 152, rfl⟩
abbrev main_v32 : Ref sig .tc := ⟨.hbm, 153, rfl⟩
abbrev main_v33 : Ref sig .tc := ⟨.hbm, 154, rfl⟩
abbrev main_v34 : Ref sig .tc := ⟨.hbm, 155, rfl⟩
abbrev main_c_9 : Ref sig .tc := ⟨.hbm, 156, rfl⟩
abbrev main_v35 : Ref sig .tc := ⟨.hbm, 157, rfl⟩
abbrev main_v36 : Ref sig .tc := ⟨.hbm, 158, rfl⟩
abbrev main_c_10 : Ref sig .tc := ⟨.hbm, 159, rfl⟩
abbrev main_v37 : Ref sig .tc := ⟨.hbm, 160, rfl⟩
abbrev main_v38 : Ref sig .tc := ⟨.hbm, 161, rfl⟩
abbrev main_v39 : Ref sig .tc := ⟨.hbm, 162, rfl⟩
abbrev main_v40 : Ref sig .tc := ⟨.hbm, 163, rfl⟩
abbrev main_v41 : Ref sig .tc := ⟨.hbm, 164, rfl⟩
abbrev main_c_11 : Ref sig .tc := ⟨.hbm, 165, rfl⟩
abbrev main_v42 : Ref sig .tc := ⟨.hbm, 166, rfl⟩
abbrev main_v43 : Ref sig .tc := ⟨.hbm, 167, rfl⟩
abbrev main_c_12 : Ref sig .tc := ⟨.hbm, 168, rfl⟩
abbrev main_v44 : Ref sig .tc := ⟨.hbm, 169, rfl⟩
abbrev main_v45 : Ref sig .tc := ⟨.hbm, 170, rfl⟩
abbrev main_v46 : Ref sig .tc := ⟨.hbm, 171, rfl⟩
abbrev main_v47 : Ref sig .tc := ⟨.hbm, 172, rfl⟩
abbrev main_v48 : Ref sig .tc := ⟨.hbm, 173, rfl⟩
abbrev main_v49 : Ref sig .tc := ⟨.hbm, 174, rfl⟩
abbrev main_v50 : Ref sig .tc := ⟨.hbm, 175, rfl⟩
abbrev main_v51 : Ref sig .tc := ⟨.hbm, 176, rfl⟩
abbrev main_v52 : Ref sig .tc := ⟨.hbm, 177, rfl⟩
abbrev main_v53 : Ref sig .tc := ⟨.hbm, 178, rfl⟩
abbrev main_call10_cst : Ref sig .tc := ⟨.hbm, 179, rfl⟩
abbrev main_call10_v0 : Ref sig .tc := ⟨.hbm, 180, rfl⟩
abbrev main_v54 : Ref sig .tc := ⟨.hbm, 181, rfl⟩
abbrev main_v55 : Ref sig .tc := ⟨.hbm, 182, rfl⟩
abbrev main_v56 : Ref sig .tc := ⟨.hbm, 183, rfl⟩
abbrev main_v57 : Ref sig .tc := ⟨.hbm, 184, rfl⟩
abbrev main_v58 : Ref sig .tc := ⟨.hbm, 185, rfl⟩
abbrev main_cst_13 : Ref sig .tc := ⟨.hbm, 186, rfl⟩
abbrev main_v59 : Ref sig .tc := ⟨.hbm, 187, rfl⟩
abbrev main_cst_14 : Ref sig .tc := ⟨.hbm, 188, rfl⟩
abbrev main_v60 : Ref sig .tc := ⟨.hbm, 189, rfl⟩
abbrev main_v61 : Ref sig .tc := ⟨.hbm, 190, rfl⟩
abbrev main_v62 : Ref sig .tc := ⟨.hbm, 191, rfl⟩
abbrev main_v63 : Ref sig .tc := ⟨.hbm, 192, rfl⟩
abbrev main_v64 : Ref sig .tc := ⟨.hbm, 193, rfl⟩
abbrev main_v65 : Ref sig .tc := ⟨.hbm, 194, rfl⟩
abbrev main_cst_15 : Ref sig .tc := ⟨.hbm, 195, rfl⟩
abbrev main_v66 : Ref sig .tc := ⟨.hbm, 196, rfl⟩
abbrev main_v67 : Ref sig .tc := ⟨.hbm, 197, rfl⟩
abbrev main_v68 : Ref sig .tc := ⟨.hbm, 198, rfl⟩
abbrev main_v69 : Ref sig .tc := ⟨.hbm, 199, rfl⟩
abbrev main_cst_16 : Ref sig .tc := ⟨.hbm, 200, rfl⟩
abbrev main_v70 : Ref sig .tc := ⟨.hbm, 201, rfl⟩
abbrev main_c_17 : Ref sig .tc := ⟨.hbm, 202, rfl⟩
abbrev main_v71 : Ref sig .tc := ⟨.hbm, 203, rfl⟩
abbrev main_v72 : Ref sig .tc := ⟨.hbm, 204, rfl⟩
abbrev main_c_18 : Ref sig .tc := ⟨.hbm, 205, rfl⟩
abbrev main_v73 : Ref sig .tc := ⟨.hbm, 206, rfl⟩
abbrev main_v74 : Ref sig .tc := ⟨.hbm, 207, rfl⟩
abbrev main_v75 : Ref sig .tc := ⟨.hbm, 208, rfl⟩
abbrev main_c_19 : Ref sig .tc := ⟨.hbm, 209, rfl⟩
abbrev main_v76 : Ref sig .tc := ⟨.hbm, 210, rfl⟩
abbrev main_v77 : Ref sig .tc := ⟨.hbm, 211, rfl⟩
abbrev main_c_20 : Ref sig .tc := ⟨.hbm, 212, rfl⟩
abbrev main_v78 : Ref sig .tc := ⟨.hbm, 213, rfl⟩
abbrev main_v79 : Ref sig .tc := ⟨.hbm, 214, rfl⟩
abbrev main_v80 : Ref sig .tc := ⟨.hbm, 215, rfl⟩
abbrev main_v81 : Ref sig .tc := ⟨.hbm, 216, rfl⟩
abbrev main_v82 : Ref sig .tc := ⟨.hbm, 217, rfl⟩
abbrev main_v83 : Ref sig .tc := ⟨.hbm, 218, rfl⟩
abbrev main_v84 : Ref sig .tc := ⟨.hbm, 219, rfl⟩
abbrev main_c_21 : Ref sig .tc := ⟨.hbm, 220, rfl⟩
abbrev main_v85 : Ref sig .tc := ⟨.hbm, 221, rfl⟩
abbrev main_v86 : Ref sig .tc := ⟨.hbm, 222, rfl⟩
abbrev main_c_22 : Ref sig .tc := ⟨.hbm, 223, rfl⟩
abbrev main_v87 : Ref sig .tc := ⟨.hbm, 224, rfl⟩
abbrev main_v88 : Ref sig .tc := ⟨.hbm, 225, rfl⟩
abbrev main_v89 : Ref sig .tc := ⟨.hbm, 226, rfl⟩
abbrev main_c_23 : Ref sig .tc := ⟨.hbm, 227, rfl⟩
abbrev main_v90 : Ref sig .tc := ⟨.hbm, 228, rfl⟩
abbrev main_v91 : Ref sig .tc := ⟨.hbm, 229, rfl⟩
abbrev main_c_24 : Ref sig .tc := ⟨.hbm, 230, rfl⟩
abbrev main_v92 : Ref sig .tc := ⟨.hbm, 231, rfl⟩
abbrev main_v93 : Ref sig .tc := ⟨.hbm, 232, rfl⟩
abbrev main_v94 : Ref sig .tc := ⟨.hbm, 233, rfl⟩
abbrev main_v95 : Ref sig .tc := ⟨.hbm, 234, rfl⟩
abbrev main_v96 : Ref sig .tc := ⟨.hbm, 235, rfl⟩
abbrev main_v97 : Ref sig .tc := ⟨.hbm, 236, rfl⟩
abbrev main_v98 : Ref sig .tc := ⟨.hbm, 237, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  shapeCasts_S1024x1024_S1048576 : S1024x1024.ShapeCasts S1048576
  natLt_1_32 : 1 < 32
  bcast_S_S_ : S_.BroadcastsInDim S_ (![] : Fin 0 → Fin S_.rank)
  reduceWindows_S1048576_S1048576_w1048576s1p1048575_0 : S1048576.ReduceWindows (![1048576] : Fin 1 → Nat) ![1] ![1048575] ![0] S1048576
  h_S_ : 0 < S_.numel
  bcast_S_S523776 : S_.BroadcastsInDim S523776 (![] : Fin 0 → Fin S523776.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  reduceWindows_S523776_S523776_w523776s1p523775_0 : S523776.ReduceWindows (![523776] : Fin 1 → Nat) ![1] ![523775] ![0] S523776
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  bcast_S_S1024x512 : S_.BroadcastsInDim S1024x512 (![] : Fin 0 → Fin S1024x512.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S523776_S523776x1_0 : S523776.BroadcastsInDim S523776x1 (![0] : Fin 1 → Fin S523776x1.rank)
  bcast_S1x512_S523776x512_0_1 : S1x512.BroadcastsInDim S523776x512 (![0, 1] : Fin 2 → Fin S523776x512.rank)
  bcast_S_S523776x512 : S_.BroadcastsInDim S523776x512 (![] : Fin 0 → Fin S523776x512.rank)
  bcast_S2_S1x2_1 : S2.BroadcastsInDim S1x2 (![1] : Fin 1 → Fin S1x2.rank)
  bcast_S1x2_S523776x2_0_1 : S1x2.BroadcastsInDim S523776x2 (![0, 1] : Fin 2 → Fin S523776x2.rank)
  reducesTo_S523776x2_S523776_d1 : S523776x2.ReducesTo [1] S523776
  bcast_S523776x1_S523776x2_0_1 : S523776x1.BroadcastsInDim S523776x2 (![0, 1] : Fin 2 → Fin S523776x2.rank)
  bcast_S_S1024x1024x2 : S_.BroadcastsInDim S1024x1024x2 (![] : Fin 0 → Fin S1024x1024x2.rank)
  concatenates_S523776x1_S523776x1_S523776x2_d1 : Shape.Concatenates [S523776x1, S523776x1] S523776x2 1
  scatter_S523776_S1048576x1_S1048576_n_0_0_1_wf : ScatterDims.WF S523776 S1048576x1 S1048576 [] [0] [0] 1
  dot_S1024x128_S128x512_S1024x512_1_0_0_1_n_n_wf : DotDims.WF S1024x128 S128x512 S1024x512 [1] [0] [0] [1] [] []
  dot_S1024x512_S512x512_S1024x512_1_0_0_1_n_n_wf : DotDims.WF S1024x512 S512x512 S1024x512 [1] [0] [0] [1] [] []
  dot_S1024x512_S512x128_S1024x128_1_0_0_1_n_n_wf : DotDims.WF S1024x512 S512x128 S1024x128 [1] [0] [0] [1] [] []
  gather_S1024x128_S523776x1_S523776x128_1_0_n_n_0_1_1128_wf : GatherDims.WF S1024x128 S523776x1 S523776x128 [1] [0] [] [0] [] 1 ![1, 128]
  dot_S523776x128_S128x512_S523776x512_1_0_0_1_n_n_wf : DotDims.WF S523776x128 S128x512 S523776x512 [1] [0] [0] [1] [] []
  dot_S523776x512_S512x2_S523776x2_1_0_0_1_n_n_wf : DotDims.WF S523776x512 S512x2 S523776x2 [1] [0] [0] [1] [] []
  scatter_S1024x1024x2_S523776x2_S523776x2_1_01_01_1_wf : ScatterDims.WF S1024x1024x2 S523776x2 S523776x2 [1] [0, 1] [0, 1] 1

variable [Facts₀]

def scatter_S523776_S1048576x1_S1048576_n_0_0_1 : ScatterDims S523776 S1048576x1 S1048576 where
  updateWindowDims := []
  insertedWindowDims := [0]
  scatterDimsToOperandDims := [0]
  indexVectorDim := 1
  wf := scatter_S523776_S1048576x1_S1048576_n_0_0_1_wf
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def gather_S1024x128_S523776x1_S523776x128_1_0_n_n_0_1_1128 : GatherDims S1024x128 S523776x1 S523776x128 where
  offsetDims := [1]
  collapsedSliceDims := [0]
  operandBatchingDims := []
  startIndicesBatchingDims := []
  startIndexMap := [0]
  indexVectorDim := 1
  sliceSizes := ![1, 128]
  wf := gather_S1024x128_S523776x1_S523776x128_1_0_n_n_0_1_1128_wf
def dot_S523776x128_S128x512_S523776x512_1_0_0_1_n_n : DotDims S523776x128 S128x512 S523776x512 where
  lhsContracting := [1]
  rhsContracting := [0]
  lhsNonContracting := [0]
  rhsNonContracting := [1]
  lhsBatch := []
  rhsBatch := []
  wf := dot_S523776x128_S128x512_S523776x512_1_0_0_1_n_n_wf
def dot_S523776x512_S512x2_S523776x2_1_0_0_1_n_n : DotDims S523776x512 S512x2 S523776x2 where
  lhsContracting := [1]
  rhsContracting := [0]
  lhsNonContracting := [0]
  rhsNonContracting := [1]
  lhsBatch := []
  rhsBatch := []
  wf := dot_S523776x512_S512x2_S523776x2_1_0_0_1_n_n_wf
def scatter_S1024x1024x2_S523776x2_S523776x2_1_01_01_1 : ScatterDims S1024x1024x2 S523776x2 S523776x2 where
  updateWindowDims := [1]
  insertedWindowDims := [0, 1]
  scatterDimsToOperandDims := [0, 1]
  indexVectorDim := 1
  wf := scatter_S1024x1024x2_S523776x2_S523776x2_1_01_01_1_wf

class Facts : Prop extends Facts₀ where

variable [Facts]
-- ==== Proof.KernelRun.lean ====
import proofs.«116980_j2911987826887_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel program's run with its result named: every weakly fair execution of @main terminates, nothing
    faulting; the result buffer ends at the last boundary's contents (the fold of the two regions' write-backs and
    the host operations between and after them over the launch memory), and every argument array ends as launched. -/
theorem run_out : θ_run defs (onTc (τ := τ) (main (F := F))) ⟨m, fun _ => 0, ρ⟩ (fun r => ∀ c : Dev nD,
      r.2.mem ((c.tc : Thread nD τ).loc main_v12) = W4 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v12 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.KRun

end
-- ==== Proof.RefRun.lean ====
import proofs.«116980_j2911987826887_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's @main as one straight line of 226 host operations: each outlined function's operations written at its call, over that call's buffers. -/
abbrev ops : List (HloOp τ sig (Elt F)) :=
  [ StableHlo.nullary main_cst (constant S_ .f32 0x3F800000#32),
    StableHlo.unary main_cst main_v0 (broadcastInDim S1024x1024 ![] bcast_S_S1024x1024 : (⟨S_, .f32⟩ : BufTy).Contents (Elt F) → (⟨S1024x1024, .f32⟩ : BufTy).Contents (Elt F)),
    StableHlo.TRef.nullary main_call0.v0 (iotaInDim S1024x1024 32 0),
    StableHlo.TRef.nullary main_call0.c (constantI S_ 32 0#32),
    StableHlo.TRef.unary main_call0.c main_call0.v1 (broadcastInDim S1024x1024 ![] bcast_S_S1024x1024),
    StableHlo.TRef.binary main_call0.v0 main_call0.v1 main_call0.v2 addi,
    StableHlo.TRef.nullary main_call0.v3 (iotaInDim S1024x1024 32 1),
    StableHlo.TRef.binary main_call0.v2 main_call0.v3 main_call0.v4 (cmpi .sge),
    StableHlo.TRef.nullary main_call0.cst (constant S_ .f32 0x00000000#32),
    StableHlo.TRef.unary main_call0.cst main_call0.v5 (broadcastInDim S1024x1024 ![] bcast_S_S1024x1024),
    StableHlo.TRef.ternary main_call0.v4 main_call0.v5 ((.of main_v0) : StableHlo.TRef sig ⟨S1024x1024, .f32⟩) main_call0.v6 select,
    StableHlo.nullary main_cst_0 (constant S_ .f32 0x00000000#32),
    StableHlo.unary main_cst_0 main_v2 (broadcastInDim S1024x1024 ![] bcast_S_S1024x1024 : (⟨S_, .f32⟩ : BufTy).Contents (Elt F) → (⟨S1024x1024, .f32⟩ : BufTy).Contents (Elt F)),
    StableHlo.binary main_v1 main_v2 main_v3 (cmpf .une : (⟨S1024x1024, .f32⟩ : BufTy).Contents (Elt F) → (⟨S1024x1024, .f32⟩ : BufTy).Contents (Elt F) → (⟨S1024x1024, .i1⟩ : BufTy).Contents (Elt F)),
    StableHlo.TRef.reshape ((.of main_v3) : StableHlo.TRef sig ⟨S1024x1024, .i1⟩) main_call1.v0 rfl shapeCasts_S1024x1024_S1048576,
    StableHlo.TRef.unary main_call1.v0 main_call1.v1 (extui 32 · natLt_1_32),
    StableHlo.TRef.nullary main_call1.call0.c (constantI S_ 32 0#32),
    StableHlo.TRef.unary main_call1.call0.c main_call1.call0.v0 (broadcastInDim S_ ![] bcast_S_S_),
    StableHlo.TRef.binary (main_call1.v1 : StableHlo.TRef sig ⟨S1048576, .i32⟩) main_call1.call0.v0 main_call1.call0.v1 (fun x v => Host.reduceWindow IntOp.addi ![1048576] ![1] ![1048575] ![0] x v reduceWindows_S1048576_S1048576_w1048576s1p1048575_0 h_S_),
    StableHlo.nullary main_c (constantI S_ 32 0#32),
    StableHlo.unary main_c main_v5 (broadcastInDim S523776 ![] bcast_S_S523776 : (⟨S_, .i32⟩ : BufTy).Contents (Elt F) → (⟨S523776, .i32⟩ : BufTy).Contents (Elt F)),
    StableHlo.nullary main_c_1 (constantI S_ 32 0#32),
    StableHlo.TRef.unary ((.of main_c_1) : StableHlo.TRef sig ⟨S_, .i32⟩) main_call2.v0 id,
    StableHlo.TRef.unary main_call2.v0 main_call2.v1 (broadcastInDim S1048576 ![] bcast_S_S1048576),
    StableHlo.TRef.binary main_call2.v1 ((.of main_v4) : StableHlo.TRef sig ⟨S1048576, .i32⟩) main_call2.v2 maxsi,
    StableHlo.nullary main_c_2 (constantI S_ 32 0#32),
    StableHlo.unary main_c_2 main_v7 (broadcastInDim S1048576 ![] bcast_S_S1048576 : (⟨S_, .i32⟩ : BufTy).Contents (Elt F) → (⟨S1048576, .i32⟩ : BufTy).Contents (Elt F)),
    StableHlo.binary main_v6 main_v7 main_v8 (cmpi .slt : (⟨S1048576, .i32⟩ : BufTy).Contents (Elt F) → (⟨S1048576, .i32⟩ : BufTy).Contents (Elt F) → (⟨S1048576, .i1⟩ : BufTy).Contents (Elt F)),
    StableHlo.nullary main_c_3 (constantI S_ 32 523776#32),
    StableHlo.unary main_c_3 main_v9 (broadcastInDim S1048576 ![] bcast_S_S1048576 : (⟨S_, .i32⟩ : BufTy).Contents (Elt F) → (⟨S1048576, .i32⟩ : BufTy).Contents (Elt F)),
    StableHlo.binary main_v6 main_v9 main_v10 (addi : (⟨S1048576, .i32⟩ : BufTy).Contents (Elt F) → (⟨S1048576, .i32⟩ : BufTy).Contents (Elt F) → (⟨S1048576, .i32⟩ : BufTy).Contents (Elt F)),
    StableHlo.ternary main_v8 main_v10 main_v6 main_v11 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v11 main_v12 (broadcastInDim S1048576x1 ![0] bcast_S1048576_S1048576x1_0 : (⟨S1048576, .i32⟩ : BufTy).Contents (Elt F) → (⟨S1048576x1, .i32⟩ : BufTy).Contents (Elt F)),
    StableHlo.nullary main_c_4 (constantI S_ 32 1#32),
    StableHlo.unary main_c_4 main_v13 (broadcastInDim S1048576 ![] bcast_S_S1048576 : (⟨S_, .i32⟩ : BufTy).Contents (Elt F) → (⟨S1048576, .i32⟩ : BufTy).Contents (Elt F)),
    StableHlo.ternary main_v5 main_v12 main_v13 main_v14 ((fun x i u => Host.scatter scatter_S523776_S1048576x1_S1048576_n_0_0_1 IntOp.addi x i u) : (⟨S523776, .i32⟩ : BufTy).Contents (Elt F) → (⟨S1048576x1, .i32⟩ : BufTy).Contents (Elt F) → (⟨S1048576, .i32⟩ : BufTy).Contents (Elt F) → (⟨S523776, .i32⟩ : BufTy).Contents (Elt F)),
    StableHlo.TRef.nullary main_call3.call0.c (constantI S_ 32 0#32),
    StableHlo.TRef.unary main_call3.call0.c main_call3.call0.v0 (broadcastInDim S_ ![] bcast_S_S_),
    StableHlo.TRef.binary (((.of main_v14) : StableHlo.TRef sig ⟨S523776, .i32⟩) : StableHlo.TRef sig ⟨S523776, .i32⟩) main_call3.call0.v0 main_call3.call0.v1 (fun x v => Host.reduceWindow IntOp.addi ![523776] ![1] ![523775] ![0] x v reduceWindows_S523776_S523776_w523776s1p523775_0 h_S_),
    StableHlo.nullary main_c_5 (constantI S_ 32 1024#32),
    StableHlo.TRef.unary ((.of main_c_5) : StableHlo.TRef sig ⟨S_, .i32⟩) main_call4.v0 (broadcastInDim S523776 ![] bcast_S_S523776),
    StableHlo.TRef.binary ((.of main_v15) : StableHlo.TRef sig ⟨S523776, .i32⟩) main_call4.v0 main_call4.v1 Host.divsi,
    StableHlo.TRef.unary ((.of main_v15) : StableHlo.TRef sig ⟨S523776, .i32⟩) main_call4.v2 signi,
    StableHlo.TRef.unary ((.of main_c_5) : StableHlo.TRef sig ⟨S_, .i32⟩) main_call4.v3 signi,
    StableHlo.TRef.unary main_call4.v3 main_call4.v4 (broadcastInDim S523776 ![] bcast_S_S523776),
    StableHlo.TRef.binary main_call4.v2 main_call4.v4 main_call4.v5 (cmpi .ne),
    StableHlo.TRef.unary ((.of main_c_5) : StableHlo.TRef sig ⟨S_, .i32⟩) main_call4.v6 (broadcastInDim S523776 ![] bcast_S_S523776),
    StableHlo.TRef.binary ((.of main_v15) : StableHlo.TRef sig ⟨S523776, .i32⟩) main_call4.v6 main_call4.v7 Host.remsi,
    StableHlo.TRef.nullary main_call4.c (constantI S_ 32 0#32),
    StableHlo.TRef.unary main_call4.c main_call4.v8 (broadcastInDim S523776 ![] bcast_S_S523776),
    StableHlo.TRef.binary main_call4.v7 main_call4.v8 main_call4.v9 (cmpi .ne),
    StableHlo.TRef.binary main_call4.v5 main_call4.v9 main_call4.v10 andi,
    StableHlo.TRef.nullary main_call4.c_0 (constantI S_ 32 1#32),
    StableHlo.TRef.unary main_call4.c_0 main_call4.v11 (broadcastInDim S523776 ![] bcast_S_S523776),
    StableHlo.TRef.binary main_call4.v1 main_call4.v11 main_call4.v12 subi,
    StableHlo.TRef.ternary (main_call4.v10 : StableHlo.TRef sig ⟨S523776, .i1⟩) (main_call4.v12 : StableHlo.TRef sig ⟨S523776, .i32⟩) (main_call4.v1 : StableHlo.TRef sig ⟨S523776, .i32⟩) main_call4.call0.v0 select,
    StableHlo.nullary main_c_6 (constantI S_ 32 1024#32),
    StableHlo.TRef.unary ((.of main_c_6) : StableHlo.TRef sig ⟨S_, .i32⟩) main_call5.v0 id,
    StableHlo.TRef.nullary main_call5.c (constantI S_ 32 0#32),
    StableHlo.TRef.binary main_call5.v0 main_call5.c main_call5.v1 (cmpi .eq),
    StableHlo.TRef.nullary main_call5.c_0 (constantI S_ 32 1#32),
    StableHlo.TRef.ternary (main_call5.v1 : StableHlo.TRef sig ⟨S_, .i1⟩) (main_call5.c_0 : StableHlo.TRef sig ⟨S_, .i32⟩) (main_call5.v0 : StableHlo.TRef sig ⟨S_, .i32⟩) main_call5.call0.v0 select,
    StableHlo.TRef.unary main_call5.call0.v0 main_call5.v3 (broadcastInDim S523776 ![] bcast_S_S523776),
    StableHlo.TRef.binary ((.of main_v16) : StableHlo.TRef sig ⟨S523776, .i32⟩) main_call5.v3 main_call5.v4 Host.remsi,
    StableHlo.TRef.nullary main_call5.c_1 (constantI S_ 32 0#32),
    StableHlo.TRef.unary main_call5.c_1 main_call5.v5 (broadcastInDim S523776 ![] bcast_S_S523776),
    StableHlo.TRef.binary main_call5.v4 main_call5.v5 main_call5.v6 (cmpi .ne),
    StableHlo.TRef.nullary main_call5.c_2 (constantI S_ 32 0#32),
    StableHlo.TRef.unary main_call5.c_2 main_call5.v7 (broadcastInDim S523776 ![] bcast_S_S523776),
    StableHlo.TRef.binary main_call5.v4 main_call5.v7 main_call5.v8 (cmpi .slt),
    StableHlo.TRef.nullary main_call5.c_3 (constantI S_ 32 0#32),
    StableHlo.TRef.binary main_call5.call0.v0 main_call5.c_3 main_call5.v9 (cmpi .slt),
    StableHlo.TRef.unary main_call5.v9 main_call5.v10 (broadcastInDim S523776 ![] bcast_S_S523776),
    StableHlo.TRef.binary main_call5.v8 main_call5.v10 main_call5.v11 (cmpi .ne),
    StableHlo.TRef.binary main_call5.v11 main_call5.v6 main_call5.v12 andi,
    StableHlo.TRef.unary main_call5.call0.v0 main_call5.v13 (broadcastInDim S523776 ![] bcast_S_S523776),
    StableHlo.TRef.binary main_call5.v4 main_call5.v13 main_call5.v14 addi,
    StableHlo.TRef.ternary main_call5.v12 main_call5.v14 main_call5.v4 main_call5.v15 select,
    StableHlo.nullary main_c_7 (constantI S_ 32 1#32),
    StableHlo.TRef.unary ((.of main_c_7) : StableHlo.TRef sig ⟨S_, .i32⟩) main_call6.v0 (broadcastInDim S523776 ![] bcast_S_S523776),
    StableHlo.TRef.binary ((.of main_v15) : StableHlo.TRef sig ⟨S523776, .i32⟩) main_call6.v0 main_call6.v1 Host.divsi,
    StableHlo.TRef.unary ((.of main_v15) : StableHlo.TRef sig ⟨S523776, .i32⟩) main_call6.v2 signi,
    StableHlo.TRef.unary ((.of main_c_7) : StableHlo.TRef sig ⟨S_, .i32⟩) main_call6.v3 signi,
    StableHlo.TRef.unary main_call6.v3 main_call6.v4 (broadcastInDim S523776 ![] bcast_S_S523776),
    StableHlo.TRef.binary main_call6.v2 main_call6.v4 main_call6.v5 (cmpi .ne),
    StableHlo.TRef.unary ((.of main_c_7) : StableHlo.TRef sig ⟨S_, .i32⟩) main_call6.v6 (broadcastInDim S523776 ![] bcast_S_S523776),
    StableHlo.TRef.binary ((.of main_v15) : StableHlo.TRef sig ⟨S523776, .i32⟩) main_call6.v6 main_call6.v7 Host.remsi,
    StableHlo.TRef.nullary main_call6.c (constantI S_ 32 0#32),
    StableHlo.TRef.unary main_call6.c main_call6.v8 (broadcastInDim S523776 ![] bcast_S_S523776),
    StableHlo.TRef.binary main_call6.v7 main_call6.v8 main_call6.v9 (cmpi .ne),
    StableHlo.TRef.binary main_call6.v5 main_call6.v9 main_call6.v10 andi,
    StableHlo.TRef.nullary main_call6.c_0 (constantI S_ 32 1#32),
    StableHlo.TRef.unary main_call6.c_0 main_call6.v11 (broadcastInDim S523776 ![] bcast_S_S523776),
    StableHlo.TRef.binary main_call6.v1 main_call6.v11 main_call6.v12 subi,
    StableHlo.TRef.ternary (main_call6.v10 : StableHlo.TRef sig ⟨S523776, .i1⟩) (main_call6.v12 : StableHlo.TRef sig ⟨S523776, .i32⟩) (main_call6.v1 : StableHlo.TRef sig ⟨S523776, .i32⟩) main_call6.call0.v0 select,
    StableHlo.nullary main_c_8 (constantI S_ 32 1024#32),
    StableHlo.TRef.unary ((.of main_c_8) : StableHlo.TRef sig ⟨S_, .i32⟩) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary (main_call7.v1 : StableHlo.TRef sig ⟨S_, .i1⟩) (main_call7.c_0 : StableHlo.TRef sig ⟨S_, .i32⟩) (main_call7.v0 : StableHlo.TRef sig ⟨S_, .i32⟩) main_call7.call0.v0 select,
    StableHlo.TRef.unary main_call7.call0.v0 main_call7.v3 (broadcastInDim S523776 ![] bcast_S_S523776),
    StableHlo.TRef.binary ((.of main_v18) : StableHlo.TRef sig ⟨S523776, .i32⟩) main_call7.v3 main_call7.v4 Host.remsi,
    StableHlo.TRef.nullary main_call7.c_1 (constantI S_ 32 0#32),
    StableHlo.TRef.unary main_call7.c_1 main_call7.v5 (broadcastInDim S523776 ![] bcast_S_S523776),
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S523776 ![] bcast_S_S523776),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S523776 ![] bcast_S_S523776),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S523776 ![] bcast_S_S523776),
    StableHlo.TRef.binary main_call7.v4 main_call7.v13 main_call7.v14 addi,
    StableHlo.TRef.ternary main_call7.v12 main_call7.v14 main_call7.v4 main_call7.v15 select,
    StableHlo.binary main_arg1 main_arg2 main_v20 ((fun l r => Host.dotGeneral dot_S1024x128_S128x512_S1024x512_1_0_0_1_n_n none l r) : (⟨S1024x128, .f32⟩ : BufTy).Contents (Elt F) → (⟨S128x512, .f32⟩ : BufTy).Contents (Elt F) → (⟨S1024x512, .f32⟩ : BufTy).Contents (Elt F)),
    StableHlo.unary main_arg3 main_v21 (broadcastInDim S1x512 ![1] bcast_S512_S1x512_1 : (⟨S512, .f32⟩ : BufTy).Contents (Elt F) → (⟨S1x512, .f32⟩ : BufTy).Contents (Elt F)),
    StableHlo.unary main_v21 main_v22 (broadcastInDim S1024x512 ![0, 1] bcast_S1x512_S1024x512_0_1 : (⟨S1x512, .f32⟩ : BufTy).Contents (Elt F) → (⟨S1024x512, .f32⟩ : BufTy).Contents (Elt F)),
    StableHlo.binary main_v20 main_v22 main_v23 (addf : (⟨S1024x512, .f32⟩ : BufTy).Contents (Elt F) → (⟨S1024x512, .f32⟩ : BufTy).Contents (Elt F) → (⟨S1024x512, .f32⟩ : BufTy).Contents (Elt F)),
    StableHlo.TRef.nullary main_call8.cst (constant S_ .f32 0x00000000#32),
    StableHlo.TRef.unary main_call8.cst main_call8.v0 (broadcastInDim S1024x512 ![] bcast_S_S1024x512),
    StableHlo.TRef.binary ((.of main_v23) : StableHlo.TRef sig ⟨S1024x512, .f32⟩) main_call8.v0 main_call8.v1 (cmpf .oge),
    StableHlo.TRef.nullary main_call8.cst_0 (constant S_ .f32 0x3C23D70A#32),
    StableHlo.TRef.unary main_call8.cst_0 main_call8.v2 (broadcastInDim S1024x512 ![] bcast_S_S1024x512),
    StableHlo.TRef.binary main_call8.v2 ((.of main_v23) : StableHlo.TRef sig ⟨S1024x512, .f32⟩) main_call8.v3 mulf,
    StableHlo.TRef.ternary (main_call8.v1 : StableHlo.TRef sig ⟨S1024x512, .i1⟩) (((.of main_v23) : StableHlo.TRef sig ⟨S1024x512, .f32⟩) : StableHlo.TRef sig ⟨S1024x512, .f32⟩) (main_call8.v3 : StableHlo.TRef sig ⟨S1024x512, .f32⟩) main_call8.call0.v0 select,
    StableHlo.binary main_v24 main_arg4 main_v25 ((fun l r => Host.dotGeneral dot_S1024x512_S512x512_S1024x512_1_0_0_1_n_n none l r) : (⟨S1024x512, .f32⟩ : BufTy).Contents (Elt F) → (⟨S512x512, .f32⟩ : BufTy).Contents (Elt F) → (⟨S1024x512, .f32⟩ : BufTy).Contents (Elt F)),
    StableHlo.unary main_arg5 main_v26 (broadcastInDim S1x512 ![1] bcast_S512_S1x512_1 : (⟨S512, .f32⟩ : BufTy).Contents (Elt F) → (⟨S1x512, .f32⟩ : BufTy).Contents (Elt F)),
    StableHlo.unary main_v26 main_v27 (broadcastInDim S1024x512 ![0, 1] bcast_S1x512_S1024x512_0_1 : (⟨S1x512, .f32⟩ : BufTy).Contents (Elt F) → (⟨S1024x512, .f32⟩ : BufTy).Contents (Elt F)),
    StableHlo.binary main_v25 main_v27 main_v28 (addf : (⟨S1024x512, .f32⟩ : BufTy).Contents (Elt F) → (⟨S1024x512, .f32⟩ : BufTy).Contents (Elt F) → (⟨S1024x512, .f32⟩ : BufTy).Contents (Elt F)),
    StableHlo.TRef.nullary main_call9.cst (constant S_ .f32 0x00000000#32),
    StableHlo.TRef.unary main_call9.cst main_call9.v0 (broadcastInDim S1024x512 ![] bcast_S_S1024x512),
    StableHlo.TRef.binary ((.of main_v28) : StableHlo.TRef sig ⟨S1024x512, .f32⟩) main_call9.v0 main_call9.v1 (cmpf .oge),
    StableHlo.TRef.nullary main_call9.cst_0 (constant S_ .f32 0x3C23D70A#32),
    StableHlo.TRef.unary main_call9.cst_0 main_call9.v2 (broadcastInDim S1024x512 ![] bcast_S_S1024x512),
    StableHlo.TRef.binary main_call9.v2 ((.of main_v28) : StableHlo.TRef sig ⟨S1024x512, .f32⟩) main_call9.v3 mulf,
    StableHlo.TRef.ternary (main_call9.v1 : StableHlo.TRef sig ⟨S1024x512, .i1⟩) (((.of main_v28) : StableHlo.TRef sig ⟨S1024x512, .f32⟩) : StableHlo.TRef sig ⟨S1024x512, .f32⟩) (main_call9.v3 : StableHlo.TRef sig ⟨S1024x512, .f32⟩) main_call9.call0.v0 select,
    StableHlo.binary main_v29 main_arg6 main_v30 ((fun l r => Host.dotGeneral dot_S1024x512_S512x128_S1024x128_1_0_0_1_n_n none l r) : (⟨S1024x512, .f32⟩ : BufTy).Contents (Elt F) → (⟨S512x128, .f32⟩ : BufTy).Contents (Elt F) → (⟨S1024x128, .f32⟩ : BufTy).Contents (Elt F)),
    StableHlo.unary main_arg7 main_v31 (broadcastInDim S1x128 ![1] bcast_S128_S1x128_1 : (⟨S128, .f32⟩ : BufTy).Contents (Elt F) → (⟨S1x128, .f32⟩ : BufTy).Contents (Elt F)),
    StableHlo.unary main_v31 main_v32 (broadcastInDim S1024x128 ![0, 1] bcast_S1x128_S1024x128_0_1 : (⟨S1x128, .f32⟩ : BufTy).Contents (Elt F) → (⟨S1024x128, .f32⟩ : BufTy).Contents (Elt F)),
    StableHlo.binary main_v30 main_v32 main_v33 (addf : (⟨S1024x128, .f32⟩ : BufTy).Contents (Elt F) → (⟨S1024x128, .f32⟩ : BufTy).Contents (Elt F) → (⟨S1024x128, .f32⟩ : BufTy).Contents (Elt F)),
    StableHlo.binary main_v33 main_arg1 main_v34 (addf : (⟨S1024x128, .f32⟩ : BufTy).Contents (Elt F) → (⟨S1024x128, .f32⟩ : BufTy).Contents (Elt F) → (⟨S1024x128, .f32⟩ : BufTy).Contents (Elt F)),
    StableHlo.nullary main_c_9 (constantI S_ 32 0#32),
    StableHlo.unary main_c_9 main_v35 (broadcastInDim S523776 ![] bcast_S_S523776 : (⟨S_, .i32⟩ : BufTy).Contents (Elt F) → (⟨S523776, .i32⟩ : BufTy).Contents (Elt F)),
    StableHlo.binary main_v17 main_v35 main_v36 (cmpi .slt : (⟨S523776, .i32⟩ : BufTy).Contents (Elt F) → (⟨S523776, .i32⟩ : BufTy).Contents (Elt F) → (⟨S523776, .i1⟩ : BufTy).Contents (Elt F)),
    StableHlo.nullary main_c_10 (constantI S_ 32 1024#32),
    StableHlo.unary main_c_10 main_v37 (broadcastInDim S523776 ![] bcast_S_S523776 : (⟨S_, .i32⟩ : BufTy).Contents (Elt F) → (⟨S523776, .i32⟩ : BufTy).Contents (Elt F)),
    StableHlo.binary main_v17 main_v37 main_v38 (addi : (⟨S523776, .i32⟩ : BufTy).Contents (Elt F) → (⟨S523776, .i32⟩ : BufTy).Contents (Elt F) → (⟨S523776, .i32⟩ : BufTy).Contents (Elt F)),
    StableHlo.ternary main_v36 main_v38 main_v17 main_v39 (select : (⟨S523776, .i1⟩ : BufTy).Contents (Elt F) → (⟨S523776, .i32⟩ : BufTy).Contents (Elt F) → (⟨S523776, .i32⟩ : BufTy).Contents (Elt F) → (⟨S523776, .i32⟩ : BufTy).Contents (Elt F)),
    StableHlo.unary main_v39 main_v40 (broadcastInDim S523776x1 ![0] bcast_S523776_S523776x1_0 : (⟨S523776, .i32⟩ : BufTy).Contents (Elt F) → (⟨S523776x1, .i32⟩ : BufTy).Contents (Elt F)),
    StableHlo.binary main_v34 main_v40 main_v41 ((fun x i => Host.gather gather_S1024x128_S523776x1_S523776x128_1_0_n_n_0_1_1128 x i) : (⟨S1024x128, .f32⟩ : BufTy).Contents (Elt F) → (⟨S523776x1, .i32⟩ : BufTy).Contents (Elt F) → (⟨S523776x128, .f32⟩ : BufTy).Contents (Elt F)),
    StableHlo.nullary main_c_11 (constantI S_ 32 0#32),
    StableHlo.unary main_c_11 main_v42 (broadcastInDim S523776 ![] bcast_S_S523776 : (⟨S_, .i32⟩ : BufTy).Contents (Elt F) → (⟨S523776, .i32⟩ : BufTy).Contents (Elt F)),
    StableHlo.binary main_v19 main_v42 main_v43 (cmpi .slt : (⟨S523776, .i32⟩ : BufTy).Contents (Elt F) → (⟨S523776, .i32⟩ : BufTy).Contents (Elt F) → (⟨S523776, .i1⟩ : BufTy).Contents (Elt F)),
    StableHlo.nullary main_c_12 (constantI S_ 32 1024#32),
    StableHlo.unary main_c_12 main_v44 (broadcastInDim S523776 ![] bcast_S_S523776 : (⟨S_, .i32⟩ : BufTy).Contents (Elt F) → (⟨S523776, .i32⟩ : BufTy).Contents (Elt F)),
    StableHlo.binary main_v19 main_v44 main_v45 (addi : (⟨S523776, .i32⟩ : BufTy).Contents (Elt F) → (⟨S523776, .i32⟩ : BufTy).Contents (Elt F) → (⟨S523776, .i32⟩ : BufTy).Contents (Elt F)),
    StableHlo.ternary main_v43 main_v45 main_v19 main_v46 (select : (⟨S523776, .i1⟩ : BufTy).Contents (Elt F) → (⟨S523776, .i32⟩ : BufTy).Contents (Elt F) → (⟨S523776, .i32⟩ : BufTy).Contents (Elt F) → (⟨S523776, .i32⟩ : BufTy).Contents (Elt F)),
    StableHlo.unary main_v46 main_v47 (broadcastInDim S523776x1 ![0] bcast_S523776_S523776x1_0 : (⟨S523776, .i32⟩ : BufTy).Contents (Elt F) → (⟨S523776x1, .i32⟩ : BufTy).Contents (Elt F)),
    StableHlo.binary main_v34 main_v47 main_v48 ((fun x i => Host.gather gather_S1024x128_S523776x1_S523776x128_1_0_n_n_0_1_1128 x i) : (⟨S1024x128, .f32⟩ : BufTy).Contents (Elt F) → (⟨S523776x1, .i32⟩ : BufTy).Contents (Elt F) → (⟨S523776x128, .f32⟩ : BufTy).Contents (Elt F)),
    StableHlo.binary main_v41 main_v48 main_v49 (mulf : (⟨S523776x128, .f32⟩ : BufTy).Contents (Elt F) → (⟨S523776x128, .f32⟩ : BufTy).Contents (Elt F) → (⟨S523776x128, .f32⟩ : BufTy).Contents (Elt F)),
    StableHlo.binary main_v49 main_arg8 main_v50 ((fun l r => Host.dotGeneral dot_S523776x128_S128x512_S523776x512_1_0_0_1_n_n none l r) : (⟨S523776x128, .f32⟩ : BufTy).Contents (Elt F) → (⟨S128x512, .f32⟩ : BufTy).Contents (Elt F) → (⟨S523776x512, .f32⟩ : BufTy).Contents (Elt F)),
    StableHlo.unary main_arg9 main_v51 (broadcastInDim S1x512 ![1] bcast_S512_S1x512_1 : (⟨S512, .f32⟩ : BufTy).Contents (Elt F) → (⟨S1x512, .f32⟩ : BufTy).Contents (Elt F)),
    StableHlo.unary main_v51 main_v52 (broadcastInDim S523776x512 ![0, 1] bcast_S1x512_S523776x512_0_1 : (⟨S1x512, .f32⟩ : BufTy).Contents (Elt F) → (⟨S523776x512, .f32⟩ : BufTy).Contents (Elt F)),
    StableHlo.binary main_v50 main_v52 main_v53 (addf : (⟨S523776x512, .f32⟩ : BufTy).Contents (Elt F) → (⟨S523776x512, .f32⟩ : BufTy).Contents (Elt F) → (⟨S523776x512, .f32⟩ : BufTy).Contents (Elt F)),
    StableHlo.TRef.nullary main_call10.cst (constant S_ .f32 0x00000000#32),
    StableHlo.TRef.unary main_call10.cst main_call10.v0 (broadcastInDim S523776x512 ![] bcast_S_S523776x512),
    StableHlo.TRef.binary ((.of main_v53) : StableHlo.TRef sig ⟨S523776x512, .f32⟩) main_call10.v0 main_call10.v1 maximumf,
    StableHlo.binary main_v54 main_arg10 main_v55 ((fun l r => Host.dotGeneral dot_S523776x512_S512x2_S523776x2_1_0_0_1_n_n none l r) : (⟨S523776x512, .f32⟩ : BufTy).Contents (Elt F) → (⟨S512x2, .f32⟩ : BufTy).Contents (Elt F) → (⟨S523776x2, .f32⟩ : BufTy).Contents (Elt F)),
    StableHlo.unary main_arg11 main_v56 (broadcastInDim S1x2 ![1] bcast_S2_S1x2_1 : (⟨S2, .f32⟩ : BufTy).Contents (Elt F) → (⟨S1x2, .f32⟩ : BufTy).Contents (Elt F)),
    StableHlo.unary main_v56 main_v57 (broadcastInDim S523776x2 ![0, 1] bcast_S1x2_S523776x2_0_1 : (⟨S1x2, .f32⟩ : BufTy).Contents (Elt F) → (⟨S523776x2, .f32⟩ : BufTy).Contents (Elt F)),
    StableHlo.binary main_v55 main_v57 main_v58 (addf : (⟨S523776x2, .f32⟩ : BufTy).Contents (Elt F) → (⟨S523776x2, .f32⟩ : BufTy).Contents (Elt F) → (⟨S523776x2, .f32⟩ : BufTy).Contents (Elt F)),
    StableHlo.nullary main_cst_13 (constant S_ .f32 0xFF800000#32),
    StableHlo.binary main_v58 main_cst_13 main_v59 ((fun x v => Host.reduce FloatOps.maximumf x v reducesTo_S523776x2_S523776_d1 h_S_) : (⟨S523776x2, .f32⟩ : BufTy).Contents (Elt F) → (⟨S_, .f32⟩ : BufTy).Contents (Elt F) → (⟨S523776, .f32⟩ : BufTy).Contents (Elt F)),
    StableHlo.nullary main_cst_14 (constant S_ .f32 0xFF800000#32),
    StableHlo.unary main_cst_14 main_v60 (broadcastInDim S523776 ![] bcast_S_S523776 : (⟨S_, .f32⟩ : BufTy).Contents (Elt F) → (⟨S523776, .f32⟩ : BufTy).Contents (Elt F)),
    StableHlo.binary main_v60 main_v59 main_v61 (maximumf : (⟨S523776, .f32⟩ : BufTy).Contents (Elt F) → (⟨S523776, .f32⟩ : BufTy).Contents (Elt F) → (⟨S523776, .f32⟩ : BufTy).Contents (Elt F)),
    StableHlo.unary main_v61 main_v62 (broadcastInDim S523776x1 ![0] bcast_S523776_S523776x1_0 : (⟨S523776, .f32⟩ : BufTy).Contents (Elt F) → (⟨S523776x1, .f32⟩ : BufTy).Contents (Elt F)),
    StableHlo.unary main_v62 main_v63 (broadcastInDim S523776x2 ![0, 1] bcast_S523776x1_S523776x2_0_1 : (⟨S523776x1, .f32⟩ : BufTy).Contents (Elt F) → (⟨S523776x2, .f32⟩ : BufTy).Contents (Elt F)),
    StableHlo.binary main_v58 main_v63 main_v64 (subf : (⟨S523776x2, .f32⟩ : BufTy).Contents (Elt F) → (⟨S523776x2, .f32⟩ : BufTy).Contents (Elt F) → (⟨S523776x2, .f32⟩ : BufTy).Contents (Elt F)),
    StableHlo.unary main_v64 main_v65 (Host.exp : (⟨S523776x2, .f32⟩ : BufTy).Contents (Elt F) → (⟨S523776x2, .f32⟩ : BufTy).Contents (Elt F)),
    StableHlo.nullary main_cst_15 (constant S_ .f32 0x00000000#32),
    StableHlo.binary main_v65 main_cst_15 main_v66 ((fun x v => Host.reduceAdd x v reducesTo_S523776x2_S523776_d1 h_S_) : (⟨S523776x2, .f32⟩ : BufTy).Contents (Elt F) → (⟨S_, .f32⟩ : BufTy).Contents (Elt F) → (⟨S523776, .f32⟩ : BufTy).Contents (Elt F)),
    StableHlo.unary main_v66 main_v67 (broadcastInDim S523776x1 ![0] bcast_S523776_S523776x1_0 : (⟨S523776, .f32⟩ : BufTy).Contents (Elt F) → (⟨S523776x1, .f32⟩ : BufTy).Contents (Elt F)),
    StableHlo.unary main_v67 main_v68 (broadcastInDim S523776x2 ![0, 1] bcast_S523776x1_S523776x2_0_1 : (⟨S523776x1, .f32⟩ : BufTy).Contents (Elt F) → (⟨S523776x2, .f32⟩ : BufTy).Contents (Elt F)),
    StableHlo.binary main_v65 main_v68 main_v69 (Host.divf : (⟨S523776x2, .f32⟩ : BufTy).Contents (Elt F) → (⟨S523776x2, .f32⟩ : BufTy).Contents (Elt F) → (⟨S523776x2, .f32⟩ : BufTy).Contents (Elt F)),
    StableHlo.nullary main_cst_16 (constant S_ .f32 0x00000000#32),
    StableHlo.unary main_cst_16 main_v70 (broadcastInDim S1024x1024x2 ![] bcast_S_S1024x1024x2 : (⟨S_, .f32⟩ : BufTy).Contents (Elt F) → (⟨S1024x1024x2, .f32⟩ : BufTy).Contents (Elt F)),
    StableHlo.nullary main_c_17 (constantI S_ 32 0#32),
    StableHlo.unary main_c_17 main_v71 (broadcastInDim S523776 ![] bcast_S_S523776 : (⟨S_, .i32⟩ : BufTy).Contents (Elt F) → (⟨S523776, .i32⟩ : BufTy).Contents (Elt F)),
    StableHlo.binary main_v17 main_v71 main_v72 (cmpi .slt : (⟨S523776, .i32⟩ : BufTy).Contents (Elt F) → (⟨S523776, .i32⟩ : BufTy).Contents (Elt F) → (⟨S523776, .i1⟩ : BufTy).Contents (Elt F)),
    StableHlo.nullary main_c_18 (constantI S_ 32 1024#32),
    StableHlo.unary main_c_18 main_v73 (broadcastInDim S523776 ![] bcast_S_S523776 : (⟨S_, .i32⟩ : BufTy).Contents (Elt F) → (⟨S523776, .i32⟩ : BufTy).Contents (Elt F)),
    StableHlo.binary main_v17 main_v73 main_v74 (addi : (⟨S523776, .i32⟩ : BufTy).Contents (Elt F) → (⟨S523776, .i32⟩ : BufTy).Contents (Elt F) → (⟨S523776, .i32⟩ : BufTy).Contents (Elt F)),
    StableHlo.ternary main_v72 main_v74 main_v17 main_v75 (select : (⟨S523776, .i1⟩ : BufTy).Contents (Elt F) → (⟨S523776, .i32⟩ : BufTy).Contents (Elt F) → (⟨S523776, .i32⟩ : BufTy).Contents (Elt F) → (⟨S523776, .i32⟩ : BufTy).Contents (Elt F)),
    StableHlo.nullary main_c_19 (constantI S_ 32 0#32),
    StableHlo.unary main_c_19 main_v76 (broadcastInDim S523776 ![] bcast_S_S523776 : (⟨S_, .i32⟩ : BufTy).Contents (Elt F) → (⟨S523776, .i32⟩ : BufTy).Contents (Elt F)),
    StableHlo.binary main_v19 main_v76 main_v77 (cmpi .slt : (⟨S523776, .i32⟩ : BufTy).Contents (Elt F) → (⟨S523776, .i32⟩ : BufTy).Contents (Elt F) → (⟨S523776, .i1⟩ : BufTy).Contents (Elt F)),
    StableHlo.nullary main_c_20 (constantI S_ 32 1024#32),
    StableHlo.unary main_c_20 main_v78 (broadcastInDim S523776 ![] bcast_S_S523776 : (⟨S_, .i32⟩ : BufTy).Contents (Elt F) → (⟨S523776, .i32⟩ : BufTy).Contents (Elt F)),
    StableHlo.binary main_v19 main_v78 main_v79 (addi : (⟨S523776, .i32⟩ : BufTy).Contents (Elt F) → (⟨S523776, .i32⟩ : BufTy).Contents (Elt F) → (⟨S523776, .i32⟩ : BufTy).Contents (Elt F)),
    StableHlo.ternary main_v77 main_v79 main_v19 main_v80 (select : (⟨S523776, .i1⟩ : BufTy).Contents (Elt F) → (⟨S523776, .i32⟩ : BufTy).Contents (Elt F) → (⟨S523776, .i32⟩ : BufTy).Contents (Elt F) → (⟨S523776, .i32⟩ : BufTy).Contents (Elt F)),
    StableHlo.unary main_v75 main_v81 (broadcastInDim S523776x1 ![0] bcast_S523776_S523776x1_0 : (⟨S523776, .i32⟩ : BufTy).Contents (Elt F) → (⟨S523776x1, .i32⟩ : BufTy).Contents (Elt F)),
    StableHlo.unary main_v80 main_v82 (broadcastInDim S523776x1 ![0] bcast_S523776_S523776x1_0 : (⟨S523776, .i32⟩ : BufTy).Contents (Elt F) → (⟨S523776x1, .i32⟩ : BufTy).Contents (Elt F)),
    StableHlo.binary main_v81 main_v82 main_v83 ((fun a b => concatenate S523776x2 1 [⟨S523776x1, a⟩, ⟨S523776x1, b⟩] concatenates_S523776x1_S523776x1_S523776x2_d1) : (⟨S523776x1, .i32⟩ : BufTy).Contents (Elt F) → (⟨S523776x1, .i32⟩ : BufTy).Contents (Elt F) → (⟨S523776x2, .i32⟩ : BufTy).Contents (Elt F)),
    StableHlo.ternary main_v70 main_v83 main_v69 main_v84 ((fun x i u => Host.scatter scatter_S1024x1024x2_S523776x2_S523776x2_1_01_01_1 (fun _ b => b) x i u) : (⟨S1024x1024x2, .f32⟩ : BufTy).Contents (Elt F) → (⟨S523776x2, .i32⟩ : BufTy).Contents (Elt F) → (⟨S523776x2, .f32⟩ : BufTy).Contents (Elt F) → (⟨S1024x1024x2, .f32⟩ : BufTy).Contents (Elt F)),
    StableHlo.nullary main_c_21 (constantI S_ 32 0#32),
    StableHlo.unary main_c_21 main_v85 (broadcastInDim S523776 ![] bcast_S_S523776 : (⟨S_, .i32⟩ : BufTy).Contents (Elt F) → (⟨S523776, .i32⟩ : BufTy).Contents (Elt F)),
    StableHlo.binary main_v19 main_v85 main_v86 (cmpi .slt : (⟨S523776, .i32⟩ : BufTy).Contents (Elt F) → (⟨S523776, .i32⟩ : BufTy).Contents (Elt F) → (⟨S523776, .i1⟩ : BufTy).Contents (Elt F)),
    StableHlo.nullary main_c_22 (constantI S_ 32 1024#32),
    StableHlo.unary main_c_22 main_v87 (broadcastInDim S523776 ![] bcast_S_S523776 : (⟨S_, .i32⟩ : BufTy).Contents (Elt F) → (⟨S523776, .i32⟩ : BufTy).Contents (Elt F)),
    StableHlo.binary main_v19 main_v87 main_v88 (addi : (⟨S523776, .i32⟩ : BufTy).Contents (Elt F) → (⟨S523776, .i32⟩ : BufTy).Contents (Elt F) → (⟨S523776, .i32⟩ : BufTy).Contents (Elt F)),
    StableHlo.ternary main_v86 main_v88 main_v19 main_v89 (select : (⟨S523776, .i1⟩ : BufTy).Contents (Elt F) → (⟨S523776, .i32⟩ : BufTy).Contents (Elt F) → (⟨S523776, .i32⟩ : BufTy).Contents (Elt F) → (⟨S523776, .i32⟩ : BufTy).Contents (Elt F)),
    StableHlo.nullary main_c_23 (constantI S_ 32 0#32),
    StableHlo.unary main_c_23 main_v90 (broadcastInDim S523776 ![] bcast_S_S523776 : (⟨S_, .i32⟩ : BufTy).Contents (Elt F) → (⟨S523776, .i32⟩ : BufTy).Contents (Elt F)),
    StableHlo.binary main_v17 main_v90 main_v91 (cmpi .slt : (⟨S523776, .i32⟩ : BufTy).Contents (Elt F) → (⟨S523776, .i32⟩ : BufTy).Contents (Elt F) → (⟨S523776, .i1⟩ : BufTy).Contents (Elt F)),
    StableHlo.nullary main_c_24 (constantI S_ 32 1024#32),
    StableHlo.unary main_c_24 main_v92 (broadcastInDim S523776 ![] bcast_S_S523776 : (⟨S_, .i32⟩ : BufTy).Contents (Elt F) → (⟨S523776, .i32⟩ : BufTy).Contents (Elt F)),
    StableHlo.binary main_v17 main_v92 main_v93 (addi : (⟨S523776, .i32⟩ : BufTy).Contents (Elt F) → (⟨S523776, .i32⟩ : BufTy).Contents (Elt F) → (⟨S523776, .i32⟩ : BufTy).Contents (Elt F)),
    StableHlo.ternary main_v91 main_v93 main_v17 main_v94 (select : (⟨S523776, .i1⟩ : BufTy).Contents (Elt F) → (⟨S523776, .i32⟩ : BufTy).Contents (Elt F) → (⟨S523776, .i32⟩ : BufTy).Contents (Elt F) → (⟨S523776, .i32⟩ : BufTy).Contents (Elt F)),
    StableHlo.unary main_v89 main_v95 (broadcastInDim S523776x1 ![0] bcast_S523776_S523776x1_0 : (⟨S523776, .i32⟩ : BufTy).Contents (Elt F) → (⟨S523776x1, .i32⟩ : BufTy).Contents (Elt F)),
    StableHlo.unary main_v94 main_v96 (broadcastInDim S523776x1 ![0] bcast_S523776_S523776x1_0 : (⟨S523776, .i32⟩ : BufTy).Contents (Elt F) → (⟨S523776x1, .i32⟩ : BufTy).Contents (Elt F)),
    StableHlo.binary main_v95 main_v96 main_v97 ((fun a b => concatenate S523776x2 1 [⟨S523776x1, a⟩, ⟨S523776x1, b⟩] concatenates_S523776x1_S523776x1_S523776x2_d1) : (⟨S523776x1, .i32⟩ : BufTy).Contents (Elt F) → (⟨S523776x1, .i32⟩ : BufTy).Contents (Elt F) → (⟨S523776x2, .i32⟩ : BufTy).Contents (Elt F)),
    StableHlo.ternary main_v84 main_v97 main_v69 main_v98 ((fun x i u => Host.scatter scatter_S1024x1024x2_S523776x2_S523776x2_1_01_01_1 (fun _ b => b) x i u) : (⟨S1024x1024x2, .f32⟩ : BufTy).Contents (Elt F) → (⟨S523776x2, .i32⟩ : BufTy).Contents (Elt F) → (⟨S523776x2, .f32⟩ : BufTy).Contents (Elt F) → (⟨S1024x1024x2, .f32⟩ : BufTy).Contents (Elt F)) ]

set_option maxRecDepth 65536 in
set_option maxHeartbeats 4000000 in
/-- @main is that line: the parts and the outlined functions unfolded, sequencing reassociated. -/
theorem main_eq (c : Dev nD) : main (F := F) c = seq ops := by
  simp only [main, main_part0, main_part1, main_part2, fn_triu.body, fn_cumsum_0.body, fn_cumsum.body, fn_clip.body, fn_cumsum_2.body, fn_cumsum_1.body, fn_where.body, fn_floor_divide.body, fn_where_3.body, fn_remainder.body, fn_where_4.body, fn_leaky_relu.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig := by
  simp only [List.Forall]
  exact ⟨nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., unary_bufs_sub .., binary_bufs_sub .., reshape_bufs_sub .., unary_bufs_sub .., nullary_bufs_sub .., unary_bufs_sub .., binary_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub ..⟩

/-- Every weakly fair execution of the reference terminates, and every final state has each buffer at the line's fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefStages.lean ====
import proofs.«116980_j2911987826887_2_alg».proof.Proof.RefRun

noncomputable section

namespace Cert.ReferenceIdeal.RefStages

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- The twelve argument arrays. -/
structure Args (F : FTy → Type) [FloatOps F] where
  a0 : (⟨S1, .f32⟩ : BufTy).Contents (Elt F)
  a1 : (⟨S1024x128, .f32⟩ : BufTy).Contents (Elt F)
  a2 : (⟨S128x512, .f32⟩ : BufTy).Contents (Elt F)
  a3 : (⟨S512, .f32⟩ : BufTy).Contents (Elt F)
  a4 : (⟨S512x512, .f32⟩ : BufTy).Contents (Elt F)
  a5 : (⟨S512, .f32⟩ : BufTy).Contents (Elt F)
  a6 : (⟨S512x128, .f32⟩ : BufTy).Contents (Elt F)
  a7 : (⟨S128, .f32⟩ : BufTy).Contents (Elt F)
  a8 : (⟨S128x512, .f32⟩ : BufTy).Contents (Elt F)
  a9 : (⟨S512, .f32⟩ : BufTy).Contents (Elt F)
  a10 : (⟨S512x2, .f32⟩ : BufTy).Contents (Elt F)
  a11 : (⟨S2, .f32⟩ : BufTy).Contents (Elt F)

/-- The argument arrays as a valuation holds them. -/
def argsOf (V : Valuation τ sig (Elt F)) : Args F :=
  ⟨V (main_arg0 : DevRef τ sig), V (main_arg1 : DevRef τ sig), V (main_arg2 : DevRef τ sig), V (main_arg3 : DevRef τ sig), V (main_arg4 : DevRef τ sig), V (main_arg5 : DevRef τ sig), V (main_arg6 : DevRef τ sig), V (main_arg7 : DevRef τ sig), V (main_arg8 : DevRef τ sig), V (main_arg9 : DevRef τ sig), V (main_arg10 : DevRef τ sig), V (main_arg11 : DevRef τ sig)⟩

/-- the contents of main_cst -/
def st_main_cst (A : Args F) : (⟨S_, .f32⟩ : BufTy).Contents (Elt F) := (constant S_ .f32 0x3F800000#32)
/-- the contents of main_v0 -/
def st_main_v0 (A : Args F) : (⟨S1024x1024, .f32⟩ : BufTy).Contents (Elt F) := (broadcastInDim S1024x1024 ![] bcast_S_S1024x1024 : (⟨S_, .f32⟩ : BufTy).Contents (Elt F) → (⟨S1024x1024, .f32⟩ : BufTy).Contents (Elt F)) (st_main_cst A)
/-- the contents of main_call0_v0 -/
def st_main_call0_v0 (A : Args F) : (⟨S1024x1024, .i32⟩ : BufTy).Contents (Elt F) := (iotaInDim S1024x1024 32 0)
/-- the contents of main_call0_c -/
def st_main_call0_c (A : Args F) : (⟨S_, .i32⟩ : BufTy).Contents (Elt F) := (constantI S_ 32 0#32)
/-- the contents of main_call0_v1 -/
def st_main_call0_v1 (A : Args F) : (⟨S1024x1024, .i32⟩ : BufTy).Contents (Elt F) := (broadcastInDim S1024x1024 ![] bcast_S_S1024x1024) (st_main_call0_c A)
/-- the contents of main_call0_v2 -/
def st_main_call0_v2 (A : Args F) : (⟨S1024x1024, .i32⟩ : BufTy).Contents (Elt F) := addi (st_main_call0_v0 A) (st_main_call0_v1 A)
/-- the contents of main_call0_v3 -/
def st_main_call0_v3 (A : Args F) : (⟨S1024x1024, .i32⟩ : BufTy).Contents (Elt F) := (iotaInDim S1024x1024 32 1)
/-- the contents of main_call0_v4 -/
def st_main_call0_v4 (A : Args F) : (⟨S1024x1024, .i1⟩ : BufTy).Contents (Elt F) := (cmpi .sge) (st_main_call0_v2 A) (st_main_call0_v3 A)
/-- the contents of main_call0_cst -/
def st_main_call0_cst (A : Args F) : (⟨S_, .f32⟩ : BufTy).Contents (Elt F) := (constant S_ .f32 0x00000000#32)
/-- the contents of main_call0_v5 -/
def st_main_call0_v5 (A : Args F) : (⟨S1024x1024, .f32⟩ : BufTy).Contents (Elt F) := (broadcastInDim S1024x1024 ![] bcast_S_S1024x1024) (st_main_call0_cst A)
/-- the contents of main_v1 -/
def st_main_v1 (A : Args F) : (⟨S1024x1024, .f32⟩ : BufTy).Contents (Elt F) := select (st_main_call0_v4 A) (st_main_call0_v5 A) (st_main_v0 A)
/-- the contents of main_cst_0 -/
def st_main_cst_0 (A : Args F) : (⟨S_, .f32⟩ : BufTy).Contents (Elt F) := (constant S_ .f32 0x00000000#32)
/-- the contents of main_v2 -/
def st_main_v2 (A : Args F) : (⟨S1024x1024, .f32⟩ : BufTy).Contents (Elt F) := (broadcastInDim S1024x1024 ![] bcast_S_S1024x1024 : (⟨S_, .f32⟩ : BufTy).Contents (Elt F) → (⟨S1024x1024, .f32⟩ : BufTy).Contents (Elt F)) (st_main_cst_0 A)
/-- the contents of main_v3 -/
def st_main_v3 (A : Args F) : (⟨S1024x1024, .i1⟩ : BufTy).Contents (Elt F) := (cmpf .une : (⟨S1024x1024, .f32⟩ : BufTy).Contents (Elt F) → (⟨S1024x1024, .f32⟩ : BufTy).Contents (Elt F) → (⟨S1024x1024, .i1⟩ : BufTy).Contents (Elt F)) (st_main_v1 A) (st_main_v2 A)
/-- the contents of main_call1_v0 -/
def st_main_call1_v0 (A : Args F) : (⟨S1048576, .i1⟩ : BufTy).Contents (Elt F) := shapeCast S1048576 (st_main_v3 A) shapeCasts_S1024x1024_S1048576
/-- the contents of main_call1_v1 -/
def st_main_call1_v1 (A : Args F) : (⟨S1048576, .i32⟩ : BufTy).Contents (Elt F) := (extui 32 · natLt_1_32) (st_main_call1_v0 A)
/-- the contents of main_call1_call0_c -/
def st_main_call1_call0_c (A : Args F) : (⟨S_, .i32⟩ : BufTy).Contents (Elt F) := (constantI S_ 32 0#32)
/-- the contents of main_call1_call0_v0 -/
def st_main_call1_call0_v0 (A : Args F) : (⟨S_, .i32⟩ : BufTy).Contents (Elt F) := (broadcastInDim S_ ![] bcast_S_S_) (st_main_call1_call0_c A)
/-- the contents of main_v4 -/
def st_main_v4 (A : Args F) : (⟨S1048576, .i32⟩ : BufTy).Contents (Elt F) := (fun x v => Host.reduceWindow IntOp.addi ![1048576] ![1] ![1048575] ![0] x v reduceWindows_S1048576_S1048576_w1048576s1p1048575_0 h_S_) (st_main_call1_v1 A) (st_main_call1_call0_v0 A)
/-- the contents of main_c -/
def st_main_c (A : Args F) : (⟨S_, .i32⟩ : BufTy).Contents (Elt F) := (constantI S_ 32 0#32)
/-- the contents of main_v5 -/
def st_main_v5 (A : Args F) : (⟨S523776, .i32⟩ : BufTy).Contents (Elt F) := (broadcastInDim S523776 ![] bcast_S_S523776 : (⟨S_, .i32⟩ : BufTy).Contents (Elt F) → (⟨S523776, .i32⟩ : BufTy).Contents (Elt F)) (st_main_c A)
/-- the contents of main_c_1 -/
def st_main_c_1 (A : Args F) : (⟨S_, .i32⟩ : BufTy).Contents (Elt F) := (constantI S_ 32 0#32)
/-- the contents of main_call2_v0 -/
def st_main_call2_v0 (A : Args F) : (⟨S_, .i32⟩ : BufTy).Contents (Elt F) := id (st_main_c_1 A)
/-- the contents of main_call2_v1 -/
def st_main_call2_v1 (A : Args F) : (⟨S1048576, .i32⟩ : BufTy).Contents (Elt F) := (broadcastInDim S1048576 ![] bcast_S_S1048576) (st_main_call2_v0 A)
/-- the contents of main_v6 -/
def st_main_v6 (A : Args F) : (⟨S1048576, .i32⟩ : BufTy).Contents (Elt F) := maxsi (st_main_call2_v1 A) (st_main_v4 A)
/-- the contents of main_c_2 -/
def st_main_c_2 (A : Args F) : (⟨S_, .i32⟩ : BufTy).Contents (Elt F) := (constantI S_ 32 0#32)
/-- the contents of main_v7 -/
def st_main_v7 (A : Args F) : (⟨S1048576, .i32⟩ : BufTy).Contents (Elt F) := (broadcastInDim S1048576 ![] bcast_S_S1048576 : (⟨S_, .i32⟩ : BufTy).Contents (Elt F) → (⟨S1048576, .i32⟩ : BufTy).Contents (Elt F)) (st_main_c_2 A)
/-- the contents of main_v8 -/
def st_main_v8 (A : Args F) : (⟨S1048576, .i1⟩ : BufTy).Contents (Elt F) := (cmpi .slt : (⟨S1048576, .i32⟩ : BufTy).Contents (Elt F) → (⟨S1048576, .i32⟩ : BufTy).Contents (Elt F) → (⟨S1048576, .i1⟩ : BufTy).Contents (Elt F)) (st_main_v6 A) (st_main_v7 A)
/-- the contents of main_c_3 -/
def st_main_c_3 (A : Args F) : (⟨S_, .i32⟩ : BufTy).Contents (Elt F) := (constantI S_ 32 523776#32)
/-- the contents of main_v9 -/
def st_main_v9 (A : Args F) : (⟨S1048576, .i32⟩ : BufTy).Contents (Elt F) := (broadcastInDim S1048576 ![] bcast_S_S1048576 : (⟨S_, .i32⟩ : BufTy).Contents (Elt F) → (⟨S1048576, .i32⟩ : BufTy).Contents (Elt F)) (st_main_c_3 A)
/-- the contents of main_v10 -/
def st_main_v10 (A : Args F) : (⟨S1048576, .i32⟩ : BufTy).Contents (Elt F) := (addi : (⟨S1048576, .i32⟩ : BufTy).Contents (Elt F) → (⟨S1048576, .i32⟩ : BufTy).Contents (Elt F) → (⟨S1048576, .i32⟩ : BufTy).Contents (Elt F)) (st_main_v6 A) (st_main_v9 A)
/-- the contents of main_v11 -/
def st_main_v11 (A : Args F) : (⟨S1048576, .i32⟩ : BufTy).Contents (Elt F) := (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)) (st_main_v8 A) (st_main_v10 A) (st_main_v6 A)
/-- the contents of main_v12 -/
def st_main_v12 (A : Args F) : (⟨S1048576x1, .i32⟩ : BufTy).Contents (Elt F) := (broadcastInDim S1048576x1 ![0] bcast_S1048576_S1048576x1_0 : (⟨S1048576, .i32⟩ : BufTy).Contents (Elt F) → (⟨S1048576x1, .i32⟩ : BufTy).Contents (Elt F)) (st_main_v11 A)
/-- the contents of main_c_4 -/
def st_main_c_4 (A : Args F) : (⟨S_, .i32⟩ : BufTy).Contents (Elt F) := (constantI S_ 32 1#32)
/-- the contents of main_v13 -/
def st_main_v13 (A : Args F) : (⟨S1048576, .i32⟩ : BufTy).Contents (Elt F) := (broadcastInDim S1048576 ![] bcast_S_S1048576 : (⟨S_, .i32⟩ : BufTy).Contents (Elt F) → (⟨S1048576, .i32⟩ : BufTy).Contents (Elt F)) (st_main_c_4 A)
/-- the contents of main_v14 -/
def st_main_v14 (A : Args F) : (⟨S523776, .i32⟩ : BufTy).Contents (Elt F) := ((fun x i u => Host.scatter scatter_S523776_S1048576x1_S1048576_n_0_0_1 IntOp.addi x i u) : (⟨S523776, .i32⟩ : BufTy).Contents (Elt F) → (⟨S1048576x1, .i32⟩ : BufTy).Contents (Elt F) → (⟨S1048576, .i32⟩ : BufTy).Contents (Elt F) → (⟨S523776, .i32⟩ : BufTy).Contents (Elt F)) (st_main_v5 A) (st_main_v12 A) (st_main_v13 A)
/-- the contents of main_call3_call0_c -/
def st_main_call3_call0_c (A : Args F) : (⟨S_, .i32⟩ : BufTy).Contents (Elt F) := (constantI S_ 32 0#32)
/-- the contents of main_call3_call0_v0 -/
def st_main_call3_call0_v0 (A : Args F) : (⟨S_, .i32⟩ : BufTy).Contents (Elt F) := (broadcastInDim S_ ![] bcast_S_S_) (st_main_call3_call0_c A)
/-- the contents of main_v15 -/
def st_main_v15 (A : Args F) : (⟨S523776, .i32⟩ : BufTy).Contents (Elt F) := (fun x v => Host.reduceWindow IntOp.addi ![523776] ![1] ![523775] ![0] x v reduceWindows_S523776_S523776_w523776s1p523775_0 h_S_) (st_main_v14 A) (st_main_call3_call0_v0 A)
/-- the contents of main_c_5 -/
def st_main_c_5 (A : Args F) : (⟨S_, .i32⟩ : BufTy).Contents (Elt F) := (constantI S_ 32 1024#32)
/-- the contents of main_call4_v0 -/
def st_main_call4_v0 (A : Args F) : (⟨S523776, .i32⟩ : BufTy).Contents (Elt F) := (broadcastInDim S523776 ![] bcast_S_S523776) (st_main_c_5 A)
/-- the contents of main_call4_v1 -/
def st_main_call4_v1 (A : Args F) : (⟨S523776, .i32⟩ : BufTy).Contents (Elt F) := Host.divsi (st_main_v15 A) (st_main_call4_v0 A)
/-- the contents of main_call4_v2 -/
def st_main_call4_v2 (A : Args F) : (⟨S523776, .i32⟩ : BufTy).Contents (Elt F) := signi (st_main_v15 A)
/-- the contents of main_call4_v3 -/
def st_main_call4_v3 (A : Args F) : (⟨S_, .i32⟩ : BufTy).Contents (Elt F) := signi (st_main_c_5 A)
/-- the contents of main_call4_v4 -/
def st_main_call4_v4 (A : Args F) : (⟨S523776, .i32⟩ : BufTy).Contents (Elt F) := (broadcastInDim S523776 ![] bcast_S_S523776) (st_main_call4_v3 A)
/-- the contents of main_call4_v5 -/
def st_main_call4_v5 (A : Args F) : (⟨S523776, .i1⟩ : BufTy).Contents (Elt F) := (cmpi .ne) (st_main_call4_v2 A) (st_main_call4_v4 A)
/-- the contents of main_call4_v6 -/
def st_main_call4_v6 (A : Args F) : (⟨S523776, .i32⟩ : BufTy).Contents (Elt F) := (broadcastInDim S523776 ![] bcast_S_S523776) (st_main_c_5 A)
/-- the contents of main_call4_v7 -/
def st_main_call4_v7 (A : Args F) : (⟨S523776, .i32⟩ : BufTy).Contents (Elt F) := Host.remsi (st_main_v15 A) (st_main_call4_v6 A)
/-- the contents of main_call4_c -/
def st_main_call4_c (A : Args F) : (⟨S_, .i32⟩ : BufTy).Contents (Elt F) := (constantI S_ 32 0#32)
/-- the contents of main_call4_v8 -/
def st_main_call4_v8 (A : Args F) : (⟨S523776, .i32⟩ : BufTy).Contents (Elt F) := (broadcastInDim S523776 ![] bcast_S_S523776) (st_main_call4_c A)
/-- the contents of main_call4_v9 -/
def st_main_call4_v9 (A : Args F) : (⟨S523776, .i1⟩ : BufTy).Contents (Elt F) := (cmpi .ne) (st_main_call4_v7 A) (st_main_call4_v8 A)
/-- the contents of main_call4_v10 -/
def st_main_call4_v10 (A : Args F) : (⟨S523776, .i1⟩ : BufTy).Contents (Elt F) := andi (st_main_call4_v5 A) (st_main_call4_v9 A)
/-- the contents of main_call4_c_0 -/
def st_main_call4_c_0 (A : Args F) : (⟨S_, .i32⟩ : BufTy).Contents (Elt F) := (constantI S_ 32 1#32)
/-- the contents of main_call4_v11 -/
def st_main_call4_v11 (A : Args F) : (⟨S523776, .i32⟩ : BufTy).Contents (Elt F) := (broadcastInDim S523776 ![] bcast_S_S523776) (st_main_call4_c_0 A)
/-- the contents of main_call4_v12 -/
def st_main_call4_v12 (A : Args F) : (⟨S523776, .i32⟩ : BufTy).Contents (Elt F) := subi (st_main_call4_v1 A) (st_main_call4_v11 A)
/-- the contents of main_v16 -/
def st_main_v16 (A : Args F) : (⟨S523776, .i32⟩ : BufTy).Contents (Elt F) := select (st_main_call4_v10 A) (st_main_call4_v12 A) (st_main_call4_v1 A)
/-- the contents of main_c_6 -/
def st_main_c_6 (A : Args F) : (⟨S_, .i32⟩ : BufTy).Contents (Elt F) := (constantI S_ 32 1024#32)
/-- the contents of main_call5_v0 -/
def st_main_call5_v0 (A : Args F) : (⟨S_, .i32⟩ : BufTy).Contents (Elt F) := id (st_main_c_6 A)
/-- the contents of main_call5_c -/
def st_main_call5_c (A : Args F) : (⟨S_, .i32⟩ : BufTy).Contents (Elt F) := (constantI S_ 32 0#32)
/-- the contents of main_call5_v1 -/
def st_main_call5_v1 (A : Args F) : (⟨S_, .i1⟩ : BufTy).Contents (Elt F) := (cmpi .eq) (st_main_call5_v0 A) (st_main_call5_c A)
/-- the contents of main_call5_c_0 -/
def st_main_call5_c_0 (A : Args F) : (⟨S_, .i32⟩ : BufTy).Contents (Elt F) := (constantI S_ 32 1#32)
/-- the contents of main_call5_v2 -/
def st_main_call5_v2 (A : Args F) : (⟨S_, .i32⟩ : BufTy).Contents (Elt F) := select (st_main_call5_v1 A) (st_main_call5_c_0 A) (st_main_call5_v0 A)
/-- the contents of main_call5_v3 -/
def st_main_call5_v3 (A : Args F) : (⟨S523776, .i32⟩ : BufTy).Contents (Elt F) := (broadcastInDim S523776 ![] bcast_S_S523776) (st_main_call5_v2 A)
/-- the contents of main_call5_v4 -/
def st_main_call5_v4 (A : Args F) : (⟨S523776, .i32⟩ : BufTy).Contents (Elt F) := Host.remsi (st_main_v16 A) (st_main_call5_v3 A)
/-- the contents of main_call5_c_1 -/
def st_main_call5_c_1 (A : Args F) : (⟨S_, .i32⟩ : BufTy).Contents (Elt F) := (constantI S_ 32 0#32)
/-- the contents of main_call5_v5 -/
def st_main_call5_v5 (A : Args F) : (⟨S523776, .i32⟩ : BufTy).Contents (Elt F) := (broadcastInDim S523776 ![] bcast_S_S523776) (st_main_call5_c_1 A)
/-- the contents of main_call5_v6 -/
def st_main_call5_v6 (A : Args F) : (⟨S523776, .i1⟩ : BufTy).Contents (Elt F) := (cmpi .ne) (st_main_call5_v4 A) (st_main_call5_v5 A)
/-- the contents of main_call5_c_2 -/
def st_main_call5_c_2 (A : Args F) : (⟨S_, .i32⟩ : BufTy).Contents (Elt F) := (constantI S_ 32 0#32)
/-- the contents of main_call5_v7 -/
def st_main_call5_v7 (A : Args F) : (⟨S523776, .i32⟩ : BufTy).Contents (Elt F) := (broadcastInDim S523776 ![] bcast_S_S523776) (st_main_call5_c_2 A)
/-- the contents of main_call5_v8 -/
def st_main_call5_v8 (A : Args F) : (⟨S523776, .i1⟩ : BufTy).Contents (Elt F) := (cmpi .slt) (st_main_call5_v4 A) (st_main_call5_v7 A)
/-- the contents of main_call5_c_3 -/
def st_main_call5_c_3 (A : Args F) : (⟨S_, .i32⟩ : BufTy).Contents (Elt F) := (constantI S_ 32 0#32)
/-- the contents of main_call5_v9 -/
def st_main_call5_v9 (A : Args F) : (⟨S_, .i1⟩ : BufTy).Contents (Elt F) := (cmpi .slt) (st_main_call5_v2 A) (st_main_call5_c_3 A)
/-- the contents of main_call5_v10 -/
def st_main_call5_v10 (A : Args F) : (⟨S523776, .i1⟩ : BufTy).Contents (Elt F) := (broadcastInDim S523776 ![] bcast_S_S523776) (st_main_call5_v9 A)
/-- the contents of main_call5_v11 -/
def st_main_call5_v11 (A : Args F) : (⟨S523776, .i1⟩ : BufTy).Contents (Elt F) := (cmpi .ne) (st_main_call5_v8 A) (st_main_call5_v10 A)
/-- the contents of main_call5_v12 -/
def st_main_call5_v12 (A : Args F) : (⟨S523776, .i1⟩ : BufTy).Contents (Elt F) := andi (st_main_call5_v11 A) (st_main_call5_v6 A)
/-- the contents of main_call5_v13 -/
def st_main_call5_v13 (A : Args F) : (⟨S523776, .i32⟩ : BufTy).Contents (Elt F) := (broadcastInDim S523776 ![] bcast_S_S523776) (st_main_call5_v2 A)
/-- the contents of main_call5_v14 -/
def st_main_call5_v14 (A : Args F) : (⟨S523776, .i32⟩ : BufTy).Contents (Elt F) := addi (st_main_call5_v4 A) (st_main_call5_v13 A)
/-- the contents of main_v17 -/
def st_main_v17 (A : Args F) : (⟨S523776, .i32⟩ : BufTy).Contents (Elt F) := select (st_main_call5_v12 A) (st_main_call5_v14 A) (st_main_call5_v4 A)
/-- the contents of main_c_7 -/
def st_main_c_7 (A : Args F) : (⟨S_, .i32⟩ : BufTy).Contents (Elt F) := (constantI S_ 32 1#32)
/-- the contents of main_call6_v0 -/
def st_main_call6_v0 (A : Args F) : (⟨S523776, .i32⟩ : BufTy).Contents (Elt F) := (broadcastInDim S523776 ![] bcast_S_S523776) (st_main_c_7 A)
/-- the contents of main_call6_v1 -/
def st_main_call6_v1 (A : Args F) : (⟨S523776, .i32⟩ : BufTy).Contents (Elt F) := Host.divsi (st_main_v15 A) (st_main_call6_v0 A)
/-- the contents of main_call6_v2 -/
def st_main_call6_v2 (A : Args F) : (⟨S523776, .i32⟩ : BufTy).Contents (Elt F) := signi (st_main_v15 A)
/-- the contents of main_call6_v3 -/
def st_main_call6_v3 (A : Args F) : (⟨S_, .i32⟩ : BufTy).Contents (Elt F) := signi (st_main_c_7 A)
/-- the contents of main_call6_v4 -/
def st_main_call6_v4 (A : Args F) : (⟨S523776, .i32⟩ : BufTy).Contents (Elt F) := (broadcastInDim S523776 ![] bcast_S_S523776) (st_main_call6_v3 A)
/-- the contents of main_call6_v5 -/
def st_main_call6_v5 (A : Args F) : (⟨S523776, .i1⟩ : BufTy).Contents (Elt F) := (cmpi .ne) (st_main_call6_v2 A) (st_main_call6_v4 A)
/-- the contents of main_call6_v6 -/
def st_main_call6_v6 (A : Args F) : (⟨S523776, .i32⟩ : BufTy).Contents (Elt F) := (broadcastInDim S523776 ![] bcast_S_S523776) (st_main_c_7 A)
/-- the contents of main_call6_v7 -/
def st_main_call6_v7 (A : Args F) : (⟨S523776, .i32⟩ : BufTy).Contents (Elt F) := Host.remsi (st_main_v15 A) (st_main_call6_v6 A)
/-- the contents of main_call6_c -/
def st_main_call6_c (A : Args F) : (⟨S_, .i32⟩ : BufTy).Contents (Elt F) := (constantI S_ 32 0#32)
/-- the contents of main_call6_v8 -/
def st_main_call6_v8 (A : Args F) : (⟨S523776, .i32⟩ : BufTy).Contents (Elt F) := (broadcastInDim S523776 ![] bcast_S_S523776) (st_main_call6_c A)
/-- the contents of main_call6_v9 -/
def st_main_call6_v9 (A : Args F) : (⟨S523776, .i1⟩ : BufTy).Contents (Elt F) := (cmpi .ne) (st_main_call6_v7 A) (st_main_call6_v8 A)
/-- the contents of main_call6_v10 -/
def st_main_call6_v10 (A : Args F) : (⟨S523776, .i1⟩ : BufTy).Contents (Elt F) := andi (st_main_call6_v5 A) (st_main_call6_v9 A)
/-- the contents of main_call6_c_0 -/
def st_main_call6_c_0 (A : Args F) : (⟨S_, .i32⟩ : BufTy).Contents (Elt F) := (constantI S_ 32 1#32)
/-- the contents of main_call6_v11 -/
def st_main_call6_v11 (A : Args F) : (⟨S523776, .i32⟩ : BufTy).Contents (Elt F) := (broadcastInDim S523776 ![] bcast_S_S523776) (st_main_call6_c_0 A)
/-- the contents of main_call6_v12 -/
def st_main_call6_v12 (A : Args F) : (⟨S523776, .i32⟩ : BufTy).Contents (Elt F) := subi (st_main_call6_v1 A) (st_main_call6_v11 A)
/-- the contents of main_v18 -/
def st_main_v18 (A : Args F) : (⟨S523776, .i32⟩ : BufTy).Contents (Elt F) := select (st_main_call6_v10 A) (st_main_call6_v12 A) (st_main_call6_v1 A)
/-- the contents of main_c_8 -/
def st_main_c_8 (A : Args F) : (⟨S_, .i32⟩ : BufTy).Contents (Elt F) := (constantI S_ 32 1024#32)
/-- the contents of main_call7_v0 -/
def st_main_call7_v0 (A : Args F) : (⟨S_, .i32⟩ : BufTy).Contents (Elt F) := id (st_main_c_8 A)
/-- the contents of main_call7_c -/
def st_main_call7_c (A : Args F) : (⟨S_, .i32⟩ : BufTy).Contents (Elt F) := (constantI S_ 32 0#32)
/-- the contents of main_call7_v1 -/
def st_main_call7_v1 (A : Args F) : (⟨S_, .i1⟩ : BufTy).Contents (Elt F) := (cmpi .eq) (st_main_call7_v0 A) (st_main_call7_c A)
/-- the contents of main_call7_c_0 -/
def st_main_call7_c_0 (A : Args F) : (⟨S_, .i32⟩ : BufTy).Contents (Elt F) := (constantI S_ 32 1#32)
/-- the contents of main_call7_v2 -/
def st_main_call7_v2 (A : Args F) : (⟨S_, .i32⟩ : BufTy).Contents (Elt F) := select (st_main_call7_v1 A) (st_main_call7_c_0 A) (st_main_call7_v0 A)
/-- the contents of main_call7_v3 -/
def st_main_call7_v3 (A : Args F) : (⟨S523776, .i32⟩ : BufTy).Contents (Elt F) := (broadcastInDim S523776 ![] bcast_S_S523776) (st_main_call7_v2 A)
/-- the contents of main_call7_v4 -/
def st_main_call7_v4 (A : Args F) : (⟨S523776, .i32⟩ : BufTy).Contents (Elt F) := Host.remsi (st_main_v18 A) (st_main_call7_v3 A)
/-- the contents of main_call7_c_1 -/
def st_main_call7_c_1 (A : Args F) : (⟨S_, .i32⟩ : BufTy).Contents (Elt F) := (constantI S_ 32 0#32)
/-- the contents of main_call7_v5 -/
def st_main_call7_v5 (A : Args F) : (⟨S523776, .i32⟩ : BufTy).Contents (Elt F) := (broadcastInDim S523776 ![] bcast_S_S523776) (st_main_call7_c_1 A)
/-- the contents of main_call7_v6 -/
def st_main_call7_v6 (A : Args F) : (⟨S523776, .i1⟩ : BufTy).Contents (Elt F) := (cmpi .ne) (st_main_call7_v4 A) (st_main_call7_v5 A)
/-- the contents of main_call7_c_2 -/
def st_main_call7_c_2 (A : Args F) : (⟨S_, .i32⟩ : BufTy).Contents (Elt F) := (constantI S_ 32 0#32)
/-- the contents of main_call7_v7 -/
def st_main_call7_v7 (A : Args F) : (⟨S523776, .i32⟩ : BufTy).Contents (Elt F) := (broadcastInDim S523776 ![] bcast_S_S523776) (st_main_call7_c_2 A)
/-- the contents of main_call7_v8 -/
def st_main_call7_v8 (A : Args F) : (⟨S523776, .i1⟩ : BufTy).Contents (Elt F) := (cmpi .slt) (st_main_call7_v4 A) (st_main_call7_v7 A)
/-- the contents of main_call7_c_3 -/
def st_main_call7_c_3 (A : Args F) : (⟨S_, .i32⟩ : BufTy).Contents (Elt F) := (constantI S_ 32 0#32)
/-- the contents of main_call7_v9 -/
def st_main_call7_v9 (A : Args F) : (⟨S_, .i1⟩ : BufTy).Contents (Elt F) := (cmpi .slt) (st_main_call7_v2 A) (st_main_call7_c_3 A)
/-- the contents of main_call7_v10 -/
def st_main_call7_v10 (A : Args F) : (⟨S523776, .i1⟩ : BufTy).Contents (Elt F) := (broadcastInDim S523776 ![] bcast_S_S523776) (st_main_call7_v9 A)
/-- the contents of main_call7_v11 -/
def st_main_call7_v11 (A : Args F) : (⟨S523776, .i1⟩ : BufTy).Contents (Elt F) := (cmpi .ne) (st_main_call7_v8 A) (st_main_call7_v10 A)
/-- the contents of main_call7_v12 -/
def st_main_call7_v12 (A : Args F) : (⟨S523776, .i1⟩ : BufTy).Contents (Elt F) := andi (st_main_call7_v11 A) (st_main_call7_v6 A)
/-- the contents of main_call7_v13 -/
def st_main_call7_v13 (A : Args F) : (⟨S523776, .i32⟩ : BufTy).Contents (Elt F) := (broadcastInDim S523776 ![] bcast_S_S523776) (st_main_call7_v2 A)
/-- the contents of main_call7_v14 -/
def st_main_call7_v14 (A : Args F) : (⟨S523776, .i32⟩ : BufTy).Contents (Elt F) := addi (st_main_call7_v4 A) (st_main_call7_v13 A)
/-- the contents of main_v19 -/
def st_main_v19 (A : Args F) : (⟨S523776, .i32⟩ : BufTy).Contents (Elt F) := select (st_main_call7_v12 A) (st_main_call7_v14 A) (st_main_call7_v4 A)
/-- the contents of main_v20 -/
def st_main_v20 (A : Args F) : (⟨S1024x512, .f32⟩ : BufTy).Contents (Elt F) := ((fun l r => Host.dotGeneral dot_S1024x128_S128x512_S1024x512_1_0_0_1_n_n none l r) : (⟨S1024x128, .f32⟩ : BufTy).Contents (Elt F) → (⟨S128x512, .f32⟩ : BufTy).Contents (Elt F) → (⟨S1024x512, .f32⟩ : BufTy).Contents (Elt F)) A.a1 A.a2
/-- the contents of main_v21 -/
def st_main_v21 (A : Args F) : (⟨S1x512, .f32⟩ : BufTy).Contents (Elt F) := (broadcastInDim S1x512 ![1] bcast_S512_S1x512_1 : (⟨S512, .f32⟩ : BufTy).Contents (Elt F) → (⟨S1x512, .f32⟩ : BufTy).Contents (Elt F)) A.a3
/-- the contents of main_v22 -/
def st_main_v22 (A : Args F) : (⟨S1024x512, .f32⟩ : BufTy).Contents (Elt F) := (broadcastInDim S1024x512 ![0, 1] bcast_S1x512_S1024x512_0_1 : (⟨S1x512, .f32⟩ : BufTy).Contents (Elt F) → (⟨S1024x512, .f32⟩ : BufTy).Contents (Elt F)) (st_main_v21 A)
/-- the contents of main_v23 -/
def st_main_v23 (A : Args F) : (⟨S1024x512, .f32⟩ : BufTy).Contents (Elt F) := (addf : (⟨S1024x512, .f32⟩ : BufTy).Contents (Elt F) → (⟨S1024x512, .f32⟩ : BufTy).Contents (Elt F) → (⟨S1024x512, .f32⟩ : BufTy).Contents (Elt F)) (st_main_v20 A) (st_main_v22 A)
/-- the contents of main_call8_cst -/
def st_main_call8_cst (A : Args F) : (⟨S_, .f32⟩ : BufTy).Contents (Elt F) := (constant S_ .f32 0x00000000#32)
/-- the contents of main_call8_v0 -/
def st_main_call8_v0 (A : Args F) : (⟨S1024x512, .f32⟩ : BufTy).Contents (Elt F) := (broadcastInDim S1024x512 ![] bcast_S_S1024x512) (st_main_call8_cst A)
/-- the contents of main_call8_v1 -/
def st_main_call8_v1 (A : Args F) : (⟨S1024x512, .i1⟩ : BufTy).Contents (Elt F) := (cmpf .oge) (st_main_v23 A) (st_main_call8_v0 A)
/-- the contents of main_call8_cst_0 -/
def st_main_call8_cst_0 (A : Args F) : (⟨S_, .f32⟩ : BufTy).Contents (Elt F) := (constant S_ .f32 0x3C23D70A#32)
/-- the contents of main_call8_v2 -/
def st_main_call8_v2 (A : Args F) : (⟨S1024x512, .f32⟩ : BufTy).Contents (Elt F) := (broadcastInDim S1024x512 ![] bcast_S_S1024x512) (st_main_call8_cst_0 A)
/-- the contents of main_call8_v3 -/
def st_main_call8_v3 (A : Args F) : (⟨S1024x512, .f32⟩ : BufTy).Contents (Elt F) := mulf (st_main_call8_v2 A) (st_main_v23 A)
/-- the contents of main_v24 -/
def st_main_v24 (A : Args F) : (⟨S1024x512, .f32⟩ : BufTy).Contents (Elt F) := select (st_main_call8_v1 A) (st_main_v23 A) (st_main_call8_v3 A)
/-- the contents of main_v25 -/
def st_main_v25 (A : Args F) : (⟨S1024x512, .f32⟩ : BufTy).Contents (Elt F) := ((fun l r => Host.dotGeneral dot_S1024x512_S512x512_S1024x512_1_0_0_1_n_n none l r) : (⟨S1024x512, .f32⟩ : BufTy).Contents (Elt F) → (⟨S512x512, .f32⟩ : BufTy).Contents (Elt F) → (⟨S1024x512, .f32⟩ : BufTy).Contents (Elt F)) (st_main_v24 A) A.a4
/-- the contents of main_v26 -/
def st_main_v26 (A : Args F) : (⟨S1x512, .f32⟩ : BufTy).Contents (Elt F) := (broadcastInDim S1x512 ![1] bcast_S512_S1x512_1 : (⟨S512, .f32⟩ : BufTy).Contents (Elt F) → (⟨S1x512, .f32⟩ : BufTy).Contents (Elt F)) A.a5
/-- the contents of main_v27 -/
def st_main_v27 (A : Args F) : (⟨S1024x512, .f32⟩ : BufTy).Contents (Elt F) := (broadcastInDim S1024x512 ![0, 1] bcast_S1x512_S1024x512_0_1 : (⟨S1x512, .f32⟩ : BufTy).Contents (Elt F) → (⟨S1024x512, .f32⟩ : BufTy).Contents (Elt F)) (st_main_v26 A)
/-- the contents of main_v28 -/
def st_main_v28 (A : Args F) : (⟨S1024x512, .f32⟩ : BufTy).Contents (Elt F) := (addf : (⟨S1024x512, .f32⟩ : BufTy).Contents (Elt F) → (⟨S1024x512, .f32⟩ : BufTy).Contents (Elt F) → (⟨S1024x512, .f32⟩ : BufTy).Contents (Elt F)) (st_main_v25 A) (st_main_v27 A)
/-- the contents of main_call9_cst -/
def st_main_call9_cst (A : Args F) : (⟨S_, .f32⟩ : BufTy).Contents (Elt F) := (constant S_ .f32 0x00000000#32)
/-- the contents of main_call9_v0 -/
def st_main_call9_v0 (A : Args F) : (⟨S1024x512, .f32⟩ : BufTy).Contents (Elt F) := (broadcastInDim S1024x512 ![] bcast_S_S1024x512) (st_main_call9_cst A)
/-- the contents of main_call9_v1 -/
def st_main_call9_v1 (A : Args F) : (⟨S1024x512, .i1⟩ : BufTy).Contents (Elt F) := (cmpf .oge) (st_main_v28 A) (st_main_call9_v0 A)
/-- the contents of main_call9_cst_0 -/
def st_main_call9_cst_0 (A : Args F) : (⟨S_, .f32⟩ : BufTy).Contents (Elt F) := (constant S_ .f32 0x3C23D70A#32)
/-- the contents of main_call9_v2 -/
def st_main_call9_v2 (A : Args F) : (⟨S1024x512, .f32⟩ : BufTy).Contents (Elt F) := (broadcastInDim S1024x512 ![] bcast_S_S1024x512) (st_main_call9_cst_0 A)
/-- the contents of main_call9_v3 -/
def st_main_call9_v3 (A : Args F) : (⟨S1024x512, .f32⟩ : BufTy).Contents (Elt F) := mulf (st_main_call9_v2 A) (st_main_v28 A)
/-- the contents of main_v29 -/
def st_main_v29 (A : Args F) : (⟨S1024x512, .f32⟩ : BufTy).Contents (Elt F) := select (st_main_call9_v1 A) (st_main_v28 A) (st_main_call9_v3 A)
/-- the contents of main_v30 -/
def st_main_v30 (A : Args F) : (⟨S1024x128, .f32⟩ : BufTy).Contents (Elt F) := ((fun l r => Host.dotGeneral dot_S1024x512_S512x128_S1024x128_1_0_0_1_n_n none l r) : (⟨S1024x512, .f32⟩ : BufTy).Contents (Elt F) → (⟨S512x128, .f32⟩ : BufTy).Contents (Elt F) → (⟨S1024x128, .f32⟩ : BufTy).Contents (Elt F)) (st_main_v29 A) A.a6
/-- the contents of main_v31 -/
def st_main_v31 (A : Args F) : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) A.a7
/-- the contents of main_v32 -/
def st_main_v32 (A : Args F) : (⟨S1024x128, .f32⟩ : BufTy).Contents (Elt F) := (broadcastInDim S1024x128 ![0, 1] bcast_S1x128_S1024x128_0_1 : (⟨S1x128, .f32⟩ : BufTy).Contents (Elt F) → (⟨S1024x128, .f32⟩ : BufTy).Contents (Elt F)) (st_main_v31 A)
/-- the contents of main_v33 -/
def st_main_v33 (A : Args F) : (⟨S1024x128, .f32⟩ : BufTy).Contents (Elt F) := (addf : (⟨S1024x128, .f32⟩ : BufTy).Contents (Elt F) → (⟨S1024x128, .f32⟩ : BufTy).Contents (Elt F) → (⟨S1024x128, .f32⟩ : BufTy).Contents (Elt F)) (st_main_v30 A) (st_main_v32 A)
/-- the contents of main_v34 -/
def st_main_v34 (A : Args F) : (⟨S1024x128, .f32⟩ : BufTy).Contents (Elt F) := (addf : (⟨S1024x128, .f32⟩ : BufTy).Contents (Elt F) → (⟨S1024x128, .f32⟩ : BufTy).Contents (Elt F) → (⟨S1024x128, .f32⟩ : BufTy).Contents (Elt F)) (st_main_v33 A) A.a1
/-- the contents of main_c_9 -/
def st_main_c_9 (A : Args F) : (⟨S_, .i32⟩ : BufTy).Contents (Elt F) := (constantI S_ 32 0#32)
/-- the contents of main_v35 -/
def st_main_v35 (A : Args F) : (⟨S523776, .i32⟩ : BufTy).Contents (Elt F) := (broadcastInDim S523776 ![] bcast_S_S523776 : (⟨S_, .i32⟩ : BufTy).Contents (Elt F) → (⟨S523776, .i32⟩ : BufTy).Contents (Elt F)) (st_main_c_9 A)
/-- the contents of main_v36 -/
def st_main_v36 (A : Args F) : (⟨S523776, .i1⟩ : BufTy).Contents (Elt F) := (cmpi .slt : (⟨S523776, .i32⟩ : BufTy).Contents (Elt F) → (⟨S523776, .i32⟩ : BufTy).Contents (Elt F) → (⟨S523776, .i1⟩ : BufTy).Contents (Elt F)) (st_main_v17 A) (st_main_v35 A)
/-- the contents of main_c_10 -/
def st_main_c_10 (A : Args F) : (⟨S_, .i32⟩ : BufTy).Contents (Elt F) := (constantI S_ 32 1024#32)
/-- the contents of main_v37 -/
def st_main_v37 (A : Args F) : (⟨S523776, .i32⟩ : BufTy).Contents (Elt F) := (broadcastInDim S523776 ![] bcast_S_S523776 : (⟨S_, .i32⟩ : BufTy).Contents (Elt F) → (⟨S523776, .i32⟩ : BufTy).Contents (Elt F)) (st_main_c_10 A)
/-- the contents of main_v38 -/
def st_main_v38 (A : Args F) : (⟨S523776, .i32⟩ : BufTy).Contents (Elt F) := (addi : (⟨S523776, .i32⟩ : BufTy).Contents (Elt F) → (⟨S523776, .i32⟩ : BufTy).Contents (Elt F) → (⟨S523776, .i32⟩ : BufTy).Contents (Elt F)) (st_main_v17 A) (st_main_v37 A)
/-- the contents of main_v39 -/
def st_main_v39 (A : Args F) : (⟨S523776, .i32⟩ : BufTy).Contents (Elt F) := (select : (⟨S523776, .i1⟩ : BufTy).Contents (Elt F) → (⟨S523776, .i32⟩ : BufTy).Contents (Elt F) → (⟨S523776, .i32⟩ : BufTy).Contents (Elt F) → (⟨S523776, .i32⟩ : BufTy).Contents (Elt F)) (st_main_v36 A) (st_main_v38 A) (st_main_v17 A)
/-- the contents of main_v40 -/
def st_main_v40 (A : Args F) : (⟨S523776x1, .i32⟩ : BufTy).Contents (Elt F) := (broadcastInDim S523776x1 ![0] bcast_S523776_S523776x1_0 : (⟨S523776, .i32⟩ : BufTy).Contents (Elt F) → (⟨S523776x1, .i32⟩ : BufTy).Contents (Elt F)) (st_main_v39 A)
/-- the contents of main_v41 -/
def st_main_v41 (A : Args F) : (⟨S523776x128, .f32⟩ : BufTy).Contents (Elt F) := ((fun x i => Host.gather gather_S1024x128_S523776x1_S523776x128_1_0_n_n_0_1_1128 x i) : (⟨S1024x128, .f32⟩ : BufTy).Contents (Elt F) → (⟨S523776x1, .i32⟩ : BufTy).Contents (Elt F) → (⟨S523776x128, .f32⟩ : BufTy).Contents (Elt F)) (st_main_v34 A) (st_main_v40 A)
/-- the contents of main_c_11 -/
def st_main_c_11 (A : Args F) : (⟨S_, .i32⟩ : BufTy).Contents (Elt F) := (constantI S_ 32 0#32)
/-- the contents of main_v42 -/
def st_main_v42 (A : Args F) : (⟨S523776, .i32⟩ : BufTy).Contents (Elt F) := (broadcastInDim S523776 ![] bcast_S_S523776 : (⟨S_, .i32⟩ : BufTy).Contents (Elt F) → (⟨S523776, .i32⟩ : BufTy).Contents (Elt F)) (st_main_c_11 A)
/-- the contents of main_v43 -/
def st_main_v43 (A : Args F) : (⟨S523776, .i1⟩ : BufTy).Contents (Elt F) := (cmpi .slt : (⟨S523776, .i32⟩ : BufTy).Contents (Elt F) → (⟨S523776, .i32⟩ : BufTy).Contents (Elt F) → (⟨S523776, .i1⟩ : BufTy).Contents (Elt F)) (st_main_v19 A) (st_main_v42 A)
/-- the contents of main_c_12 -/
def st_main_c_12 (A : Args F) : (⟨S_, .i32⟩ : BufTy).Contents (Elt F) := (constantI S_ 32 1024#32)
/-- the contents of main_v44 -/
def st_main_v44 (A : Args F) : (⟨S523776, .i32⟩ : BufTy).Contents (Elt F) := (broadcastInDim S523776 ![] bcast_S_S523776 : (⟨S_, .i32⟩ : BufTy).Contents (Elt F) → (⟨S523776, .i32⟩ : BufTy).Contents (Elt F)) (st_main_c_12 A)
/-- the contents of main_v45 -/
def st_main_v45 (A : Args F) : (⟨S523776, .i32⟩ : BufTy).Contents (Elt F) := (addi : (⟨S523776, .i32⟩ : BufTy).Contents (Elt F) → (⟨S523776, .i32⟩ : BufTy).Contents (Elt F) → (⟨S523776, .i32⟩ : BufTy).Contents (Elt F)) (st_main_v19 A) (st_main_v44 A)
/-- the contents of main_v46 -/
def st_main_v46 (A : Args F) : (⟨S523776, .i32⟩ : BufTy).Contents (Elt F) := (select : (⟨S523776, .i1⟩ : BufTy).Contents (Elt F) → (⟨S523776, .i32⟩ : BufTy).Contents (Elt F) → (⟨S523776, .i32⟩ : BufTy).Contents (Elt F) → (⟨S523776, .i32⟩ : BufTy).Contents (Elt F)) (st_main_v43 A) (st_main_v45 A) (st_main_v19 A)
/-- the contents of main_v47 -/
def st_main_v47 (A : Args F) : (⟨S523776x1, .i32⟩ : BufTy).Contents (Elt F) := (broadcastInDim S523776x1 ![0] bcast_S523776_S523776x1_0 : (⟨S523776, .i32⟩ : BufTy).Contents (Elt F) → (⟨S523776x1, .i32⟩ : BufTy).Contents (Elt F)) (st_main_v46 A)
/-- the contents of main_v48 -/
def st_main_v48 (A : Args F) : (⟨S523776x128, .f32⟩ : BufTy).Contents (Elt F) := ((fun x i => Host.gather gather_S1024x128_S523776x1_S523776x128_1_0_n_n_0_1_1128 x i) : (⟨S1024x128, .f32⟩ : BufTy).Contents (Elt F) → (⟨S523776x1, .i32⟩ : BufTy).Contents (Elt F) → (⟨S523776x128, .f32⟩ : BufTy).Contents (Elt F)) (st_main_v34 A) (st_main_v47 A)
/-- the contents of main_v49 -/
def st_main_v49 (A : Args F) : (⟨S523776x128, .f32⟩ : BufTy).Contents (Elt F) := (mulf : (⟨S523776x128, .f32⟩ : BufTy).Contents (Elt F) → (⟨S523776x128, .f32⟩ : BufTy).Contents (Elt F) → (⟨S523776x128, .f32⟩ : BufTy).Contents (Elt F)) (st_main_v41 A) (st_main_v48 A)
/-- the contents of main_v50 -/
def st_main_v50 (A : Args F) : (⟨S523776x512, .f32⟩ : BufTy).Contents (Elt F) := ((fun l r => Host.dotGeneral dot_S523776x128_S128x512_S523776x512_1_0_0_1_n_n none l r) : (⟨S523776x128, .f32⟩ : BufTy).Contents (Elt F) → (⟨S128x512, .f32⟩ : BufTy).Contents (Elt F) → (⟨S523776x512, .f32⟩ : BufTy).Contents (Elt F)) (st_main_v49 A) A.a8
/-- the contents of main_v51 -/
def st_main_v51 (A : Args F) : (⟨S1x512, .f32⟩ : BufTy).Contents (Elt F) := (broadcastInDim S1x512 ![1] bcast_S512_S1x512_1 : (⟨S512, .f32⟩ : BufTy).Contents (Elt F) → (⟨S1x512, .f32⟩ : BufTy).Contents (Elt F)) A.a9
/-- the contents of main_v52 -/
def st_main_v52 (A : Args F) : (⟨S523776x512, .f32⟩ : BufTy).Contents (Elt F) := (broadcastInDim S523776x512 ![0, 1] bcast_S1x512_S523776x512_0_1 : (⟨S1x512, .f32⟩ : BufTy).Contents (Elt F) → (⟨S523776x512, .f32⟩ : BufTy).Contents (Elt F)) (st_main_v51 A)
/-- the contents of main_v53 -/
def st_main_v53 (A : Args F) : (⟨S523776x512, .f32⟩ : BufTy).Contents (Elt F) := (addf : (⟨S523776x512, .f32⟩ : BufTy).Contents (Elt F) → (⟨S523776x512, .f32⟩ : BufTy).Contents (Elt F) → (⟨S523776x512, .f32⟩ : BufTy).Contents (Elt F)) (st_main_v50 A) (st_main_v52 A)
/-- the contents of main_call10_cst -/
def st_main_call10_cst (A : Args F) : (⟨S_, .f32⟩ : BufTy).Contents (Elt F) := (constant S_ .f32 0x00000000#32)
/-- the contents of main_call10_v0 -/
def st_main_call10_v0 (A : Args F) : (⟨S523776x512, .f32⟩ : BufTy).Contents (Elt F) := (broadcastInDim S523776x512 ![] bcast_S_S523776x512) (st_main_call10_cst A)
/-- the contents of main_v54 -/
def st_main_v54 (A : Args F) : (⟨S523776x512, .f32⟩ : BufTy).Contents (Elt F) := maximumf (st_main_v53 A) (st_main_call10_v0 A)
/-- the contents of main_v55 -/
def st_main_v55 (A : Args F) : (⟨S523776x2, .f32⟩ : BufTy).Contents (Elt F) := ((fun l r => Host.dotGeneral dot_S523776x512_S512x2_S523776x2_1_0_0_1_n_n none l r) : (⟨S523776x512, .f32⟩ : BufTy).Contents (Elt F) → (⟨S512x2, .f32⟩ : BufTy).Contents (Elt F) → (⟨S523776x2, .f32⟩ : BufTy).Contents (Elt F)) (st_main_v54 A) A.a10
/-- the contents of main_v56 -/
def st_main_v56 (A : Args F) : (⟨S1x2, .f32⟩ : BufTy).Contents (Elt F) := (broadcastInDim S1x2 ![1] bcast_S2_S1x2_1 : (⟨S2, .f32⟩ : BufTy).Contents (Elt F) → (⟨S1x2, .f32⟩ : BufTy).Contents (Elt F)) A.a11
/-- the contents of main_v57 -/
def st_main_v57 (A : Args F) : (⟨S523776x2, .f32⟩ : BufTy).Contents (Elt F) := (broadcastInDim S523776x2 ![0, 1] bcast_S1x2_S523776x2_0_1 : (⟨S1x2, .f32⟩ : BufTy).Contents (Elt F) → (⟨S523776x2, .f32⟩ : BufTy).Contents (Elt F)) (st_main_v56 A)
/-- the contents of main_v58 -/
def st_main_v58 (A : Args F) : (⟨S523776x2, .f32⟩ : BufTy).Contents (Elt F) := (addf : (⟨S523776x2, .f32⟩ : BufTy).Contents (Elt F) → (⟨S523776x2, .f32⟩ : BufTy).Contents (Elt F) → (⟨S523776x2, .f32⟩ : BufTy).Contents (Elt F)) (st_main_v55 A) (st_main_v57 A)
/-- the contents of main_cst_13 -/
def st_main_cst_13 (A : Args F) : (⟨S_, .f32⟩ : BufTy).Contents (Elt F) := (constant S_ .f32 0xFF800000#32)
/-- the contents of main_v59 -/
def st_main_v59 (A : Args F) : (⟨S523776, .f32⟩ : BufTy).Contents (Elt F) := ((fun x v => Host.reduce FloatOps.maximumf x v reducesTo_S523776x2_S523776_d1 h_S_) : (⟨S523776x2, .f32⟩ : BufTy).Contents (Elt F) → (⟨S_, .f32⟩ : BufTy).Contents (Elt F) → (⟨S523776, .f32⟩ : BufTy).Contents (Elt F)) (st_main_v58 A) (st_main_cst_13 A)
/-- the contents of main_cst_14 -/
def st_main_cst_14 (A : Args F) : (⟨S_, .f32⟩ : BufTy).Contents (Elt F) := (constant S_ .f32 0xFF800000#32)
/-- the contents of main_v60 -/
def st_main_v60 (A : Args F) : (⟨S523776, .f32⟩ : BufTy).Contents (Elt F) := (broadcastInDim S523776 ![] bcast_S_S523776 : (⟨S_, .f32⟩ : BufTy).Contents (Elt F) → (⟨S523776, .f32⟩ : BufTy).Contents (Elt F)) (st_main_cst_14 A)
/-- the contents of main_v61 -/
def st_main_v61 (A : Args F) : (⟨S523776, .f32⟩ : BufTy).Contents (Elt F) := (maximumf : (⟨S523776, .f32⟩ : BufTy).Contents (Elt F) → (⟨S523776, .f32⟩ : BufTy).Contents (Elt F) → (⟨S523776, .f32⟩ : BufTy).Contents (Elt F)) (st_main_v60 A) (st_main_v59 A)
/-- the contents of main_v62 -/
def st_main_v62 (A : Args F) : (⟨S523776x1, .f32⟩ : BufTy).Contents (Elt F) := (broadcastInDim S523776x1 ![0] bcast_S523776_S523776x1_0 : (⟨S523776, .f32⟩ : BufTy).Contents (Elt F) → (⟨S523776x1, .f32⟩ : BufTy).Contents (Elt F)) (st_main_v61 A)
/-- the contents of main_v63 -/
def st_main_v63 (A : Args F) : (⟨S523776x2, .f32⟩ : BufTy).Contents (Elt F) := (broadcastInDim S523776x2 ![0, 1] bcast_S523776x1_S523776x2_0_1 : (⟨S523776x1, .f32⟩ : BufTy).Contents (Elt F) → (⟨S523776x2, .f32⟩ : BufTy).Contents (Elt F)) (st_main_v62 A)
/-- the contents of main_v64 -/
def st_main_v64 (A : Args F) : (⟨S523776x2, .f32⟩ : BufTy).Contents (Elt F) := (subf : (⟨S523776x2, .f32⟩ : BufTy).Contents (Elt F) → (⟨S523776x2, .f32⟩ : BufTy).Contents (Elt F) → (⟨S523776x2, .f32⟩ : BufTy).Contents (Elt F)) (st_main_v58 A) (st_main_v63 A)
/-- the contents of main_v65 -/
def st_main_v65 (A : Args F) : (⟨S523776x2, .f32⟩ : BufTy).Contents (Elt F) := (Host.exp : (⟨S523776x2, .f32⟩ : BufTy).Contents (Elt F) → (⟨S523776x2, .f32⟩ : BufTy).Contents (Elt F)) (st_main_v64 A)
/-- the contents of main_cst_15 -/
def st_main_cst_15 (A : Args F) : (⟨S_, .f32⟩ : BufTy).Contents (Elt F) := (constant S_ .f32 0x00000000#32)
/-- the contents of main_v66 -/
def st_main_v66 (A : Args F) : (⟨S523776, .f32⟩ : BufTy).Contents (Elt F) := ((fun x v => Host.reduceAdd x v reducesTo_S523776x2_S523776_d1 h_S_) : (⟨S523776x2, .f32⟩ : BufTy).Contents (Elt F) → (⟨S_, .f32⟩ : BufTy).Contents (Elt F) → (⟨S523776, .f32⟩ : BufTy).Contents (Elt F)) (st_main_v65 A) (st_main_cst_15 A)
/-- the contents of main_v67 -/
def st_main_v67 (A : Args F) : (⟨S523776x1, .f32⟩ : BufTy).Contents (Elt F) := (broadcastInDim S523776x1 ![0] bcast_S523776_S523776x1_0 : (⟨S523776, .f32⟩ : BufTy).Contents (Elt F) → (⟨S523776x1, .f32⟩ : BufTy).Contents (Elt F)) (st_main_v66 A)
/-- the contents of main_v68 -/
def st_main_v68 (A : Args F) : (⟨S523776x2, .f32⟩ : BufTy).Contents (Elt F) := (broadcastInDim S523776x2 ![0, 1] bcast_S523776x1_S523776x2_0_1 : (⟨S523776x1, .f32⟩ : BufTy).Contents (Elt F) → (⟨S523776x2, .f32⟩ : BufTy).Contents (Elt F)) (st_main_v67 A)
/-- the contents of main_v69 -/
def st_main_v69 (A : Args F) : (⟨S523776x2, .f32⟩ : BufTy).Contents (Elt F) := (Host.divf : (⟨S523776x2, .f32⟩ : BufTy).Contents (Elt F) → (⟨S523776x2, .f32⟩ : BufTy).Contents (Elt F) → (⟨S523776x2, .f32⟩ : BufTy).Contents (Elt F)) (st_main_v65 A) (st_main_v68 A)
/-- the contents of main_cst_16 -/
def st_main_cst_16 (A : Args F) : (⟨S_, .f32⟩ : BufTy).Contents (Elt F) := (constant S_ .f32 0x00000000#32)
/-- the contents of main_v70 -/
def st_main_v70 (A : Args F) : (⟨S1024x1024x2, .f32⟩ : BufTy).Contents (Elt F) := (broadcastInDim S1024x1024x2 ![] bcast_S_S1024x1024x2 : (⟨S_, .f32⟩ : BufTy).Contents (Elt F) → (⟨S1024x1024x2, .f32⟩ : BufTy).Contents (Elt F)) (st_main_cst_16 A)
/-- the contents of main_c_17 -/
def st_main_c_17 (A : Args F) : (⟨S_, .i32⟩ : BufTy).Contents (Elt F) := (constantI S_ 32 0#32)
/-- the contents of main_v71 -/
def st_main_v71 (A : Args F) : (⟨S523776, .i32⟩ : BufTy).Contents (Elt F) := (broadcastInDim S523776 ![] bcast_S_S523776 : (⟨S_, .i32⟩ : BufTy).Contents (Elt F) → (⟨S523776, .i32⟩ : BufTy).Contents (Elt F)) (st_main_c_17 A)
/-- the contents of main_v72 -/
def st_main_v72 (A : Args F) : (⟨S523776, .i1⟩ : BufTy).Contents (Elt F) := (cmpi .slt : (⟨S523776, .i32⟩ : BufTy).Contents (Elt F) → (⟨S523776, .i32⟩ : BufTy).Contents (Elt F) → (⟨S523776, .i1⟩ : BufTy).Contents (Elt F)) (st_main_v17 A) (st_main_v71 A)
/-- the contents of main_c_18 -/
def st_main_c_18 (A : Args F) : (⟨S_, .i32⟩ : BufTy).Contents (Elt F) := (constantI S_ 32 1024#32)
/-- the contents of main_v73 -/
def st_main_v73 (A : Args F) : (⟨S523776, .i32⟩ : BufTy).Contents (Elt F) := (broadcastInDim S523776 ![] bcast_S_S523776 : (⟨S_, .i32⟩ : BufTy).Contents (Elt F) → (⟨S523776, .i32⟩ : BufTy).Contents (Elt F)) (st_main_c_18 A)
/-- the contents of main_v74 -/
def st_main_v74 (A : Args F) : (⟨S523776, .i32⟩ : BufTy).Contents (Elt F) := (addi : (⟨S523776, .i32⟩ : BufTy).Contents (Elt F) → (⟨S523776, .i32⟩ : BufTy).Contents (Elt F) → (⟨S523776, .i32⟩ : BufTy).Contents (Elt F)) (st_main_v17 A) (st_main_v73 A)
/-- the contents of main_v75 -/
def st_main_v75 (A : Args F) : (⟨S523776, .i32⟩ : BufTy).Contents (Elt F) := (select : (⟨S523776, .i1⟩ : BufTy).Contents (Elt F) → (⟨S523776, .i32⟩ : BufTy).Contents (Elt F) → (⟨S523776, .i32⟩ : BufTy).Contents (Elt F) → (⟨S523776, .i32⟩ : BufTy).Contents (Elt F)) (st_main_v72 A) (st_main_v74 A) (st_main_v17 A)
/-- the contents of main_c_19 -/
def st_main_c_19 (A : Args F) : (⟨S_, .i32⟩ : BufTy).Contents (Elt F) := (constantI S_ 32 0#32)
/-- the contents of main_v76 -/
def st_main_v76 (A : Args F) : (⟨S523776, .i32⟩ : BufTy).Contents (Elt F) := (broadcastInDim S523776 ![] bcast_S_S523776 : (⟨S_, .i32⟩ : BufTy).Contents (Elt F) → (⟨S523776, .i32⟩ : BufTy).Contents (Elt F)) (st_main_c_19 A)
/-- the contents of main_v77 -/
def st_main_v77 (A : Args F) : (⟨S523776, .i1⟩ : BufTy).Contents (Elt F) := (cmpi .slt : (⟨S523776, .i32⟩ : BufTy).Contents (Elt F) → (⟨S523776, .i32⟩ : BufTy).Contents (Elt F) → (⟨S523776, .i1⟩ : BufTy).Contents (Elt F)) (st_main_v19 A) (st_main_v76 A)
/-- the contents of main_c_20 -/
def st_main_c_20 (A : Args F) : (⟨S_, .i32⟩ : BufTy).Contents (Elt F) := (constantI S_ 32 1024#32)
/-- the contents of main_v78 -/
def st_main_v78 (A : Args F) : (⟨S523776, .i32⟩ : BufTy).Contents (Elt F) := (broadcastInDim S523776 ![] bcast_S_S523776 : (⟨S_, .i32⟩ : BufTy).Contents (Elt F) → (⟨S523776, .i32⟩ : BufTy).Contents (Elt F)) (st_main_c_20 A)
/-- the contents of main_v79 -/
def st_main_v79 (A : Args F) : (⟨S523776, .i32⟩ : BufTy).Contents (Elt F) := (addi : (⟨S523776, .i32⟩ : BufTy).Contents (Elt F) → (⟨S523776, .i32⟩ : BufTy).Contents (Elt F) → (⟨S523776, .i32⟩ : BufTy).Contents (Elt F)) (st_main_v19 A) (st_main_v78 A)
/-- the contents of main_v80 -/
def st_main_v80 (A : Args F) : (⟨S523776, .i32⟩ : BufTy).Contents (Elt F) := (select : (⟨S523776, .i1⟩ : BufTy).Contents (Elt F) → (⟨S523776, .i32⟩ : BufTy).Contents (Elt F) → (⟨S523776, .i32⟩ : BufTy).Contents (Elt F) → (⟨S523776, .i32⟩ : BufTy).Contents (Elt F)) (st_main_v77 A) (st_main_v79 A) (st_main_v19 A)
/-- the contents of main_v81 -/
def st_main_v81 (A : Args F) : (⟨S523776x1, .i32⟩ : BufTy).Contents (Elt F) := (broadcastInDim S523776x1 ![0] bcast_S523776_S523776x1_0 : (⟨S523776, .i32⟩ : BufTy).Contents (Elt F) → (⟨S523776x1, .i32⟩ : BufTy).Contents (Elt F)) (st_main_v75 A)
/-- the contents of main_v82 -/
def st_main_v82 (A : Args F) : (⟨S523776x1, .i32⟩ : BufTy).Contents (Elt F) := (broadcastInDim S523776x1 ![0] bcast_S523776_S523776x1_0 : (⟨S523776, .i32⟩ : BufTy).Contents (Elt F) → (⟨S523776x1, .i32⟩ : BufTy).Contents (Elt F)) (st_main_v80 A)
/-- the contents of main_v83 -/
def st_main_v83 (A : Args F) : (⟨S523776x2, .i32⟩ : BufTy).Contents (Elt F) := ((fun a b => concatenate S523776x2 1 [⟨S523776x1, a⟩, ⟨S523776x1, b⟩] concatenates_S523776x1_S523776x1_S523776x2_d1) : (⟨S523776x1, .i32⟩ : BufTy).Contents (Elt F) → (⟨S523776x1, .i32⟩ : BufTy).Contents (Elt F) → (⟨S523776x2, .i32⟩ : BufTy).Contents (Elt F)) (st_main_v81 A) (st_main_v82 A)
/-- the contents of main_v84 -/
def st_main_v84 (A : Args F) : (⟨S1024x1024x2, .f32⟩ : BufTy).Contents (Elt F) := ((fun x i u => Host.scatter scatter_S1024x1024x2_S523776x2_S523776x2_1_01_01_1 (fun _ b => b) x i u) : (⟨S1024x1024x2, .f32⟩ : BufTy).Contents (Elt F) → (⟨S523776x2, .i32⟩ : BufTy).Contents (Elt F) → (⟨S523776x2, .f32⟩ : BufTy).Contents (Elt F) → (⟨S1024x1024x2, .f32⟩ : BufTy).Contents (Elt F)) (st_main_v70 A) (st_main_v83 A) (st_main_v69 A)
/-- the contents of main_c_21 -/
def st_main_c_21 (A : Args F) : (⟨S_, .i32⟩ : BufTy).Contents (Elt F) := (constantI S_ 32 0#32)
/-- the contents of main_v85 -/
def st_main_v85 (A : Args F) : (⟨S523776, .i32⟩ : BufTy).Contents (Elt F) := (broadcastInDim S523776 ![] bcast_S_S523776 : (⟨S_, .i32⟩ : BufTy).Contents (Elt F) → (⟨S523776, .i32⟩ : BufTy).Contents (Elt F)) (st_main_c_21 A)
/-- the contents of main_v86 -/
def st_main_v86 (A : Args F) : (⟨S523776, .i1⟩ : BufTy).Contents (Elt F) := (cmpi .slt : (⟨S523776, .i32⟩ : BufTy).Contents (Elt F) → (⟨S523776, .i32⟩ : BufTy).Contents (Elt F) → (⟨S523776, .i1⟩ : BufTy).Contents (Elt F)) (st_main_v19 A) (st_main_v85 A)
/-- the contents of main_c_22 -/
def st_main_c_22 (A : Args F) : (⟨S_, .i32⟩ : BufTy).Contents (Elt F) := (constantI S_ 32 1024#32)
/-- the contents of main_v87 -/
def st_main_v87 (A : Args F) : (⟨S523776, .i32⟩ : BufTy).Contents (Elt F) := (broadcastInDim S523776 ![] bcast_S_S523776 : (⟨S_, .i32⟩ : BufTy).Contents (Elt F) → (⟨S523776, .i32⟩ : BufTy).Contents (Elt F)) (st_main_c_22 A)
/-- the contents of main_v88 -/
def st_main_v88 (A : Args F) : (⟨S523776, .i32⟩ : BufTy).Contents (Elt F) := (addi : (⟨S523776, .i32⟩ : BufTy).Contents (Elt F) → (⟨S523776, .i32⟩ : BufTy).Contents (Elt F) → (⟨S523776, .i32⟩ : BufTy).Contents (Elt F)) (st_main_v19 A) (st_main_v87 A)
/-- the contents of main_v89 -/
def st_main_v89 (A : Args F) : (⟨S523776, .i32⟩ : BufTy).Contents (Elt F) := (select : (⟨S523776, .i1⟩ : BufTy).Contents (Elt F) → (⟨S523776, .i32⟩ : BufTy).Contents (Elt F) → (⟨S523776, .i32⟩ : BufTy).Contents (Elt F) → (⟨S523776, .i32⟩ : BufTy).Contents (Elt F)) (st_main_v86 A) (st_main_v88 A) (st_main_v19 A)
/-- the contents of main_c_23 -/
def st_main_c_23 (A : Args F) : (⟨S_, .i32⟩ : BufTy).Contents (Elt F) := (constantI S_ 32 0#32)
/-- the contents of main_v90 -/
def st_main_v90 (A : Args F) : (⟨S523776, .i32⟩ : BufTy).Contents (Elt F) := (broadcastInDim S523776 ![] bcast_S_S523776 : (⟨S_, .i32⟩ : BufTy).Contents (Elt F) → (⟨S523776, .i32⟩ : BufTy).Contents (Elt F)) (st_main_c_23 A)
/-- the contents of main_v91 -/
def st_main_v91 (A : Args F) : (⟨S523776, .i1⟩ : BufTy).Contents (Elt F) := (cmpi .slt : (⟨S523776, .i32⟩ : BufTy).Contents (Elt F) → (⟨S523776, .i32⟩ : BufTy).Contents (Elt F) → (⟨S523776, .i1⟩ : BufTy).Contents (Elt F)) (st_main_v17 A) (st_main_v90 A)
/-- the contents of main_c_24 -/
def st_main_c_24 (A : Args F) : (⟨S_, .i32⟩ : BufTy).Contents (Elt F) := (constantI S_ 32 1024#32)
/-- the contents of main_v92 -/
def st_main_v92 (A : Args F) : (⟨S523776, .i32⟩ : BufTy).Contents (Elt F) := (broadcastInDim S523776 ![] bcast_S_S523776 : (⟨S_, .i32⟩ : BufTy).Contents (Elt F) → (⟨S523776, .i32⟩ : BufTy).Contents (Elt F)) (st_main_c_24 A)
/-- the contents of main_v93 -/
def st_main_v93 (A : Args F) : (⟨S523776, .i32⟩ : BufTy).Contents (Elt F) := (addi : (⟨S523776, .i32⟩ : BufTy).Contents (Elt F) → (⟨S523776, .i32⟩ : BufTy).Contents (Elt F) → (⟨S523776, .i32⟩ : BufTy).Contents (Elt F)) (st_main_v17 A) (st_main_v92 A)
/-- the contents of main_v94 -/
def st_main_v94 (A : Args F) : (⟨S523776, .i32⟩ : BufTy).Contents (Elt F) := (select : (⟨S523776, .i1⟩ : BufTy).Contents (Elt F) → (⟨S523776, .i32⟩ : BufTy).Contents (Elt F) → (⟨S523776, .i32⟩ : BufTy).Contents (Elt F) → (⟨S523776, .i32⟩ : BufTy).Contents (Elt F)) (st_main_v91 A) (st_main_v93 A) (st_main_v17 A)
/-- the contents of main_v95 -/
def st_main_v95 (A : Args F) : (⟨S523776x1, .i32⟩ : BufTy).Contents (Elt F) := (broadcastInDim S523776x1 ![0] bcast_S523776_S523776x1_0 : (⟨S523776, .i32⟩ : BufTy).Contents (Elt F) → (⟨S523776x1, .i32⟩ : BufTy).Contents (Elt F)) (st_main_v89 A)
/-- the contents of main_v96 -/
def st_main_v96 (A : Args F) : (⟨S523776x1, .i32⟩ : BufTy).Contents (Elt F) := (broadcastInDim S523776x1 ![0] bcast_S523776_S523776x1_0 : (⟨S523776, .i32⟩ : BufTy).Contents (Elt F) → (⟨S523776x1, .i32⟩ : BufTy).Contents (Elt F)) (st_main_v94 A)
/-- the contents of main_v97 -/
def st_main_v97 (A : Args F) : (⟨S523776x2, .i32⟩ : BufTy).Contents (Elt F) := ((fun a b => concatenate S523776x2 1 [⟨S523776x1, a⟩, ⟨S523776x1, b⟩] concatenates_S523776x1_S523776x1_S523776x2_d1) : (⟨S523776x1, .i32⟩ : BufTy).Contents (Elt F) → (⟨S523776x1, .i32⟩ : BufTy).Contents (Elt F) → (⟨S523776x2, .i32⟩ : BufTy).Contents (Elt F)) (st_main_v95 A) (st_main_v96 A)
/-- the contents of main_v98 -/
def st_main_v98 (A : Args F) : (⟨S1024x1024x2, .f32⟩ : BufTy).Contents (Elt F) := ((fun x i u => Host.scatter scatter_S1024x1024x2_S523776x2_S523776x2_1_01_01_1 (fun _ b => b) x i u) : (⟨S1024x1024x2, .f32⟩ : BufTy).Contents (Elt F) → (⟨S523776x2, .i32⟩ : BufTy).Contents (Elt F) → (⟨S523776x2, .f32⟩ : BufTy).Contents (Elt F) → (⟨S1024x1024x2, .f32⟩ : BufTy).Contents (Elt F)) (st_main_v84 A) (st_main_v97 A) (st_main_v69 A)

end Cert.ReferenceIdeal.RefStages

end
-- ==== Proof.LibHostWalk.lean ====
/-
  Reading a buffer through a straight line of host operations: each operation's result at its own result buffer is
  its function of its operands' contents, and any other buffer keeps what it held. One pass rewrites a read at the end
  of the line into the composed term of the contents the line started from. A two-piece concatenation is restated
  with its two pieces as plain arguments, so that the pass also rewrites the reads inside the pieces.
-/
import Idealize.ShloMosaic.Lib.StableHlo.Run

set_option maxRecDepth 16384

noncomputable section

namespace Cert.HostWalk

open Idealize.ShloMosaic Idealize.ShloMosaic.StableHlo

/-- The concatenation of two pieces along an axis, the pieces as arguments. -/
def cat2 {α : Type} (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

theorem concatenate_pair {α : Type} (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = cat2 t a s₁ s₂ x₁ x₂ h := rfl

/-- Reads a buffer through the fold of a line of host operations (and through whatever further rewriting rules are
    given for the boundaries between lines). -/
macro "walk_back" "[" ls:Lean.Parser.Tactic.simpLemma,* "]" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.nullary, TRef.unary, TRef.binary, TRef.ternary, TRef.quaternary, TRef.reshape, TRef.toBuf, TRef.ofBuf, TRef.of, cast_eq,
      concatenate_pair, $ls,*]))

end Cert.HostWalk

end
-- ==== Proof.RefOut.lean ====
import proofs.«116980_j2911987826887_2_alg».proof.Proof.RefStages
import proofs.«116980_j2911987826887_2_alg».proof.Proof.LibHostWalk

/-!
# The reference's result buffer is the last stage

Reading the result buffer at the end of the reference's straight line gives, operation by operation, the composition
the stage definitions name.
-/

set_option maxRecDepth 65536
set_option maxHeartbeats 4000000

noncomputable section

namespace Cert.ReferenceIdeal.RefOut

open Cert.ReferenceIdeal Cert.ReferenceIdeal.Gen Cert.ReferenceIdeal.RefRun Cert.ReferenceIdeal.RefStages
open Idealize.ShloMosaic Idealize.ShloMosaic.TcCoe Idealize.SL.Sem Idealize.ShloMosaic.StableHlo Cert.HostWalk

variable {F : FTy → Type} [FloatOps F]

attribute [local irreducible] Host.reduceWindow Host.scatter Host.gather Host.reduce Host.reduceAdd in
/-- The result buffer after the line is the last stage at the argument arrays the line started from. -/
theorem out_eq (V : Valuation τ sig (Elt F)) : after ops V (main_v98 : DevRef τ sig) = st_main_v98 (argsOf V) := by
  walk_back []
  rfl

end Cert.ReferenceIdeal.RefOut

end
-- ==== Proof.RefRead.lean ====
import proofs.«116980_j2911987826887_2_alg».proof.Proof.RefStages
import proofs.«116980_j2911987826887_2_alg».proof.Proof.LibHostWalk

/-!
# The reference's result buffer read back through its straight line

Every buffer the line writes holds its operation's function of the buffers it reads; reading the result buffer at the end
of the line therefore gives the composition named, buffer by buffer, in the stage definitions, at the argument arrays the
line started from. No operation writes an argument array.
-/

set_option maxRecDepth 65536

noncomputable section

namespace Cert.ReferenceIdeal.RefRead

open Cert.ReferenceIdeal Cert.ReferenceIdeal.Gen Cert.ReferenceIdeal.RefRun Cert.ReferenceIdeal.RefStages
open Idealize.ShloMosaic Idealize.ShloMosaic.TcCoe Idealize.SL.Sem Idealize.ShloMosaic.StableHlo Cert.HostWalk

variable {F : FTy → Type} [FloatOps F]

/-- Argument 0 is never written. -/
theorem arg0_eq (V : Valuation τ sig (Elt F)) : after ops V (main_arg0 : DevRef τ sig) = V (main_arg0 : DevRef τ sig) := by
  walk_back []

/-- Argument 1 is never written. -/
theorem arg1_eq (V : Valuation τ sig (Elt F)) : after ops V (main_arg1 : DevRef τ sig) = V (main_arg1 : DevRef τ sig) := by
  walk_back []

/-- Argument 2 is never written. -/
theorem arg2_eq (V : Valuation τ sig (Elt F)) : after ops V (main_arg2 : DevRef τ sig) = V (main_arg2 : DevRef τ sig) := by
  walk_back []

/-- Argument 3 is never written. -/
theorem arg3_eq (V : Valuation τ sig (Elt F)) : after ops V (main_arg3 : DevRef τ sig) = V (main_arg3 : DevRef τ sig) := by
  walk_back []

/-- Argument 4 is never written. -/
theorem arg4_eq (V : Valuation τ sig (Elt F)) : after ops V (main_arg4 : DevRef τ sig) = V (main_arg4 : DevRef τ sig) := by
  walk_back []

/-- Argument 5 is never written. -/
theorem arg5_eq (V : Valuation τ sig (Elt F)) : after ops V (main_arg5 : DevRef τ sig) = V (main_arg5 : DevRef τ sig) := by
  walk_back []

/-- Argument 6 is never written. -/
theorem arg6_eq (V : Valuation τ sig (Elt F)) : after ops V (main_arg6 : DevRef τ sig) = V (main_arg6 : DevRef τ sig) := by
  walk_back []

/-- Argument 7 is never written. -/
theorem arg7_eq (V : Valuation τ sig (Elt F)) : after ops V (main_arg7 : DevRef τ sig) = V (main_arg7 : DevRef τ sig) := by
  walk_back []

/-- Argument 8 is never written. -/
theorem arg8_eq (V : Valuation τ sig (Elt F)) : after ops V (main_arg8 : DevRef τ sig) = V (main_arg8 : DevRef τ sig) := by
  walk_back []

/-- Argument 9 is never written. -/
theorem arg9_eq (V : Valuation τ sig (Elt F)) : after ops V (main_arg9 : DevRef τ sig) = V (main_arg9 : DevRef τ sig) := by
  walk_back []

/-- Argument 10 is never written. -/
theorem arg10_eq (V : Valuation τ sig (Elt F)) : after ops V (main_arg10 : DevRef τ sig) = V (main_arg10 : DevRef τ sig) := by
  walk_back []

/-- Argument 11 is never written. -/
theorem arg11_eq (V : Valuation τ sig (Elt F)) : after ops V (main_arg11 : DevRef τ sig) = V (main_arg11 : DevRef τ sig) := by
  walk_back []

end Cert.ReferenceIdeal.RefRead

end
-- ==== Proof.RefFinal.lean ====
import proofs.«116980_j2911987826887_2_alg».proof.Proof.RefOut
import proofs.«116980_j2911987826887_2_alg».proof.Proof.RefRead

/-!
# The reference's run, its result named

Every weakly fair execution of the reference terminates; its result buffer ends at the last stage of the straight line
at the launch's argument arrays, and the argument arrays end as launched.
-/

noncomputable section

namespace Cert.ReferenceIdeal.RefFinal

open Cert.ReferenceIdeal Cert.ReferenceIdeal.Gen Cert.ReferenceIdeal.RefRun Cert.ReferenceIdeal.RefStages
open Cert.ReferenceIdeal.RefRead Cert.ReferenceIdeal.RefOut
open Idealize.ShloMosaic Idealize.ShloMosaic.TcCoe Idealize.SL.Sem Idealize.ShloMosaic.StableHlo

variable {F : FTy → Type} [FloatOps F]

/-- The argument arrays of the launch memory on device `c`. -/
def launchArgs (m : (ℓ : Loc nD τ sig) → Buf (Elt F) ℓ) (c : Dev nD) : Args F := argsOf (launchContents m c)

/-- The reference's run with its result named. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v98) = st_main_v98 (launchArgs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v98).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _)⟩)
    (run_main m ρ)

end Cert.ReferenceIdeal.RefFinal

end
-- ==== Proof.Claims.lean ====
import proofs.«116980_j2911987826887_2_alg».proof.Defs
import proofs.«116980_j2911987826887_2_alg».proof.Proof.Gen.Kernel.Frame
import proofs.«116980_j2911987826887_2_alg».proof.Proof.Gen.Pre_finite_inputs
import proofs.«116980_j2911987826887_2_alg».proof.Proof.KernelRun
import proofs.«116980_j2911987826887_2_alg».proof.Proof.RefFinal

/-!
# The claims, assembled

The three frames are the generated frame of each kernel program and the reference's run with its result dropped; the
idealization rewrote nothing; and the two idealized programs end with equal results because each result array is, entry
by entry, the same function of the argument arrays (`ValueEq`).
-/

noncomputable section

namespace Cert.Proof.Claims

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefFinal.run (F := Ideal) m ρ)

theorem preserves : Cert.preserves_Kernel_KernelIdeal := trivial

/-- What is left: on every device the reference's last stage at its launch arrays is the kernel program's last
    boundary contents at its result buffer, when the two launch memories agree on the arguments and the precondition holds. -/
def ValueEq : Prop :=
  ∀ (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ),
    Cert.Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∀ c : Dev Cert.KernelIdeal.nD,
      Cert.ReferenceIdeal.RefStages.st_main_v98 (Cert.ReferenceIdeal.RefFinal.launchArgs m' c)
        = Cert.KernelIdeal.Gen.W4 (F := Ideal) m ρ c (Proc.devRef .tc Cert.KernelIdeal.main_v12)

theorem algebraic (hv : ValueEq) : Cert.algebraic_KernelIdeal_ReferenceIdeal := by
  intro m ρ m' ρ' hpre hagree
  refine ⟨fun c => Cert.KernelIdeal.Gen.W4 (F := Ideal) m ρ c (Proc.devRef .tc Cert.KernelIdeal.main_v12),
    Cert.KernelIdeal.KRun.run_out (F := Ideal) m ρ, ?_⟩
  refine (θ_run Cert.ReferenceIdeal.defs _ _).mono (fun r h c => ?_) (Cert.ReferenceIdeal.RefFinal.run (F := Ideal) m' ρ')
  obtain ⟨hout, hrest⟩ := h c
  exact ⟨hout.trans (hv m ρ m' hpre hagree c), hrest⟩

end Cert.Proof.Claims

end
-- ==== Proof.Spec.lean ====
import Idealize.ShloMosaic.PureOps.Ideal
import Idealize.ShloMosaic.Lib.ValueIdx

/-!
# What both programs compute, as functions of the argument arrays on the extended reals

A node embedding `h = (lrelu (lrelu (x·w1 + b1) · w2 + b2)) · w4 + b4 + x` of 1024 nodes, and for every ordered pair of
distinct nodes `(a, b)` the two class probabilities of the edge head applied to the entrywise product `h a ⊙ h b`:
`relu((h a ⊙ h b)·w5 + b5)`, two logits through `w6, b6`, and their softmax. The diagonal is zero.
-/

noncomputable section

namespace Cert.Spec

open Idealize.ShloMosaic

/-- The leaky rectifier as both programs spell it: `x` where `x ≥ 0` (ordered comparison), else the f32 word
    `0x3C23D70A` (the float nearest 0.01) times `x`. -/
def lrelu (x : EReal) : EReal :=
  Scalar.select (Scalar.cmpf (F := Ideal) (φ := .f32) .oge x (Ideal.ofBits .f32 0x00000000#32)) x
    (Ideal.ofBits .f32 0x3C23D70A#32 * x)

/-- A dense layer's entry: row `p` of `x` against column `c` of `w`, plus the bias. -/
def dense {K : ℕ} (x : Fin K → EReal) (w : Fin K → EReal) (b : EReal) : EReal := (∑ q, x q * w q) + b

/-- The node embedding at node `n`, feature `f`. -/
def hmlp (x : Fin 1024 → Fin 128 → EReal) (w1 : Fin 128 → Fin 512 → EReal) (b1 : Fin 512 → EReal)
    (w2 : Fin 512 → Fin 512 → EReal) (b2 : Fin 512 → EReal) (w4 : Fin 512 → Fin 128 → EReal) (b4 : Fin 128 → EReal)
    (n : Fin 1024) (f : Fin 128) : EReal :=
  let h1 : Fin 512 → EReal := fun k => lrelu (dense (x n) (fun q => w1 q k) (b1 k))
  let h2 : Fin 512 → EReal := fun k => lrelu (dense h1 (fun q => w2 q k) (b2 k))
  dense h2 (fun q => w4 q f) (b4 f) + x n f

/-- The hidden activations of the edge head for the pair of embedding rows `u`, `v`. -/
def edgeHidden (u v : Fin 128 → EReal) (w5 : Fin 128 → Fin 512 → EReal) (b5 : Fin 512 → EReal) (k : Fin 512) : EReal :=
  max (dense (fun q => u q * v q) (fun q => w5 q k) (b5 k)) (Ideal.ofBits .f32 0x00000000#32)

/-- The edge head's logit difference for the pair of embedding rows `u`, `v`, from the difference column `dw` of the last
    weight matrix and the difference `db` of its two biases (the kernel's route to the two-class softmax). -/
def edgeLogitDiff (u v : Fin 128 → EReal) (w5 : Fin 128 → Fin 512 → EReal) (b5 : Fin 512 → EReal) (dw : Fin 512 → EReal)
    (db : EReal) : EReal :=
  (∑ k, edgeHidden u v w5 b5 k * dw k) + db

/-- The kernel's dense output, class-major: entry `(cls, a, b)` is zero on the diagonal; off it, class 0 is the logistic of
    the logit difference of the pair `(h a, h b)`, class 1 is one minus it. -/
def kernelEdge (h : Fin 1024 → Fin 128 → EReal) (w5 : Fin 128 → Fin 512 → EReal) (b5 : Fin 512 → EReal)
    (dw : Fin 512 → EReal) (db : EReal) (cls : Fin 2) (a b : Fin 1024) : EReal :=
  if b = a then Ideal.ofBits .f32 0x00000000#32
  else if cls = 0 then Ideal.logistic (edgeLogitDiff (h a) (h b) w5 b5 dw db)
  else Ideal.ofBits .f32 0x3F800000#32 - Ideal.logistic (edgeLogitDiff (h a) (h b) w5 b5 dw db)

end Cert.Spec

end
-- ==== Proof.SpecArr.lean ====
import proofs.«116980_j2911987826887_2_alg».proof.Proof.Spec

/-!
# Arrays as functions of their coordinates, and the edge head's class probabilities

`mat` and `vec` read a rank-2 or rank-1 array of extended reals as a function of its coordinates.
`refEdge` is the probability of class `c` for a pair of embedding rows: two logits from the hidden
activations, and their softmax with the row maximum taken as a fold of `max` from −∞ (and once more
against −∞), the exponentials summed without an initial term.
-/

noncomputable section

namespace Cert.Spec

open Idealize.ShloMosaic Idealize.ShloMosaic.ValueIdx

/-- A rank-2 array of extended reals as a function of its two coordinates. -/
def mat {A B : ℕ} (x : (⟨2, ![A, B]⟩ : Shape).Idx → EReal) : Fin A → Fin B → EReal := fun p q => x (ix2 p q)

/-- A rank-1 array of extended reals as a function of its coordinate. -/
def vec {A : ℕ} (x : (⟨1, ![A]⟩ : Shape).Idx → EReal) : Fin A → EReal := fun p => x (ix1 p)

/-- The two logits of the edge head for the pair of embedding rows `u`, `v`. -/
def edgeLogit (u v : Fin 128 → EReal) (w5 : Fin 128 → Fin 512 → EReal) (b5 : Fin 512 → EReal)
    (w6 : Fin 512 → Fin 2 → EReal) (b6 : Fin 2 → EReal) (c : Fin 2) : EReal :=
  dense (edgeHidden u v w5 b5) (fun k => w6 k c) (b6 c)

/-- The largest logit, as a fold of `max` from −∞ and once more against −∞. -/
def edgeTop (l : Fin 2 → EReal) : EReal :=
  max (Ideal.ofBits .f32 0xFF800000#32) ((Finset.univ : Finset (Fin 2)).fold max (Ideal.ofBits .f32 0xFF800000#32) l)

/-- The probability of class `c` for the pair of embedding rows `u`, `v`: the softmax of the two logits. -/
def refEdge (u v : Fin 128 → EReal) (w5 : Fin 128 → Fin 512 → EReal) (b5 : Fin 512 → EReal)
    (w6 : Fin 512 → Fin 2 → EReal) (b6 : Fin 2 → EReal) (c : Fin 2) : EReal :=
  Ideal.div (Ideal.exp (edgeLogit u v w5 b5 w6 b6 c - edgeTop (edgeLogit u v w5 b5 w6 b6)))
    (∑ c' : Fin 2, Ideal.exp (edgeLogit u v w5 b5 w6 b6 c' - edgeTop (edgeLogit u v w5 b5 w6 b6)))

end Cert.Spec

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.LibDenseLayer.lean ====
/-
  Dense (fully connected) layers on the extended reals, and the same layers as a vector unit computes them.

  A matrix is a function of a rank-2 index. The AFFINE layer  l · w + b  has entry (p, c) equal to
  Σ_q l[p,q] · w[q,c] + b[0,c], the bias a 1×N row repeated down the rows; the HIDDEN layer takes the maximum of that with
  the float word of 0.0 (relu; the word is never evaluated). Three kinds of facts, any extents, no program needed:

  * entry (p, c) of a layer depends only on row p of the left operand, column c of the weights and entry c of the bias
    row (`affine_congr`, `hidden_congr`; `network_rows` for a stack of two hidden layers and an affine one), which is what
    lets a block computed from a tile of an operand be read as a block of the layer of the whole arrays;
  * a product into a zero accumulator, plus the bias row broadcast down the rows, and the maximum with the zero splat,
    is the layer as a whole array (`affine_eq`, `hidden_eq`; `product_apply` for the product alone), for dimension numbers
    contracting the left operand's second axis against the right operand's first, any operand formats;
  * a change of float format is the identity (`truncf_eq`) and a vector reshaped to a 1×A row is `row` of it
    (`reshape_row`).
-/
import Idealize.ShloMosaic.PureOps.Ideal.Laws
import Idealize.ShloMosaic.Lib.ValueIdx
import Idealize.ShloMosaic.Lib.ValueLayout
import proofs.«116980_j2911987826887_2_alg».proof.Proof.LibPlainDot

noncomputable section

open scoped BigOperators

namespace Cert.DenseLayer

open Idealize.ShloMosaic Idealize.ShloMosaic.ValueIdx

/-- An A×B matrix of extended reals. -/
abbrev Mat (A B : Nat) : Type := (⟨2, ![A, B]⟩ : Shape).Idx → EReal
/-- A length-A vector of extended reals. -/
abbrev Vect (A : Nat) : Type := (⟨1, ![A]⟩ : Shape).Idx → EReal

/-- The float word of 0.0 read on the extended reals. -/
abbrev zeroWord : EReal := Ideal.ofBits .f32 0x00000000#32

/-- A vector laid out as a 1×A row. -/
def row {A : Nat} (v : Vect A) : Mat 1 A := fun i => v (ix1 (i 1))

theorem row_apply {A : Nat} (v : Vect A) (u : Fin 1) (c : Fin A) : row v (ix2 u c) = v (ix1 c) := rfl

/-- A vector reshaped to a 1×A row is `row` of it. -/
theorem reshape_row {A : Nat} (v : Vect A) (h : (⟨1, ![A]⟩ : Shape).ShapeCasts ⟨2, ![1, A]⟩) :
    shapeCast ⟨2, ![1, A]⟩ v h = row v := by
  funext i
  obtain ⟨u, q, rfl⟩ : ∃ (u : Fin 1) (q : Fin A), i = ix2 u q := ⟨i 0, i 1, eq_ix2 i⟩
  rw [shapeCast_a_1a_apply, row_apply]

/-- l · w + b, the bias a 1×N row repeated down the rows. -/
def affine {M K N : Nat} (l : Mat M K) (w : Mat K N) (b : Mat 1 N) : Mat M N :=
  fun j => (∑ q : Fin K, l (ix2 (j 0) q) * w (ix2 q (j 1))) + b (ix2 (0 : Fin 1) (j 1))

theorem affine_apply {M K N : Nat} (l : Mat M K) (w : Mat K N) (b : Mat 1 N) (p : Fin M) (c : Fin N) :
    affine l w b (ix2 p c) = (∑ q : Fin K, l (ix2 p q) * w (ix2 q c)) + b (ix2 (0 : Fin 1) c) := rfl

/-- relu(l · w + b). -/
def hidden {M K N : Nat} (l : Mat M K) (w : Mat K N) (b : Mat 1 N) : Mat M N :=
  fun j => max (affine l w b j) zeroWord

theorem hidden_apply {M K N : Nat} (l : Mat M K) (w : Mat K N) (b : Mat 1 N) (p : Fin M) (c : Fin N) :
    hidden l w b (ix2 p c) = max ((∑ q : Fin K, l (ix2 p q) * w (ix2 q c)) + b (ix2 (0 : Fin 1) c)) zeroWord := rfl

/-! ## An entry depends on one row, one column and one bias entry -/

section Congr
variable {M M' K N N' : Nat}

theorem affine_congr (l : Mat M K) (l' : Mat M' K) (w : Mat K N) (w' : Mat K N') (b : Mat 1 N) (b' : Mat 1 N')
    (p : Fin M) (p' : Fin M') (c : Fin N) (c' : Fin N')
    (hl : ∀ q : Fin K, l (ix2 p q) = l' (ix2 p' q)) (hw : ∀ q : Fin K, w (ix2 q c) = w' (ix2 q c'))
    (hb : b (ix2 (0 : Fin 1) c) = b' (ix2 (0 : Fin 1) c')) :
    affine l w b (ix2 p c) = affine l' w' b' (ix2 p' c') := by
  rw [affine_apply, affine_apply, hb]
  exact congrArg (· + b' (ix2 (0 : Fin 1) c')) (Finset.sum_congr rfl fun q _ => by rw [hl q, hw q])

theorem hidden_congr (l : Mat M K) (l' : Mat M' K) (w : Mat K N) (w' : Mat K N') (b : Mat 1 N) (b' : Mat 1 N')
    (p : Fin M) (p' : Fin M') (c : Fin N) (c' : Fin N')
    (hl : ∀ q : Fin K, l (ix2 p q) = l' (ix2 p' q)) (hw : ∀ q : Fin K, w (ix2 q c) = w' (ix2 q c'))
    (hb : b (ix2 (0 : Fin 1) c) = b' (ix2 (0 : Fin 1) c')) :
    hidden l w b (ix2 p c) = hidden l' w' b' (ix2 p' c') :=
  congrArg (max · zeroWord) (affine_congr l l' w w' b b' p p' c c' hl hw hb)

/-- Rows of a network of two hidden layers and an affine one: a block of input rows gives the same rows of the output. -/
theorem network_rows {K1 K2 K3 : Nat} (x : Mat M K1) (x' : Mat M' K1) (w1 : Mat K1 K2) (b1 : Mat 1 K2) (w2 : Mat K2 K3) (b2 : Mat 1 K3)
    (w3 : Mat K3 N) (b3 : Mat 1 N) (p : Fin M) (p' : Fin M') (hx : ∀ q : Fin K1, x (ix2 p q) = x' (ix2 p' q)) (c : Fin N) :
    affine (hidden (hidden x w1 b1) w2 b2) w3 b3 (ix2 p c) = affine (hidden (hidden x' w1 b1) w2 b2) w3 b3 (ix2 p' c) :=
  affine_congr _ _ w3 w3 b3 b3 p p' c c
    (fun n => hidden_congr _ _ w2 w2 b2 b2 p p' n n
      (fun k => hidden_congr x x' w1 w1 b1 b1 p p' k k hx (fun _ => rfl) rfl) (fun _ => rfl) rfl)
    (fun _ => rfl) rfl

end Congr

/-! ## The layers as the vector unit computes them -/

section Unit
variable {M K N : Nat} {d : DotDims ⟨2, ![M, K]⟩ ⟨2, ![K, N]⟩ ⟨2, ![M, N]⟩}

/-- Product into a zero accumulator plus the bias row: the affine layer. -/
theorem affine_eq (hd : Cert.PlainDot.IsPlain d) (prec : Option ContractPrecision) {φ₁ φ₂ : FTy}
    (l : FVec Ideal ⟨2, ![M, K]⟩ φ₁) (w : FVec Ideal ⟨2, ![K, N]⟩ φ₂) (b : FVec Ideal ⟨2, ![1, N]⟩ .f32)
    (hb : (⟨2, ![1, N]⟩ : Shape).Broadcasts ⟨2, ![M, N]⟩) :
    addf (matmul d prec l w (constant ⟨2, ![M, N]⟩ .f32 0x00000000#32)) (broadcastTo ⟨2, ![M, N]⟩ b hb)
      = affine l w b := by
  funext j
  obtain ⟨p, c, rfl⟩ : ∃ (p : Fin M) (c : Fin N), j = ix2 p c := ⟨j 0, j 1, eq_ix2 j⟩
  rw [addf_apply, Cert.PlainDot.matmul_zero_apply hd, broadcastTo_1b_ab_apply, affine_apply]

/-- … and the maximum with the zero splat: the hidden layer. -/
theorem hidden_eq (hd : Cert.PlainDot.IsPlain d) (prec : Option ContractPrecision) {φ₁ φ₂ : FTy}
    (l : FVec Ideal ⟨2, ![M, K]⟩ φ₁) (w : FVec Ideal ⟨2, ![K, N]⟩ φ₂) (b : FVec Ideal ⟨2, ![1, N]⟩ .f32)
    (hb : (⟨2, ![1, N]⟩ : Shape).Broadcasts ⟨2, ![M, N]⟩) :
    maximumf (addf (matmul d prec l w (constant ⟨2, ![M, N]⟩ .f32 0x00000000#32)) (broadcastTo ⟨2, ![M, N]⟩ b hb))
        (broadcast ⟨2, ![M, N]⟩ (Scalar.ofBits (F := Ideal) .f32 0x00000000#32))
      = hidden l w b := by
  rw [affine_eq hd]
  rfl

/-- A product into a zero accumulator alone, entry by entry. -/
theorem product_apply (hd : Cert.PlainDot.IsPlain d) (prec : Option ContractPrecision) {φ₁ φ₂ : FTy}
    (l : FVec Ideal ⟨2, ![M, K]⟩ φ₁) (w : FVec Ideal ⟨2, ![K, N]⟩ φ₂) (p : Fin M) (c : Fin N) :
    matmul d prec l w (constant ⟨2, ![M, N]⟩ .f32 0x00000000#32) (ix2 p c) = ∑ q : Fin K, l (ix2 p q) * w (ix2 q c) :=
  Cert.PlainDot.matmul_zero_apply hd prec l w p c

end Unit

/-- A change of float format is the identity on the extended reals. -/
theorem truncf_eq {s : Shape} {φ ψ : FTy} (a : FVec Ideal s φ) (h : ψ.bits < φ.bits) :
    (truncf ψ a h : FVec Ideal s ψ) = a := rfl

end Cert.DenseLayer

end
-- ==== Proof.LibBroadcast.lean ====
/-
  BROADCASTS BY DIMENSION MAP, READ AT ONE ENTRY (general lemmas: any extents, any element type).

  * a vector `[E]` broadcast to the column `[E, 1]` along axis 0: the entry at `(e, 0)` is the vector's entry `e`;
  * a column `[N, 1]` broadcast to `[N, C]` along axes (0, 1): the entry at `(n, c)` is the column's entry at row `n`;
  * a vector `[C]` broadcast to the row `[1, C]` along axis 1 and then down `N` rows: the entry at `(n, c)` is the
    vector's entry `c`;
  * a rank-0 value broadcast over any shape: every entry is that value.
  (An operand axis of extent one is read at coordinate zero, so the extents that are not unit axes are assumed `≠ 1`.)
-/
import Idealize.ShloMosaic.Lib.Pipeline.Value
import Idealize.ShloMosaic.Lib.ValueIdx

noncomputable section

namespace Cert.Bcast

open Idealize.ShloMosaic Idealize.ShloMosaic.ValueIdx

/-- A vector as a column. -/
theorem col_apply {α : Type} {E : Nat} (hE : E ≠ 1) (x : (⟨1, ![E]⟩ : Shape).Idx → α)
    (h : (⟨1, ![E]⟩ : Shape).BroadcastsInDim ⟨2, ![E, 1]⟩ ![0]) (e : Fin E) (u : Fin 1) :
    broadcastInDim ⟨2, ![E, 1]⟩ ![0] h x (ix2 e u) = x (ix1 e) :=
  broadcastInDim_apply ![0] h x (ix2 e u) (ix1 e) (fun a => by
    match a with
    | ⟨0, _⟩ =>
      show e.val = if E = 1 then 0 else e.val
      rw [if_neg hE])

/-- A column repeated across `C` columns. -/
theorem rows_of_col_apply {α : Type} {N C : Nat} (hN : N ≠ 1) (x : (⟨2, ![N, 1]⟩ : Shape).Idx → α)
    (h : (⟨2, ![N, 1]⟩ : Shape).BroadcastsInDim ⟨2, ![N, C]⟩ ![0, 1]) (n : Fin N) (c : Fin C) :
    broadcastInDim ⟨2, ![N, C]⟩ ![0, 1] h x (ix2 n c) = x (ix2 n (0 : Fin 1)) :=
  broadcastInDim_apply ![0, 1] h x (ix2 n c) (ix2 n (0 : Fin 1)) (fun a => by
    match a with
    | ⟨0, _⟩ =>
      show n.val = if N = 1 then 0 else n.val
      rw [if_neg hN]
    | ⟨1, _⟩ =>
      show (0 : ℕ) = if (1 : ℕ) = 1 then 0 else c.val
      rw [if_pos rfl])

/-- A bias vector laid out as a row and repeated down `N` rows. -/
theorem bias_rows_apply {α : Type} {N C : Nat} (hC : C ≠ 1) (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![N, C]⟩ ![0, 1]) (n : Fin N) (c : Fin C) :
    broadcastInDim ⟨2, ![N, C]⟩ ![0, 1] h2 (broadcastInDim ⟨2, ![1, C]⟩ ![1] h1 b) (ix2 n c) = b (ix1 c) :=
  (broadcastInDim_apply ![0, 1] h2 _ (ix2 n c) (ix2 (0 : Fin 1) c) (fun a => by
    match a with
    | ⟨0, _⟩ =>
      show (0 : ℕ) = if (1 : ℕ) = 1 then 0 else n.val
      rw [if_pos rfl]
    | ⟨1, _⟩ =>
      show c.val = if C = 1 then 0 else c.val
      rw [if_neg hC])).trans
  (broadcastInDim_apply ![1] h1 b (ix2 (0 : Fin 1) c) (ix1 c) (fun a => by
    match a with
    | ⟨0, _⟩ =>
      show c.val = if C = 1 then 0 else c.val
      rw [if_neg hC]))

/-- A rank-0 value broadcast over a shape. -/
theorem scalar_apply {α : Type} {s : Shape} (x : (⟨0, ![]⟩ : Shape).Idx → α)
    (h : (⟨0, ![]⟩ : Shape).BroadcastsInDim s ![]) (i : s.Idx) :
    broadcastInDim s ![] h x i = x ix0 :=
  broadcastInDim_apply (s := ⟨0, ![]⟩) ![] h x i ix0 (fun a => a.elim0)

end Cert.Bcast

end
-- ==== Proof.LibHostDense.lean ====
/-
  Dense layers as the host spells them, on the extended reals.

  The host writes a fully connected layer as a `dot_general` contracting the left operand's second axis against
  the weights' first, plus the length-N bias laid out as a 1×N row (a broadcast along axis 1) and repeated down the
  rows (a broadcast along axes (0, 1)); a hidden layer takes the maximum of that with a rank-0 zero broadcast over
  the whole shape. As whole arrays these are the affine layer  l · w + b  and the hidden layer  relu(l · w + b)  of
  the bias as a row; a stack of a hidden and an affine layer is the two-layer network `mlp`. Any extents (a bias
  length of 1 excepted: the broadcast rule branches on it); no program needed.
-/
import Idealize.ShloMosaic.PureOps.Ideal.Laws
import Idealize.ShloMosaic.Lib.ValueIdx
import proofs.«116980_j2911987826887_2_alg».proof.Proof.LibPlainDot
import proofs.«116980_j2911987826887_2_alg».proof.Proof.LibDenseLayer
import proofs.«116980_j2911987826887_2_alg».proof.Proof.LibBroadcast

noncomputable section

open scoped BigOperators

namespace Cert.HostDense

open Idealize.ShloMosaic Idealize.ShloMosaic.ValueIdx Cert.DenseLayer

/-- The two-layer network  relu(x · w1 + b1) · w2 + b2,  the biases plain vectors. -/
def mlp {M K H N : Nat} (x : Mat M K) (w1 : Mat K H) (b1 : Vect H) (w2 : Mat H N) (b2 : Vect N) : Mat M N :=
  affine (hidden x w1 (row b1)) w2 (row b2)

section Layers
variable {M K N : Nat} {d : DotDims ⟨2, ![M, K]⟩ ⟨2, ![K, N]⟩ ⟨2, ![M, N]⟩}

/-- The host's product plus its bias broadcast twice is the affine layer of the bias as a row. -/
theorem affine_eq (hd : Cert.PlainDot.IsPlain d) (hN : N ≠ 1) (prec : Option ContractPrecision)
    (l : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral d prec l w) (broadcastInDim ⟨2, ![M, N]⟩ ![0, 1] h2 (broadcastInDim ⟨2, ![1, N]⟩ ![1] h1 b))
      = affine l w (row b) := by
  funext j
  obtain ⟨p, c, rfl⟩ : ∃ (p : Fin M) (c : Fin N), j = ix2 p c := ⟨j 0, j 1, eq_ix2 j⟩
  rw [addf_apply, Cert.PlainDot.dotGeneral_apply hd, Cert.Bcast.bias_rows_apply hN, affine_apply, row_apply]

/-- … and the maximum with the zero word broadcast over the shape: the hidden layer. -/
theorem hidden_eq (hd : Cert.PlainDot.IsPlain d) (hN : N ≠ 1) (prec : Option ContractPrecision)
    (l : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf (Host.dotGeneral d prec l w) (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = hidden l w (row b) := by
  rw [affine_eq hd hN]
  funext j
  rw [maximumf_apply, Cert.Bcast.scalar_apply]
  rfl

end Layers

/-- The host's two layers in a row are the two-layer network. -/
theorem mlp_eq {M K H N : Nat} {d1 : DotDims ⟨2, ![M, K]⟩ ⟨2, ![K, H]⟩ ⟨2, ![M, H]⟩} {d2 : DotDims ⟨2, ![M, H]⟩ ⟨2, ![H, N]⟩ ⟨2, ![M, N]⟩}
    (hd1 : Cert.PlainDot.IsPlain d1) (hd2 : Cert.PlainDot.IsPlain d2) (hH : H ≠ 1) (hN : N ≠ 1) (prec1 prec2 : Option ContractPrecision)
    (x : FVec Ideal ⟨2, ![M, K]⟩ .f32) (w1 : FVec Ideal ⟨2, ![K, H]⟩ .f32) (b1 : FVec Ideal ⟨1, ![H]⟩ .f32)
    (w2 : FVec Ideal ⟨2, ![H, N]⟩ .f32) (b2 : FVec Ideal ⟨1, ![N]⟩ .f32)
    (g1 : (⟨1, ![H]⟩ : Shape).BroadcastsInDim ⟨2, ![1, H]⟩ ![1]) (g2 : (⟨2, ![1, H]⟩ : Shape).BroadcastsInDim ⟨2, ![M, H]⟩ ![0, 1])
    (g0 : (⟨0, ![]⟩ : Shape).BroadcastsInDim ⟨2, ![M, H]⟩ ![])
    (h1 : (⟨1, ![N]⟩ : Shape).BroadcastsInDim ⟨2, ![1, N]⟩ ![1]) (h2 : (⟨2, ![1, N]⟩ : Shape).BroadcastsInDim ⟨2, ![M, N]⟩ ![0, 1]) :
    addf (Host.dotGeneral d2 prec2
        (maximumf (addf (Host.dotGeneral d1 prec1 x w1) (broadcastInDim ⟨2, ![M, H]⟩ ![0, 1] g2 (broadcastInDim ⟨2, ![1, H]⟩ ![1] g1 b1)))
          (broadcastInDim ⟨2, ![M, H]⟩ ![] g0 (constant (F := Ideal) ⟨0, ![]⟩ .f32 0x00000000#32))) w2)
      (broadcastInDim ⟨2, ![M, N]⟩ ![0, 1] h2 (broadcastInDim ⟨2, ![1, N]⟩ ![1] h1 b2))
      = mlp x w1 b1 w2 b2 := by
  rw [hidden_eq hd1 hH, affine_eq hd2 hN]
  rfl

end Cert.HostDense

end
-- ==== Proof.LibRowGatherScatter.lean ====
/-
  ROW GATHER AND ROW / VECTOR SCATTER-ADD, READ AT ONE ENTRY (general lemmas: any extents, any element type).

  A table `x : [N, C]` is gathered at `E` start indices `S : [E, 1]` (what `x[src]` lowers to): result row `e` is the
  table's row at `S[e, 0]`, the start index read as a signed integer and clamped into `[0, N − 1]` (`srcRow`):
      gather x S (e, k) = x (srcRow S e, k)                                            (`gather_row_apply`).
  `E` update rows `u : [E, C]` are scatter-added into `x : [N, C]` at scatter indices `D : [E, 1]` (what a segment sum
  lowers to): update row `e` lands on row `n` exactly when `D[e, 0]`, read as a signed integer and NOT clamped, is `n`
  (`Lands D e n`); an update whose index is negative or at least `N` lands nowhere. In exact (extended-real)
  arithmetic the result's entry is the operand's entry plus the sum, over the edges that land there, of their updates:
      scatterAdd x D u (n, k) = x (n, k) + ∑ e with Lands D e n, u (e, k)              (`scatterAdd_row_apply`),
  and the same for `E` scalars scatter-added into a vector `x : [N]` (a degree count):
      scatterAdd x D u (n)    = x (n)    + ∑ e with Lands D e n, u (e)                 (`scatterAdd_vec_apply`).

  The dimension numbers enter through the predicates `IsRowGather`, `IsRowScatter`, `IsVecScatter`, which say what
  the lists of a record are; at a literal record every field equation is `rfl`. Each lemma is first proved for the
  literal record (`rowGatherDims`, `rowScatterDims`, `vecScatterDims`: those lists with an arbitrary proof of their
  conditions) by computing the start, window and offset coordinates axis by axis; the scatter lemmas go through the
  characterisation of the landing index (`resultIdx?_rowDims`: update `(e, c)` lands on `(n, k)` iff `Lands D e n` and
  `c = k`; `resultIdx?_vecDims`: update `e` lands on `n` iff `Lands D e n`) and then re-index the sum over update
  multi-indices by the edge number.
-/
import Idealize.ShloMosaic.PureOps.Ideal
import Idealize.ShloMosaic.Lib.ValueIdx

noncomputable section

open scoped BigOperators

namespace Cert.RowGS

open Idealize.ShloMosaic Idealize.ShloMosaic.ValueIdx

variable {N E C w : Nat}

/-- The row an edge reads: its start index read as a signed integer and clamped into `[0, N − 1]`. -/
def srcRow (hN : 0 < N) (S : IVec ⟨2, ![E, 1]⟩ w) (e : Fin E) : Fin N :=
  ⟨min (S (ix2 e (0 : Fin 1))).toInt.toNat (N - 1), by omega⟩

/-- Edge `e`'s update lands on row `n`: its scatter index read as a signed integer is `n`. -/
abbrev Lands (D : IVec ⟨2, ![E, 1]⟩ w) (e : Fin E) (n : Fin N) : Prop :=
  (D (ix2 e (0 : Fin 1))).toInt = (n.val : Int)

/-- An axis of a rank-2 shape is the first or the second. -/
theorem fin2_cases (a : Fin 2) : a = 0 ∨ a = 1 := by
  match a with
  | ⟨0, _⟩ => exact Or.inl rfl
  | ⟨1, _⟩ => exact Or.inr rfl

/-! ## Gather of whole rows -/

/-- `g` gathers whole rows of an `[N, C]` table at `[E, 1]` start indices: the row axis is collapsed and is the one
    the start index addresses, the column axis is the one offset axis with the full slice `C`, nothing is batched. -/
structure IsRowGather (g : GatherDims ⟨2, ![N, C]⟩ ⟨2, ![E, 1]⟩ ⟨2, ![E, C]⟩) : Prop where
  od : g.offsetDims = [1]
  cs : g.collapsedSliceDims = [0]
  ob : g.operandBatchingDims = []
  sb : g.startIndicesBatchingDims = []
  sim : g.startIndexMap = [0]
  ivd : g.indexVectorDim = 1
  ss : g.sliceSizes = ![1, C]

/-- The row-gather dimension numbers as a literal record (any proof `wf` of their conditions). -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The gather at the literal record, read at `(e, k)`. On the row axis the operand coordinate is the clamped start
    (no batching coordinate; the axis is collapsed, so no offset); on the column axis the start is `0` (the start
    index does not address it) and the offset coordinate is `k`. -/
theorem gather_rowDims_apply {α : Type} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (S : IVec ⟨2, ![E, 1]⟩ w) (e : Fin E) (k : Fin C) :
    Host.gather (rowGatherDims N E C wf) x S (ix2 e k) = x (ix2 (srcRow hN S e) k) := by
  unfold Host.gather
  congr 1
  funext a
  refine Fin.ext ?_
  show (rowGatherDims N E C wf).start (ix2 e k) S a + (rowGatherDims N E C wf).batchCoord (ix2 e k) a
    + (rowGatherDims N E C wf).offCoord (ix2 e k) a = _
  rw [GatherDims.batchCoord_eq_zero _ _ _ List.not_mem_nil]
  rcases fin2_cases a with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    -- the start index of result row `e` is read at `[e, 0]`
    have hsi : (rowGatherDims N E C wf).siIdx (ix2 e k)
        ⟨List.idxOf (0 : Fin 2) (rowGatherDims N E C wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  · unfold GatherDims.start
    rw [dif_neg (show (1 : Fin 2) ∉ (rowGatherDims N E C wf).startIndexMap from
      show (1 : Fin 2) ∉ ([0] : List (Fin 2)) from by decide)]
    unfold GatherDims.offCoord
    rw [dif_pos ((GatherDims.mem_sKept _ _).mpr
      ⟨show (1 : Fin 2) ∉ ([0] : List (Fin 2)) from by decide, List.not_mem_nil⟩)]
    simp only [Nat.add_zero, Nat.zero_add]
    rfl

/-- THE ROW GATHER READ AT `(e, k)`: the table at row `srcRow S e` (the start index `S[e, 0]`, read signed and clamped
    into `[0, N − 1]`), column `k`. -/
theorem gather_row_apply {α : Type} {g : GatherDims ⟨2, ![N, C]⟩ ⟨2, ![E, 1]⟩ ⟨2, ![E, C]⟩} (hg : IsRowGather g)
    (hN : 0 < N) (x : (⟨2, ![N, C]⟩ : Shape).Idx → α) (S : IVec ⟨2, ![E, 1]⟩ w) (e : Fin E) (k : Fin C) :
    Host.gather g x S (ix2 e k) = x (ix2 (srcRow hN S e) k) := by
  obtain ⟨od, cs, ob, sb, sim, ivd, ss, wf⟩ := g
  obtain ⟨h1, h2, h3, h4, h5, h6, h7⟩ := hg
  dsimp only at h1 h2 h3 h4 h5 h6 h7
  subst h1 h2 h3 h4 h5 h6 h7
  exact gather_rowDims_apply hN wf x S e k

/-! ## Scatter-add of rows into an `[N, C]` array -/

/-- `d` scatters `[E, C]` update rows into an `[N, C]` operand at `[E, 1]` scatter indices: the row axis is the
    inserted one and the one the scatter index addresses, the column axis is the one window axis. -/
structure IsRowScatter (d : ScatterDims ⟨2, ![N, C]⟩ ⟨2, ![E, 1]⟩ ⟨2, ![E, C]⟩) : Prop where
  uw : d.updateWindowDims = [1]
  iw : d.insertedWindowDims = [0]
  sd : d.scatterDimsToOperandDims = [0]
  ivd : d.indexVectorDim = 1

/-- The row-scatter dimension numbers as a literal record (any proof `wf` of their conditions). -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An operand axis carries a window coordinate exactly when it is not an inserted axis. -/
theorem scatter_mem_sKept {s si u : Shape} (d : ScatterDims s si u) (a : Fin s.rank) :
    a ∈ d.sKept ↔ a ∉ d.insertedWindowDims := by
  simp [ScatterDims.sKept, Shape.kept, List.mem_filter, List.mem_finRange]

section RowScatter
variable (wf : ScatterDims.WF ⟨2, ![N, C]⟩ ⟨2, ![E, 1]⟩ ⟨2, ![E, C]⟩ [1] [0] [0] 1)
  (j : (⟨2, ![E, C]⟩ : Shape).Idx) (D : IVec ⟨2, ![E, 1]⟩ w)

/-- On the row axis the window of update `(e, c)` starts at the scatter index `D[e, 0]`, read signed … -/
theorem rowScatter_start0 :
    (rowScatterDims N E C wf).start j D (0 : Fin 2) = (D (ix2 (j 0) (0 : Fin 1))).toInt := by
  unfold ScatterDims.start
  rw [dif_pos (show (0 : Fin 2) ∈ (rowScatterDims N E C wf).scatterDimsToOperandDims from List.mem_singleton.mpr rfl)]
  have hsi : (rowScatterDims N E C wf).siIdx j
      ⟨List.idxOf (0 : Fin 2) (rowScatterDims N E C wf).scatterDimsToOperandDims,
        List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- … on the column axis, which the scatter index does not address, at `0`. -/
theorem rowScatter_start1 : (rowScatterDims N E C wf).start j D (1 : Fin 2) = 0 := by
  unfold ScatterDims.start
  rw [dif_neg (show (1 : Fin 2) ∉ (rowScatterDims N E C wf).scatterDimsToOperandDims from
    show (1 : Fin 2) ∉ ([0] : List (Fin 2)) from by decide)]

/-- The row axis is inserted: no window coordinate there … -/
theorem rowScatter_window0 : (rowScatterDims N E C wf).window j (0 : Fin 2) = 0 := by
  unfold ScatterDims.window
  rw [dif_neg (fun h => (scatter_mem_sKept _ _).mp h (List.mem_singleton.mpr rfl))]

/-- … and on the column axis the window coordinate of update `(e, c)` is `c`. -/
theorem rowScatter_window1 : (rowScatterDims N E C wf).window j (1 : Fin 2) = (j 1).val := by
  unfold ScatterDims.window
  rw [dif_pos ((scatter_mem_sKept _ _).mpr (show (1 : Fin 2) ∉ ([0] : List (Fin 2)) from by decide))]
  rfl

/-- WHERE AN UPDATE LANDS: update `(e, c)` lands on `(n, k)` iff its scatter index, read signed, is `n` and `c = k`.
    (The landing index is start plus window coordinate on each axis, kept only when in range: on the row axis that
    is `D[e, 0] + 0`, in range iff it is some `n < N`; on the column axis `0 + c`, always in range.) -/
theorem resultIdx?_rowDims (i : (⟨2, ![N, C]⟩ : Shape).Idx) :
    (rowScatterDims N E C wf).resultIdx? j D = some i ↔ Lands D (j 0) (i 0) ∧ (j 1).val = (i 1).val := by
  have hs0 := rowScatter_start0 wf j D
  have hs1 := rowScatter_start1 wf j D
  have hw0 := rowScatter_window0 wf j
  have hw1 := rowScatter_window1 wf j
  have hi0 : (i 0).val < N := idx2_lt0 i
  have hi1 : (i 1).val < C := idx2_lt1 i
  have hj1 : (j 1).val < C := idx2_lt1 j
  unfold ScatterDims.resultIdx?
  constructor
  · intro h
    split at h
    · rename_i hc
      have hf := Option.some.inj h
      have e0 : ((rowScatterDims N E C wf).start j D (0 : Fin 2)
          + ((rowScatterDims N E C wf).window j (0 : Fin 2) : Int)).toNat = (i 0).val :=
        congrArg Fin.val (congrFun hf 0)
      have e1 : ((rowScatterDims N E C wf).start j D (1 : Fin 2)
          + ((rowScatterDims N E C wf).window j (1 : Fin 2) : Int)).toNat = (i 1).val :=
        congrArg Fin.val (congrFun hf 1)
      have c0 := (hc 0).1
      have c1 := (hc 1).1
      rw [hs0, hw0] at e0 c0
      rw [hs1, hw1] at e1 c1
      refine ⟨?_, ?_⟩
      · show (D (ix2 (j 0) (0 : Fin 1))).toInt = ((i 0).val : Int)
        omega
      · omega
    · cases h
  · rintro ⟨hl, h1⟩
    have hl' : (D (ix2 (j 0) (0 : Fin 1))).toInt = ((i 0).val : Int) := hl
    have hc : ∀ a, 0 ≤ (rowScatterDims N E C wf).start j D a + ((rowScatterDims N E C wf).window j a : Int) ∧
        (rowScatterDims N E C wf).start j D a + ((rowScatterDims N E C wf).window j a : Int)
          < ((⟨2, ![N, C]⟩ : Shape).size a : Int) := by
      intro a
      rcases fin2_cases a with rfl | rfl
      · rw [hs0, hw0, hl']
        show 0 ≤ ((i 0).val : Int) + ((0 : Nat) : Int) ∧ ((i 0).val : Int) + ((0 : Nat) : Int) < (N : Int)
        omega
      · rw [hs1, hw1]
        show (0 : Int) ≤ 0 + ((j 1).val : Int) ∧ (0 : Int) + ((j 1).val : Int) < (C : Int)
        omega
    rw [dif_pos hc]
    congr 1
    funext a
    refine Fin.ext ?_
    rcases fin2_cases a with rfl | rfl
    · show ((rowScatterDims N E C wf).start j D (0 : Fin 2)
          + ((rowScatterDims N E C wf).window j (0 : Fin 2) : Int)).toNat = (i 0).val
      rw [hs0, hw0, hl']
      omega
    · show ((rowScatterDims N E C wf).start j D (1 : Fin 2)
          + ((rowScatterDims N E C wf).window j (1 : Fin 2) : Int)).toNat = (i 1).val
      rw [hs1, hw1]
      omega

end RowScatter

section RowScatterSum
variable (wf : ScatterDims.WF ⟨2, ![N, C]⟩ ⟨2, ![E, 1]⟩ ⟨2, ![E, C]⟩ [1] [0] [0] 1)

/-- The row scatter-add at the literal record, read at `(n, k)`: the updates landing on `(n, k)` are the `(e, k)`
    with `Lands D e n`, and `(e, c) ↦ e`, `e ↦ (e, k)` are inverse bijections between the two index sets. -/
theorem scatterAdd_rowDims_apply {φ : FTy} (x : FVec Ideal ⟨2, ![N, C]⟩ φ) (D : IVec ⟨2, ![E, 1]⟩ w)
    (u : FVec Ideal ⟨2, ![E, C]⟩ φ) (n : Fin N) (k : Fin C) :
    Host.scatterAdd (rowScatterDims N E C wf) x D u (ix2 n k)
      = x (ix2 n k) + ∑ e ∈ Finset.univ.filter (fun e : Fin E => Lands D e n), u (ix2 e k) := by
  show Ideal.hostScatterAdd (rowScatterDims N E C wf) x D u (ix2 n k) = _
  unfold Ideal.hostScatterAdd
  congr 1
  refine Finset.sum_nbij' (fun j => (j 0 : Fin E)) (fun e => ix2 e k) ?_ ?_ ?_ ?_ ?_
  · intro j hj
    obtain ⟨a, b, rfl⟩ : ∃ a b, j = ix2 a b := ⟨_, _, eq_ix2 j⟩
    have h := (resultIdx?_rowDims wf (ix2 a b) D (ix2 n k)).mp (Finset.mem_filter.mp hj).2
    exact Finset.mem_filter.mpr ⟨Finset.mem_univ _, h.1⟩
  · intro e he
    have h : Lands D e n := (Finset.mem_filter.mp he).2
    exact Finset.mem_filter.mpr ⟨Finset.mem_univ _, (resultIdx?_rowDims wf (ix2 e k) D (ix2 n k)).mpr ⟨h, rfl⟩⟩
  · intro j hj
    obtain ⟨a, b, rfl⟩ : ∃ a b, j = ix2 a b := ⟨_, _, eq_ix2 j⟩
    have h := (resultIdx?_rowDims wf (ix2 a b) D (ix2 n k)).mp (Finset.mem_filter.mp hj).2
    obtain rfl : b = k := Fin.ext h.2
    rfl
  · intro e _
    rfl
  · intro j hj
    obtain ⟨a, b, rfl⟩ : ∃ a b, j = ix2 a b := ⟨_, _, eq_ix2 j⟩
    have h := (resultIdx?_rowDims wf (ix2 a b) D (ix2 n k)).mp (Finset.mem_filter.mp hj).2
    obtain rfl : b = k := Fin.ext h.2
    rfl

end RowScatterSum

/-- THE ROW SCATTER-ADD READ AT `(n, k)`: the operand's entry plus the sum, over the edges `e` whose scatter index
    (read signed, not clamped) is `n`, of the update entries `u (e, k)`. -/
theorem scatterAdd_row_apply {φ : FTy} {d : ScatterDims ⟨2, ![N, C]⟩ ⟨2, ![E, 1]⟩ ⟨2, ![E, C]⟩} (hd : IsRowScatter d)
    (x : FVec Ideal ⟨2, ![N, C]⟩ φ) (D : IVec ⟨2, ![E, 1]⟩ w) (u : FVec Ideal ⟨2, ![E, C]⟩ φ) (n : Fin N) (k : Fin C) :
    Host.scatterAdd d x D u (ix2 n k)
      = x (ix2 n k) + ∑ e ∈ Finset.univ.filter (fun e : Fin E => Lands D e n), u (ix2 e k) := by
  obtain ⟨uw, iw, sd, ivd, wf⟩ := d
  obtain ⟨h1, h2, h3, h4⟩ := hd
  dsimp only at h1 h2 h3 h4
  subst h1 h2 h3 h4
  exact scatterAdd_rowDims_apply wf x D u n k

/-! ## Scatter-add of scalars into an `[N]` vector -/

/-- `d` scatters `[E]` update scalars into an `[N]` operand at `[E, 1]` scatter indices: the operand's one axis is
    inserted and addressed by the scatter index; the updates have no window axis. -/
structure IsVecScatter (d : ScatterDims ⟨1, ![N]⟩ ⟨2, ![E, 1]⟩ ⟨1, ![E]⟩) : Prop where
  uw : d.updateWindowDims = []
  iw : d.insertedWindowDims = [0]
  sd : d.scatterDimsToOperandDims = [0]
  ivd : d.indexVectorDim = 1

/-- The vector-scatter dimension numbers as a literal record (any proof `wf` of their conditions). -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section VecScatter
variable (wf : ScatterDims.WF ⟨1, ![N]⟩ ⟨2, ![E, 1]⟩ ⟨1, ![E]⟩ [] [0] [0] 1)
  (j : (⟨1, ![E]⟩ : Shape).Idx) (D : IVec ⟨2, ![E, 1]⟩ w)

/-- The window of update `e` starts at the scatter index `D[e, 0]`, read signed … -/
theorem vecScatter_start0 :
    (vecScatterDims N E wf).start j D (0 : Fin 1) = (D (ix2 (j 0) (0 : Fin 1))).toInt := by
  unfold ScatterDims.start
  rw [dif_pos (show (0 : Fin 1) ∈ (vecScatterDims N E wf).scatterDimsToOperandDims from List.mem_singleton.mpr rfl)]
  have hsi : (vecScatterDims N E wf).siIdx j
      ⟨List.idxOf (0 : Fin 1) (vecScatterDims N E wf).scatterDimsToOperandDims,
        List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- … and the operand's axis is inserted: no window coordinate. -/
theorem vecScatter_window0 : (vecScatterDims N E wf).window j (0 : Fin 1) = 0 := by
  unfold ScatterDims.window
  rw [dif_neg (fun h => (scatter_mem_sKept _ _).mp h (List.mem_singleton.mpr rfl))]

/-- WHERE AN UPDATE LANDS: update `e` lands on `n` iff its scatter index, read signed, is `n`. -/
theorem resultIdx?_vecDims (i : (⟨1, ![N]⟩ : Shape).Idx) :
    (vecScatterDims N E wf).resultIdx? j D = some i ↔ Lands D (j 0) (i 0) := by
  have hs0 := vecScatter_start0 wf j D
  have hw0 := vecScatter_window0 wf j
  have hi0 : (i 0).val < N := (i 0).isLt
  unfold ScatterDims.resultIdx?
  constructor
  · intro h
    split at h
    · rename_i hc
      have hf := Option.some.inj h
      have e0 : ((vecScatterDims N E wf).start j D (0 : Fin 1)
          + ((vecScatterDims N E wf).window j (0 : Fin 1) : Int)).toNat = (i 0).val :=
        congrArg Fin.val (congrFun hf 0)
      have c0 := (hc 0).1
      rw [hs0, hw0] at e0 c0
      show (D (ix2 (j 0) (0 : Fin 1))).toInt = ((i 0).val : Int)
      omega
    · cases h
  · intro hl
    have hl' : (D (ix2 (j 0) (0 : Fin 1))).toInt = ((i 0).val : Int) := hl
    have hc : ∀ a, 0 ≤ (vecScatterDims N E wf).start j D a + ((vecScatterDims N E wf).window j a : Int) ∧
        (vecScatterDims N E wf).start j D a + ((vecScatterDims N E wf).window j a : Int)
          < ((⟨1, ![N]⟩ : Shape).size a : Int) := by
      intro a
      obtain rfl : a = (0 : Fin 1) := Subsingleton.elim _ _
      rw [hs0, hw0, hl']
      show 0 ≤ ((i 0).val : Int) + ((0 : Nat) : Int) ∧ ((i 0).val : Int) + ((0 : Nat) : Int) < (N : Int)
      omega
    rw [dif_pos hc]
    congr 1
    funext a
    refine Fin.ext ?_
    obtain rfl : a = (0 : Fin 1) := Subsingleton.elim _ _
    show ((vecScatterDims N E wf).start j D (0 : Fin 1)
        + ((vecScatterDims N E wf).window j (0 : Fin 1) : Int)).toNat = (i 0).val
    rw [hs0, hw0, hl']
    omega

end VecScatter

section VecScatterSum
variable (wf : ScatterDims.WF ⟨1, ![N]⟩ ⟨2, ![E, 1]⟩ ⟨1, ![E]⟩ [] [0] [0] 1)

/-- The vector scatter-add at the literal record, read at `n`: an update index is its one coordinate, the edge
    number, and it lands on `n` iff `Lands D e n`. -/
theorem scatterAdd_vecDims_apply {φ : FTy} (x : FVec Ideal ⟨1, ![N]⟩ φ) (D : IVec ⟨2, ![E, 1]⟩ w)
    (u : FVec Ideal ⟨1, ![E]⟩ φ) (n : Fin N) :
    Host.scatterAdd (vecScatterDims N E wf) x D u (ix1 n)
      = x (ix1 n) + ∑ e ∈ Finset.univ.filter (fun e : Fin E => Lands D e n), u (ix1 e) := by
  show Ideal.hostScatterAdd (vecScatterDims N E wf) x D u (ix1 n) = _
  unfold Ideal.hostScatterAdd
  congr 1
  refine Finset.sum_nbij' (fun j => (j 0 : Fin E)) (fun e => ix1 e) ?_ ?_ ?_ ?_ ?_
  · intro j hj
    obtain ⟨a, rfl⟩ : ∃ a, j = ix1 a := ⟨_, eq_ix1 j⟩
    have h := (resultIdx?_vecDims wf (ix1 a) D (ix1 n)).mp (Finset.mem_filter.mp hj).2
    exact Finset.mem_filter.mpr ⟨Finset.mem_univ _, h⟩
  · intro e he
    have h : Lands D e n := (Finset.mem_filter.mp he).2
    exact Finset.mem_filter.mpr ⟨Finset.mem_univ _, (resultIdx?_vecDims wf (ix1 e) D (ix1 n)).mpr h⟩
  · intro j _
    obtain ⟨a, rfl⟩ : ∃ a, j = ix1 a := ⟨_, eq_ix1 j⟩
    rfl
  · intro e _
    rfl
  · intro j _
    obtain ⟨a, rfl⟩ : ∃ a, j = ix1 a := ⟨_, eq_ix1 j⟩
    rfl

end VecScatterSum

/-- THE VECTOR SCATTER-ADD READ AT `n`: the operand's entry plus the sum, over the edges `e` whose scatter index
    (read signed, not clamped) is `n`, of the update scalars `u (e)`. -/
theorem scatterAdd_vec_apply {φ : FTy} {d : ScatterDims ⟨1, ![N]⟩ ⟨2, ![E, 1]⟩ ⟨1, ![E]⟩} (hd : IsVecScatter d)
    (x : FVec Ideal ⟨1, ![N]⟩ φ) (D : IVec ⟨2, ![E, 1]⟩ w) (u : FVec Ideal ⟨1, ![E]⟩ φ) (n : Fin N) :
    Host.scatterAdd d x D u (ix1 n)
      = x (ix1 n) + ∑ e ∈ Finset.univ.filter (fun e : Fin E => Lands D e n), u (ix1 e) := by
  obtain ⟨uw, iw, sd, ivd, wf⟩ := d
  obtain ⟨h1, h2, h3, h4⟩ := hd
  dsimp only at h1 h2 h3 h4
  subst h1 h2 h3 h4
  exact scatterAdd_vecDims_apply wf x D u n

end Cert.RowGS

end
-- ==== Proof.LibAxisFold.lean ====
/-
  The maximum down a column, the maximum along a row and the sum along a row of a matrix, each read at one
  index.

  An [a, b] array of extended reals reduced by `max` along axis 0 (down its rows), from the value a starting
  word denotes, holds at column l the fold of `max` from that value over the entries (k, l), k < a; reduced
  along axis 1 it holds at row p the fold over the entries (p, k), k < b; and reduced by addition along axis 1
  from a zero starting value it holds at row p the finite sum of the entries (p, k). (The sum down a column is
  the companion file's.) Stated with the operation's own proof arguments as variables, so that a printed
  reduction meets each lemma in term mode whatever proofs it carries. Depends on no program.
-/
import Idealize.ShloMosaic.Lib.ValueIdx
import Idealize.ShloMosaic.PureOps.Ideal.Laws

noncomputable section

namespace Cert.AxisFold

open Idealize.ShloMosaic Idealize.ShloMosaic.ValueIdx

/-- The maximum of column `l` of an [a, b] array over its `a` rows, folded from the value of the word `acc`. -/
theorem column_max {a b : ℕ} (v : FVec Ideal ⟨2, ![a, b]⟩ .f32) (acc : BitVec (FTy.f32).bits)
    (h : (⟨2, ![a, b]⟩ : Shape).Reduces [0] ⟨1, ![b]⟩)
    (hφ : FKind.Formats .f32) (hacc : acc = FKind.maximumf.neutral .f32 hφ) (l : Fin b) :
    multiReduction .maximumf [0] ⟨1, ![b]⟩ v acc h hφ hacc (ix1 l)
      = (Finset.univ : Finset (Fin a)).fold max (Ideal.ofBits .f32 acc) fun k => v (ix2 k l) :=
  (Ideal.multiReduction_maximumf_single v acc h hφ hacc (ix1 l)).trans
    (congrArg (fun f => Finset.fold max (Ideal.ofBits .f32 acc) f (Finset.univ : Finset (Fin a)))
      (funext fun k => congrArg v (funext fun c => Fin.ext (by
        match c with
        | ⟨0, _⟩ => rfl
        | ⟨1, _⟩ => rfl))))

/-- The maximum of row `p` of an [a, b] array over its `b` columns, folded from the value of the word `acc`. -/
theorem row_max {a b : ℕ} (v : FVec Ideal ⟨2, ![a, b]⟩ .f32) (acc : BitVec (FTy.f32).bits)
    (h : (⟨2, ![a, b]⟩ : Shape).Reduces [1] ⟨1, ![a]⟩)
    (hφ : FKind.Formats .f32) (hacc : acc = FKind.maximumf.neutral .f32 hφ) (p : Fin a) :
    multiReduction .maximumf [1] ⟨1, ![a]⟩ v acc h hφ hacc (ix1 p)
      = (Finset.univ : Finset (Fin b)).fold max (Ideal.ofBits .f32 acc) fun k => v (ix2 p k) :=
  (Ideal.multiReduction_maximumf_single v acc h hφ hacc (ix1 p)).trans
    (congrArg (fun f => Finset.fold max (Ideal.ofBits .f32 acc) f (Finset.univ : Finset (Fin b)))
      (funext fun k => congrArg v (funext fun c => Fin.ext (by
        match c with
        | ⟨0, _⟩ => rfl
        | ⟨1, _⟩ => rfl))))

/-- The sum of row `p` of an [a, b] array over its `b` columns, from a zero initial value. -/
theorem row_sum {a b : ℕ} (v : FVec Ideal ⟨2, ![a, b]⟩ .f32) (h : (⟨2, ![a, b]⟩ : Shape).Reduces [1] ⟨1, ![a]⟩)
    (hφ : FKind.Formats .f32) (hacc : (0x00000000#32 : BitVec (FTy.f32).bits) = FKind.add.neutral .f32 hφ) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (funext fun c => Fin.ext (by
      match c with
      | ⟨0, _⟩ => rfl
      | ⟨1, _⟩ => rfl)))

end Cert.AxisFold

end
-- ==== Proof.LibHostRowFold.lean ====
/-
  The host's reductions along the second axis of a matrix, each read at one row, on the extended reals.

  A `stablehlo.reduce` of an [a, b] array across dimension 1 with a maximum body holds at row p the fold
  of `max` from the initial value over the entries (p, k), k < b; with an add body (the host's float sum)
  it holds the initial value plus the finite sum of the entries (p, k). These are the host-side companions
  of the vector unit's row maximum and row sum. Any extents; depends on no program.
-/
import Idealize.ShloMosaic.Lib.ValueIdx
import Idealize.ShloMosaic.PureOps.Ideal.Laws

noncomputable section

open scoped BigOperators

namespace Cert.HostRowFold

open Idealize.ShloMosaic Idealize.ShloMosaic.ValueIdx

/-- Dropping axis 1 of a rank-2 shape leaves a rank-1 shape, so the host's shape fact is also the vector
    unit's (which asks in addition that a result axis is left). -/
theorem reduces_of_to {a b : ℕ} (h' : (⟨2, ![a, b]⟩ : Shape).ReducesTo [1] ⟨1, ![a]⟩) :
    (⟨2, ![a, b]⟩ : Shape).Reduces [1] ⟨1, ![a]⟩ :=
  let ⟨e, hb⟩ := h'; ⟨e, Nat.one_pos, hb⟩

/-- The host's maximum along row `p`: the fold of `max` from the initial value over the row's entries. -/
theorem row_max {a b : ℕ} (x : FVec Ideal ⟨2, ![a, b]⟩ .f32) (init : FVec Ideal ⟨0, ![]⟩ .f32)
    (h' : (⟨2, ![a, b]⟩ : Shape).ReducesTo [1] ⟨1, ![a]⟩) (hu : 0 < (⟨0, ![]⟩ : Shape).numel) (p : Fin a) :
    Host.reduce FloatOps.maximumf x init h' hu (ix1 p)
      = (Finset.univ : Finset (Fin b)).fold max (init ix0) fun k => x (ix2 p k) := by
  rw [Host.reduce_eq_fold_single FloatOps.maximumf x init h' (reduces_of_to h') hu, eq_ix0 (Shape.Idx.first hu)]
  exact congrArg (fun f => Finset.fold max (init ix0) f (Finset.univ : Finset (Fin b)))
    (funext fun k => congrArg x (funext fun c => Fin.ext (by
      match c with
      | ⟨0, _⟩ => rfl
      | ⟨1, _⟩ => rfl)))

/-- The host's float sum along row `p`: the initial value plus the finite sum of the row's entries. -/
theorem row_sum {a b : ℕ} (x : FVec Ideal ⟨2, ![a, b]⟩ .f32) (init : FVec Ideal ⟨0, ![]⟩ .f32)
    (h' : (⟨2, ![a, b]⟩ : Shape).ReducesTo [1] ⟨1, ![a]⟩) (hu : 0 < (⟨0, ![]⟩ : Shape).numel) (p : Fin a) :
    Host.reduceAdd x init h' hu (ix1 p) = init ix0 + ∑ k : Fin b, x (ix2 p k) := by
  simp only [Host.reduceAdd, Ideal.hostReduceAdd_def]
  rw [Ideal.hostReduceAdd_single h' (reduces_of_to h'), eq_ix0 (Shape.Idx.first hu)]
  refine congrArg (init ix0 + ·) (Finset.sum_congr rfl fun k _ => ?_)
  exact congrArg x (funext fun c => Fin.ext (by
    match c with
    | ⟨0, _⟩ => rfl
    | ⟨1, _⟩ => rfl))

/-- From a zero initial value the host's float sum along row `p` is the finite sum of the row's entries. -/
theorem row_sum_zero {a b : ℕ} (x : FVec Ideal ⟨2, ![a, b]⟩ .f32)
    (h' : (⟨2, ![a, b]⟩ : Shape).ReducesTo [1] ⟨1, ![a]⟩) (hu : 0 < (⟨0, ![]⟩ : Shape).numel) (p : Fin a) :
    Host.reduceAdd x (constant (F := Ideal) ⟨0, ![]⟩ .f32 0x00000000#32) h' hu (ix1 p) = ∑ k : Fin b, x (ix2 p k) :=
  (row_sum x _ h' hu p).trans (by rw [constant_apply, Ideal.ofBits_zero_f32, zero_add])

end Cert.HostRowFold

end
-- ==== Proof.LibRowBias.lean ====
/-
  A bias row read at an index: a vector of length `C`, viewed as a `1×C` matrix and repeated down `R`
  rows, holds the vector's entry `c` at every position `(p, c)`.
-/
import Idealize.ShloMosaic.Lib.Pipeline.Value
import Idealize.ShloMosaic.Lib.ValueLayout
import Idealize.ShloMosaic.Lib.ValueIdx

noncomputable section

namespace Cert.RowBias

open Idealize.ShloMosaic Idealize.ShloMosaic.ValueIdx

/-- Entry `(p, c)` of a length-`C` vector reshaped to `1×C` and broadcast to `R×C` is the vector's entry `c`
    (for `C ≠ 1`: an axis of extent one would be read at coordinate zero, which is the same entry, but the
    broadcast rule branches on it). -/
theorem bias_rows {α : Type} {R C : Nat} (hC : C ≠ 1) (v : (⟨1, ![C]⟩ : Shape).Idx → α)
    (hs : (⟨1, ![C]⟩ : Shape).ShapeCasts ⟨2, ![1, C]⟩) (hb : (⟨2, ![1, C]⟩ : Shape).Broadcasts ⟨2, ![R, C]⟩)
    (p : Fin R) (c : Fin C) :
    broadcastTo ⟨2, ![R, C]⟩ (shapeCast ⟨2, ![1, C]⟩ v hs) hb (ix2 p c) = v (ix1 c) := by
  rw [broadcastTo_apply _ hb (ix2 p c) (ix2 (0 : Fin 1) c) (fun a => by
    match a with
    | ⟨0, _⟩ => show (0 : ℕ) = if (1 : ℕ) = 1 then 0 else _; rw [if_pos rfl]
    | ⟨1, _⟩ => show c.val = if C = 1 then 0 else c.val; rw [if_neg hC])]
  exact shapeCast_a_1a_apply v hs 0 c

end Cert.RowBias

end
-- ==== Proof.LibColumn.lean ====
/-
  A vector as a column. A length-`a` vector reshaped to `[a, 1]` reads, at `(i, 0)`, the vector at `i`; and an
  `[a, 1]` column broadcast across `b` columns reads, at `(p, c)`, the column at `(p, 0)`. (The companions for
  a row `[1, a]` are the library's.)
-/
import Idealize.ShloMosaic.Lib.ValueLayout
import Idealize.ShloMosaic.Lib.Pipeline.Value

noncomputable section

namespace Cert.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.LibRowLayer.lean ====
/-
  Two building blocks of a row-wise network layer, each in the vector unit's spelling and in the host's,
  read at one entry on the extended reals.

  * A dense layer: the product of an [R, K] array with a [K, N] weight matrix plus a length-N bias
    repeated down the rows holds at (p, c) the sum over q of l[p, q] · r[q, c], plus b[c].
  * A vector of length R laid out as a column and repeated across C lanes holds at (p, c) the vector's
    entry p (what a keep-dims row statistic is subtracted or divided by).
  Any extents (an extent that is not a unit axis is assumed different from 1, as the broadcast rules
  branch on it); depends on no program.
-/
import proofs.«116980_j2911987826887_2_alg».proof.Proof.LibPlainDot
import proofs.«116980_j2911987826887_2_alg».proof.Proof.LibRowBias
import proofs.«116980_j2911987826887_2_alg».proof.Proof.LibBroadcast
import proofs.«116980_j2911987826887_2_alg».proof.Proof.LibColumn

noncomputable section

open scoped BigOperators

namespace Cert.RowLayer

open Idealize.ShloMosaic Idealize.ShloMosaic.ValueIdx

/-- A dense layer in the vector unit's spelling: a matrix product into a zero accumulator plus the bias
    reshaped to a row and broadcast down the rows. -/
theorem kernel_dense {R K N : ℕ} {d : DotDims ⟨2, ![R, K]⟩ ⟨2, ![K, N]⟩ ⟨2, ![R, N]⟩} (hd : PlainDot.IsPlain d) (hN : N ≠ 1)
    (prec : Option ContractPrecision) {φ₁ φ₂ : FTy} (l : FVec Ideal ⟨2, ![R, K]⟩ φ₁) (r : FVec Ideal ⟨2, ![K, N]⟩ φ₂)
    (b : FVec Ideal ⟨1, ![N]⟩ .f32) (hs : (⟨1, ![N]⟩ : Shape).ShapeCasts ⟨2, ![1, N]⟩)
    (hb : (⟨2, ![1, N]⟩ : Shape).Broadcasts ⟨2, ![R, N]⟩) (p : Fin R) (c : Fin N) :
    addf (matmul d prec l r (constant ⟨2, ![R, N]⟩ .f32 0x00000000#32)) (broadcastTo ⟨2, ![R, N]⟩ (shapeCast ⟨2, ![1, N]⟩ b hs) hb) (ix2 p c)
      = (∑ q : Fin K, l (ix2 p q) * r (ix2 q c)) + b (ix1 c) :=
  congrArg₂ (· + ·) (PlainDot.matmul_zero_apply hd prec l r p c) (RowBias.bias_rows hN b hs hb p c)

/-- A dense layer in the host's spelling: a `dot_general` plus the bias broadcast to a row and then down the rows. -/
theorem host_dense {R K N : ℕ} {d : DotDims ⟨2, ![R, K]⟩ ⟨2, ![K, N]⟩ ⟨2, ![R, N]⟩} (hd : PlainDot.IsPlain d) (hN : N ≠ 1)
    (prec : Option ContractPrecision) (l : FVec Ideal ⟨2, ![R, K]⟩ .f32) (r : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![R, N]⟩ ![0, 1]) (p : Fin R) (c : Fin N) :
    addf (Host.dotGeneral d prec l r) (broadcastInDim ⟨2, ![R, N]⟩ ![0, 1] h2 (broadcastInDim ⟨2, ![1, N]⟩ ![1] h1 b)) (ix2 p c)
      = (∑ q : Fin K, l (ix2 p q) * r (ix2 q c)) + b (ix1 c) :=
  congrArg₂ (· + ·) (PlainDot.dotGeneral_apply hd prec l r p c) (Bcast.bias_rows_apply hN b h1 h2 p c)

/-- A vector as a column across the lanes, in the vector unit's spelling. -/
theorem kernel_across {α : Type} {R C : ℕ} (v : (⟨1, ![R]⟩ : Shape).Idx → α) (hs : (⟨1, ![R]⟩ : Shape).ShapeCasts ⟨2, ![R, 1]⟩)
    (hb : (⟨2, ![R, 1]⟩ : Shape).Broadcasts ⟨2, ![R, C]⟩) (p : Fin R) (c : Fin C) :
    broadcastTo ⟨2, ![R, C]⟩ (shapeCast ⟨2, ![R, 1]⟩ v hs) hb (ix2 p c) = v (ix1 p) :=
  (Column.broadcastTo_a1_ab_apply _ hb p c).trans (Column.shapeCast_a_a1_apply v hs p 0)

/-- A vector as a column across the lanes, in the host's spelling. -/
theorem host_across {α : Type} {R C : ℕ} (hR : R ≠ 1) (v : (⟨1, ![R]⟩ : Shape).Idx → α)
    (h1 : (⟨1, ![R]⟩ : Shape).BroadcastsInDim ⟨2, ![R, 1]⟩ ![0])
    (h2 : (⟨2, ![R, 1]⟩ : Shape).BroadcastsInDim ⟨2, ![R, C]⟩ ![0, 1]) (p : Fin R) (c : Fin C) :
    broadcastInDim ⟨2, ![R, C]⟩ ![0, 1] h2 (broadcastInDim ⟨2, ![R, 1]⟩ ![0] h1 v) (ix2 p c) = v (ix1 p) :=
  (Bcast.rows_of_col_apply hR _ h2 p c).trans (Bcast.col_apply hR v h1 p 0)

end Cert.RowLayer

end
-- ==== Proof.LibRowSoftmax.lean ====
/-
  Softmax along the rows of a matrix, in the vector unit's spelling and in the host's, read at one entry on
  the extended reals.

  Both lowerings of `softmax(x, axis = -1)` on an [R, C] array take the row's maximum as a fold of `max` from
  −∞ (and once more against a −∞ splat), subtract it as a column repeated across the lanes, exponentiate,
  sum the row from zero, and divide by that sum repeated across the lanes. At entry (p, c) each is the same
  function `softmax` of row p. No law of the extended reals is used: the two spellings are the same
  operations in the same order. Any extents (the host's broadcast rule needs R ≠ 1); depends on no program.
-/
import proofs.«116980_j2911987826887_2_alg».proof.Proof.LibAxisFold
import proofs.«116980_j2911987826887_2_alg».proof.Proof.LibHostRowFold
import proofs.«116980_j2911987826887_2_alg».proof.Proof.LibRowLayer

noncomputable section

open scoped BigOperators

namespace Cert.RowSoftmax

open Idealize.ShloMosaic Idealize.ShloMosaic.ValueIdx

/-- −∞, as the f32 word both programs print. -/
abbrev ninf : EReal := Ideal.ofBits .f32 0xFF800000#32

/-- A row's maximum: the fold of `max` from −∞, and once more against −∞. -/
def top {n : ℕ} (l : Fin n → EReal) : EReal := max ninf ((Finset.univ : Finset (Fin n)).fold max ninf l)
/-- The exponential of an entry shifted by the row's maximum. -/
def shifted {n : ℕ} (l : Fin n → EReal) (c : Fin n) : EReal := Ideal.exp (l c - top l)
/-- The row's softmax. -/
def softmax {n : ℕ} (l : Fin n → EReal) (c : Fin n) : EReal := Ideal.div (shifted l c) (∑ k : Fin n, shifted l k)

section Kernel

variable {R C : ℕ} (lg : FVec Ideal ⟨2, ![R, C]⟩ .f32)
  (hr : (⟨2, ![R, C]⟩ : Shape).Reduces [1] ⟨1, ![R]⟩) (hφ : FKind.Formats .f32)
  (hmax : (0xFF800000#32 : BitVec (FTy.f32).bits) = FKind.maximumf.neutral .f32 hφ)
  (hadd : (0x00000000#32 : BitVec (FTy.f32).bits) = FKind.add.neutral .f32 hφ)
  (hs : (⟨1, ![R]⟩ : Shape).ShapeCasts ⟨2, ![R, 1]⟩) (hb : (⟨2, ![R, 1]⟩ : Shape).Broadcasts ⟨2, ![R, C]⟩)

/-- The shifted exponentials as the vector unit computes them. -/
abbrev kernelShifted : FVec Ideal ⟨2, ![R, C]⟩ .f32 :=
  exp (subf lg (broadcastTo ⟨2, ![R, C]⟩ (shapeCast ⟨2, ![R, 1]⟩
    (maximumf (broadcast ⟨1, ![R]⟩ (Scalar.ofBits .f32 0xFF800000#32))
      (multiReduction .maximumf [1] ⟨1, ![R]⟩ lg 0xFF800000#32 hr hφ hmax)) hs) hb))

theorem kernel_shifted (p : Fin R) (c : Fin C) :
    kernelShifted lg hr hφ hmax hs hb (ix2 p c) = shifted (fun k => lg (ix2 p k)) c :=
  congrArg (fun z => Ideal.exp (lg (ix2 p c) - z))
    ((RowLayer.kernel_across _ hs hb p c).trans (congrArg (max ninf) (AxisFold.row_max lg 0xFF800000#32 hr hφ hmax p)))

/-- The vector unit's softmax, at entry (p, c). -/
theorem kernel_softmax (p : Fin R) (c : Fin C) :
    divf (kernelShifted lg hr hφ hmax hs hb)
      (broadcastTo ⟨2, ![R, C]⟩ (shapeCast ⟨2, ![R, 1]⟩
        (multiReduction .add [1] ⟨1, ![R]⟩ (kernelShifted lg hr hφ hmax hs hb) 0x00000000#32 hr hφ hadd) hs) hb) (ix2 p c)
      = softmax (fun k => lg (ix2 p k)) c :=
  congrArg₂ Ideal.div (kernel_shifted lg hr hφ hmax hs hb p c)
    ((RowLayer.kernel_across _ hs hb p c).trans
      ((AxisFold.row_sum (kernelShifted lg hr hφ hmax hs hb) hr hφ hadd p).trans
        (Finset.sum_congr rfl fun k _ => kernel_shifted lg hr hφ hmax hs hb p k)))

end Kernel

section Host

variable {R C : ℕ} (lg : FVec Ideal ⟨2, ![R, C]⟩ .f32)
  (h' : (⟨2, ![R, C]⟩ : Shape).ReducesTo [1] ⟨1, ![R]⟩) (hu : 0 < (⟨0, ![]⟩ : Shape).numel)
  (h0 : (⟨0, ![]⟩ : Shape).BroadcastsInDim ⟨1, ![R]⟩ ![])
  (h1 : (⟨1, ![R]⟩ : Shape).BroadcastsInDim ⟨2, ![R, 1]⟩ ![0])
  (h2 : (⟨2, ![R, 1]⟩ : Shape).BroadcastsInDim ⟨2, ![R, C]⟩ ![0, 1])

/-- The shifted exponentials as the host computes them. -/
abbrev hostShifted : FVec Ideal ⟨2, ![R, C]⟩ .f32 :=
  Host.exp (subf lg (broadcastInDim ⟨2, ![R, C]⟩ ![0, 1] h2 (broadcastInDim ⟨2, ![R, 1]⟩ ![0] h1
    (maximumf (broadcastInDim ⟨1, ![R]⟩ ![] h0 (constant (F := Ideal) ⟨0, ![]⟩ .f32 0xFF800000#32))
      (Host.reduce FloatOps.maximumf lg (constant (F := Ideal) ⟨0, ![]⟩ .f32 0xFF800000#32) h' hu)))))

theorem host_shifted (hR : R ≠ 1) (p : Fin R) (c : Fin C) :
    hostShifted lg h' hu h0 h1 h2 (ix2 p c) = shifted (fun k => lg (ix2 p k)) c :=
  congrArg (fun z => Ideal.exp (lg (ix2 p c) - z))
    ((RowLayer.host_across hR _ h1 h2 p c).trans
      (congrArg₂ max (Bcast.scalar_apply _ h0 (ix1 p)) (HostRowFold.row_max lg _ h' hu p)))

/-- The host's softmax, at entry (p, c). -/
theorem host_softmax (hR : R ≠ 1) (p : Fin R) (c : Fin C) :
    Host.divf (hostShifted lg h' hu h0 h1 h2)
      (broadcastInDim ⟨2, ![R, C]⟩ ![0, 1] h2 (broadcastInDim ⟨2, ![R, 1]⟩ ![0] h1
        (Host.reduceAdd (hostShifted lg h' hu h0 h1 h2) (constant (F := Ideal) ⟨0, ![]⟩ .f32 0x00000000#32) h' hu))) (ix2 p c)
      = softmax (fun k => lg (ix2 p k)) c :=
  congrArg₂ Ideal.div (host_shifted lg h' hu h0 h1 h2 hR p c)
    ((RowLayer.host_across hR _ h1 h2 p c).trans
      ((HostRowFold.row_sum_zero (hostShifted lg h' hu h0 h1 h2) h' hu p).trans
        (Finset.sum_congr rfl fun k _ => host_shifted lg h' hu h0 h1 h2 hR p k)))

end Host

end Cert.RowSoftmax

end
-- ==== Proof.RefValue.lean ====
import proofs.«116980_j2911987826887_2_alg».proof.Proof.RefStages
import proofs.«116980_j2911987826887_2_alg».proof.Proof.SpecArr
import proofs.«116980_j2911987826887_2_alg».proof.Proof.LibHostDense
import proofs.«116980_j2911987826887_2_alg».proof.Proof.LibBroadcast
import proofs.«116980_j2911987826887_2_alg».proof.Proof.LibRowGatherScatter
import proofs.«116980_j2911987826887_2_alg».proof.Proof.LibRowSoftmax
import Idealize.ShloMosaic.Lib.ValueIdx

/-!
# The reference's node embedding, entry by entry

The host computes the embedding as three products with the bias laid out as a row and repeated down the rows, the
first two followed by the leaky rectifier, and adds the features back. Each stage is read as a whole array; the last
one at an entry is the specification's embedding.
-/

noncomputable section

namespace Cert.ReferenceIdeal.RefValue

open Idealize.ShloMosaic Idealize.ShloMosaic.ValueIdx
open Cert.ReferenceIdeal Cert.ReferenceIdeal.Gen Cert.ReferenceIdeal.RefStages
open Cert.Spec (mat vec)

/-- The leaky rectifier as the host spells it on a whole array: entrywise `lrelu`. -/
theorem host_lrelu {s : Shape} (v : FVec Ideal s .f32) (h0 : (⟨0, ![]⟩ : Shape).BroadcastsInDim s ![]) :
    select (cmpf .oge v (broadcastInDim s ![] h0 (constant (F := Ideal) ⟨0, ![]⟩ .f32 0x00000000#32))) v
        (mulf (broadcastInDim s ![] h0 (constant (F := Ideal) ⟨0, ![]⟩ .f32 0x3C23D70A#32)) v)
      = fun j => Cert.Spec.lrelu (v j) := by
  funext j
  rw [select_apply, cmpf_apply, mulf_apply, Cert.Bcast.scalar_apply, Cert.Bcast.scalar_apply, constant_apply, constant_apply]
  rfl

theorem plain1 : Cert.PlainDot.IsPlain dot_S1024x128_S128x512_S1024x512_1_0_0_1_n_n := ⟨rfl, rfl, rfl, rfl, rfl, rfl⟩
theorem plain2 : Cert.PlainDot.IsPlain dot_S1024x512_S512x512_S1024x512_1_0_0_1_n_n := ⟨rfl, rfl, rfl, rfl, rfl, rfl⟩
theorem plain3 : Cert.PlainDot.IsPlain dot_S1024x512_S512x128_S1024x128_1_0_0_1_n_n := ⟨rfl, rfl, rfl, rfl, rfl, rfl⟩

/-- The first dense layer before the rectifier. -/
theorem v23_eq (A : Args Ideal) :
    st_main_v23 A = Cert.DenseLayer.affine A.a1 A.a2 (Cert.DenseLayer.row A.a3) := by
  unfold st_main_v23 st_main_v20 st_main_v22 st_main_v21
  exact Cert.HostDense.affine_eq plain1 (by decide) none _ _ _ _ _

/-- The first hidden layer. -/
theorem v24_eq (A : Args Ideal) :
    st_main_v24 A = fun j => Cert.Spec.lrelu (Cert.DenseLayer.affine A.a1 A.a2 (Cert.DenseLayer.row A.a3) j) := by
  unfold st_main_v24 st_main_call8_v1 st_main_call8_v3 st_main_call8_v0 st_main_call8_v2 st_main_call8_cst st_main_call8_cst_0
  rw [v23_eq]
  exact host_lrelu _ _

/-- The second dense layer before the rectifier. -/
theorem v28_eq (A : Args Ideal) :
    st_main_v28 A = Cert.DenseLayer.affine (st_main_v24 A) A.a4 (Cert.DenseLayer.row A.a5) := by
  unfold st_main_v28 st_main_v25 st_main_v27 st_main_v26
  exact Cert.HostDense.affine_eq plain2 (by decide) none _ _ _ _ _

/-- The second hidden layer. -/
theorem v29_eq (A : Args Ideal) :
    st_main_v29 A = fun j => Cert.Spec.lrelu (Cert.DenseLayer.affine (st_main_v24 A) A.a4 (Cert.DenseLayer.row A.a5) j) := by
  unfold st_main_v29 st_main_call9_v1 st_main_call9_v3 st_main_call9_v0 st_main_call9_v2 st_main_call9_cst st_main_call9_cst_0
  rw [v28_eq]
  exact host_lrelu _ _

/-- The third dense layer. -/
theorem v33_eq (A : Args Ideal) :
    st_main_v33 A = Cert.DenseLayer.affine (st_main_v29 A) A.a6 (Cert.DenseLayer.row A.a7) := by
  unfold st_main_v33 st_main_v30 st_main_v32 st_main_v31
  exact Cert.HostDense.affine_eq plain3 (by decide) none _ _ _ _ _

/-- The reference's embedding at node `n`, feature `q`, is the specification's. -/
theorem h_stage (A : Args Ideal) (n : Fin 1024) (q : Fin 128) :
    st_main_v34 A (ix2 n q)
      = Cert.Spec.hmlp (mat (A := 1024) (B := 128) A.a1) (mat (A := 128) (B := 512) A.a2) (vec (A := 512) A.a3)
          (mat (A := 512) (B := 512) A.a4) (vec (A := 512) A.a5) (mat (A := 512) (B := 128) A.a6) (vec (A := 128) A.a7) n q := by
  unfold st_main_v34
  rw [addf_apply, v33_eq, v29_eq, v24_eq]
  rfl

/-! ## The edge head on one pair of embedding rows -/

theorem rowGather : Cert.RowGS.IsRowGather gather_S1024x128_S523776x1_S523776x128_1_0_n_n_0_1_1128 :=
  ⟨rfl, rfl, rfl, rfl, rfl, rfl, rfl⟩

/-- A row gather of the embedding at an index column whose entry `e` is the row number `a`: row `a`. -/
theorem gather_at (A : Args Ideal) (col : IVec S523776 32)
    (h : (⟨1, ![523776]⟩ : Shape).BroadcastsInDim ⟨2, ![523776, 1]⟩ ![0])
    (e : Fin 523776) (a : Fin 1024) (ha : (col (ix1 e)).toInt = (a.val : Int)) (k : Fin 128) :
    Host.gather gather_S1024x128_S523776x1_S523776x128_1_0_n_n_0_1_1128 (st_main_v34 A)
        (broadcastInDim S523776x1 ![0] h col) (ix2 e k)
      = st_main_v34 A (ix2 a k) := by
  rw [Cert.RowGS.gather_row_apply rowGather (by decide : 0 < 1024)]
  congr 2
  apply Fin.ext
  show min ((broadcastInDim S523776x1 ![0] h col) (ix2 e (0 : Fin 1))).toInt.toNat (1024 - 1) = a.val
  rw [Cert.Bcast.col_apply (by decide) col h e 0, ha]
  have := a.isLt
  omega

/-- The first gathered row. -/
theorem v41_apply (A : Args Ideal) (e : Fin 523776) (a : Fin 1024)
    (ha : (st_main_v39 A (ix1 e)).toInt = (a.val : Int)) (k : Fin 128) :
    st_main_v41 A (ix2 e k) = st_main_v34 A (ix2 a k) := by
  unfold st_main_v41 st_main_v40
  exact gather_at A _ _ e a ha k

/-- The second gathered row. -/
theorem v48_apply (A : Args Ideal) (e : Fin 523776) (b : Fin 1024)
    (hb : (st_main_v46 A (ix1 e)).toInt = (b.val : Int)) (k : Fin 128) :
    st_main_v48 A (ix2 e k) = st_main_v34 A (ix2 b k) := by
  unfold st_main_v48 st_main_v47
  exact gather_at A _ _ e b hb k

/-- The entrywise product of the two gathered rows. -/
theorem v49_apply (A : Args Ideal) (e : Fin 523776) (a b : Fin 1024)
    (ha : (st_main_v39 A (ix1 e)).toInt = (a.val : Int)) (hb : (st_main_v46 A (ix1 e)).toInt = (b.val : Int))
    (k : Fin 128) :
    st_main_v49 A (ix2 e k) = st_main_v34 A (ix2 a k) * st_main_v34 A (ix2 b k) := by
  unfold st_main_v49
  rw [mulf_apply, v41_apply A e a ha, v48_apply A e b hb]

theorem plain5 : Cert.PlainDot.IsPlain dot_S523776x128_S128x512_S523776x512_1_0_0_1_n_n := ⟨rfl, rfl, rfl, rfl, rfl, rfl⟩
theorem plain6 : Cert.PlainDot.IsPlain dot_S523776x512_S512x2_S523776x2_1_0_0_1_n_n := ⟨rfl, rfl, rfl, rfl, rfl, rfl⟩

/-- The edge head's hidden layer. -/
theorem v54_eq (A : Args Ideal) :
    st_main_v54 A = Cert.DenseLayer.hidden (st_main_v49 A) A.a8 (Cert.DenseLayer.row A.a9) := by
  unfold st_main_v54 st_main_v53 st_main_v50 st_main_v52 st_main_v51 st_main_call10_v0 st_main_call10_cst
  exact Cert.HostDense.hidden_eq plain5 (by decide) none _ _ _ _ _ _

/-- The two logits. -/
theorem v58_eq (A : Args Ideal) :
    st_main_v58 A = Cert.DenseLayer.affine (st_main_v54 A) A.a10 (Cert.DenseLayer.row A.a11) := by
  unfold st_main_v58 st_main_v55 st_main_v57 st_main_v56
  exact Cert.HostDense.affine_eq plain6 (by decide) none _ _ _ _ _

/-- The class probabilities are the softmax of the logits' row. -/
theorem v69_apply (A : Args Ideal) (e : Fin 523776) (c : Fin 2) :
    st_main_v69 A (ix2 e c) = Cert.RowSoftmax.softmax (fun k => st_main_v58 A (ix2 e k)) c := by
  unfold st_main_v69 st_main_v68 st_main_v67 st_main_v66 st_main_cst_15 st_main_v65 st_main_v64 st_main_v63 st_main_v62
    st_main_v61 st_main_v60 st_main_cst_14 st_main_v59 st_main_cst_13
  exact Cert.RowSoftmax.host_softmax (st_main_v58 A) _ _ _ _ _ (by decide) e c

/-- A logit of edge `e` is the specification's logit of the two embedding rows. -/
theorem v58_apply (A : Args Ideal) (e : Fin 523776) (a b : Fin 1024)
    (ha : (st_main_v39 A (ix1 e)).toInt = (a.val : Int)) (hb : (st_main_v46 A (ix1 e)).toInt = (b.val : Int))
    (c : Fin 2) :
    st_main_v58 A (ix2 e c)
      = Cert.Spec.edgeLogit (fun q => st_main_v34 A (ix2 a q)) (fun q => st_main_v34 A (ix2 b q))
          (mat (A := 128) (B := 512) A.a8) (vec (A := 512) A.a9) (mat (A := 512) (B := 2) A.a10) (vec (A := 2) A.a11) c := by
  rw [v58_eq, Cert.DenseLayer.affine_apply, Cert.DenseLayer.row_apply, v54_eq]
  unfold Cert.Spec.edgeLogit Cert.Spec.dense
  refine congrArg (· + vec (A := 2) A.a11 c) (Finset.sum_congr rfl fun k _ => ?_)
  refine congrArg (· * mat (A := 512) (B := 2) A.a10 k c) ?_
  rw [Cert.DenseLayer.hidden_apply, Cert.DenseLayer.row_apply]
  unfold Cert.Spec.edgeHidden Cert.Spec.dense
  refine congrArg (fun z => max (z + vec (A := 512) A.a9 k) (Ideal.ofBits .f32 0x00000000#32)) (Finset.sum_congr rfl fun q _ => ?_)
  rw [v49_apply A e a b ha hb]
  rfl

/-- The reference's class probabilities of edge `e` are the specification's for the two embedding rows. -/
theorem ep_stage (A : Args Ideal) (e : Fin 523776) (c : Fin 2) (a b : Fin 1024)
    (ha : (st_main_v39 A (ix1 e)).toInt = (a.val : Int)) (hb : (st_main_v46 A (ix1 e)).toInt = (b.val : Int)) :
    st_main_v69 A (ix2 e c)
      = Cert.Spec.refEdge (fun q => st_main_v34 A (ix2 a q)) (fun q => st_main_v34 A (ix2 b q))
          (mat (A := 128) (B := 512) A.a8) (vec (A := 512) A.a9) (mat (A := 512) (B := 2) A.a10) (vec (A := 2) A.a11) c := by
  rw [v69_apply, funext (v58_apply A e a b ha hb)]
  rfl

end Cert.ReferenceIdeal.RefValue

end
-- ==== Proof.LibNonzeroEnum.lean ====
import Mathlib.Data.Nat.Count
import Mathlib.Algebra.BigOperators.Intervals
import Mathlib.Order.Interval.Finset.Nat

/-!
# Enumerating the true positions of a mask by running counts

For a decidable predicate `mask` on the positions `0, …, M-1`, let `csum p` be the number of
true positions `≤ p`, let `cnt b` be the number of positions whose running count equals `b`,
and let `flat e` be the running sum of `cnt` up to `e`.  Then `flat e` is the position of the
`e`-th (0-based) true entry: the set `{p < M | csum p ≤ e}` is an initial segment of ℕ, and its
cardinality is the first position whose running count reaches `e + 1`.
-/

namespace Cert.Lib.NonzeroEnum

open Finset

/-- A finite set of naturals closed under passing to smaller elements is `{0, …, card - 1}`. -/
theorem eq_range_card_of_lower (s : Finset ℕ) (h : ∀ p ∈ s, ∀ p' ≤ p, p' ∈ s) :
    s = range s.card := by
  have hsub : s ⊆ range s.card := by
    intro p hp
    have h1 : range (p + 1) ⊆ s := by
      intro p' hp'
      exact h p hp p' (Nat.lt_succ_iff.mp (mem_range.mp hp'))
    have h2 := card_le_card h1
    rw [card_range] at h2
    exact mem_range.mpr h2
  exact eq_of_subset_of_card_le hsub (by simp)

section
variable (M : ℕ) (mask : ℕ → Prop) [DecidablePred mask]

/-- inclusive running count of the mask up to position p -/
def csum (p : ℕ) : ℕ := ((range (p + 1)).filter mask).card

/-- number of true positions below M -/
def total : ℕ := ((range M).filter mask).card

/-- number of positions below M whose running count is exactly b -/
def cnt (b : ℕ) : ℕ := ((range M).filter fun p => csum mask p = b).card

/-- inclusive running sum of the counts -/
def flat (e : ℕ) : ℕ := ∑ b ∈ range (e + 1), cnt M mask b

/-- The inclusive running count at `p` is the number of true positions below `p + 1`. -/
theorem csum_eq_count (p : ℕ) : csum mask p = Nat.count mask (p + 1) :=
  (Nat.count_eq_card_filter_range mask (p + 1)).symm

/-- The number of true positions below `M` is `Nat.count mask M`. -/
theorem total_eq_count : total M mask = Nat.count mask M :=
  (Nat.count_eq_card_filter_range mask M).symm

/-- The running count is monotone in the position. -/
theorem csum_mono {p q : ℕ} (h : p ≤ q) : csum mask p ≤ csum mask q := by
  rw [csum_eq_count, csum_eq_count]
  exact Nat.count_monotone mask (Nat.succ_le_succ h)

/-- The running count jumps strictly at a true position: earlier positions have a smaller count. -/
theorem csum_lt_of_lt_of_mask {p q : ℕ} (h : p < q) (hq : mask q) : csum mask p < csum mask q := by
  rw [csum_eq_count, csum_eq_count, Nat.count_succ mask q, if_pos hq]
  exact Nat.lt_succ_of_le (Nat.count_monotone mask h)

/-- The running count at the next position adds one exactly when that position is true. -/
theorem csum_succ (p : ℕ) :
    csum mask (p + 1) = csum mask p + if mask (p + 1) then 1 else 0 := by
  rw [csum_eq_count, csum_eq_count, Nat.count_succ mask (p + 1)]

/-- The running count at position 0 is one exactly when position 0 is true. -/
theorem csum_zero : csum mask 0 = if mask 0 then 1 else 0 := by
  rw [csum_eq_count, Nat.count_succ mask 0, Nat.count_zero, Nat.zero_add]

/-- The running count at a position below `M` is at most the number of true positions below `M`. -/
theorem csum_le_total {p : ℕ} (hp : p < M) : csum mask p ≤ total M mask := by
  rw [csum_eq_count, total_eq_count]
  exact Nat.count_monotone mask hp

/-- The running count at the last position is the number of true positions. -/
theorem csum_last (hM : 0 < M) : csum mask (M - 1) = total M mask := by
  rw [csum_eq_count, total_eq_count, Nat.sub_add_cancel hM]

/-- The running sum of the counts up to `e` counts the positions whose running count is `≤ e`. -/
theorem flat_eq_card (e : ℕ) :
    flat M mask e = ((range M).filter fun p => csum mask p ≤ e).card := by
  have hmaps : ((((range M).filter fun p => csum mask p ≤ e) : Finset ℕ) : Set ℕ).MapsTo
      (fun p => csum mask p) (range (e + 1) : Finset ℕ) := by
    intro p hp
    have hp' := (mem_filter.mp (mem_coe.mp hp)).2
    exact mem_coe.mpr (mem_range.mpr (Nat.lt_succ_of_le hp'))
  rw [card_eq_sum_card_fiberwise hmaps]
  unfold flat cnt
  apply sum_congr rfl
  intro b hb
  have hb' := Nat.lt_succ_iff.mp (mem_range.mp hb)
  rw [filter_filter]
  congr 1
  apply filter_congr
  intro p _
  constructor
  · intro h
    exact ⟨h ▸ hb', h⟩
  · intro h
    exact h.2

/-- The positions whose running count is `≤ e` form the initial segment of length `flat e`. -/
theorem filter_le_eq_range (e : ℕ) :
    ((range M).filter fun p => csum mask p ≤ e) = range (flat M mask e) := by
  rw [flat_eq_card]
  apply eq_range_card_of_lower
  intro p hp p' hpp'
  rw [mem_filter, mem_range] at hp ⊢
  exact ⟨lt_of_le_of_lt hpp' hp.1, le_trans (csum_mono mask hpp') hp.2⟩

/-- `flat e` never exceeds the number of positions. -/
theorem flat_le (e : ℕ) : flat M mask e ≤ M := by
  rw [flat_eq_card]
  calc ((range M).filter fun p => csum mask p ≤ e).card ≤ (range M).card := card_filter_le _ _
    _ = M := card_range M

/-- the e-th true position: in range, true, and with running count e+1 -/
theorem flat_spec {e : ℕ} (he : e < total M mask) :
    flat M mask e < M ∧ mask (flat M mask e) ∧ csum mask (flat M mask e) = e + 1 := by
  have hseg := filter_le_eq_range M mask e
  set q := flat M mask e with hq
  have hqM : q ≤ M := flat_le M mask e
  -- q itself is not in the segment
  have hnot : q ∉ ((range M).filter fun p => csum mask p ≤ e) := by
    rw [hseg]; simp
  -- q < M : otherwise every position has running count ≤ e, in particular the last one
  have hlt : q < M := by
    rcases Nat.lt_or_ge q M with h | h
    · exact h
    · exfalso
      have hqeq : q = M := le_antisymm hqM h
      have hMpos : 0 < M := by
        rcases Nat.eq_zero_or_pos M with h0 | h0
        · subst h0
          simp [total] at he
        · exact h0
      have hmem : M - 1 ∈ ((range M).filter fun p => csum mask p ≤ e) := by
        rw [hseg, hqeq]
        exact mem_range.mpr (Nat.sub_lt hMpos Nat.one_pos)
      have hle := (mem_filter.mp hmem).2
      rw [csum_last M mask hMpos] at hle
      exact absurd he (Nat.not_lt.mpr hle)
  have hgt : e < csum mask q := by
    by_contra hcon
    exact hnot (mem_filter.mpr ⟨mem_range.mpr hlt, Nat.not_lt.mp hcon⟩)
  refine ⟨hlt, ?_⟩
  rcases Nat.eq_zero_or_pos q with h0 | hpos
  · -- q = 0
    rw [h0] at hgt ⊢
    rw [csum_zero] at hgt ⊢
    by_cases hm : mask 0
    · rw [if_pos hm] at hgt ⊢
      exact ⟨hm, by omega⟩
    · rw [if_neg hm] at hgt
      exact absurd hgt (Nat.not_lt_zero e)
  · -- q = q' + 1 with q' in the segment
    obtain ⟨q', hq'⟩ : ∃ q', q = q' + 1 := ⟨q - 1, (Nat.sub_add_cancel hpos).symm⟩
    have hmem : q' ∈ ((range M).filter fun p => csum mask p ≤ e) := by
      rw [hseg]
      exact mem_range.mpr (by omega)
    have hle := (mem_filter.mp hmem).2
    rw [hq'] at hgt ⊢
    rw [csum_succ] at hgt ⊢
    by_cases hm : mask (q' + 1)
    · rw [if_pos hm] at hgt ⊢
      exact ⟨hm, by omega⟩
    · rw [if_neg hm] at hgt
      omega

/-- every true position is enumerated, at e = (its running count) - 1 -/
theorem flat_of_mask {p : ℕ} (hp : p < M) (hm : mask p) :
    1 ≤ csum mask p ∧ csum mask p - 1 < total M mask ∧ flat M mask (csum mask p - 1) = p := by
  have h1 : 1 ≤ csum mask p := by
    rw [csum_eq_count, Nat.count_succ mask p, if_pos hm]
    exact Nat.le_add_left 1 _
  have h2 : csum mask p ≤ total M mask := csum_le_total M mask hp
  refine ⟨h1, by omega, ?_⟩
  rw [flat_eq_card]
  have hset : ((range M).filter fun p' => csum mask p' ≤ csum mask p - 1) = range p := by
    ext p'
    rw [mem_filter, mem_range, mem_range]
    constructor
    · rintro ⟨_, hle⟩
      by_contra hcon
      have := csum_mono mask (Nat.not_lt.mp hcon)
      omega
    · intro hlt
      have := csum_lt_of_lt_of_mask mask hlt hm
      exact ⟨lt_trans hlt hp, by omega⟩
  rw [hset, card_range]

end

end Cert.Lib.NonzeroEnum
-- ==== Proof.LibTriuCount.lean ====
import proofs.«116980_j2911987826887_2_alg».proof.Proof.LibNonzeroEnum

/-!
# The strict upper triangle of an n×n grid in row-major order

Position `p = row * n + column` lies strictly above the diagonal when `p / n < p % n`.  Row `i`
holds `n - 1 - i` such positions, so the triangle holds `0 + 1 + … + (n - 1) = n (n - 1) / 2`.
-/

namespace Cert.Lib.TriuCount

open Finset Cert.Lib

/-- strict upper triangle of an n×n row-major grid: row index < column index at flat position p -/
def upper (n p : ℕ) : Prop := p / n < p % n

instance instDecidableUpper (n p : ℕ) : Decidable (upper n p) :=
  inferInstanceAs (Decidable (p / n < p % n))

/-- Position `r * n + k` with `k < n` is row `r`, column `k`: it is strictly upper iff `r < k`. -/
theorem upper_row {n r k : ℕ} (hk : k < n) : upper n (r * n + k) ↔ r < k := by
  have hn : 0 < n := Nat.lt_of_le_of_lt (Nat.zero_le k) hk
  unfold upper
  rw [Nat.add_comm, Nat.add_mul_div_right _ _ hn, Nat.add_mul_mod_self_right,
    Nat.div_eq_of_lt hk, Nat.mod_eq_of_lt hk, Nat.zero_add]

/-- Row `r` holds `n - 1 - r` strictly upper positions (none when `r ≥ n - 1`). -/
theorem count_row (n r : ℕ) [DecidablePred fun k => upper n (r * n + k)] :
    Nat.count (fun k => upper n (r * n + k)) n = n - 1 - r := by
  rw [Nat.count_eq_card_filter_range]
  have hset : ((range n).filter fun k => upper n (r * n + k)) = Ioo r n := by
    ext k
    rw [mem_filter, mem_range, mem_Ioo]
    constructor
    · rintro ⟨hk, hu⟩
      exact ⟨(upper_row hk).mp hu, hk⟩
    · rintro ⟨hr, hk⟩
      exact ⟨hk, (upper_row hk).mpr hr⟩
  rw [hset, Nat.card_Ioo]
  omega

/-- The first `r` rows hold `∑_{i<r} (n - 1 - i)` strictly upper positions. -/
theorem count_rows (n r : ℕ) : Nat.count (upper n) (r * n) = ∑ i ∈ range r, (n - 1 - i) := by
  induction r with
  | zero => simp
  | succ r ih =>
    rw [Nat.succ_mul, Nat.count_add, ih, count_row, sum_range_succ]

/-- The strict upper triangle of an n×n grid holds `n (n - 1) / 2` positions. -/
theorem total_upper (n : ℕ) : NonzeroEnum.total (n * n) (upper n) = n * (n - 1) / 2 := by
  have h : ∑ i ∈ range n, (n - 1 - i) = ∑ i ∈ range n, i := sum_range_reflect (fun i => i) n
  rw [NonzeroEnum.total_eq_count, count_rows, h, sum_range_id]

/-- The strict upper triangle of a 1024×1024 grid holds 523776 positions. -/
theorem total_upper_1024 : NonzeroEnum.total (1024 * 1024) (upper 1024) = 523776 := by
  rw [total_upper]

/-- The same count with the grid size written as the literal 1048576. -/
theorem total_upper_1024' : NonzeroEnum.total 1048576 (upper 1024) = 523776 :=
  total_upper_1024

/-- For `e < 523776` the `e`-th enumerated position lies in the grid, strictly above the
diagonal, and its column index is below 1024. -/
theorem flat_upper_1024_spec {e : ℕ} (he : e < 523776) :
    NonzeroEnum.flat 1048576 (upper 1024) e < 1048576 ∧
      NonzeroEnum.flat 1048576 (upper 1024) e / 1024 <
        NonzeroEnum.flat 1048576 (upper 1024) e % 1024 ∧
      NonzeroEnum.flat 1048576 (upper 1024) e % 1024 < 1024 := by
  have he' : e < NonzeroEnum.total 1048576 (upper 1024) := by
    rw [total_upper_1024']; exact he
  obtain ⟨h1, h2, _⟩ := NonzeroEnum.flat_spec 1048576 (upper 1024) he'
  exact ⟨h1, h2, Nat.mod_lt _ (by omega)⟩

/-- For `e < 523776` the running count at the `e`-th enumerated position is `e + 1`. -/
theorem csum_flat_upper_1024 {e : ℕ} (he : e < 523776) :
    NonzeroEnum.csum (upper 1024) (NonzeroEnum.flat 1048576 (upper 1024) e) = e + 1 := by
  have he' : e < NonzeroEnum.total 1048576 (upper 1024) := by
    rw [total_upper_1024']; exact he
  exact (NonzeroEnum.flat_spec 1048576 (upper 1024) he').2.2

/-- Every pair `i < j < 1024` is enumerated: some `e < 523776` has `flat e = i * 1024 + j`. -/
theorem exists_flat_upper_1024 {i j : ℕ} (hij : i < j) (hj : j < 1024) :
    ∃ e, e < 523776 ∧ NonzeroEnum.flat 1048576 (upper 1024) e = i * 1024 + j := by
  have hp : i * 1024 + j < 1048576 := by omega
  have hm : upper 1024 (i * 1024 + j) := (upper_row hj).mpr hij
  obtain ⟨_, h2, h3⟩ := NonzeroEnum.flat_of_mask 1048576 (upper 1024) hp hm
  rw [total_upper_1024'] at h2
  exact ⟨_, h2, h3⟩

end Cert.Lib.TriuCount
-- ==== Proof.LibHostCumsum.lean ====
import Idealize.ShloMosaic.PureOps.Contract
import Idealize.ShloMosaic.Lib.ValueIdx
import Mathlib.Algebra.BigOperators.Fin
import Mathlib.Algebra.BigOperators.Intervals

open scoped BigOperators

namespace Cert.Lib.HostCumsum

open Idealize.ShloMosaic

/-- A left fold of modular 32-bit addition is the start plus the natural-number sum of the summands, reduced modulo 2^32. -/
theorem foldl_addi_eq {ι : Type} (l : List ι) (g : ι → BitVec 32) (a : BitVec 32) :
    l.foldl (fun r m => IntOp.addi r (g m)) a = a + BitVec.ofNat 32 ((l.map fun m => (g m).toNat).sum) := by
  induction l generalizing a with
  | nil => simp
  | cons m l ih =>
    simp only [List.foldl_cons, List.map_cons, List.sum_cons]
    rw [ih]
    apply BitVec.eq_of_toNat_eq
    simp only [IntOp.addi, BitVec.toNat_add, BitVec.toNat_ofNat]
    omega

/-- A window of length `n` ending at position `j0` of a sequence padded with zeros on the left: summing the
    window's entries is summing the sequence's entries `0 … j0`. -/
theorem sum_window (k j0 : ℕ) (f : ℕ → ℕ) :
    ∑ w ∈ Finset.range (k + j0 + 1), (if k + j0 ≤ j0 + w ∧ j0 + w - (k + j0) < k + j0 + 1 then f (j0 + w - (k + j0)) else 0)
      = ∑ q ∈ Finset.range (j0 + 1), f q := by
  rw [Finset.range_eq_Ico, ← Finset.sum_Ico_consecutive _ (Nat.zero_le k) (by omega : k ≤ k + j0 + 1)]
  rw [Finset.sum_eq_zero, zero_add, Finset.sum_Ico_eq_sum_range]
  · have : k + j0 + 1 - k = j0 + 1 := by omega
    rw [this]
    apply Finset.sum_congr rfl
    intro q hq
    rw [Finset.mem_range] at hq
    rw [if_pos (by omega)]
    congr 1; omega
  · intro w hw
    rw [Finset.mem_Ico] at hw
    rw [if_neg (by omega)]

/-- The row-major position of a one-axis window's only coordinate is the coordinate itself. -/
theorem rowMajor_symm_one (n : ℕ) (m : Fin (⟨1, ![n]⟩ : Shape).numel) :
    (((⟨1, ![n]⟩ : Shape).rowMajor.symm m) 0).val = m.val := by
  simp [Shape.rowMajor, Shape.rowMajorPi, Shape.unrankPi, Shape.prodPi]
  rfl

/-- A one-axis shape of extent `n` has `n` elements. -/
theorem numel_one (n : ℕ) : (⟨1, ![n]⟩ : Shape).numel = n := by
  simp [Shape.numel]

/-- The integer running sum as a windowed reduction: one window of the whole length `n = k + 1`, stride one,
    `k` zeros padded below, body modular addition from zero. Entry `j` is the sum of the entries `0 … j`,
    taken in the naturals and reduced modulo 2^32 (modular addition needs no bound on the sum). -/
theorem cumsum_apply_fn {n k : ℕ} (hk : k + 1 = n) (xs : ℕ → BitVec 32)
    (v : (⟨0, ![]⟩ : Shape).Idx → BitVec 32) (hv : ∀ i, v i = 0#32)
    (h : (⟨1, ![n]⟩ : Shape).ReduceWindows ![n] ![1] ![k] ![0] ⟨1, ![n]⟩)
    (hu : 0 < (⟨0, ![]⟩ : Shape).numel) (j : (⟨1, ![n]⟩ : Shape).Idx) :
    Host.reduceWindow (s := ⟨1, ![n]⟩) (t := ⟨1, ![n]⟩) (u := ⟨0, ![]⟩) IntOp.addi ![n] ![1] ![k] ![0]
        (fun i => xs (i 0).val) v h hu j
      = BitVec.ofNat 32 (∑ q ∈ Finset.range ((j 0).val + 1), (xs q).toNat) := by
  unfold Host.reduceWindow
  simp only []
  rw [foldl_addi_eq, hv, BitVec.zero_add]
  congr 1
  rw [← Fin.sum_univ_def]
  have hjn : (j 0).val < n := (j 0).isLt
  calc _ = ∑ i : Fin (⟨1, ![n]⟩ : Shape).numel, (fun w => if k ≤ (j 0).val + w ∧ (j 0).val + w - k < n
              then (xs ((j 0).val + w - k)).toNat else 0) i.val := by
        apply Finset.sum_congr rfl
        intro i _
        simp only [Fin.forall_fin_one, Fin.cast_eq_self, Matrix.cons_val_zero, Nat.mul_one, rowMajor_symm_one]
        split_ifs <;> simp
    _ = ∑ w ∈ Finset.range (⟨1, ![n]⟩ : Shape).numel, (if k ≤ (j 0).val + w ∧ (j 0).val + w - k < n
              then (xs ((j 0).val + w - k)).toNat else 0) :=
        Fin.sum_univ_eq_sum_range (fun w => if k ≤ (j 0).val + w ∧ (j 0).val + w - k < n
              then (xs ((j 0).val + w - k)).toNat else 0) _
    _ = _ := by
        rw [numel_one]
        generalize (j 0).val = j0 at hjn ⊢
        subst hk
        obtain ⟨k', rfl⟩ : ∃ k', k = k' + j0 := ⟨k - j0, by omega⟩
        exact sum_window k' j0 fun q => (xs q).toNat

/-- The entry of a one-axis array at position `q`, read as zero past the end. -/
def entry {n : ℕ} (x : (⟨1, ![n]⟩ : Shape).Idx → BitVec 32) (q : ℕ) : BitVec 32 :=
  if hq : q < n then x (ValueIdx.ix1 ⟨q, hq⟩) else 0#32

/-- Inside the array `entry` is the array's element. -/
theorem entry_of_lt {n : ℕ} (x : (⟨1, ![n]⟩ : Shape).Idx → BitVec 32) {q : ℕ} (hq : q < n) :
    entry x q = x (ValueIdx.ix1 ⟨q, hq⟩) := by
  simp [entry, hq]

/-- An array is its entries read at each index's coordinate. -/
theorem entry_coord {n : ℕ} (x : (⟨1, ![n]⟩ : Shape).Idx → BitVec 32) (i : (⟨1, ![n]⟩ : Shape).Idx) :
    entry x (i 0).val = x i := by
  rw [entry_of_lt x (i 0).isLt]
  exact congrArg x (ValueIdx.eq_ix1 i).symm

/-- The entries of an array given by a sequence are the sequence's, inside the array. -/
theorem entry_fn {n : ℕ} (xs : ℕ → BitVec 32) {q : ℕ} (hq : q < n) :
    entry (n := n) (fun i => xs (i 0).val) q = xs q :=
  (entry_of_lt _ hq).trans rfl

/-- The integer running sum of any array `x` (one window of the whole length `n = k + 1`, stride one, `k` zeros
    padded below, body modular addition from zero): entry `j` is the natural-number sum of the entries `0 … j`
    reduced modulo 2^32. -/
theorem cumsum_apply {n k : ℕ} (hk : k + 1 = n) (x : (⟨1, ![n]⟩ : Shape).Idx → BitVec 32)
    (v : (⟨0, ![]⟩ : Shape).Idx → BitVec 32) (hv : ∀ i, v i = 0#32)
    (h : (⟨1, ![n]⟩ : Shape).ReduceWindows ![n] ![1] ![k] ![0] ⟨1, ![n]⟩)
    (hu : 0 < (⟨0, ![]⟩ : Shape).numel) (j : (⟨1, ![n]⟩ : Shape).Idx) :
    Host.reduceWindow (s := ⟨1, ![n]⟩) (t := ⟨1, ![n]⟩) (u := ⟨0, ![]⟩) IntOp.addi ![n] ![1] ![k] ![0] x v h hu j
      = BitVec.ofNat 32 (∑ q ∈ Finset.range ((j 0).val + 1), (entry x q).toNat) := by
  have hx : (fun i : (⟨1, ![n]⟩ : Shape).Idx => entry x (i 0).val) = x := funext (entry_coord x)
  have key := cumsum_apply_fn hk (entry x) v hv h hu j
  rw [hx] at key
  exact key

/-- The same with the padding written `n - 1`. -/
theorem cumsum_apply_pred {n : ℕ} (x : (⟨1, ![n]⟩ : Shape).Idx → BitVec 32)
    (v : (⟨0, ![]⟩ : Shape).Idx → BitVec 32) (hv : ∀ i, v i = 0#32)
    (h : (⟨1, ![n]⟩ : Shape).ReduceWindows ![n] ![1] ![n - 1] ![0] ⟨1, ![n]⟩)
    (hu : 0 < (⟨0, ![]⟩ : Shape).numel) (j : (⟨1, ![n]⟩ : Shape).Idx) :
    Host.reduceWindow (s := ⟨1, ![n]⟩) (t := ⟨1, ![n]⟩) (u := ⟨0, ![]⟩) IntOp.addi ![n] ![1] ![n - 1] ![0] x v h hu j
      = BitVec.ofNat 32 (∑ q ∈ Finset.range ((j 0).val + 1), (entry x q).toNat) :=
  cumsum_apply (by have hj : (j 0).val < n := (j 0).isLt; omega) x v hv h hu j

/-- The running sum of a 0/1 array counts: when entry `q` is one where `mask q` holds and zero elsewhere, entry `j`
    of the running sum is the number of positions `q ≤ j` with `mask q`. -/
theorem cumsum_apply_card {n k : ℕ} (hk : k + 1 = n) (mask : ℕ → Prop) [DecidablePred mask]
    (x : (⟨1, ![n]⟩ : Shape).Idx → BitVec 32) (hx : ∀ i, x i = if mask (i 0).val then 1#32 else 0#32)
    (v : (⟨0, ![]⟩ : Shape).Idx → BitVec 32) (hv : ∀ i, v i = 0#32)
    (h : (⟨1, ![n]⟩ : Shape).ReduceWindows ![n] ![1] ![k] ![0] ⟨1, ![n]⟩)
    (hu : 0 < (⟨0, ![]⟩ : Shape).numel) (j : (⟨1, ![n]⟩ : Shape).Idx) :
    Host.reduceWindow (s := ⟨1, ![n]⟩) (t := ⟨1, ![n]⟩) (u := ⟨0, ![]⟩) IntOp.addi ![n] ![1] ![k] ![0] x v h hu j
      = BitVec.ofNat 32 ((Finset.range ((j 0).val + 1)).filter mask).card := by
  rw [cumsum_apply hk x v hv h hu j, Finset.card_filter]
  congr 1
  apply Finset.sum_congr rfl
  intro q hq
  rw [Finset.mem_range] at hq
  have hqn : q < n := by have hj : (j 0).val < n := (j 0).isLt; omega
  rw [entry_of_lt x hqn, hx]
  show (if mask q then 1#32 else 0#32).toNat = _
  split_ifs <;> rfl

/-- The sequence form of the count: the array is `xs` read at each coordinate, `xs q` one on `mask` and zero off it. -/
theorem cumsum_apply_fn_card {n k : ℕ} (hk : k + 1 = n) (mask : ℕ → Prop) [DecidablePred mask]
    (xs : ℕ → BitVec 32) (hxs : ∀ q, q < n → xs q = if mask q then 1#32 else 0#32)
    (v : (⟨0, ![]⟩ : Shape).Idx → BitVec 32) (hv : ∀ i, v i = 0#32)
    (h : (⟨1, ![n]⟩ : Shape).ReduceWindows ![n] ![1] ![k] ![0] ⟨1, ![n]⟩)
    (hu : 0 < (⟨0, ![]⟩ : Shape).numel) (j : (⟨1, ![n]⟩ : Shape).Idx) :
    Host.reduceWindow (s := ⟨1, ![n]⟩) (t := ⟨1, ![n]⟩) (u := ⟨0, ![]⟩) IntOp.addi ![n] ![1] ![k] ![0]
        (fun i => xs (i 0).val) v h hu j
      = BitVec.ofNat 32 ((Finset.range ((j 0).val + 1)).filter mask).card :=
  cumsum_apply_card hk mask _ (fun i => hxs _ (i 0).isLt) v hv h hu j

-- the instance at length 1048576 with the padding written as the literal 1048575, through named shapes
private abbrev S1048576' : Shape := ⟨1, ![1048576]⟩
private abbrev S_' : Shape := ⟨0, ![]⟩
example (x : S1048576'.Idx → BitVec 32) (v : S_'.Idx → BitVec 32) (hv : ∀ i, v i = 0#32)
    (h : S1048576'.ReduceWindows (![1048576] : Fin 1 → Nat) ![1] ![1048575] ![0] S1048576')
    (hu : 0 < S_'.numel) (j : S1048576'.Idx) :
    (fun x v => Host.reduceWindow IntOp.addi ![1048576] ![1] ![1048575] ![0] x v h hu) x v j
      = BitVec.ofNat 32 (∑ q ∈ Finset.range ((j 0).val + 1), (entry x q).toNat) := by
  beta_reduce
  rw [cumsum_apply (n := 1048576) (k := 1048575) rfl x v hv h hu j]

example (x : S1048576'.Idx → BitVec 32) (v : S_'.Idx → BitVec 32) (hv : ∀ i, v i = 0#32)
    (h : S1048576'.ReduceWindows (![1048576] : Fin 1 → Nat) ![1] ![1048575] ![0] S1048576')
    (hu : 0 < S_'.numel) (j : S1048576'.Idx) :
    (fun x v => Host.reduceWindow IntOp.addi ![1048576] ![1] ![1048575] ![0] x v h hu) x v j
      = BitVec.ofNat 32 (∑ q ∈ Finset.range ((j 0).val + 1), (entry x q).toNat) :=
  cumsum_apply_pred (n := 1048576) x v hv h hu j

/-! ### Floor division and floored remainder of a non-negative 32-bit integer by a positive one -/

/-- The sign word of a 32-bit two's-complement integer: `0`, `-1` or `1`. -/
def signWord (x : BitVec 32) : BitVec 32 := if x = 0 then 0 else if x.msb then -1 else 1

/-- The entrywise sign at an index is the sign word of the entry. -/
theorem signi_apply {s : Shape} (x : IVec s 32) (i : s.Idx) : signi x i = signWord (x i) := rfl

/-- Floor division of 32-bit signed integers as it is assembled from truncating division: the truncated quotient,
    lowered by one when the signs of dividend and divisor differ and the remainder is not zero. -/
def floorDivWord (x c : BitVec 32) : BitVec 32 :=
  Scalar.select
    (IntOp.andi (IntOp.cmpi .ne (signWord x) (signWord c)) (IntOp.cmpi .ne (IntOp.remsi .host x c) 0#32))
    (IntOp.subi (IntOp.divsi .host x c) 1#32) (IntOp.divsi .host x c)

/-- The divisor of the floored remainder: one in place of zero. -/
def remDivisor (c : BitVec 32) : BitVec 32 := Scalar.select (IntOp.cmpi .eq c 0#32) 1#32 c

/-- The floored remainder of 32-bit signed integers as it is assembled from the truncating remainder: the truncated
    remainder, raised by the divisor when it is not zero and its sign differs from the divisor's. -/
def remainderWord (x c : BitVec 32) : BitVec 32 :=
  Scalar.select
    (IntOp.andi
      (IntOp.cmpi .ne (IntOp.cmpi .slt (IntOp.remsi .host x (remDivisor c)) 0#32) (IntOp.cmpi .slt (remDivisor c) 0#32))
      (IntOp.cmpi .ne (IntOp.remsi .host x (remDivisor c)) 0#32))
    (IntOp.addi (IntOp.remsi .host x (remDivisor c)) (remDivisor c)) (IntOp.remsi .host x (remDivisor c))

/-- A word below 2^31 has a clear sign bit. -/
theorem msb_false_of_lt {x : BitVec 32} (hx : x.toNat < 2 ^ 31) : x.msb = false := by
  rw [BitVec.msb_eq_false_iff_two_mul_lt]; omega

/-- A positive divisor below 2^31 is neither zero nor minus one: signed division by it has no corner. -/
theorem not_corner (x : BitVec 32) {c : BitVec 32} (hc0 : 0 < c.toNat) (hc : c.toNat < 2 ^ 31) :
    ¬ IntOp.SDivCorner x c := by
  rintro (h | ⟨-, h⟩)
  · rw [h] at hc0; simp at hc0
  · rw [h] at hc; simp at hc

/-- Signed division of a non-negative word by a positive one is the unsigned division. -/
theorem divsi_host_eq {x c : BitVec 32} (hx : x.toNat < 2 ^ 31) (hc0 : 0 < c.toNat) (hc : c.toNat < 2 ^ 31) :
    IntOp.divsi .host x c = x / c := by
  unfold IntOp.divsi
  rw [if_neg (not_corner x hc0 hc), BitVec.sdiv_eq, msb_false_of_lt hx, msb_false_of_lt hc]
  rfl

/-- The signed remainder of a non-negative word by a positive one is the unsigned remainder. -/
theorem remsi_host_eq {x c : BitVec 32} (hx : x.toNat < 2 ^ 31) (hc0 : 0 < c.toNat) (hc : c.toNat < 2 ^ 31) :
    IntOp.remsi .host x c = x % c := by
  unfold IntOp.remsi
  rw [if_neg (not_corner x hc0 hc), BitVec.srem_eq, msb_false_of_lt hx, msb_false_of_lt hc]

/-- The sign word of a positive word below 2^31 is one. -/
theorem signWord_pos {c : BitVec 32} (hc0 : 0 < c.toNat) (hc : c.toNat < 2 ^ 31) : signWord c = 1#32 := by
  have h0 : ¬ c = 0 := by rintro rfl; simp at hc0
  unfold signWord
  rw [if_neg h0, msb_false_of_lt hc]
  rfl

/-- A word differs from itself nowhere: the comparison bit is zero. -/
theorem cmpi_ne_self {w : ℕ} (a : BitVec w) : IntOp.cmpi .ne a a = 0#1 := by
  simp [IntOp.cmpi]

/-- A select on a zero condition bit takes the second branch. -/
theorem select_zero' {α : Type} (a b : α) : Scalar.select 0#1 a b = b := by
  simp [Scalar.select]

/-- Unsigned division of words is the division of their values. -/
theorem udiv_eq_ofNat (x c : BitVec 32) : x / c = BitVec.ofNat 32 (x.toNat / c.toNat) := by
  apply BitVec.eq_of_toNat_eq
  rw [BitVec.toNat_udiv, BitVec.toNat_ofNat, Nat.mod_eq_of_lt]
  exact lt_of_le_of_lt (Nat.div_le_self _ _) x.isLt

/-- The unsigned remainder of words is the remainder of their values. -/
theorem umod_eq_ofNat (x c : BitVec 32) : x % c = BitVec.ofNat 32 (x.toNat % c.toNat) := by
  apply BitVec.eq_of_toNat_eq
  rw [BitVec.toNat_umod, BitVec.toNat_ofNat]
  exact (Nat.mod_eq_of_lt (lt_of_le_of_lt (Nat.mod_le _ _) x.isLt)).symm

/-- Floor division of a non-negative word by a positive one is the unsigned division: the signs agree or the
    dividend is zero, so the truncated quotient is never lowered. -/
theorem floorDivWord_eq_udiv {x c : BitVec 32} (hx : x.toNat < 2 ^ 31) (hc0 : 0 < c.toNat) (hc : c.toNat < 2 ^ 31) :
    floorDivWord x c = x / c := by
  unfold floorDivWord
  rw [divsi_host_eq hx hc0 hc, remsi_host_eq hx hc0 hc, signWord_pos hc0 hc]
  have hcond : IntOp.andi (IntOp.cmpi .ne (signWord x) 1#32) (IntOp.cmpi .ne (x % c) 0#32) = 0#1 := by
    by_cases h0 : x = 0
    · subst h0
      have : (0 : BitVec 32) % c = 0#32 := by simp
      rw [this, cmpi_ne_self]
      simp [IntOp.andi]
    · have hx0 : 0 < x.toNat := by
        rcases Nat.eq_zero_or_pos x.toNat with h | h
        · exact absurd (BitVec.eq_of_toNat_eq (by simpa using h)) h0
        · exact h
      rw [signWord_pos hx0 hx, cmpi_ne_self]
      simp [IntOp.andi]
  rw [hcond, select_zero']

/-- Floor division of a non-negative word by a positive one, as the division of the values. -/
theorem floorDivWord_eq {x c : BitVec 32} (hx : x.toNat < 2 ^ 31) (hc0 : 0 < c.toNat) (hc : c.toNat < 2 ^ 31) :
    floorDivWord x c = BitVec.ofNat 32 (x.toNat / c.toNat) := by
  rw [floorDivWord_eq_udiv hx hc0 hc, udiv_eq_ofNat]

/-- A positive divisor is kept as the floored remainder's divisor. -/
theorem remDivisor_pos {c : BitVec 32} (hc0 : 0 < c.toNat) : remDivisor c = c := by
  have h0 : c ≠ 0#32 := by rintro rfl; simp at hc0
  have hb : (c == 0#32) = false := beq_eq_false_iff_ne.mpr h0
  simp [remDivisor, IntOp.cmpi, Scalar.select, hb]

/-- The floored remainder of a non-negative word by a positive one is the unsigned remainder: the truncated
    remainder is non-negative like the divisor, so it is never raised. -/
theorem remainderWord_eq_umod {x c : BitVec 32} (hx : x.toNat < 2 ^ 31) (hc0 : 0 < c.toNat) (hc : c.toNat < 2 ^ 31) :
    remainderWord x c = x % c := by
  unfold remainderWord
  rw [remDivisor_pos hc0, remsi_host_eq hx hc0 hc]
  have hr : (x % c).msb = false := by
    apply msb_false_of_lt
    rw [BitVec.toNat_umod]
    exact lt_trans (Nat.mod_lt _ hc0) hc
  have hlt : IntOp.cmpi .slt (x % c) 0#32 = 0#1 := by
    simp [IntOp.cmpi, BitVec.slt_zero_eq_msb, hr]
  have hclt : IntOp.cmpi .slt c 0#32 = 0#1 := by
    simp [IntOp.cmpi, BitVec.slt_zero_eq_msb, msb_false_of_lt hc]
  rw [hlt, hclt, cmpi_ne_self]
  have : ∀ b : BitVec 1, IntOp.andi 0#1 b = 0#1 := fun b => by simp [IntOp.andi]
  rw [this, select_zero']

/-- The floored remainder of a non-negative word by a positive one, as the remainder of the values. -/
theorem remainderWord_eq {x c : BitVec 32} (hx : x.toNat < 2 ^ 31) (hc0 : 0 < c.toNat) (hc : c.toNat < 2 ^ 31) :
    remainderWord x c = BitVec.ofNat 32 (x.toNat % c.toNat) := by
  rw [remainderWord_eq_umod hx hc0 hc, umod_eq_ofNat]

/-- Floor division of a non-negative word by 1024. -/
theorem floorDivWord_1024 {x : BitVec 32} (hx : x.toNat < 2 ^ 31) :
    floorDivWord x 1024#32 = BitVec.ofNat 32 (x.toNat / 1024) :=
  floorDivWord_eq hx (by decide) (by decide)

/-- The floored remainder of a non-negative word by 1024. -/
theorem remainderWord_1024 {x : BitVec 32} (hx : x.toNat < 2 ^ 31) :
    remainderWord x 1024#32 = BitVec.ofNat 32 (x.toNat % 1024) :=
  remainderWord_eq hx (by decide) (by decide)

/-- Floor division of a non-negative word by one is the word. -/
theorem floorDivWord_one {x : BitVec 32} (hx : x.toNat < 2 ^ 31) : floorDivWord x 1#32 = x := by
  rw [floorDivWord_eq_udiv hx (by decide) (by decide)]
  simp

/-- The floor-division body read at one index: the entrywise operations on arrays whose entries at that index are
    the dividend's entry, the divisor (twice), the divisor's sign word, zero and one. -/
theorem floorDiv_apply {s : Shape} (X C1 SC C2 Z O : IVec s 32) (i : s.Idx) (c : BitVec 32)
    (hC1 : C1 i = c) (hSC : SC i = signWord c) (hC2 : C2 i = c) (hZ : Z i = 0#32) (hO : O i = 1#32) :
    select (andi (cmpi .ne (signi X) SC) (cmpi .ne (Host.remsi X C2) Z)) (subi (Host.divsi X C1) O) (Host.divsi X C1) i
      = floorDivWord (X i) c := by
  show Scalar.select
      (IntOp.andi (IntOp.cmpi .ne (signWord (X i)) (SC i)) (IntOp.cmpi .ne (IntOp.remsi .host (X i) (C2 i)) (Z i)))
      (IntOp.subi (IntOp.divsi .host (X i) (C1 i)) (O i)) (IntOp.divsi .host (X i) (C1 i)) = _
  rw [hC1, hSC, hC2, hZ, hO]
  rfl

/-- The floored-remainder body read at one index: the entrywise operations on arrays whose entries at that index
    are the dividend's entry, the adjusted divisor (twice), its sign bit, and zero (twice). -/
theorem remainder_apply {s : Shape} (X D1 D2 Z1 Z2 : IVec s 32) (CL : IVec s 1) (i : s.Idx) (c : BitVec 32)
    (hD1 : D1 i = remDivisor c) (hD2 : D2 i = remDivisor c) (hZ1 : Z1 i = 0#32) (hZ2 : Z2 i = 0#32)
    (hCL : CL i = IntOp.cmpi .slt (remDivisor c) 0#32) :
    select (andi (cmpi .ne (cmpi .slt (Host.remsi X D1) Z2) CL) (cmpi .ne (Host.remsi X D1) Z1))
        (addi (Host.remsi X D1) D2) (Host.remsi X D1) i
      = remainderWord (X i) c := by
  show Scalar.select
      (IntOp.andi (IntOp.cmpi .ne (IntOp.cmpi .slt (IntOp.remsi .host (X i) (D1 i)) (Z2 i)) (CL i))
        (IntOp.cmpi .ne (IntOp.remsi .host (X i) (D1 i)) (Z1 i)))
      (IntOp.addi (IntOp.remsi .host (X i) (D1 i)) (D2 i)) (IntOp.remsi .host (X i) (D1 i)) = _
  rw [hD1, hD2, hZ1, hZ2, hCL]
  rfl

end Cert.Lib.HostCumsum
-- ==== Proof.RefIndex.lean ====
import proofs.«116980_j2911987826887_2_alg».proof.Proof.RefStages
import proofs.«116980_j2911987826887_2_alg».proof.Proof.LibNonzeroEnum
import proofs.«116980_j2911987826887_2_alg».proof.Proof.LibTriuCount
import proofs.«116980_j2911987826887_2_alg».proof.Proof.LibHostCumsum
import proofs.«116980_j2911987826887_2_alg».proof.Proof.LibBroadcast

noncomputable section

namespace Cert.ReferenceIdeal.RefIndex

open Cert.ReferenceIdeal Cert.ReferenceIdeal.Gen Cert.ReferenceIdeal.RefRun Cert.ReferenceIdeal.RefStages Idealize.ShloMosaic Idealize.ShloMosaic.TcCoe Idealize.SL.Sem Idealize.ShloMosaic.StableHlo
open Cert.ReferenceIdeal.Facts₀ Cert.ReferenceIdeal.Facts
open Cert.Lib Cert.Lib.HostCumsum Cert.Lib.TriuCount Idealize.ShloMosaic.ValueIdx

variable {F : FTy → Type} [FloatOps F]

/-- The `e`-th position, in row-major order, of the strict upper triangle of the 1024 × 1024 grid. -/
local notation "fl" => NonzeroEnum.flat 1048576 (upper 1024)

/-! ### Words below 2^31 read as numbers -/

/-- A number below 2^32 is the value of its word. -/
theorem toNat_ofNat_lt {m : ℕ} (h : m < 2 ^ 32) : (BitVec.ofNat 32 m).toNat = m := by
  rw [BitVec.toNat_ofNat]; exact Nat.mod_eq_of_lt h

/-- A number below 2^31 is the signed value of its word. -/
theorem toInt_ofNat_small {m : ℕ} (h : m < 2 ^ 31) : (BitVec.ofNat 32 m).toInt = (m : Int) := by
  have hn : (BitVec.ofNat 32 m).toNat = m := toNat_ofNat_lt (by omega)
  rw [BitVec.toInt_eq_toNat_of_msb (msb_false_of_lt (by rw [hn]; exact h)), hn]

/-- A rank-0 value spread over the 523776 entries is that value at every entry. -/
theorem bc {α : Type} (h : S_.BroadcastsInDim S523776 ![]) (x : S_.Idx → α) (i : S523776.Idx) :
    broadcastInDim S523776 ![] h x i = x ix0 :=
  Cert.Bcast.scalar_apply x h i

/-- Wrapping a non-negative index (adding the extent where it is negative) leaves it unchanged. -/
theorem normalise_apply {s : Shape} (V Z K : IVec s 32) (i : s.Idx) (hZ : Z i = 0#32) (hV : (V i).toNat < 2 ^ 31) :
    select (cmpi .slt V Z) (addi V K) V i = V i := by
  show Scalar.select (IntOp.cmpi .slt (V i) (Z i)) (IntOp.addi (V i) (K i)) (V i) = V i
  rw [hZ]
  have h0 : IntOp.cmpi .slt (V i) 0#32 = 0#1 := by
    simp [IntOp.cmpi, BitVec.slt_zero_eq_msb, msb_false_of_lt hV]
  rw [h0, select_zero']

/-! ### The floor division by 1024 and the remainders, one entry at a time -/

section
variable (A : Args F) (i : S523776.Idx)

/-- The quotient stage is the floor division of the flat position by 1024. -/
theorem v16_at : st_main_v16 A i = floorDivWord (st_main_v15 A i) 1024#32 := by
  unfold st_main_v16
  unfold st_main_call4_v10
  unfold st_main_call4_v12
  unfold st_main_call4_v5
  unfold st_main_call4_v9
  unfold st_main_call4_v1
  unfold st_main_call4_v2
  unfold st_main_call4_v7
  exact floorDiv_apply (st_main_v15 A) (st_main_call4_v0 A) (st_main_call4_v4 A) (st_main_call4_v6 A)
    (st_main_call4_v8 A) (st_main_call4_v11 A) i 1024#32
    ((bc _ _ i).trans rfl) ((bc _ _ i).trans rfl) ((bc _ _ i).trans rfl) ((bc _ _ i).trans rfl) ((bc _ _ i).trans rfl)

/-- The row stage is the floored remainder of the quotient stage by 1024. -/
theorem v17_at : st_main_v17 A i = remainderWord (st_main_v16 A i) 1024#32 := by
  unfold st_main_v17
  unfold st_main_call5_v12
  unfold st_main_call5_v14
  unfold st_main_call5_v11
  unfold st_main_call5_v6
  unfold st_main_call5_v8
  unfold st_main_call5_v4
  exact remainder_apply (st_main_v16 A) (st_main_call5_v3 A) (st_main_call5_v13 A) (st_main_call5_v5 A)
    (st_main_call5_v7 A) (st_main_call5_v10 A) i 1024#32
    ((bc _ _ i).trans rfl) ((bc _ _ i).trans rfl) ((bc _ _ i).trans rfl) ((bc _ _ i).trans rfl) ((bc _ _ i).trans rfl)

/-- The second quotient stage is the floor division of the flat position by one. -/
theorem v18_at : st_main_v18 A i = floorDivWord (st_main_v15 A i) 1#32 := by
  unfold st_main_v18
  unfold st_main_call6_v10
  unfold st_main_call6_v12
  unfold st_main_call6_v5
  unfold st_main_call6_v9
  unfold st_main_call6_v1
  unfold st_main_call6_v2
  unfold st_main_call6_v7
  exact floorDiv_apply (st_main_v15 A) (st_main_call6_v0 A) (st_main_call6_v4 A) (st_main_call6_v6 A)
    (st_main_call6_v8 A) (st_main_call6_v11 A) i 1#32
    ((bc _ _ i).trans rfl) ((bc _ _ i).trans rfl) ((bc _ _ i).trans rfl) ((bc _ _ i).trans rfl) ((bc _ _ i).trans rfl)

/-- The column stage is the floored remainder of the second quotient stage by 1024. -/
theorem v19_at : st_main_v19 A i = remainderWord (st_main_v18 A i) 1024#32 := by
  unfold st_main_v19
  unfold st_main_call7_v12
  unfold st_main_call7_v14
  unfold st_main_call7_v11
  unfold st_main_call7_v6
  unfold st_main_call7_v8
  unfold st_main_call7_v4
  exact remainder_apply (st_main_v18 A) (st_main_call7_v3 A) (st_main_call7_v13 A) (st_main_call7_v5 A)
    (st_main_call7_v7 A) (st_main_call7_v10 A) i 1024#32
    ((bc _ _ i).trans rfl) ((bc _ _ i).trans rfl) ((bc _ _ i).trans rfl) ((bc _ _ i).trans rfl) ((bc _ _ i).trans rfl)

end

/-! ### Rows and columns of the enumerated pairs -/

section
variable (A : Args F) (hflat : ∀ e : Fin 523776, st_main_v15 A (ValueIdx.ix1 e) = BitVec.ofNat 32 (fl e.val))
include hflat

/-- The flat-position word is the flat position, a number below 2^20. -/
theorem v15_toNat (e : Fin 523776) : (st_main_v15 A (ix1 e)).toNat = fl e.val := by
  have h1 := (flat_upper_1024_spec e.isLt).1
  rw [hflat e]; exact toNat_ofNat_lt (by omega)

/-- The row stage holds the row `flat / 1024` of the `e`-th pair. -/
theorem row_stage (e : Fin 523776) : st_main_v17 A (ix1 e) = BitVec.ofNat 32 (fl e.val / 1024) := by
  have h1 := (flat_upper_1024_spec e.isLt).1
  have hx := v15_toNat A hflat e
  have h16 : st_main_v16 A (ix1 e) = BitVec.ofNat 32 (fl e.val / 1024) := by
    rw [v16_at, floorDivWord_1024 (by rw [hx]; omega), hx]
  have h16n : (st_main_v16 A (ix1 e)).toNat = fl e.val / 1024 := by
    rw [h16]; exact toNat_ofNat_lt (by omega)
  rw [v17_at, remainderWord_1024 (by rw [h16n]; omega), h16n, Nat.mod_eq_of_lt (by omega)]

/-- The column stage holds the column `flat % 1024` of the `e`-th pair. -/
theorem col_stage (e : Fin 523776) : st_main_v19 A (ix1 e) = BitVec.ofNat 32 (fl e.val % 1024) := by
  have h1 := (flat_upper_1024_spec e.isLt).1
  have hx := v15_toNat A hflat e
  have h18 : st_main_v18 A (ix1 e) = st_main_v15 A (ix1 e) := by
    rw [v18_at, floorDivWord_one (by rw [hx]; omega)]
  rw [v19_at, h18, remainderWord_1024 (by rw [hx]; omega), hx]

/-- The row word read as a signed number. -/
theorem row_toInt (e : Fin 523776) : (st_main_v17 A (ix1 e)).toInt = ((fl e.val / 1024 : ℕ) : Int) := by
  have h1 := (flat_upper_1024_spec e.isLt).1
  rw [row_stage A hflat e]; exact toInt_ofNat_small (by omega)

/-- The column word read as a signed number. -/
theorem col_toInt (e : Fin 523776) : (st_main_v19 A (ix1 e)).toInt = ((fl e.val % 1024 : ℕ) : Int) := by
  rw [col_stage A hflat e]; exact toInt_ofNat_small (by omega)

/-- Every enumerated pair has `0 ≤ row < column < 1024`. -/
theorem row_lt_col (e : Fin 523776) :
    0 ≤ (st_main_v17 A (ix1 e)).toInt ∧ (st_main_v17 A (ix1 e)).toInt < (st_main_v19 A (ix1 e)).toInt ∧
      (st_main_v19 A (ix1 e)).toInt < 1024 := by
  obtain ⟨h1, h2, h3⟩ := flat_upper_1024_spec e.isLt
  rw [row_toInt A hflat e, col_toInt A hflat e]
  omega

/-- Every pair `i < j < 1024` is enumerated. -/
theorem exists_pair {i j : ℕ} (hij : i < j) (hj : j < 1024) :
    ∃ e : Fin 523776, (st_main_v17 A (ix1 e)).toInt = (i : Int) ∧ (st_main_v19 A (ix1 e)).toInt = (j : Int) := by
  obtain ⟨e, he, hfe⟩ := exists_flat_upper_1024 hij hj
  refine ⟨⟨e, he⟩, ?_, ?_⟩
  · rw [row_toInt A hflat ⟨e, he⟩]
    show ((fl e / 1024 : ℕ) : Int) = i
    rw [hfe]; omega
  · rw [col_toInt A hflat ⟨e, he⟩]
    show ((fl e % 1024 : ℕ) : Int) = j
    rw [hfe]; omega

/-- The row word is below 2^31. -/
theorem row_small (e : Fin 523776) : (st_main_v17 A (ix1 e)).toNat < 2 ^ 31 := by
  have h1 := (flat_upper_1024_spec e.isLt).1
  rw [row_stage A hflat e, toNat_ofNat_lt (by omega)]; omega

/-- The column word is below 2^31. -/
theorem col_small (e : Fin 523776) : (st_main_v19 A (ix1 e)).toNat < 2 ^ 31 := by
  rw [col_stage A hflat e, toNat_ofNat_lt (by omega)]; omega

/-! ### The index wrap-arounds before the gathers and scatters change nothing -/

/-- The first wrapped row index is the row. -/
theorem v39_at (e : Fin 523776) : st_main_v39 A (ix1 e) = st_main_v17 A (ix1 e) := by
  unfold st_main_v39
  unfold st_main_v36
  unfold st_main_v38
  exact normalise_apply (st_main_v17 A) (st_main_v35 A) (st_main_v37 A) (ix1 e) ((bc _ _ _).trans rfl) (row_small A hflat e)

/-- The first wrapped column index is the column. -/
theorem v46_at (e : Fin 523776) : st_main_v46 A (ix1 e) = st_main_v19 A (ix1 e) := by
  unfold st_main_v46
  unfold st_main_v43
  unfold st_main_v45
  exact normalise_apply (st_main_v19 A) (st_main_v42 A) (st_main_v44 A) (ix1 e) ((bc _ _ _).trans rfl) (col_small A hflat e)

/-- The second wrapped row index is the row. -/
theorem v75_at (e : Fin 523776) : st_main_v75 A (ix1 e) = st_main_v17 A (ix1 e) := by
  unfold st_main_v75
  unfold st_main_v72
  unfold st_main_v74
  exact normalise_apply (st_main_v17 A) (st_main_v71 A) (st_main_v73 A) (ix1 e) ((bc _ _ _).trans rfl) (row_small A hflat e)

/-- The second wrapped column index is the column. -/
theorem v80_at (e : Fin 523776) : st_main_v80 A (ix1 e) = st_main_v19 A (ix1 e) := by
  unfold st_main_v80
  unfold st_main_v77
  unfold st_main_v79
  exact normalise_apply (st_main_v19 A) (st_main_v76 A) (st_main_v78 A) (ix1 e) ((bc _ _ _).trans rfl) (col_small A hflat e)

/-- The third wrapped column index is the column. -/
theorem v89_at (e : Fin 523776) : st_main_v89 A (ix1 e) = st_main_v19 A (ix1 e) := by
  unfold st_main_v89
  unfold st_main_v86
  unfold st_main_v88
  exact normalise_apply (st_main_v19 A) (st_main_v85 A) (st_main_v87 A) (ix1 e) ((bc _ _ _).trans rfl) (col_small A hflat e)

/-- The third wrapped row index is the row. -/
theorem v94_at (e : Fin 523776) : st_main_v94 A (ix1 e) = st_main_v17 A (ix1 e) := by
  unfold st_main_v94
  unfold st_main_v91
  unfold st_main_v93
  exact normalise_apply (st_main_v17 A) (st_main_v90 A) (st_main_v92 A) (ix1 e) ((bc _ _ _).trans rfl) (row_small A hflat e)

end

end Cert.ReferenceIdeal.RefIndex

end
-- ==== Proof.LibHostScatter.lean ====
import Idealize.ShloMosaic.PureOps.ShapeOps
import Idealize.ShloMosaic.Lib.ValueIdx

/-!
# The host scatter read at one entry

The host's scatter is a left fold over the update positions, in row-major order, of a step that
replaces the entry an update lands on by the body applied to the old entry and the update.
This file reads that fold at one entry: for a body that returns the update (a SET), the entry
holds the common value of the updates landing on it, or the operand's entry when none lands; for
32-bit integer addition of ones onto zeros, the entry holds the number of updates landing on it,
modulo 2³².  Then the landing position is computed for two index layouts with general extents.
-/

namespace Cert.Lib.HostScatter

open Idealize.ShloMosaic

/-! ## The fold, with no shapes -/

section Fold
variable {ι Idx α : Type} [DecidableEq Idx]

/-- One step of the scatter fold: when `hit n = some i`, entry `i` becomes `f (r i) (val n)`;
    when `hit n = none`, nothing changes. -/
def step (hit : ι → Option Idx) (val : ι → α) (f : α → α → α) (r : Idx → α) (n : ι) : Idx → α :=
  match hit n with
  | some i => fun i' => if i' = i then f (r i) (val n) else r i'
  | none => r

/-- The scatter fold: the left fold of `step` over the list `l`, from `x`. -/
def scat (hit : ι → Option Idx) (val : ι → α) (f : α → α → α) (l : List ι) (x : Idx → α) : Idx → α :=
  l.foldl (step hit val f) x

variable (hit : ι → Option Idx) (val : ι → α) (f : α → α → α)

/-- The fold over the empty list is the start. -/
theorem scat_nil (x : Idx → α) : scat hit val f [] x = x := rfl

/-- The fold over `n :: l` is the fold over `l` from one step at `n`. -/
theorem scat_cons (n : ι) (l : List ι) (x : Idx → α) :
    scat hit val f (n :: l) x = scat hit val f l (step hit val f x n) := rfl

/-- A step whose update lands on `i'` puts `f (r i') (val n)` there. -/
theorem step_hit {r : Idx → α} {n : ι} {i' : Idx} (h : hit n = some i') :
    step hit val f r n i' = f (r i') (val n) := by
  unfold step
  rw [h]
  exact if_pos rfl

/-- A step whose update does not land on `i'` leaves entry `i'` alone. -/
theorem step_miss {r : Idx → α} {n : ι} {i' : Idx} (h : hit n ≠ some i') :
    step hit val f r n i' = r i' := by
  unfold step
  cases hn : hit n with
  | none => rfl
  | some i =>
    have hne : i' ≠ i := fun e => h (by rw [hn, e])
    exact if_neg hne

/-- ANY body: an entry on which no update of the list lands keeps its starting value. -/
theorem scat_of_no_hit (l : List ι) (x : Idx → α) (i' : Idx)
    (h : ∀ n ∈ l, hit n ≠ some i') : scat hit val f l x i' = x i' := by
  induction l generalizing x with
  | nil => rfl
  | cons n l ih =>
    rw [scat_cons, ih _ (fun m hm => h m (List.mem_cons_of_mem _ hm)),
      step_miss hit val f (h n (List.mem_cons_self ..))]

/-- SET body (the body returns the update): an entry on which some update of the list lands,
    all the updates landing on it carrying the same value `v`, ends as `v`. -/
theorem scat_set_of_hit (l : List ι) (x : Idx → α) (i' : Idx) (v : α)
    (hex : ∃ n ∈ l, hit n = some i') (hall : ∀ n ∈ l, hit n = some i' → val n = v) :
    scat hit val (fun _ b => b) l x i' = v := by
  induction l generalizing x with
  | nil => obtain ⟨n, hn, _⟩ := hex; cases hn
  | cons n l ih =>
    rw [scat_cons]
    by_cases hl : ∃ m ∈ l, hit m = some i'
    · exact ih _ hl (fun m hm => hall m (List.mem_cons_of_mem _ hm))
    · have hno : ∀ m ∈ l, hit m ≠ some i' := fun m hm e => hl ⟨m, hm, e⟩
      rw [scat_of_no_hit hit val _ l _ i' hno]
      obtain ⟨m, hm, hme⟩ := hex
      rcases List.mem_cons.1 hm with rfl | hm'
      · rw [step_hit hit val _ hme]
        exact hall m (List.mem_cons_self ..) hme
      · exact absurd hme (hno m hm')

/-- SET body, by the LAST landing update: the entry ends as the value of the last update of the
    list landing on it, whatever the earlier ones carry. -/
theorem scat_set_append_hit (l₁ l₂ : List ι) (n : ι) (x : Idx → α) (i' : Idx)
    (hn : hit n = some i') (h₂ : ∀ m ∈ l₂, hit m ≠ some i') :
    scat hit val (fun _ b => b) (l₁ ++ n :: l₂) x i' = val n := by
  unfold scat
  rw [List.foldl_append, List.foldl_cons]
  show scat hit val (fun _ b => b) l₂ _ i' = _
  rw [scat_of_no_hit hit val _ l₂ _ i' h₂, step_hit hit val _ hn]

end Fold

/-! ## Integer addition of ones onto zeros counts the landing updates -/

section Count
variable {ι Idx : Type} [DecidableEq Idx]

/-- One more than `k` modulo 2³², in 32-bit words. -/
theorem ofNat_succ_eq (k : Nat) : BitVec.ofNat 32 k + 1#32 = BitVec.ofNat 32 (k + 1) := by
  rw [BitVec.ofNat_add]

/-- ADD body on 32-bit words, every update `1`: entry `i'` ends as its start plus the number of
    updates of the list landing on it, modulo 2³². -/
theorem scat_addi_ones (hit : ι → Option Idx) (l : List ι) (x : Idx → BitVec 32) (i' : Idx) :
    scat hit (fun _ => 1#32) IntOp.addi l x i'
      = x i' + BitVec.ofNat 32 (l.filter (fun n => hit n = some i')).length := by
  induction l generalizing x with
  | nil => simp [scat_nil]
  | cons n l ih =>
    rw [scat_cons, ih]
    by_cases hn : hit n = some i'
    · rw [step_hit _ _ _ hn, List.filter_cons_of_pos (by simpa using hn), List.length_cons]
      show x i' + 1#32 + _ = _
      rw [BitVec.add_assoc, BitVec.add_comm 1#32, ofNat_succ_eq]
    · rw [step_miss _ _ _ hn, List.filter_cons_of_neg (by simpa using hn)]

/-- ADD body on 32-bit words, ones onto zeros: entry `i'` ends as the number of updates of the
    list landing on it, modulo 2³² (no overflow hypothesis). -/
theorem scat_addi_count (hit : ι → Option Idx) (l : List ι) (i' : Idx) :
    scat hit (fun _ => 1#32) IntOp.addi l (fun _ => 0#32) i'
      = BitVec.ofNat 32 (l.filter (fun n => hit n = some i')).length := by
  rw [scat_addi_ones, BitVec.zero_add]

/-- The positions of `Fin k` satisfying `p`, counted along `List.finRange k` or as a finite set. -/
theorem length_filter_finRange (k : Nat) (p : Fin k → Prop) [DecidablePred p] :
    ((List.finRange k).filter (fun n => p n)).length = (Finset.univ.filter p).card := by
  rw [Fin.univ_def]
  rfl

/-- ADD body over all of `Fin k`: the count as the cardinality of a finite set. -/
theorem scat_addi_count_finRange (k : Nat) (hit : Fin k → Option Idx) (i' : Idx) :
    scat hit (fun _ => 1#32) IntOp.addi (List.finRange k) (fun _ => 0#32) i'
      = BitVec.ofNat 32 (Finset.univ.filter (fun n => hit n = some i')).card := by
  rw [scat_addi_count, length_filter_finRange]

end Count

/-! ## The host's scatter is that fold -/

section Host
variable {s si u : Shape} {α : Type} {w : Nat}

/-- The host's scatter is the scatter fold over the update positions in row-major order, an
    update position landing where its result index says. -/
theorem scatter_eq_scat (d : ScatterDims s si u) (f : α → α → α) (x : s.Idx → α) (idx : IVec si w)
    (upd : u.Idx → α) :
    Host.scatter d f x idx upd
      = scat (fun n => d.resultIdx? (u.rowMajor.symm n) idx) (fun n => upd (u.rowMajor.symm n)) f
          (List.finRange u.numel) x := by
  unfold Host.scatter scat
  congr 1
  funext r n
  unfold step
  beta_reduce
  cases d.resultIdx? (u.rowMajor.symm n) idx <;> rfl

/-- ANY body: an entry on which no update position lands keeps the operand's value. -/
theorem scatter_of_no_hit (d : ScatterDims s si u) (f : α → α → α) (x : s.Idx → α) (idx : IVec si w)
    (upd : u.Idx → α) (i' : s.Idx) (h : ∀ j : u.Idx, d.resultIdx? j idx ≠ some i') :
    Host.scatter d f x idx upd i' = x i' := by
  rw [scatter_eq_scat]
  exact scat_of_no_hit _ _ _ _ _ _ (fun n _ => h _)

/-- SET body: an entry on which some update position lands, all the update positions landing on
    it carrying the same value `v`, ends as `v`. -/
theorem scatter_set_of_hit (d : ScatterDims s si u) (x : s.Idx → α) (idx : IVec si w)
    (upd : u.Idx → α) (i' : s.Idx) (v : α) (hex : ∃ j : u.Idx, d.resultIdx? j idx = some i')
    (hall : ∀ j : u.Idx, d.resultIdx? j idx = some i' → upd j = v) :
    Host.scatter d (fun _ b => b) x idx upd i' = v := by
  rw [scatter_eq_scat]
  obtain ⟨j, hj⟩ := hex
  refine scat_set_of_hit _ _ _ _ _ _ ⟨u.rowMajor j, List.mem_finRange _, ?_⟩ (fun n _ hn => hall _ hn)
  rw [Equiv.symm_apply_apply]
  exact hj

/-- ADD body on 32-bit words, ones onto zeros: an entry ends as the number of update positions
    landing on it, modulo 2³² (no overflow hypothesis). -/
theorem scatter_addi_count (d : ScatterDims s si u) (idx : IVec si w) (i' : s.Idx) :
    Host.scatter d IntOp.addi (fun _ => 0#32) idx (fun _ => 1#32) i'
      = BitVec.ofNat 32 (Finset.univ.filter (fun j : u.Idx => d.resultIdx? j idx = some i')).card := by
  rw [scatter_eq_scat, scat_addi_count_finRange]
  congr 1
  refine Finset.card_equiv u.rowMajor.symm (fun n => ?_)
  simp only [Finset.mem_filter, Finset.mem_univ, true_and]

end Host

/-! ## Where an update lands -/

section ResultIdx
variable {s si u : Shape} {w : Nat}

/-- An update position lands on `i'` exactly when, on every operand axis, the start plus the
    window coordinate is `i'`'s coordinate (as integers: a negative or too large sum lands nowhere). -/
theorem resultIdx?_eq_some_iff (d : ScatterDims s si u) (j : u.Idx) (idx : IVec si w) (i' : s.Idx) :
    d.resultIdx? j idx = some i'
      ↔ ∀ a, d.start j idx a + (d.window j a : Int) = ((i' a).val : Int) := by
  unfold ScatterDims.resultIdx?
  constructor
  · intro h a
    split_ifs at h with hb
    have hf := congrFun (Option.some.inj h) a
    have hv := congrArg Fin.val hf
    simp only at hv
    have := hb a
    omega
  · intro h
    have hb : ∀ a, 0 ≤ d.start j idx a + d.window j a ∧ d.start j idx a + d.window j a < s.size a := by
      intro a
      have := h a
      have := (i' a).isLt
      omega
    rw [dif_pos hb]
    congr 1
    funext a
    apply Fin.ext
    show (d.start j idx a + d.window j a).toNat = (i' a).val
    have := h a
    omega

end ResultIdx

/-! ## Layout: operand `[N0, N1, C]`, indices `[E, 2]`, updates `[E, Cu]`, one window axis -/

section Layout3
variable {N0 N1 C E Cu w : Nat}

/-- With the two leading operand axes scattered and inserted and the trailing one a window axis:
    update position `(e, c)` lands on `i'` exactly when the two index words of row `e`, read as
    signed integers, are `i'`'s first two coordinates and `c` is its third. -/
theorem resultIdx?_pair (d : ScatterDims ⟨3, ![N0, N1, C]⟩ ⟨2, ![E, 2]⟩ ⟨2, ![E, Cu]⟩)
    (huw : d.updateWindowDims = [1]) (hiw : d.insertedWindowDims = [0, 1])
    (hsd : d.scatterDimsToOperandDims = [0, 1]) (hiv : d.indexVectorDim = 1)
    (idx : IVec ⟨2, ![E, 2]⟩ w) (e : Fin E) (c : Fin Cu) (i' : (⟨3, ![N0, N1, C]⟩ : Shape).Idx) :
    d.resultIdx? (ValueIdx.ix2 e c) idx = some i'
      ↔ ((idx (ValueIdx.ix2 e 0)).toInt = ((i' 0).val : Int)
          ∧ (idx (ValueIdx.ix2 e 1)).toInt = ((i' 1).val : Int) ∧ (i' 2).val = c.val) := by
  obtain ⟨uw, iw, sd, iv, wf⟩ := d
  simp only at huw hiw hsd hiv
  subst huw hiw hsd hiv
  rw [resultIdx?_eq_some_iff]
  generalize hD : (⟨[1], [0, 1], [0, 1], 1, wf⟩ : ScatterDims ⟨3, ![N0, N1, C]⟩ ⟨2, ![E, 2]⟩ ⟨2, ![E, Cu]⟩) = D
  have hs0 : D.start (ValueIdx.ix2 e c) idx 0 = (idx (ValueIdx.ix2 e 0)).toInt := by
    subst hD
    unfold ScatterDims.start
    have hm : (0 : Fin 3) ∈ ([0, 1] : List (Fin 3)) := by decide
    rw [dif_pos hm]
    refine congrArg (fun q => (idx q).toInt) ?_
    funext b; refine Fin.ext ?_
    match b with
    | ⟨0, _⟩ => rfl
    | ⟨1, _⟩ => rfl
  have hs1 : D.start (ValueIdx.ix2 e c) idx 1 = (idx (ValueIdx.ix2 e 1)).toInt := by
    subst hD
    unfold ScatterDims.start
    have hm : (1 : Fin 3) ∈ ([0, 1] : List (Fin 3)) := by decide
    rw [dif_pos hm]
    refine congrArg (fun q => (idx q).toInt) ?_
    funext b; refine Fin.ext ?_
    match b with
    | ⟨0, _⟩ => rfl
    | ⟨1, _⟩ => rfl
  have hs2 : D.start (ValueIdx.ix2 e c) idx 2 = 0 := by
    subst hD
    unfold ScatterDims.start
    have hm : ¬ (2 : Fin 3) ∈ ([0, 1] : List (Fin 3)) := by decide
    exact dif_neg hm
  have hw0 : D.window (ValueIdx.ix2 e c) 0 = 0 := by
    subst hD
    unfold ScatterDims.window
    have hm : ¬ (0 : Fin 3) ∈ ([2] : List (Fin 3)) := by decide
    exact dif_neg hm
  have hw1 : D.window (ValueIdx.ix2 e c) 1 = 0 := by
    subst hD
    unfold ScatterDims.window
    have hm : ¬ (1 : Fin 3) ∈ ([2] : List (Fin 3)) := by decide
    exact dif_neg hm
  have hw2 : D.window (ValueIdx.ix2 e c) 2 = c.val := by
    subst hD
    unfold ScatterDims.window
    have hm : (2 : Fin 3) ∈ ([2] : List (Fin 3)) := by decide
    exact (dif_pos hm).trans rfl
  constructor
  · intro h
    have h0 := h 0
    have h1 := h 1
    have h2 := h 2
    rw [hs0, hw0] at h0
    rw [hs1, hw1] at h1
    rw [hs2, hw2] at h2
    refine ⟨by omega, by omega, by omega⟩
  · rintro ⟨h0, h1, h2⟩ a
    have e0 : D.start (ValueIdx.ix2 e c) idx 0 + (D.window (ValueIdx.ix2 e c) 0 : Int) = ((i' 0).val : Int) := by
      rw [hs0, hw0]; omega
    have e1 : D.start (ValueIdx.ix2 e c) idx 1 + (D.window (ValueIdx.ix2 e c) 1 : Int) = ((i' 1).val : Int) := by
      rw [hs1, hw1]; omega
    have e2 : D.start (ValueIdx.ix2 e c) idx 2 + (D.window (ValueIdx.ix2 e c) 2 : Int) = ((i' 2).val : Int) := by
      rw [hs2, hw2]; omega
    match a with
    | ⟨0, _⟩ => exact e0
    | ⟨1, _⟩ => exact e1
    | ⟨2, _⟩ => exact e2

end Layout3

section SetPair
variable {N0 N1 C E w : Nat} {α : Type}

/-- SET body in that layout (updates `[E, C]`): entry `(a, b, c)` ends as `v` when some row of the
    indices reads `(a, b)` and every row reading `(a, b)` carries `v` in its column `c`. -/
theorem scatter_set_pair (d : ScatterDims ⟨3, ![N0, N1, C]⟩ ⟨2, ![E, 2]⟩ ⟨2, ![E, C]⟩)
    (huw : d.updateWindowDims = [1]) (hiw : d.insertedWindowDims = [0, 1])
    (hsd : d.scatterDimsToOperandDims = [0, 1]) (hiv : d.indexVectorDim = 1)
    (x : (⟨3, ![N0, N1, C]⟩ : Shape).Idx → α) (idx : IVec ⟨2, ![E, 2]⟩ w)
    (upd : (⟨2, ![E, C]⟩ : Shape).Idx → α) (a : Fin N0) (b : Fin N1) (c : Fin C) (v : α)
    (hex : ∃ e : Fin E, (idx (ValueIdx.ix2 e 0)).toInt = (a.val : Int)
      ∧ (idx (ValueIdx.ix2 e 1)).toInt = (b.val : Int))
    (hall : ∀ e : Fin E, (idx (ValueIdx.ix2 e 0)).toInt = (a.val : Int) →
      (idx (ValueIdx.ix2 e 1)).toInt = (b.val : Int) → upd (ValueIdx.ix2 e c) = v) :
    Host.scatter d (fun _ b => b) x idx upd (ValueIdx.ix3 a b c) = v := by
  refine scatter_set_of_hit d x idx upd _ v ?_ ?_
  · obtain ⟨e, h0, h1⟩ := hex
    exact ⟨ValueIdx.ix2 e c, (resultIdx?_pair d huw hiw hsd hiv idx e c _).2 ⟨h0, h1, rfl⟩⟩
  · intro j hj
    obtain ⟨e, c', rfl⟩ : ∃ e c', j = ValueIdx.ix2 e c' := ⟨j 0, j 1, ValueIdx.eq_ix2 j⟩
    obtain ⟨h0, h1, h2⟩ := (resultIdx?_pair d huw hiw hsd hiv idx e c' _).1 hj
    have hc : c' = c := Fin.ext h2.symm
    subst hc
    exact hall e h0 h1

/-- ANY body in that layout: entry `(a, b, c)` keeps the operand's value when no row of the
    indices reads `(a, b)`. -/
theorem scatter_pair_of_no_hit (d : ScatterDims ⟨3, ![N0, N1, C]⟩ ⟨2, ![E, 2]⟩ ⟨2, ![E, C]⟩)
    (huw : d.updateWindowDims = [1]) (hiw : d.insertedWindowDims = [0, 1])
    (hsd : d.scatterDimsToOperandDims = [0, 1]) (hiv : d.indexVectorDim = 1)
    (f : α → α → α) (x : (⟨3, ![N0, N1, C]⟩ : Shape).Idx → α) (idx : IVec ⟨2, ![E, 2]⟩ w)
    (upd : (⟨2, ![E, C]⟩ : Shape).Idx → α) (a : Fin N0) (b : Fin N1) (c : Fin C)
    (hno : ∀ e : Fin E, ¬ ((idx (ValueIdx.ix2 e 0)).toInt = (a.val : Int)
      ∧ (idx (ValueIdx.ix2 e 1)).toInt = (b.val : Int))) :
    Host.scatter d f x idx upd (ValueIdx.ix3 a b c) = x (ValueIdx.ix3 a b c) := by
  refine scatter_of_no_hit d f x idx upd _ ?_
  intro j hj
  obtain ⟨e, c', rfl⟩ : ∃ e c', j = ValueIdx.ix2 e c' := ⟨j 0, j 1, ValueIdx.eq_ix2 j⟩
  obtain ⟨h0, h1, _⟩ := (resultIdx?_pair d huw hiw hsd hiv idx e c' _).1 hj
  exact hno e ⟨h0, h1⟩

end SetPair

/-! ## Layout: operand `[E]`, indices `[M, 1]`, updates `[M]`, no window axis -/

section Layout1
variable {E M w : Nat}

/-- With the operand's one axis scattered and inserted: update position `p` lands on `i'` exactly
    when the index word of row `p`, read as a signed integer, is `i'`'s coordinate (a negative
    word, or one at least `E`, lands nowhere). -/
theorem resultIdx?_single (d : ScatterDims ⟨1, ![E]⟩ ⟨2, ![M, 1]⟩ ⟨1, ![M]⟩)
    (huw : d.updateWindowDims = []) (hiw : d.insertedWindowDims = [0])
    (hsd : d.scatterDimsToOperandDims = [0]) (hiv : d.indexVectorDim = 1)
    (idx : IVec ⟨2, ![M, 1]⟩ w) (p : Fin M) (i' : (⟨1, ![E]⟩ : Shape).Idx) :
    d.resultIdx? (ValueIdx.ix1 p) idx = some i'
      ↔ (idx (ValueIdx.ix2 p 0)).toInt = ((i' 0).val : Int) := by
  obtain ⟨uw, iw, sd, iv, wf⟩ := d
  simp only at huw hiw hsd hiv
  subst huw hiw hsd hiv
  rw [resultIdx?_eq_some_iff]
  generalize hD : (⟨[], [0], [0], 1, wf⟩ : ScatterDims ⟨1, ![E]⟩ ⟨2, ![M, 1]⟩ ⟨1, ![M]⟩) = D
  have hs0 : D.start (ValueIdx.ix1 p) idx 0 = (idx (ValueIdx.ix2 p 0)).toInt := by
    subst hD
    unfold ScatterDims.start
    have hm : (0 : Fin 1) ∈ ([0] : List (Fin 1)) := by decide
    rw [dif_pos hm]
    refine congrArg (fun q => (idx q).toInt) ?_
    funext b; refine Fin.ext ?_
    match b with
    | ⟨0, _⟩ => rfl
    | ⟨1, _⟩ => rfl
  have hw0 : D.window (ValueIdx.ix1 p) 0 = 0 := by
    subst hD
    unfold ScatterDims.window
    have hm : ¬ (0 : Fin 1) ∈ ([] : List (Fin 1)) := by decide
    exact dif_neg hm
  constructor
  · intro h
    have h0 := h 0
    rw [hs0, hw0] at h0
    omega
  · intro h0 a
    have e0 : D.start (ValueIdx.ix1 p) idx 0 + (D.window (ValueIdx.ix1 p) 0 : Int) = ((i' 0).val : Int) := by
      rw [hs0, hw0]; omega
    match a with
    | ⟨0, _⟩ => exact e0

/-- In that layout an update position whose index word, read signed, is outside `[0, E)` lands nowhere. -/
theorem resultIdx?_single_eq_none (d : ScatterDims ⟨1, ![E]⟩ ⟨2, ![M, 1]⟩ ⟨1, ![M]⟩)
    (huw : d.updateWindowDims = []) (hiw : d.insertedWindowDims = [0])
    (hsd : d.scatterDimsToOperandDims = [0]) (hiv : d.indexVectorDim = 1)
    (idx : IVec ⟨2, ![M, 1]⟩ w) (p : Fin M)
    (h : (idx (ValueIdx.ix2 p 0)).toInt < 0 ∨ (E : Int) ≤ (idx (ValueIdx.ix2 p 0)).toInt) :
    d.resultIdx? (ValueIdx.ix1 p) idx = none := by
  cases hr : d.resultIdx? (ValueIdx.ix1 p) idx with
  | none => rfl
  | some i' =>
    have h0 := (resultIdx?_single d huw hiw hsd hiv idx p i').1 hr
    have hlt : (i' 0).val < E := (i' 0).isLt
    omega

/-- ADD body on 32-bit words, ones onto zeros, in that layout: entry `b` ends as the number of
    rows of the indices whose word, read signed, is `b`, modulo 2³². -/
theorem scatter_addi_count_single (d : ScatterDims ⟨1, ![E]⟩ ⟨2, ![M, 1]⟩ ⟨1, ![M]⟩)
    (huw : d.updateWindowDims = []) (hiw : d.insertedWindowDims = [0])
    (hsd : d.scatterDimsToOperandDims = [0]) (hiv : d.indexVectorDim = 1)
    (idx : IVec ⟨2, ![M, 1]⟩ w) (b : Fin E) :
    Host.scatter d IntOp.addi (fun _ => 0#32) idx (fun _ => 1#32) (ValueIdx.ix1 b)
      = BitVec.ofNat 32
          (Finset.univ.filter (fun p : Fin M => (idx (ValueIdx.ix2 p 0)).toInt = (b.val : Int))).card := by
  rw [scatter_addi_count]
  congr 1
  refine Finset.card_bij (fun j _ => j 0) ?_ ?_ ?_
  · intro j hj
    have hj2 := (Finset.mem_filter.1 hj).2
    rw [ValueIdx.eq_ix1 j] at hj2
    exact Finset.mem_filter.2
      ⟨Finset.mem_univ _, (resultIdx?_single d huw hiw hsd hiv idx (j 0) _).1 hj2⟩
  · intro j₁ _ j₂ _ h
    rw [ValueIdx.eq_ix1 j₁, ValueIdx.eq_ix1 j₂]
    exact congrArg ValueIdx.ix1 h
  · intro p hp
    exact ⟨ValueIdx.ix1 p, Finset.mem_filter.2 ⟨Finset.mem_univ _,
      (resultIdx?_single d huw hiw hsd hiv idx p _).2 (Finset.mem_filter.1 hp).2⟩, rfl⟩

end Layout1

end Cert.Lib.HostScatter
-- ==== Proof.RefFlat.lean ====
import proofs.«116980_j2911987826887_2_alg».proof.Proof.RefStages
import proofs.«116980_j2911987826887_2_alg».proof.Proof.LibNonzeroEnum
import proofs.«116980_j2911987826887_2_alg».proof.Proof.LibTriuCount
import proofs.«116980_j2911987826887_2_alg».proof.Proof.LibHostCumsum
import proofs.«116980_j2911987826887_2_alg».proof.Proof.LibHostScatter
import Idealize.ShloMosaic.Lib.IdealHost
import Idealize.ShloMosaic.Lib.Pipeline.Value

/-!
# The enumerated positions of the strict upper triangle, stage by stage

The reference enumerates the pairs `row < column` of a 1024×1024 grid at run time: it builds the
0/1 mask of the strict upper triangle, takes its inclusive running count along the flattened
grid, counts for every value `b` how many positions have running count `b`, and takes the
inclusive running sum of those counts.  Entry `e` of the result is the flat position of the
`e`-th pair.  Each stage is read here at one index.
-/

noncomputable section

namespace Cert.ReferenceIdeal.RefFlat

open Cert.ReferenceIdeal Cert.ReferenceIdeal.RefStages Idealize.ShloMosaic Idealize.ShloMosaic.ValueIdx
open Cert.Lib Cert.Lib.NonzeroEnum Cert.Lib.TriuCount

/-! ## Words of small naturals -/

/-- A natural below 2³¹ written as a 32-bit word reads back, signed, as itself. -/
theorem toInt_ofNat_small {n : ℕ} (h : n < 2 ^ 31) : (BitVec.ofNat 32 n).toInt = (n : Int) := by
  have hn : (BitVec.ofNat 32 n).toNat = n := by
    rw [BitVec.toNat_ofNat]; exact Nat.mod_eq_of_lt (by omega)
  rw [BitVec.toInt_eq_toNat_of_lt (by rw [hn]; omega), hn]

/-- A natural below 2³² written as a 32-bit word reads back, unsigned, as itself. -/
theorem toNat_ofNat_small {n : ℕ} (h : n < 2 ^ 32) : (BitVec.ofNat 32 n).toNat = n := by
  rw [BitVec.toNat_ofNat]; exact Nat.mod_eq_of_lt h

/-- The word of a natural below 2³¹ is not below zero as a signed integer. -/
theorem slt_zero_ofNat_small {n : ℕ} (h : n < 2 ^ 31) : (BitVec.ofNat 32 n).slt 0#32 = false := by
  rw [BitVec.slt, toInt_ofNat_small h]
  simp

/-- The signed maximum of zero and the word of a natural below 2³¹ is that word. -/
theorem maxsi_zero_ofNat_small {n : ℕ} (h : n < 2 ^ 31) :
    IntOp.maxsi 0#32 (BitVec.ofNat 32 n) = BitVec.ofNat 32 n := by
  unfold IntOp.maxsi
  rw [slt_zero_ofNat_small h]
  rfl

/-- The signed "below zero" bit of the word of a natural below 2³¹ is clear. -/
theorem cmpi_slt_zero_ofNat_small {n : ℕ} (h : n < 2 ^ 31) :
    IntOp.cmpi .slt (BitVec.ofNat 32 n) 0#32 = 0#1 := by
  unfold IntOp.cmpi
  simp only [slt_zero_ofNat_small h]
  rfl

/-- Signed "at least" on the words of two naturals below 2³¹ is the naturals' order. -/
theorem cmpi_sge_ofNat_small {m n : ℕ} (hm : m < 2 ^ 31) (hn : n < 2 ^ 31) :
    IntOp.cmpi .sge (BitVec.ofNat 32 m) (BitVec.ofNat 32 n) = if n ≤ m then 1#1 else 0#1 := by
  unfold IntOp.cmpi
  simp only [BitVec.sle, toInt_ofNat_small hm, toInt_ofNat_small hn]
  by_cases h : n ≤ m
  · rw [if_pos h]; simp [h]
  · rw [if_neg h]; simp [h]

/-- Counting the positions below `M` with a property, as indices of `Fin M` or as naturals. -/
theorem card_fin_filter (M : ℕ) (P : ℕ → Prop) [DecidablePred P] :
    (Finset.univ.filter (fun p : Fin M => P p.val)).card = ((Finset.range M).filter P).card := by
  refine Finset.card_bij (fun p _ => p.val) ?_ ?_ ?_
  · intro p hp
    exact Finset.mem_filter.2 ⟨Finset.mem_range.2 p.isLt, (Finset.mem_filter.1 hp).2⟩
  · intro p _ q _ h
    exact Fin.ext h
  · intro q hq
    have hq' := Finset.mem_filter.1 hq
    exact ⟨⟨q, Finset.mem_range.1 hq'.1⟩, Finset.mem_filter.2 ⟨Finset.mem_univ _, hq'.2⟩, rfl⟩

/-! ## The mask -/

/-- The "row at least column" bit at `(r, c)`. -/
theorem call0_v4_apply (A : Args Ideal) (r c : Fin 1024) :
    st_main_call0_v4 A (ix2 r c) = if c.val ≤ r.val then 1#1 else 0#1 := by
  unfold st_main_call0_v4
  show IntOp.cmpi .sge (st_main_call0_v2 A (ix2 r c)) (st_main_call0_v3 A (ix2 r c)) = _
  have h2 : st_main_call0_v2 A (ix2 r c) = BitVec.ofNat 32 r.val := by
    unfold st_main_call0_v2
    show IntOp.addi (st_main_call0_v0 A (ix2 r c)) (st_main_call0_v1 A (ix2 r c)) = _
    have h0 : st_main_call0_v0 A (ix2 r c) = BitVec.ofNat 32 r.val := by
      unfold st_main_call0_v0; rfl
    have h1 : st_main_call0_v1 A (ix2 r c) = 0#32 := by
      unfold st_main_call0_v1 st_main_call0_c; rfl
    rw [h0, h1]
    show BitVec.ofNat 32 r.val + 0#32 = _
    rw [BitVec.add_zero]
  have h3 : st_main_call0_v3 A (ix2 r c) = BitVec.ofNat 32 c.val := by
    unfold st_main_call0_v3; rfl
  rw [h2, h3]
  exact cmpi_sge_ofNat_small (by have := r.isLt; omega) (by have := c.isLt; omega)

/-- The strict upper triangle of ones: entry `(r, c)` is one when `r < c` and zero otherwise. -/
theorem v1_apply (A : Args Ideal) (r c : Fin 1024) :
    st_main_v1 A (ix2 r c) = if r.val < c.val then (1 : EReal) else 0 := by
  unfold st_main_v1
  rw [select_apply, call0_v4_apply]
  have hz : st_main_call0_v5 A (ix2 r c) = (0 : EReal) := by
    unfold st_main_call0_v5 st_main_call0_cst
    show Ideal.ofBits .f32 0x00000000#32 = 0
    simp [Ideal.ofBits, Ideal.ieee]
  have ho : st_main_v0 A (ix2 r c) = (1 : EReal) := by
    unfold st_main_v0 st_main_cst
    show Ideal.ofBits .f32 0x3F800000#32 = 1
    exact Ideal.ofBits_one_f32
  rw [hz, ho]
  by_cases h : c.val ≤ r.val
  · rw [if_pos h, if_neg (by omega)]; exact ValueIdx.select_one _ _
  · rw [if_neg h, if_pos (by omega)]; exact ValueIdx.select_zero _ _

/-- The mask bit at `(r, c)`: set exactly when `r < c`. -/
theorem v3_apply (A : Args Ideal) (r c : Fin 1024) :
    st_main_v3 A (ix2 r c) = if r.val < c.val then 1#1 else 0#1 := by
  unfold st_main_v3
  rw [cmpf_apply, v1_apply]
  have hz : st_main_v2 A (ix2 r c) = (0 : EReal) := by
    unfold st_main_v2 st_main_cst_0
    show Ideal.ofBits .f32 0x00000000#32 = 0
    simp [Ideal.ofBits, Ideal.ieee]
  rw [hz]
  show Ideal.cmp .une _ _ = _
  unfold Ideal.cmp
  by_cases h : r.val < c.val
  · simp [h]
  · simp [h]

/-- The flattened mask bit at position `p`: set exactly when `p` is strictly above the diagonal. -/
theorem call1_v0_apply (A : Args Ideal) (p : Fin 1048576) :
    st_main_call1_v0 A (ix1 p) = if upper 1024 p.val then 1#1 else 0#1 := by
  unfold st_main_call1_v0
  have hr : p.val / 1024 < 1024 := by have := p.isLt; omega
  have hc : p.val % 1024 < 1024 := Nat.mod_lt _ (by omega)
  rw [shapeCast_apply _ _ (ix1 p) (ix2 ⟨p.val / 1024, hr⟩ ⟨p.val % 1024, hc⟩)
    (by rw [Shape.rowMajor_val_two, Shape.rowMajor_val_one]
        show p.val / 1024 * 1024 + p.val % 1024 = p.val
        omega)]
  rw [v3_apply]
  rfl

/-- The flattened mask as 32-bit words: one strictly above the diagonal, zero elsewhere. -/
theorem call1_v1_apply (A : Args Ideal) (p : Fin 1048576) :
    st_main_call1_v1 A (ix1 p) = if upper 1024 p.val then 1#32 else 0#32 := by
  unfold st_main_call1_v1
  show (st_main_call1_v0 A (ix1 p)).setWidth 32 = _
  rw [call1_v0_apply]
  by_cases h : upper 1024 p.val
  · rw [if_pos h, if_pos h]; rfl
  · rw [if_neg h, if_neg h]; rfl

/-! ## The running count -/

/-- The running count's initial value is zero. -/
theorem call1_call0_v0_apply (A : Args Ideal) (i : S_.Idx) : st_main_call1_call0_v0 A i = 0#32 := by
  unfold st_main_call1_call0_v0 st_main_call1_call0_c; rfl

/-- The inclusive running count of the mask at position `p`. -/
theorem v4_apply (A : Args Ideal) (p : Fin 1048576) :
    st_main_v4 A (ix1 p) = BitVec.ofNat 32 (csum (upper 1024) p.val) := by
  unfold st_main_v4
  beta_reduce
  rw [HostCumsum.cumsum_apply_card (n := 1048576) (k := 1048575) rfl (upper 1024) (st_main_call1_v1 A)
    (fun i => by rw [eq_ix1 i]; exact call1_v1_apply A (i 0)) (st_main_call1_call0_v0 A)
    (call1_call0_v0_apply A)]
  rfl

/-- The running count is at most the number of pairs, so below 2³¹. -/
theorem csum_small (p : Fin 1048576) : csum (upper 1024) p.val < 2 ^ 31 := by
  have h := csum_le_total 1048576 (upper 1024) p.isLt
  rw [total_upper_1024'] at h
  omega

/-- Clamping the running count below at zero changes nothing. -/
theorem v6_apply (A : Args Ideal) (p : Fin 1048576) :
    st_main_v6 A (ix1 p) = BitVec.ofNat 32 (csum (upper 1024) p.val) := by
  unfold st_main_v6
  show IntOp.maxsi (st_main_call2_v1 A (ix1 p)) (st_main_v4 A (ix1 p)) = _
  have h0 : st_main_call2_v1 A (ix1 p) = 0#32 := by
    unfold st_main_call2_v1 st_main_call2_v0 st_main_c_1; rfl
  rw [h0, v4_apply]
  exact maxsi_zero_ofNat_small (csum_small p)

/-- Wrapping a negative count around changes nothing: the count is never negative. -/
theorem v11_apply (A : Args Ideal) (p : Fin 1048576) :
    st_main_v11 A (ix1 p) = BitVec.ofNat 32 (csum (upper 1024) p.val) := by
  unfold st_main_v11
  rw [select_apply]
  have h8 : st_main_v8 A (ix1 p) = 0#1 := by
    unfold st_main_v8
    show IntOp.cmpi .slt (st_main_v6 A (ix1 p)) (st_main_v7 A (ix1 p)) = _
    have h7 : st_main_v7 A (ix1 p) = 0#32 := by
      unfold st_main_v7 st_main_c_2; rfl
    rw [h7, v6_apply]
    exact cmpi_slt_zero_ofNat_small (csum_small p)
  rw [h8, v6_apply]
  exact ValueIdx.select_zero _ _

/-- The running count as a column of scatter indices. -/
theorem v12_apply (A : Args Ideal) (p : Fin 1048576) :
    st_main_v12 A (ix2 p 0) = BitVec.ofNat 32 (csum (upper 1024) p.val) := by
  unfold st_main_v12
  rw [broadcastInDim_apply _ _ _ (ix2 p 0) (ix1 p) (fun a => by
    match a with
    | ⟨0, _⟩ => rfl)]
  exact v11_apply A p

/-! ## Counting the positions of each running count, and summing the counts -/

/-- The histogram starts from zeros. -/
theorem v5_eq (A : Args Ideal) : st_main_v5 A = fun _ => 0#32 := by
  funext i
  unfold st_main_v5 st_main_c; rfl

/-- Every update of the histogram is one. -/
theorem v13_eq (A : Args Ideal) : st_main_v13 A = fun _ => 1#32 := by
  funext i
  unfold st_main_v13 st_main_c_4; rfl

/-- Bin `b` of the histogram: the number of positions whose running count is `b`. -/
theorem v14_apply (A : Args Ideal) (b : Fin 523776) :
    st_main_v14 A (ix1 b) = BitVec.ofNat 32 (cnt 1048576 (upper 1024) b.val) := by
  unfold st_main_v14
  beta_reduce
  rw [v5_eq, v13_eq,
    HostScatter.scatter_addi_count_single scatter_S523776_S1048576x1_S1048576_n_0_0_1 rfl rfl rfl rfl]
  refine congrArg (BitVec.ofNat 32) ?_
  unfold cnt
  rw [← card_fin_filter 1048576 (fun p => csum (upper 1024) p = b.val)]
  refine congrArg Finset.card ?_
  refine Finset.filter_congr (fun p _ => ?_)
  rw [v12_apply, toInt_ofNat_small (csum_small p)]
  exact Int.ofNat_inj

/-- A bin of the histogram holds at most the number of positions, so below 2³². -/
theorem cnt_small (b : ℕ) : cnt 1048576 (upper 1024) b < 2 ^ 32 := by
  unfold cnt
  have h := Finset.card_filter_le (Finset.range 1048576) (fun p => csum (upper 1024) p = b)
  rw [Finset.card_range] at h
  omega

/-- The second running sum's initial value is zero. -/
theorem call3_call0_v0_apply (A : Args Ideal) (i : S_.Idx) : st_main_call3_call0_v0 A i = 0#32 := by
  unfold st_main_call3_call0_v0 st_main_call3_call0_c; rfl

/-- THE FLAT POSITIONS: entry `e` of the inclusive running sum of the histogram is the flat position
    of the `e`-th pair of the strict upper triangle in row-major order. -/
theorem flat_stage (A : Args Ideal) (e : Fin 523776) :
    st_main_v15 A (ix1 e) = BitVec.ofNat 32 (flat 1048576 (upper 1024) e.val) := by
  unfold st_main_v15
  beta_reduce
  rw [HostCumsum.cumsum_apply (n := 523776) (k := 523775) rfl (st_main_v14 A) (st_main_call3_call0_v0 A)
    (call3_call0_v0_apply A)]
  refine congrArg (BitVec.ofNat 32) ?_
  unfold flat
  refine Finset.sum_congr rfl (fun q hq => ?_)
  have hq' : q < 523776 := by
    have := Finset.mem_range.1 hq
    have he : ((ix1 e : S523776.Idx) 0).val = e.val := rfl
    have := e.isLt
    omega
  rw [HostCumsum.entry_of_lt _ hq', v14_apply A ⟨q, hq'⟩]
  exact toNat_ofNat_small (cnt_small q)

/-- For `e` below the number of pairs the `e`-th flat position lies in the grid. -/
theorem flat_lt (e : Fin 523776) : flat 1048576 (upper 1024) e.val < 1048576 :=
  (flat_upper_1024_spec e.isLt).1

end Cert.ReferenceIdeal.RefFlat

end
-- ==== Proof.RefScatter.lean ====
import proofs.«116980_j2911987826887_2_alg».proof.Proof.RefValue
import proofs.«116980_j2911987826887_2_alg».proof.Proof.RefIndex
import proofs.«116980_j2911987826887_2_alg».proof.Proof.RefFlat
import proofs.«116980_j2911987826887_2_alg».proof.Proof.LibHostScatter
import Idealize.ShloMosaic.Lib.Pipeline.Value

/-!
# The reference's symmetric scatter, entry by entry

The class probabilities of the enumerated pairs `(I e, J e)`, `I e < J e`, are written into a zero array at
`(I e, J e)` and then at `(J e, I e)`. Strictly above the diagonal only the first scatter lands, strictly below
only the second, on the diagonal neither; every landing update carries the edge head's probability of the pair
with the smaller node first.
-/

noncomputable section

namespace Cert.ReferenceIdeal.RefScatter

open Idealize.ShloMosaic Idealize.ShloMosaic.ValueIdx
open Cert.ReferenceIdeal Cert.ReferenceIdeal.Gen Cert.ReferenceIdeal.RefStages Cert.ReferenceIdeal.RefValue
open Cert.Spec (mat vec)

/-- Column 0 of two index vectors laid side by side as the two columns of an [E, 2] array: the first vector. -/
theorem pair_col0 (x y : IVec S523776 32) (h1 : S523776.BroadcastsInDim S523776x1 ![0]) (e : Fin 523776) :
    concatenate S523776x2 1 [⟨S523776x1, broadcastInDim S523776x1 ![0] h1 x⟩, ⟨S523776x1, broadcastInDim S523776x1 ![0] h1 y⟩]
        concatenates_S523776x1_S523776x1_S523776x2_d1 (ix2 e (0 : Fin 2))
      = x (ix1 e) :=
  (concatenate_pair_apply_left 1 _ _ concatenates_S523776x1_S523776x1_S523776x2_d1 (ix2 e (0 : Fin 2)) rfl
    (ix2 e (0 : Fin 1)) (fun b => by
      match b with
      | ⟨0, _⟩ => rfl
      | ⟨1, _⟩ => rfl)).trans (Cert.Bcast.col_apply (by decide) x h1 e 0)

/-- Column 1 of the same array: the second vector. -/
theorem pair_col1 (x y : IVec S523776 32) (h1 : S523776.BroadcastsInDim S523776x1 ![0]) (e : Fin 523776) :
    concatenate S523776x2 1 [⟨S523776x1, broadcastInDim S523776x1 ![0] h1 x⟩, ⟨S523776x1, broadcastInDim S523776x1 ![0] h1 y⟩]
        concatenates_S523776x1_S523776x1_S523776x2_d1 (ix2 e (1 : Fin 2))
      = y (ix1 e) :=
  (concatenate_pair_apply_right 1 _ _ concatenates_S523776x1_S523776x1_S523776x2_d1 (ix2 e (1 : Fin 2)) rfl rfl
    (ix2 e (0 : Fin 1)) (fun b hb => by
      match b with
      | ⟨0, _⟩ => rfl
      | ⟨1, _⟩ => exact absurd rfl hb) rfl).trans (Cert.Bcast.col_apply (by decide) y h1 e 0)

section
variable (A : Args Ideal)
  (hrow : ∀ e : Fin 523776, 0 ≤ (st_main_v17 A (ix1 e)).toInt
    ∧ (st_main_v17 A (ix1 e)).toInt < (st_main_v19 A (ix1 e)).toInt ∧ (st_main_v19 A (ix1 e)).toInt < 1024)
  (hex : ∀ {i j : ℕ}, i < j → j < 1024 →
    ∃ e : Fin 523776, (st_main_v17 A (ix1 e)).toInt = (i : Int) ∧ (st_main_v19 A (ix1 e)).toInt = (j : Int))
  (h39 : ∀ e : Fin 523776, st_main_v39 A (ix1 e) = st_main_v17 A (ix1 e))
  (h46 : ∀ e : Fin 523776, st_main_v46 A (ix1 e) = st_main_v19 A (ix1 e))
  (h75 : ∀ e : Fin 523776, st_main_v75 A (ix1 e) = st_main_v17 A (ix1 e))
  (h80 : ∀ e : Fin 523776, st_main_v80 A (ix1 e) = st_main_v19 A (ix1 e))
  (h89 : ∀ e : Fin 523776, st_main_v89 A (ix1 e) = st_main_v19 A (ix1 e))
  (h94 : ∀ e : Fin 523776, st_main_v94 A (ix1 e) = st_main_v17 A (ix1 e))

/-- The embedding row of node `n`. -/
abbrev H (n : Fin 1024) : Fin 128 → EReal := fun q => st_main_v34 A (ix2 n q)

/-- The class probability the edge head gives the ordered pair of nodes `(a, b)`. -/
abbrev P (a b : Fin 1024) (c : Fin 2) : EReal :=
  Cert.Spec.refEdge (H A a) (H A b) (mat (A := 128) (B := 512) A.a8) (vec (A := 512) A.a9)
    (mat (A := 512) (B := 2) A.a10) (vec (A := 2) A.a11) c

include h75 h80 in
/-- The first scatter's index pairs are `(I e, J e)`. -/
theorem v83_cols (e : Fin 523776) :
    st_main_v83 A (ix2 e (0 : Fin 2)) = st_main_v17 A (ix1 e) ∧ st_main_v83 A (ix2 e (1 : Fin 2)) = st_main_v19 A (ix1 e) := by
  unfold st_main_v83 st_main_v81 st_main_v82
  exact ⟨(pair_col0 _ _ _ e).trans (h75 e), (pair_col1 _ _ _ e).trans (h80 e)⟩

include h89 h94 in
/-- The second scatter's index pairs are `(J e, I e)`. -/
theorem v97_cols (e : Fin 523776) :
    st_main_v97 A (ix2 e (0 : Fin 2)) = st_main_v19 A (ix1 e) ∧ st_main_v97 A (ix2 e (1 : Fin 2)) = st_main_v17 A (ix1 e) := by
  unfold st_main_v97 st_main_v95 st_main_v96
  exact ⟨(pair_col0 _ _ _ e).trans (h89 e), (pair_col1 _ _ _ e).trans (h94 e)⟩

/-- The array both scatters start from is zero everywhere. -/
theorem v70_apply (i : S1024x1024x2.Idx) : st_main_v70 A i = Ideal.ofBits .f32 0x00000000#32 := by
  unfold st_main_v70 st_main_cst_16
  rw [Cert.Bcast.scalar_apply, constant_apply]

include hrow hex h39 h46 h75 h80 in
/-- After the first scatter: the pair's probability strictly above the diagonal, zero elsewhere. -/
theorem v84_apply (a b : Fin 1024) (c : Fin 2) :
    st_main_v84 A (ix3 a b c) = if a < b then P A a b c else Ideal.ofBits .f32 0x00000000#32 := by
  unfold st_main_v84
  split
  · rename_i hab
    refine Cert.Lib.HostScatter.scatter_set_pair _ rfl rfl rfl rfl _ _ _ a b c _ ?_ ?_
    · obtain ⟨e, hi, hj⟩ := hex (i := a.val) (j := b.val) hab b.isLt
      exact ⟨e, by rw [(v83_cols A h75 h80 e).1]; exact hi, by rw [(v83_cols A h75 h80 e).2]; exact hj⟩
    · intro e h0 h1
      rw [(v83_cols A h75 h80 e).1] at h0
      rw [(v83_cols A h75 h80 e).2] at h1
      exact ep_stage A e c a b (by rw [h39 e]; exact h0) (by rw [h46 e]; exact h1)
  · rename_i hab
    refine (Cert.Lib.HostScatter.scatter_pair_of_no_hit scatter_S1024x1024x2_S523776x2_S523776x2_1_01_01_1
      rfl rfl rfl rfl _ _ _ _ a b c ?_).trans ?_
    swap
    · exact v70_apply A _
    · rintro e ⟨h0, h1⟩
      rw [(v83_cols A h75 h80 e).1] at h0
      rw [(v83_cols A h75 h80 e).2] at h1
      have := (hrow e).2.1
      have hlt : ¬ a.val < b.val := hab
      omega

include hrow hex h39 h46 h75 h80 h89 h94 in
/-- The result at `(a, b, c)`, from the facts about the enumerated pairs: zero on the diagonal, elsewhere the edge
    head's probability of class `c` for the pair with the smaller node first. -/
theorem out_stage_of (a b : Fin 1024) (c : Fin 2) :
    st_main_v98 A (ix3 a b c)
      = if a = b then Ideal.ofBits .f32 0x00000000#32 else if a < b then P A a b c else P A b a c := by
  unfold st_main_v98
  by_cases hba : b < a
  · have hne : a ≠ b := fun h => by subst h; exact lt_irrefl _ hba
    have hnlt : ¬ a < b := fun h => lt_asymm h hba
    rw [if_neg hne, if_neg hnlt]
    refine Cert.Lib.HostScatter.scatter_set_pair _ rfl rfl rfl rfl _ _ _ a b c _ ?_ ?_
    · obtain ⟨e, hi, hj⟩ := hex (i := b.val) (j := a.val) hba a.isLt
      exact ⟨e, by rw [(v97_cols A h89 h94 e).1]; exact hj, by rw [(v97_cols A h89 h94 e).2]; exact hi⟩
    · intro e h0 h1
      rw [(v97_cols A h89 h94 e).1] at h0
      rw [(v97_cols A h89 h94 e).2] at h1
      exact ep_stage A e c b a (by rw [h39 e]; exact h1) (by rw [h46 e]; exact h0)
  · refine (Cert.Lib.HostScatter.scatter_pair_of_no_hit scatter_S1024x1024x2_S523776x2_S523776x2_1_01_01_1
      rfl rfl rfl rfl _ _ _ _ a b c ?_).trans ?_
    swap
    · rw [v84_apply A hrow hex h39 h46 h75 h80 a b c]
      by_cases hab : a < b
      · have hne : a ≠ b := fun h => by subst h; exact lt_irrefl _ hab
        rw [if_pos hab, if_neg hne, if_pos hab]
      · have heq : a = b := le_antisymm (not_lt.mp hba) (not_lt.mp hab)
        rw [if_neg hab, if_pos heq]
    · rintro e ⟨h0, h1⟩
      rw [(v97_cols A h89 h94 e).1] at h0
      rw [(v97_cols A h89 h94 e).2] at h1
      have := (hrow e).2.1
      have hlt : ¬ b.val < a.val := hba
      omega

end

/-- The reference's result at `(a, b, c)`: zero on the diagonal, elsewhere the edge head's probability of class `c`
    for the pair with the smaller node first. -/
theorem out_stage (A : Args Ideal) (a b : Fin 1024) (c : Fin 2) :
    st_main_v98 A (ix3 a b c)
      = if a = b then Ideal.ofBits .f32 0x00000000#32 else if a < b then P A a b c else P A b a c :=
  out_stage_of A (Cert.ReferenceIdeal.RefIndex.row_lt_col A (Cert.ReferenceIdeal.RefFlat.flat_stage A))
    (fun hij hj => Cert.ReferenceIdeal.RefIndex.exists_pair A (Cert.ReferenceIdeal.RefFlat.flat_stage A) hij hj)
    (Cert.ReferenceIdeal.RefIndex.v39_at A (Cert.ReferenceIdeal.RefFlat.flat_stage A))
    (Cert.ReferenceIdeal.RefIndex.v46_at A (Cert.ReferenceIdeal.RefFlat.flat_stage A))
    (Cert.ReferenceIdeal.RefIndex.v75_at A (Cert.ReferenceIdeal.RefFlat.flat_stage A))
    (Cert.ReferenceIdeal.RefIndex.v80_at A (Cert.ReferenceIdeal.RefFlat.flat_stage A))
    (Cert.ReferenceIdeal.RefIndex.v89_at A (Cert.ReferenceIdeal.RefFlat.flat_stage A))
    (Cert.ReferenceIdeal.RefIndex.v94_at A (Cert.ReferenceIdeal.RefFlat.flat_stage A)) a b c

end Cert.ReferenceIdeal.RefScatter

end
-- ==== Proof.Region0Value.lean ====
import proofs.«116980_j2911987826887_2_alg».proof.Proof.Gen.KernelIdeal.Frame
import proofs.«116980_j2911987826887_2_alg».proof.Proof.Spec
import proofs.«116980_j2911987826887_2_alg».proof.Proof.LibDenseLayer
import Idealize.ShloMosaic.Lib.Pipeline.Value
import Idealize.ShloMosaic.Lib.ValueIdx

/-!
# The node-embedding region as one whole-array function

The first region computes, for each block of 256 rows of the node features, three dense layers (the first two
followed by the leaky rectifier) and adds the block back. A row of the result depends only on the same row of the
features, so the four blocks are the four row ranges of one function of the whole arrays.
-/

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen

/-- A rank-2 array of extended reals as a function of its two coordinates. -/
def mat {A B : ℕ} (x : (⟨2, ![A, B]⟩ : Shape).Idx → EReal) : Fin A → Fin B → EReal := fun p q => x (ix2 p q)

/-- A rank-1 array of extended reals as a function of its coordinate. -/
def vec {A : ℕ} (x : (⟨1, ![A]⟩ : Shape).Idx → EReal) : Fin A → EReal := fun p => x (ix1 p)

/-- The embedding of one node from its feature row: two rectified dense layers, a dense layer, plus the row. -/
def rowMlp (xr : Fin 128 → EReal) (w1 : Fin 128 → Fin 512 → EReal) (b1 : Fin 512 → EReal)
    (w2 : Fin 512 → Fin 512 → EReal) (b2 : Fin 512 → EReal) (w4 : Fin 512 → Fin 128 → EReal) (b4 : Fin 128 → EReal)
    (f : Fin 128) : EReal :=
  Cert.Spec.dense (fun k => Cert.Spec.lrelu (Cert.Spec.dense
      (fun k' => Cert.Spec.lrelu (Cert.Spec.dense xr (fun q => w1 q k') (b1 k'))) (fun q => w2 q k) (b2 k)))
    (fun q => w4 q f) (b4 f) + xr f

/-- The node embedding at node `n` is `rowMlp` of that node's feature row. -/
theorem hmlp_eq_rowMlp (x : Fin 1024 → Fin 128 → EReal) (w1 : Fin 128 → Fin 512 → EReal) (b1 : Fin 512 → EReal)
    (w2 : Fin 512 → Fin 512 → EReal) (b2 : Fin 512 → EReal) (w4 : Fin 512 → Fin 128 → EReal) (b4 : Fin 128 → EReal)
    (n : Fin 1024) (f : Fin 128) :
    Cert.Spec.hmlp x w1 b1 w2 b2 w4 b4 n f = rowMlp (x n) w1 b1 w2 b2 w4 b4 f := rfl

/-- The leaky rectifier as the body spells it on a whole vector: entrywise `lrelu`. -/
theorem lrelu_vec {s : Shape} (v : FVec Ideal s .f32) :
    select (cmpf .oge v (broadcast s (Scalar.ofBits (F := Ideal) .f32 0x00000000#32))) v
        (mulf (broadcast s (Scalar.ofBits (F := Ideal) .f32 0x3C23D70A#32)) v)
      = fun j => Cert.Spec.lrelu (v j) := rfl

theorem plain1 : Cert.PlainDot.IsPlain dot_S256x128_S128x512_S256x512_1_0_0_1_n_n := ⟨rfl, rfl, rfl, rfl, rfl, rfl⟩
theorem plain2 : Cert.PlainDot.IsPlain dot_S256x512_S512x512_S256x512_1_0_0_1_n_n := ⟨rfl, rfl, rfl, rfl, rfl, rfl⟩
theorem plain3 : Cert.PlainDot.IsPlain dot_S256x512_S512x128_S256x128_1_0_0_1_n_n := ⟨rfl, rfl, rfl, rfl, rfl, rfl⟩

/-- The body's result as a whole block: three dense layers over the block's rows, plus the block. -/
theorem pay_eq (x0 : Vec Ideal S256x128 .f32) (x1 : Vec Ideal S128x512 .f32) (x2 : Vec Ideal S512 .f32)
    (x3 : Vec Ideal S512x512 .f32) (x4 : Vec Ideal S512 .f32) (x5 : Vec Ideal S512x128 .f32) (x6 : Vec Ideal S128 .f32) :
    k0_pay1 x0 x1 x2 x3 x4 x5 x6 =
      addf (Cert.DenseLayer.affine
        (fun j => Cert.Spec.lrelu (Cert.DenseLayer.affine
          (fun j => Cert.Spec.lrelu (Cert.DenseLayer.affine x0 x1 (Cert.DenseLayer.row x2) j))
          x3 (Cert.DenseLayer.row x4) j))
        x5 (Cert.DenseLayer.row x6)) x0 := by
  unfold k0_pay1
  dsimp only
  rw [Cert.DenseLayer.reshape_row x2, Cert.DenseLayer.reshape_row x4, Cert.DenseLayer.reshape_row x6]
  rw [Cert.DenseLayer.affine_eq plain1]
  rw [lrelu_vec]
  rw [Cert.DenseLayer.affine_eq plain2]
  rw [lrelu_vec]
  rw [Cert.DenseLayer.affine_eq plain3]
  rfl

/-- Entry (p, q) of the body's result is `rowMlp` of row p of the block. -/
theorem pay_apply (x0 : Vec Ideal S256x128 .f32) (x1 : Vec Ideal S128x512 .f32) (x2 : Vec Ideal S512 .f32)
    (x3 : Vec Ideal S512x512 .f32) (x4 : Vec Ideal S512 .f32) (x5 : Vec Ideal S512x128 .f32) (x6 : Vec Ideal S128 .f32)
    (p : Fin 256) (q : Fin 128) :
    k0_pay1 x0 x1 x2 x3 x4 x5 x6 (ix2 p q) =
      rowMlp (fun q' => x0 (ix2 p q')) (mat (A := 128) (B := 512) x1) (vec (A := 512) x2)
        (mat (A := 512) (B := 512) x3) (vec (A := 512) x4) (mat (A := 512) (B := 128) x5) (vec (A := 128) x6) q := by
  rw [pay_eq]
  rfl

/-- The whole-array function: the node embedding of the seven argument arrays, index by index. -/
abbrev G0 (a1 : S1024x128.Idx → EReal) (a2 : S128x512.Idx → EReal) (a3 : S512.Idx → EReal)
    (a4 : S512x512.Idx → EReal) (a5 : S512.Idx → EReal) (a6 : S512x128.Idx → EReal) (a7 : S128.Idx → EReal) :
    S1024x128.Idx → EReal :=
  fun i => Cert.Spec.hmlp (mat (A := 1024) (B := 128) a1) (mat (A := 128) (B := 512) a2) (vec (A := 512) a3)
    (mat (A := 512) (B := 512) a4) (vec (A := 512) a5) (mat (A := 512) (B := 128) a6) (vec (A := 128) a7) (i 0) (i 1)

/-- An entry of the body's result on a block whose rows are rows of the feature array, the weights and biases
    whole, is the whole-array function at the corresponding entry. -/
theorem block_entry (a1 : S1024x128.Idx → EReal) (a2 : S128x512.Idx → EReal) (a3 : S512.Idx → EReal)
    (a4 : S512x512.Idx → EReal) (a5 : S512.Idx → EReal) (a6 : S512x128.Idx → EReal) (a7 : S128.Idx → EReal)
    (x0 : Vec Ideal S256x128 .f32) (x1 : Vec Ideal S128x512 .f32) (x2 : Vec Ideal S512 .f32)
    (x3 : Vec Ideal S512x512 .f32) (x4 : Vec Ideal S512 .f32) (x5 : Vec Ideal S512x128 .f32) (x6 : Vec Ideal S128 .f32)
    (h1 : x1 = a2) (h2 : x2 = a3) (h3 : x3 = a4) (h4 : x4 = a5) (h5 : x5 = a6) (h6 : x6 = a7)
    (y : S256x128.Idx) (i : S1024x128.Idx) (hcol : (i 1).val = (y 1).val)
    (h0 : ∀ (z : S256x128.Idx) (k : S1024x128.Idx), (z 0).val = (y 0).val → (k 0).val = (i 0).val →
      (k 1).val = (z 1).val → x0 z = a1 k) :
    k0_pay1 x0 x1 x2 x3 x4 x5 x6 y = G0 a1 a2 a3 a4 a5 a6 a7 i := by
  subst h1 h2 h3 h4 h5 h6
  obtain ⟨p, q, rfl⟩ : ∃ (p : Fin 256) (q : Fin 128), y = ix2 p q := ⟨y 0, y 1, eq_ix2 y⟩
  obtain ⟨P, Q, rfl⟩ : ∃ (P : Fin 1024) (Q : Fin 128), i = ix2 P Q := ⟨i 0, i 1, eq_ix2 i⟩
  have hQ : Q = q := Fin.ext hcol
  subst hQ
  rw [pay_apply]
  show rowMlp _ _ _ _ _ _ _ _ = rowMlp _ _ _ _ _ _ _ _
  congr 1
  funext q'
  exact h0 (ix2 p q') (ix2 P q') rfl rfl rfl

theorem hz2 : (![0, 0] : Fin 2 → Nat) = fun _ => 0 := funext fun a => by fin_cases a <;> rfl
theorem hz1 : (![0] : Fin 1 → Nat) = fun _ => 0 := funext fun a => by fin_cases a; rfl

/-- The printed index maps, decided over the four grid points: the feature window and the output window sit at block
    row `t`, every weight and bias window at block zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

section
variable (V : (c : Dev nD) → (b : Ref sig .tc) → Buf (Elt Ideal) ((c : Thread nD τ).loc b))

/-- What point `t` writes back is block `t` of the whole-array function of the arrays as the region finds them. -/
theorem flushed_eq (c : Dev nD) (t : Fin cfg0.N) :
    (dat0 (F := Ideal) V c).flushed 7 t = ((cfg0.win 7).blk t).view.read (Elt Ideal)
      (G0 (V c main_arg1) (V c main_arg2) (V c main_arg3) (V c main_arg4) (V c main_arg5) (V c main_arg6) (V c main_arg7)) := by
  show (cfg0.win 7).cut (grid0.coords t) ((dat0 (F := Ideal) V c).after 7 t) = _
  rw [after0_7]
  unfold out0_7
  rw [View.canon_unit_zero hz2]
  simp only [View.ld_unit_zero (S := S256x128) hz2, View.ld_unit_zero (S := S128x512) hz2,
    View.ld_unit_zero (S := S512) hz1, View.ld_unit_zero (S := S512x512) hz2,
    View.ld_unit_zero (S := S512x128) hz2, View.ld_unit_zero (S := S128) hz1]
  obtain ⟨e00, e01, e10, e11, e20, e30, e31, e40, e50, e51, e60, e70, e71⟩ := idx_facts t
  funext j
  show k0_pay1 (iblk0 V c 0 t) (iblk0 V c 1 t) (iblk0 V c 2 t) (iblk0 V c 3 t) (iblk0 V c 4 t) (iblk0 V c 5 t) (iblk0 V c 6 t) j
    = G0 (V c main_arg1) (V c main_arg2) (V c main_arg3) (V c main_arg4) (V c main_arg5) (V c main_arg6) (V c main_arg7)
        (((cfg0.win 7).blk t).view.emb j)
  refine block_entry _ _ _ _ _ _ _ _ _ _ _ _ _ _ ?_ ?_ ?_ ?_ ?_ ?_ j _ ?_ ?_
  · funext y
    show V c main_arg2 (((cfg0.win 1).blk t).view.emb y) = V c main_arg2 y
    have e : ((cfg0.win 1).blk t).view.emb y = y := by
      funext a; apply Fin.ext
      match a with
      | ⟨0, _⟩ => show win0_1.index t (0 : Fin 2) * 128 + 1 * (y 0).val = (y 0).val; omega
      | ⟨1, _⟩ => show win0_1.index t (1 : Fin 2) * 512 + 1 * (y 1).val = (y 1).val; omega
    rw [e]
  · funext y
    show V c main_arg3 (((cfg0.win 2).blk t).view.emb y) = V c main_arg3 y
    have e : ((cfg0.win 2).blk t).view.emb y = y := by
      funext a; apply Fin.ext
      match a with
      | ⟨0, _⟩ => show win0_2.index t (0 : Fin 1) * 512 + 1 * (y 0).val = (y 0).val; omega
    rw [e]
  · funext y
    show V c main_arg4 (((cfg0.win 3).blk t).view.emb y) = V c main_arg4 y
    have e : ((cfg0.win 3).blk t).view.emb y = y := by
      funext a; apply Fin.ext
      match a with
      | ⟨0, _⟩ => show win0_3.index t (0 : Fin 2) * 512 + 1 * (y 0).val = (y 0).val; omega
      | ⟨1, _⟩ => show win0_3.index t (1 : Fin 2) * 512 + 1 * (y 1).val = (y 1).val; omega
    rw [e]
  · funext y
    show V c main_arg5 (((cfg0.win 4).blk t).view.emb y) = V c main_arg5 y
    have e : ((cfg0.win 4).blk t).view.emb y = y := by
      funext a; apply Fin.ext
      match a with
      | ⟨0, _⟩ => show win0_4.index t (0 : Fin 1) * 512 + 1 * (y 0).val = (y 0).val; omega
    rw [e]
  · funext y
    show V c main_arg6 (((cfg0.win 5).blk t).view.emb y) = V c main_arg6 y
    have e : ((cfg0.win 5).blk t).view.emb y = y := by
      funext a; apply Fin.ext
      match a with
      | ⟨0, _⟩ => show win0_5.index t (0 : Fin 2) * 512 + 1 * (y 0).val = (y 0).val; omega
      | ⟨1, _⟩ => show win0_5.index t (1 : Fin 2) * 128 + 1 * (y 1).val = (y 1).val; omega
    rw [e]
  · funext y
    show V c main_arg7 (((cfg0.win 6).blk t).view.emb y) = V c main_arg7 y
    have e : ((cfg0.win 6).blk t).view.emb y = y := by
      funext a; apply Fin.ext
      match a with
      | ⟨0, _⟩ => show win0_6.index t (0 : Fin 1) * 128 + 1 * (y 0).val = (y 0).val; omega
    rw [e]
  · show win0_7.index t (1 : Fin 2) * 128 + 1 * (j 1).val = (j 1).val
    omega
  · intro z k hz hk hzk
    show V c main_arg1 (((cfg0.win 0).blk t).view.emb z) = V c main_arg1 k
    have hk' : (k 0).val = win0_7.index t (0 : Fin 2) * 256 + 1 * (j 0).val := hk
    have e : ((cfg0.win 0).blk t).view.emb z = k := by
      funext a; apply Fin.ext
      match a with
      | ⟨0, _⟩ => show win0_0.index t (0 : Fin 2) * 256 + 1 * (z 0).val = (k 0).val; omega
      | ⟨1, _⟩ => show win0_0.index t (1 : Fin 2) * 128 + 1 * (z 1).val = (k 1).val; omega
    rw [e]

/-- An index of the output array is in point `t`'s block iff each coordinate is in the block's range on its axis. -/
theorem mem_blk (t : Fin cfg0.N) (i : S1024x128.Idx) :
    i ∈ ((cfg0.win 7).blk t).view.set ↔ ∀ a : Fin 2, win0_7.index t a * S256x128.size a ≤ (i a).val
      ∧ (i a).val < win0_7.index t a * S256x128.size a + S256x128.size a := by
  show i ∈ ((View.whole main_v0).slice (win0_7.rect t)).set ↔ _
  rw [View.set_slice_whole, Rect.mem_set_unit]
  exact Iff.rfl

/-- Row `r` of the output array is written back by point `r / 256`. -/
theorem cover (i : S1024x128.Idx) :
    ∃ t : Fin cfg0.N, (cfg0.win 7).flush t = true ∧ i ∈ ((cfg0.win 7).blk t).view.set := by
  have hi0 : (i 0).val < 1024 := (i 0).isLt
  have hi1 : (i 1).val < 128 := (i 1).isLt
  have hN : cfg0.N = 4 := N_0
  have ht : (i 0).val / 256 < cfg0.N := by rw [hN]; omega
  obtain ⟨e00, e01, e10, e11, e20, e30, e31, e40, e50, e51, e60, e70, e71⟩ := idx_facts ⟨(i 0).val / 256, ht⟩
  have e70' : win0_7.index ⟨(i 0).val / 256, ht⟩ (0 : Fin 2) = (i 0).val / 256 := e70
  refine ⟨⟨(i 0).val / 256, ht⟩, flush0_7 _, ?_⟩
  rw [mem_blk]
  intro a
  match a with
  | ⟨0, _⟩ =>
    show win0_7.index ⟨(i 0).val / 256, ht⟩ (0 : Fin 2) * 256 ≤ (i 0).val
      ∧ (i 0).val < win0_7.index ⟨(i 0).val / 256, ht⟩ (0 : Fin 2) * 256 + 256
    omega
  | ⟨1, _⟩ =>
    show win0_7.index ⟨(i 0).val / 256, ht⟩ (1 : Fin 2) * 128 ≤ (i 1).val
      ∧ (i 1).val < win0_7.index ⟨(i 0).val / 256, ht⟩ (1 : Fin 2) * 128 + 128
    omega

/-- The output array after the region: the node embedding of the arrays as the region finds them. -/
theorem h_final (c : Dev nD) :
    (dat0 (F := Ideal) V c).arrAt 7 cfg0.N
      = G0 (V c main_arg1) (V c main_arg2) (V c main_arg3) (V c main_arg4) (V c main_arg5) (V c main_arg6) (V c main_arg7) :=
  (dat0 (F := Ideal) V c).arrAt_eq_of_cover 7 _ (fun t _ => flushed_eq V c t) cover

end

end Cert.KernelIdeal.Region0

end
-- ==== Proof.KernelValue.lean ====
import proofs.«116980_j2911987826887_2_alg».proof.Proof.Gen.KernelIdeal.Frame
import proofs.«116980_j2911987826887_2_alg».proof.Proof.Spec
import proofs.«116980_j2911987826887_2_alg».proof.Proof.Region0Value
import Idealize.ShloMosaic.Lib.Pipeline.Value
import Idealize.ShloMosaic.Lib.ValueIdx
import Idealize.ShloMosaic.Lib.StableHlo.Run

/-!
# The kernel program's output as a function of its arguments

The program runs the node-embedding region, a short line of host operations (the difference of the two columns
of the last weight matrix and of its two biases), the edge region, and a transpose that moves the class axis last.
Each buffer the edge region reads is followed back to the launch memory, and the output is read at one entry.
-/

noncomputable section

namespace Cert.KernelIdeal.KValue

open Idealize.ShloMosaic Idealize.ShloMosaic.TcCoe Idealize.ShloMosaic.ValueIdx Idealize.SL.Sem
open Cert.KernelIdeal Cert.KernelIdeal.Gen Cert.KernelIdeal.Region0

variable (m : (ℓ : Loc nD τ sig) → Buf (Elt Ideal) ℓ) (ρ : Dev nD → PrngReg)

/-- The edge region's value as a function of the arrays it finds: what its output array holds at its exit. -/
def EdgeValue : Prop :=
  ∀ (V : (c : Dev nD) → (b : Ref sig .tc) → Buf (Elt Ideal) ((c : Thread nD τ).loc b)) (c : Dev nD),
    (Gen.dat1 (F := Ideal) V c).arrAt 5 cfg1.N
      = fun i => Cert.Spec.kernelEdge (mat (A := 1024) (B := 128) (V c main_v0)) (mat (A := 128) (B := 512) (V c main_arg8))
          (vec (A := 512) (V c main_arg9)) (fun k => V c main_v6 (ix2 0 k)) (V c main_v10 (ix2 0 0)) (i 0) (i 1) (i 2)

/-! ## The output and the edge region's array -/

/-- The output is the edge region's array with the class axis moved last. -/
theorem W4_v12_apply (c : Dev nD) (a b : Fin 1024) (cls : Fin 2) :
    Gen.W4 (F := Ideal) m ρ c (Proc.devRef .tc main_v12) (ix3 a b cls)
      = Gen.W3 (F := Ideal) m ρ c (Proc.devRef .tc main_v11) (ix3 cls a b) := by
  show StableHlo.after hostOps2 (Gen.W3 (F := Ideal) m ρ c) (Proc.devRef .tc main_v12) (ix3 a b cls) = _
  after_results
  exact transpose_apply _ _ _ (ix3 a b cls) (ix3 cls a b) (fun b' => by
    match b' with
    | ⟨0, _⟩ => rfl
    | ⟨1, _⟩ => rfl
    | ⟨2, _⟩ => rfl)

/-- At its exit the edge region's output array holds what the region leaves. -/
theorem W3_v11 (c : Dev nD) :
    Gen.W3 (F := Ideal) m ρ c (Proc.devRef .tc main_v11) = (Gen.dat1 (F := Ideal) (Gen.V2 m ρ) c).arrAt 5 cfg1.N :=
  Gen.W3_arr m ρ c 5

/-! ## The arrays the edge region reads, followed back to the launch -/

/-- The node embedding reaches the edge region as the first region leaves it. -/
theorem V2_v0 (c : Dev nD) :
    Gen.V2 (F := Ideal) m ρ c main_v0
      = G0 (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) := by
  have h1 : Gen.V2 (F := Ideal) m ρ c main_v0 = Gen.W1 (F := Ideal) m ρ c (Proc.devRef .tc main_v0) := by
    show StableHlo.after hostOps1 (Gen.W1 (F := Ideal) m ρ c) (Proc.devRef .tc main_v0) = _
    after_results
  rw [h1]
  exact (Gen.W1_arr m ρ c 7).trans (h_final (Gen.V0 m ρ) c)

/-- The edge head's first weight matrix reaches the edge region as launched. -/
theorem V2_arg8 (c : Dev nD) : Gen.V2 (F := Ideal) m ρ c main_arg8 = m ((c : Thread nD τ).loc main_arg8) := by
  have h1 : Gen.V2 (F := Ideal) m ρ c main_arg8 = Gen.W1 (F := Ideal) m ρ c (Proc.devRef .tc main_arg8) := by
    show StableHlo.after hostOps1 (Gen.W1 (F := Ideal) m ρ c) (Proc.devRef .tc main_arg8) = _
    after_results
  rw [h1]
  exact Gen.W1_of_ne m ρ c main_arg8 (by decide)

/-- The edge head's first bias reaches the edge region as launched. -/
theorem V2_arg9 (c : Dev nD) : Gen.V2 (F := Ideal) m ρ c main_arg9 = m ((c : Thread nD τ).loc main_arg9) := by
  have h1 : Gen.V2 (F := Ideal) m ρ c main_arg9 = Gen.W1 (F := Ideal) m ρ c (Proc.devRef .tc main_arg9) := by
    show StableHlo.after hostOps1 (Gen.W1 (F := Ideal) m ρ c) (Proc.devRef .tc main_arg9) = _
    after_results
  rw [h1]
  exact Gen.W1_of_ne m ρ c main_arg9 (by decide)

/-- The last weight matrix passes the first region untouched. -/
theorem W1_arg10 (c : Dev nD) :
    Gen.W1 (F := Ideal) m ρ c (Proc.devRef .tc main_arg10) = m ((c : Thread nD τ).loc main_arg10) :=
  Gen.W1_of_ne m ρ c main_arg10 (by decide)

/-- The last bias passes the first region untouched. -/
theorem W1_arg11 (c : Dev nD) :
    Gen.W1 (F := Ideal) m ρ c (Proc.devRef .tc main_arg11) = m ((c : Thread nD τ).loc main_arg11) :=
  Gen.W1_of_ne m ρ c main_arg11 (by decide)

/-- The difference column the edge region reads: column 0 minus column 1 of the last weight matrix. -/
theorem V2_v6_apply (c : Dev nD) (k : Fin 512) :
    Gen.V2 (F := Ideal) m ρ c main_v6 (ix2 0 k)
      = mat (A := 512) (B := 2) (m ((c : Thread nD τ).loc main_arg10)) k 0
        - mat (A := 512) (B := 2) (m ((c : Thread nD τ).loc main_arg10)) k 1 := by
  show StableHlo.after hostOps1 (Gen.W1 (F := Ideal) m ρ c) (Proc.devRef .tc main_v6) (ix2 0 k) = _
  after_results
  rw [W1_arg10]
  generalize m ((c : Thread nD τ).loc main_arg10) = A10
  show shapeCast S1x512 (subf (F := Ideal) (φ := .f32)
      (shapeCast S512 (extractStridedSlice S512x1 ![0, 0] (A10 : S512x2.Idx → EReal) slices_S512x2_S512x1_0_0) shapeCasts_S512x1_S512)
      (shapeCast S512 (extractStridedSlice S512x1 ![0, 1] (A10 : S512x2.Idx → EReal) slices_S512x2_S512x1_0_1) shapeCasts_S512x1_S512))
      shapeCasts_S512_S1x512 (ix2 0 k) = _
  rw [shapeCast_apply _ _ (ix2 0 k) (ix1 k) (by
    rw [Shape.rowMajor_val_one, Shape.rowMajor_val_two]
    show k.val = 0 * 512 + k.val
    omega)]
  rw [subf_apply]
  rw [shapeCast_apply _ _ (ix1 k) (ix2 k 0) (by
    rw [Shape.rowMajor_val_one, Shape.rowMajor_val_two]
    show k.val * 1 + 0 = k.val
    omega)]
  rw [shapeCast_apply _ _ (ix1 k) (ix2 k 0) (by
    rw [Shape.rowMajor_val_one, Shape.rowMajor_val_two]
    show k.val * 1 + 0 = k.val
    omega)]
  rw [extractStridedSlice_apply _ _ _ (ix2 k 0) (ix2 k 0) (fun a => by
    match a with
    | ⟨0, _⟩ => show k.val = 0 + k.val; omega
    | ⟨1, _⟩ => rfl)]
  rw [extractStridedSlice_apply _ _ _ (ix2 k 0) (ix2 k 1) (fun a => by
    match a with
    | ⟨0, _⟩ => show k.val = 0 + k.val; omega
    | ⟨1, _⟩ => rfl)]
  rfl

/-- The bias difference the edge region reads: entry 0 minus entry 1 of the last bias. -/
theorem V2_v10_apply (c : Dev nD) :
    Gen.V2 (F := Ideal) m ρ c main_v10 (ix2 0 0)
      = vec (A := 2) (m ((c : Thread nD τ).loc main_arg11)) 0 - vec (A := 2) (m ((c : Thread nD τ).loc main_arg11)) 1 := by
  show StableHlo.after hostOps1 (Gen.W1 (F := Ideal) m ρ c) (Proc.devRef .tc main_v10) (ix2 0 0) = _
  after_results
  rw [W1_arg11]
  generalize m ((c : Thread nD τ).loc main_arg11) = A11
  show shapeCast S1x1 (subf (F := Ideal) (φ := .f32)
      (extractStridedSlice S1 ![0] (A11 : S2.Idx → EReal) slices_S2_S1_0)
      (extractStridedSlice S1 ![1] (A11 : S2.Idx → EReal) slices_S2_S1_1))
      shapeCasts_S1_S1x1 (ix2 0 0) = _
  rw [shapeCast_apply _ _ (ix2 0 0) (ix1 0) (by
    rw [Shape.rowMajor_val_one, Shape.rowMajor_val_two]
    rfl)]
  rw [subf_apply]
  rw [extractStridedSlice_apply _ _ _ (ix1 0) (ix1 0) (fun a => by
    match a with
    | ⟨0, _⟩ => rfl)]
  rw [extractStridedSlice_apply _ _ _ (ix1 0) (ix1 1) (fun a => by
    match a with
    | ⟨0, _⟩ => rfl)]
  rfl

/-! ## The output at one entry -/

/-- THE KERNEL PROGRAM'S OUTPUT at `(a, b, cls)`: the edge head's class-`cls` value for the pair of node
    embeddings `(a, b)`, the embeddings computed from the launch arguments and the head's last layer entering
    through the difference of its two weight columns and of its two biases. -/
theorem kernel_out (hB : EdgeValue) (c : Dev nD) (a b : Fin 1024) (cls : Fin 2) :
    Gen.W4 (F := Ideal) m ρ c (Proc.devRef .tc main_v12) (ix3 a b cls)
      = Cert.Spec.kernelEdge
          (Cert.Spec.hmlp (mat (A := 1024) (B := 128) (m ((c : Thread nD τ).loc main_arg1)))
            (mat (A := 128) (B := 512) (m ((c : Thread nD τ).loc main_arg2))) (vec (A := 512) (m ((c : Thread nD τ).loc main_arg3)))
            (mat (A := 512) (B := 512) (m ((c : Thread nD τ).loc main_arg4))) (vec (A := 512) (m ((c : Thread nD τ).loc main_arg5)))
            (mat (A := 512) (B := 128) (m ((c : Thread nD τ).loc main_arg6))) (vec (A := 128) (m ((c : Thread nD τ).loc main_arg7))))
          (mat (A := 128) (B := 512) (m ((c : Thread nD τ).loc main_arg8))) (vec (A := 512) (m ((c : Thread nD τ).loc main_arg9)))
          (fun k => mat (A := 512) (B := 2) (m ((c : Thread nD τ).loc main_arg10)) k 0
            - mat (A := 512) (B := 2) (m ((c : Thread nD τ).loc main_arg10)) k 1)
          (vec (A := 2) (m ((c : Thread nD τ).loc main_arg11)) 0
            - vec (A := 2) (m ((c : Thread nD τ).loc main_arg11)) 1) cls a b := by
  rw [W4_v12_apply, W3_v11, hB (Gen.V2 m ρ) c]
  show Cert.Spec.kernelEdge (mat (A := 1024) (B := 128) (Gen.V2 (F := Ideal) m ρ c main_v0))
      (mat (A := 128) (B := 512) (Gen.V2 (F := Ideal) m ρ c main_arg8)) (vec (A := 512) (Gen.V2 (F := Ideal) m ρ c main_arg9))
      (fun k => Gen.V2 (F := Ideal) m ρ c main_v6 (ix2 0 k)) (Gen.V2 (F := Ideal) m ρ c main_v10 (ix2 0 0)) cls a b = _
  rw [V2_v0, V2_arg8, V2_arg9, V2_v10_apply, funext (V2_v6_apply m ρ c)]
  rfl

end Cert.KernelIdeal.KValue

end
-- ==== Proof.LibFiniteAll.lean ====
/-
  A printed "every entry is finite" test, read back on the extended reals.

  The test `all(|x| < +inf)` prints as: the absolute value of every entry, compared (ordered, less-than) with the
  broadcast of the single-precision word of plus infinity, and the resulting array of truth values reduced by `and`
  into a result that has one index. On the extended reals the absolute value is `max x (-x)` and the word
  0x7F800000 (sign 0, exponent field all ones, mantissa 0) denotes plus infinity. So an entry passes the comparison
  exactly when it is neither plus nor minus infinity, that is, when it is a real number; and a reduction by `and`
  that came out 1 met a 1 at every entry.
-/
import Idealize.ShloMosaic.PureOps.Ideal
import Idealize.ShloMosaic.Lib.ReduceAll

namespace Cert.FiniteAll

open Idealize.ShloMosaic

/-- The single-precision word with sign 0, exponent field all ones and mantissa 0 denotes plus infinity. -/
theorem ofBits_inf_f32 : Ideal.ofBits .f32 0x7F800000#32 = (⊤ : EReal) := by
  simp [Ideal.ofBits, Ideal.ieee]

/-- An extended real whose absolute value `max x (-x)` lies below plus infinity is a real number: plus infinity
    is its own absolute value, and the negative of minus infinity is plus infinity. -/
theorem exists_real_of_abs_lt_top {x : EReal} (h : max x (-x) < ⊤) : ∃ r : ℝ, x = (r : EReal) := by
  induction x using EReal.rec with
  | bot => simp at h
  | coe r => exact ⟨r, rfl⟩
  | top => simp at h

/-- One entry: if the ordered comparison `|x| < +inf` answers 1, then `x` is a real number. -/
theorem exists_real_of_cmp (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf_f32] at h'
  unfold Ideal.cmp at h'
  by_cases hlt : max (x : EReal) (-(x : EReal)) < ⊤
  · exact exists_real_of_abs_lt_top hlt
  · simp [hlt] at h'

/-- THE ARRAY FACT: if `|x| < +inf`, taken entry by entry against the broadcast word of plus infinity and reduced
    by `and` into a result with one index, is 1, then every entry of `x` is a real number. The shape of `x`, the
    reduced axes, the shape the constant is broadcast from and the reduction's starting value are arbitrary. -/
theorem all_real_of_reduce_and {s t u z : Shape} {axes : List (Fin s.rank)} [Subsingleton t.Idx]
    (x : FVec Ideal s .f32) (dims : Fin z.rank → Fin s.rank) (hb : z.BroadcastsInDim s dims)
    (init : u.Idx → BitVec 1) (hr : s.ReducesTo axes t) (hu : 0 < u.numel) (j : t.Idx)
    (e : Host.reduce IntOp.andi
          (cmpf .olt (Host.absf x) (broadcastInDim s dims hb (constant (F := Ideal) z .f32 0x7F800000#32)))
          init hr hu j = 1#1)
    (i : s.Idx) : ∃ r : ℝ, (x i : EReal) = (r : EReal) :=
  exists_real_of_cmp (x i) (Host.reduce_andi_all _ init hr hu j e i)

end Cert.FiniteAll
-- ==== Proof.LibRealSum.lean ====
/-
  Real numbers inside the extended reals: they are closed under sums, products, maxima and finite sums,
  and on them a weighted sum of matrix-vector products may be exchanged with the matrix-vector product of
  the weighted sums. A sum over 136 consecutive coordinates is also split into blocks of 64, 64 and 8.
-/
import Idealize.ShloMosaic.PureOps.Ideal

noncomputable section

namespace Cert.RealSum

/-- An extended real that is a real number. -/
def IsReal (x : EReal) : Prop := ∃ r : ℝ, x = (r : EReal)

/-- Zero is a real number. -/
theorem isReal_zero : IsReal 0 := ⟨0, EReal.coe_zero.symm⟩

/-- The image of a real number in the extended reals is a real number. -/
theorem isReal_coe (r : ℝ) : IsReal (r : EReal) := ⟨r, rfl⟩

/-- The sum of two real numbers is a real number. -/
theorem IsReal.add {x y : EReal} (hx : IsReal x) (hy : IsReal y) : IsReal (x + y) := by
  obtain ⟨p, rfl⟩ := hx
  obtain ⟨q, rfl⟩ := hy
  exact ⟨p + q, (EReal.coe_add p q).symm⟩

/-- The product of two real numbers is a real number. -/
theorem IsReal.mul {x y : EReal} (hx : IsReal x) (hy : IsReal y) : IsReal (x * y) := by
  obtain ⟨p, rfl⟩ := hx
  obtain ⟨q, rfl⟩ := hy
  exact ⟨p * q, (EReal.coe_mul p q).symm⟩

/-- The larger of two real numbers is a real number, because it is one of the two. -/
theorem IsReal.max {x y : EReal} (hx : IsReal x) (hy : IsReal y) : IsReal (max x y) := by
  rcases max_choice x y with h | h
  · rw [h]; exact hx
  · rw [h]; exact hy

/-- A finite sum of real numbers is a real number. -/
theorem isReal_sum {ι : Type} (s : Finset ι) (f : ι → EReal) (h : ∀ e ∈ s, IsReal (f e)) :
    IsReal (∑ e ∈ s, f e) :=
  Finset.sum_induction f IsReal (fun _ _ hx hy => hx.add hy) isReal_zero h

/-- An extended real that is neither plus nor minus infinity is a real number. -/
theorem isReal_of_ne_top_of_ne_bot {x : EReal} (ht : x ≠ ⊤) (hb : x ≠ ⊥) : IsReal x :=
  ⟨x.toReal, (EReal.coe_toReal ht hb).symm⟩

/-- A nonnegative extended real other than plus infinity is a real number: being at least zero, it is
    not minus infinity either. -/
theorem isReal_of_nonneg_of_ne_top {x : EReal} (h0 : 0 ≤ x) (ht : x ≠ ⊤) : IsReal x :=
  isReal_of_ne_top_of_ne_bot ht (lt_of_lt_of_le EReal.bot_lt_zero h0).ne'

/-- The image of a finite sum of real numbers is the sum of the images. -/
private theorem coe_sum {ι : Type} (s : Finset ι) (g : ι → ℝ) :
    ((∑ e ∈ s, g e : ℝ) : EReal) = ∑ e ∈ s, (g e : EReal) := by
  classical
  induction s using Finset.induction_on with
  | empty => rw [Finset.sum_empty, Finset.sum_empty, EReal.coe_zero]
  | insert b t hb ih => rw [Finset.sum_insert hb, Finset.sum_insert hb, EReal.coe_add, ih]

/-- The exchange law over the real numbers: both sides expand to the double sum of `a e k * w k * c e`,
    summed in the two possible orders. -/
private theorem commute_real {ι κ : Type} [Fintype κ] (s : Finset ι) (a : ι → κ → ℝ) (w : κ → ℝ)
    (c : ι → ℝ) :
    ∑ e ∈ s, (∑ k, a e k * w k) * c e = ∑ k, (∑ e ∈ s, a e k * c e) * w k := by
  simp only [Finset.sum_mul]
  rw [Finset.sum_comm]
  refine Finset.sum_congr rfl (fun k _ => Finset.sum_congr rfl (fun e _ => ?_))
  exact mul_right_comm (a e k) (w k) (c e)

/-- THE COMMUTE LAW: a weighted sum over edges of matrix-vector products is the matrix-vector product of
    the weighted sums, when every entry is real. Both edge sums start from zero, as a scatter-add into a
    zero array does. -/
theorem commute {ι κ : Type} [Fintype κ] (s : Finset ι) (a : ι → κ → EReal) (w : κ → EReal)
    (c : ι → EReal) (ha : ∀ e k, IsReal (a e k)) (hw : ∀ k, IsReal (w k)) (hc : ∀ e, IsReal (c e)) :
    (0 + ∑ e ∈ s, (∑ k, a e k * w k) * c e) = ∑ k, (0 + ∑ e ∈ s, a e k * c e) * w k := by
  choose a' ha' using ha
  choose w' hw' using hw
  choose c' hc' using hc
  -- every entry is the image of a real number, so both sides are images of real expressions
  have hL : (0 + ∑ e ∈ s, (∑ k, a e k * w k) * c e)
      = ((∑ e ∈ s, (∑ k, a' e k * w' k) * c' e : ℝ) : EReal) := by
    rw [zero_add, coe_sum]
    refine Finset.sum_congr rfl (fun e _ => ?_)
    rw [EReal.coe_mul, coe_sum, hc' e]
    congr 1
    refine Finset.sum_congr rfl (fun k _ => ?_)
    rw [EReal.coe_mul, ha' e k, hw' k]
  have hR : (∑ k, (0 + ∑ e ∈ s, a e k * c e) * w k)
      = ((∑ k, (∑ e ∈ s, a' e k * c' e) * w' k : ℝ) : EReal) := by
    rw [coe_sum]
    refine Finset.sum_congr rfl (fun k _ => ?_)
    rw [zero_add, EReal.coe_mul, coe_sum, hw' k]
    congr 1
    refine Finset.sum_congr rfl (fun e _ => ?_)
    rw [EReal.coe_mul, ha' e k, hc' e]
  rw [hL, hR, commute_real s a' w' c']

/-- A sum over 136 coordinates split as 64 + 64 + 8 consecutive coordinates, grouped
    (first + second) + third. -/
theorem sum_split_136 (f : Fin 136 → EReal) :
    ∑ q : Fin 136, f q
      = (∑ q : Fin 64, f ⟨q.val, by omega⟩ + ∑ q : Fin 64, f ⟨64 + q.val, by omega⟩)
        + ∑ q : Fin 8, f ⟨128 + q.val, by omega⟩ := by
  have h1 : ∑ q : Fin (64 + 64 + 8), f q
      = ∑ q : Fin (64 + 64), f (Fin.castAdd 8 q) + ∑ q : Fin 8, f (Fin.natAdd (64 + 64) q) :=
    Fin.sum_univ_add (fun q : Fin (64 + 64 + 8) => f q)
  have h2 : ∑ q : Fin (64 + 64), f (Fin.castAdd 8 q)
      = ∑ q : Fin 64, f (Fin.castAdd 8 (Fin.castAdd 64 q))
        + ∑ q : Fin 64, f (Fin.castAdd 8 (Fin.natAdd 64 q)) :=
    Fin.sum_univ_add (fun q : Fin (64 + 64) => f (Fin.castAdd 8 q))
  rw [h2] at h1
  exact h1

end Cert.RealSum
-- ==== Proof.PreReal.lean ====
import proofs.«116980_j2911987826887_2_alg».proof.Pre_finite_inputs
import proofs.«116980_j2911987826887_2_alg».proof.Proof.LibFiniteAll
import proofs.«116980_j2911987826887_2_alg».proof.Proof.LibRealSum
import Idealize.ShloMosaic.Lib.ValueIdx

noncomputable section

namespace Cert.PreReal

open Idealize.ShloMosaic Idealize.ShloMosaic.ValueIdx Cert.Pre_finite_inputs Cert.RealSum

/-- The shape without axes has one index. -/
instance : Subsingleton S_.Idx := ⟨fun a b => funext fun d => d.elim0⟩

/-- The conjunction of two arrays of truth values, read at an index, is one exactly when both entries are. -/
theorem vec_andi_eq_one {s : Shape} (x y : IVec s 1) (i : s.Idx) :
    andi x y i = 1#1 ↔ x i = 1#1 ∧ y i = 1#1 :=
  IntOp.andi_eq_one

variable [Cert.Pre_finite_inputs.Facts]

/-- The precondition is the conjunction of twelve tests "every entry has absolute value below plus infinity", one per
    argument array; when it holds every entry of every argument array is a real number. -/
theorem real_of_pre_all (a0 : FVec Ideal S1 .f32) (a1 : FVec Ideal S1024x128 .f32) (a2 : FVec Ideal S128x512 .f32) (a3 : FVec Ideal S512 .f32) (a4 : FVec Ideal S512x512 .f32) (a5 : FVec Ideal S512 .f32) (a6 : FVec Ideal S512x128 .f32) (a7 : FVec Ideal S128 .f32) (a8 : FVec Ideal S128x512 .f32) (a9 : FVec Ideal S512 .f32) (a10 : FVec Ideal S512x2 .f32) (a11 : FVec Ideal S2 .f32)
    (h : Cert.Pre_finite_inputs.fn (F := Ideal) a0 a1 a2 a3 a4 a5 a6 a7 a8 a9 a10 a11 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) := by
  have h0 : Cert.Pre_finite_inputs.fn (F := Ideal) a0 a1 a2 a3 a4 a5 a6 a7 a8 a9 a10 a11 ix0 = 1#1 := congrFun h ix0
  simp only [Cert.Pre_finite_inputs.fn, fn_part1, fn_part2, fn_part3, vec_andi_eq_one] at h0
  obtain ⟨⟨⟨⟨⟨⟨⟨⟨⟨⟨⟨t0, t1⟩, t2⟩, t3⟩, t4⟩, t5⟩, t6⟩, t7⟩, t8⟩, t9⟩, t10⟩, t11⟩ := h0
  exact ⟨FiniteAll.all_real_of_reduce_and a0 _ _ _ _ _ ix0 t0,
    FiniteAll.all_real_of_reduce_and a1 _ _ _ _ _ ix0 t1,
    FiniteAll.all_real_of_reduce_and a2 _ _ _ _ _ ix0 t2,
    FiniteAll.all_real_of_reduce_and a3 _ _ _ _ _ ix0 t3,
    FiniteAll.all_real_of_reduce_and a4 _ _ _ _ _ ix0 t4,
    FiniteAll.all_real_of_reduce_and a5 _ _ _ _ _ ix0 t5,
    FiniteAll.all_real_of_reduce_and a6 _ _ _ _ _ ix0 t6,
    FiniteAll.all_real_of_reduce_and a7 _ _ _ _ _ ix0 t7,
    FiniteAll.all_real_of_reduce_and a8 _ _ _ _ _ ix0 t8,
    FiniteAll.all_real_of_reduce_and a9 _ _ _ _ _ ix0 t9,
    FiniteAll.all_real_of_reduce_and a10 _ _ _ _ _ ix0 t10,
    FiniteAll.all_real_of_reduce_and a11 _ _ _ _ _ ix0 t11⟩

/-- The same without the first (one-entry) array: every entry of the eleven weight and feature arrays is a real
    number. -/
theorem real_of_pre (a0 : FVec Ideal S1 .f32) (a1 : FVec Ideal S1024x128 .f32) (a2 : FVec Ideal S128x512 .f32) (a3 : FVec Ideal S512 .f32) (a4 : FVec Ideal S512x512 .f32) (a5 : FVec Ideal S512 .f32) (a6 : FVec Ideal S512x128 .f32) (a7 : FVec Ideal S128 .f32) (a8 : FVec Ideal S128x512 .f32) (a9 : FVec Ideal S512 .f32) (a10 : FVec Ideal S512x2 .f32) (a11 : FVec Ideal S2 .f32)
    (h : Cert.Pre_finite_inputs.fn (F := Ideal) a0 a1 a2 a3 a4 a5 a6 a7 a8 a9 a10 a11 = fun _ => 1#1) :
    (∀ i, IsReal (a1 i)) ∧ (∀ i, IsReal (a2 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) :=
  (real_of_pre_all a0 a1 a2 a3 a4 a5 a6 a7 a8 a9 a10 a11 h).2

end Cert.PreReal

end
-- ==== Proof.SpecReal.lean ====
import proofs.«116980_j2911987826887_2_alg».proof.Proof.Spec
import proofs.«116980_j2911987826887_2_alg».proof.Proof.LibRealSum

/-!
# Real arguments give real values

The specification's layers are built from sums, products, maxima and a choice between two branches; each keeps
real numbers real, so the node embedding and the edge head's hidden activations are real numbers when every entry
of the argument arrays is.
-/

noncomputable section

namespace Cert.Spec

open Idealize.ShloMosaic Cert.RealSum

/-- A bit pattern whose exponent field is not all ones denotes a real number (a zero, a subnormal or a normal). -/
theorem ieee_real (e m : ℕ) {w : ℕ} (b : BitVec w) (h : (b.extractLsb' m e).toNat ≠ 2 ^ e - 1) :
    IsReal (Ideal.ieee e m b) := by
  unfold Ideal.ieee
  simp only []
  rw [if_neg h]
  split_ifs <;> exact ⟨_, rfl⟩

/-- The single-precision word of the slope (the float nearest 0.01) denotes a real number. -/
theorem slope_real : IsReal (Ideal.ofBits .f32 0x3C23D70A#32) := by
  show IsReal (Ideal.ieee 8 23 (0x3C23D70A#32 : BitVec 32))
  exact ieee_real 8 23 _ (by decide)

/-- The single-precision word of zero denotes a real number. -/
theorem zero_real : IsReal (Ideal.ofBits .f32 0x00000000#32) := by
  show IsReal (Ideal.ieee 8 23 (0x00000000#32 : BitVec 32))
  exact ieee_real 8 23 _ (by decide)

/-- The leaky rectifier of a real number is a real number: it is the number itself or the slope times it. -/
theorem lrelu_real {x : EReal} (hx : IsReal x) : IsReal (lrelu x) := by
  unfold lrelu Scalar.select
  split_ifs
  · exact hx
  · exact slope_real.mul hx

/-- A dense layer's entry is a real number when the inputs, the weights and the bias are. -/
theorem dense_real {K : ℕ} {x w : Fin K → EReal} {b : EReal} (hx : ∀ q, IsReal (x q)) (hw : ∀ q, IsReal (w q))
    (hb : IsReal b) : IsReal (dense x w b) := by
  unfold dense
  exact (isReal_sum _ _ fun q _ => (hx q).mul (hw q)).add hb

/-- The node embedding is a real number when every entry of the features, weights and biases is. -/
theorem hmlp_real {x : Fin 1024 → Fin 128 → EReal} {w1 : Fin 128 → Fin 512 → EReal} {b1 : Fin 512 → EReal}
    {w2 : Fin 512 → Fin 512 → EReal} {b2 : Fin 512 → EReal} {w4 : Fin 512 → Fin 128 → EReal} {b4 : Fin 128 → EReal}
    (hx : ∀ n q, IsReal (x n q)) (hw1 : ∀ q k, IsReal (w1 q k)) (hb1 : ∀ k, IsReal (b1 k))
    (hw2 : ∀ q k, IsReal (w2 q k)) (hb2 : ∀ k, IsReal (b2 k)) (hw4 : ∀ q f, IsReal (w4 q f))
    (hb4 : ∀ f, IsReal (b4 f)) (n : Fin 1024) (f : Fin 128) : IsReal (hmlp x w1 b1 w2 b2 w4 b4 n f) := by
  unfold hmlp
  have h1 : ∀ k, IsReal (lrelu (dense (x n) (fun q => w1 q k) (b1 k))) := fun k =>
    lrelu_real (dense_real (hx n) (fun q => hw1 q k) (hb1 k))
  have h2 : ∀ k, IsReal (lrelu (dense (fun k => lrelu (dense (x n) (fun q => w1 q k) (b1 k))) (fun q => w2 q k) (b2 k))) :=
    fun k => lrelu_real (dense_real h1 (fun q => hw2 q k) (hb2 k))
  exact (dense_real h2 (fun q => hw4 q f) (hb4 f)).add (hx n f)

/-- The edge head's hidden activation is a real number when the two embedding rows, the weights and the bias are. -/
theorem edgeHidden_real {u v : Fin 128 → EReal} {w5 : Fin 128 → Fin 512 → EReal} {b5 : Fin 512 → EReal}
    (hu : ∀ q, IsReal (u q)) (hv : ∀ q, IsReal (v q)) (hw5 : ∀ q k, IsReal (w5 q k)) (hb5 : ∀ k, IsReal (b5 k))
    (k : Fin 512) : IsReal (edgeHidden u v w5 b5 k) := by
  unfold edgeHidden
  exact (dense_real (fun q => (hu q).mul (hv q)) (fun q => hw5 q k) (hb5 k)).max zero_real

end Cert.Spec

end
-- ==== Proof.LibSoftmax2.lean ====
/-
  Scalar laws on the extended reals joining a two-class softmax to a logistic.

  A softmax over two real logits `l0 l1`, computed the numerically stable way
  (subtract the running maximum `m`, exponentiate, divide by the sum), has first
  component `e^(l0-m) / (e^(l0-m) + e^(l1-m)) = 1 / (1 + e^(-(l0-l1)))`, the logistic
  of the logits' difference, and second component one minus that.  The shift `m`
  cancels, so the laws hold for every real shift, in particular the maximum.
  Every quantity involved is a real number, so the statements over the extended
  reals reduce to identities between real numbers under the coercion.
-/
import Idealize.ShloMosaic.PureOps.Ideal
import Mathlib.Data.EReal.Operations
import Mathlib.Data.EReal.Inv
import Mathlib.Analysis.SpecialFunctions.Exp
import Mathlib.Algebra.BigOperators.Group.Finset.Basic
import Mathlib.Algebra.BigOperators.Ring.Finset
import Mathlib.Tactic.FieldSimp
import Mathlib.Tactic.Ring
import Mathlib.Tactic.Positivity

namespace Cert.Lib.Softmax2

open Idealize.ShloMosaic
open scoped BigOperators

/-! ## Closure of the real numbers inside the extended reals -/

/-- The coercion of the larger of two reals is the larger of their coercions. -/
theorem coe_max (x y : ℝ) : ((max x y : ℝ) : EReal) = max (x : EReal) (y : EReal) :=
  EReal.coe_strictMono.monotone.map_max

/-- The coercion of `max 0 x` (a rectifier) is `max 0` of the coercion. -/
theorem coe_max_zero (x : ℝ) : ((max 0 x : ℝ) : EReal) = max (0 : EReal) (x : EReal) := by
  rw [coe_max, EReal.coe_zero]

/-- The coercion of a finite sum of reals is the sum of the coercions. -/
theorem coe_finset_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The coercion of a finite sum of products of reals is the sum of the products of the coercions. -/
theorem coe_finset_sum_mul {ι : Type*} (s : Finset ι) (f g : ι → ℝ) :
    ((∑ k ∈ s, f k * g k : ℝ) : EReal) = ∑ k ∈ s, (f k : EReal) * (g k : EReal) := by
  rw [coe_finset_sum]; exact Finset.sum_congr rfl fun k _ => EReal.coe_mul _ _

/-- The exponential of a real number is a real number: `exp ↑r = ↑(e^r)`. -/
theorem exp_coe (r : ℝ) : Ideal.exp (r : EReal) = ((Real.exp r : ℝ) : EReal) := rfl

/-- The exponential of a difference of two reals is the real `e^(x-y)`. -/
theorem exp_coe_sub (x y : ℝ) : Ideal.exp ((x : EReal) - (y : EReal)) = ((Real.exp (x - y) : ℝ) : EReal) := by
  rw [← EReal.coe_sub]; rfl

/-- The logistic of a real number is the real `1 / (1 + e^(-r))`. -/
theorem logistic_coe (r : ℝ) : Ideal.logistic (r : EReal) = (((1 + Real.exp (-r))⁻¹ : ℝ) : EReal) :=
  Ideal.logistic_coe r

/-- The real logistic `1 / (1 + e^(-r))` lies strictly between `0` and `1`. -/
theorem real_logistic_mem (r : ℝ) : 0 < (1 + Real.exp (-r))⁻¹ ∧ (1 + Real.exp (-r))⁻¹ < 1 := by
  have h := Real.exp_pos (-r)
  refine ⟨by positivity, ?_⟩
  rw [inv_lt_one_iff₀]; right; linarith

/-- The logistic of a real number lies strictly between `0` and `1` in the extended reals. -/
theorem logistic_coe_mem (r : ℝ) : (0 : EReal) < Ideal.logistic (r : EReal) ∧ Ideal.logistic (r : EReal) < 1 := by
  rw [logistic_coe]
  obtain ⟨h0, h1⟩ := real_logistic_mem r
  exact ⟨by exact_mod_cast h0, by exact_mod_cast h1⟩

/-! ## The f32 words of `1.0`, `0.0` and `-∞` -/

/-- The f32 pattern `0x3F800000` denotes `1`. -/
theorem ofBits_one_f32 : Ideal.ofBits .f32 0x3F800000#32 = (1 : EReal) := by
  simp [Ideal.ofBits, Ideal.ieee, -EReal.coe_mul]; norm_num

/-- The f32 pattern `0x00000000` denotes `0`. -/
theorem ofBits_zero_f32 : Ideal.ofBits .f32 0x00000000#32 = (0 : EReal) := by
  simp [Ideal.ofBits, Ideal.ieee]

/-- The f32 pattern `0xFF800000` denotes `-∞`, the bottom of the extended reals. -/
theorem ofBits_neg_inf_f32 : Ideal.ofBits .f32 0xFF800000#32 = (⊥ : EReal) := by
  simp [Ideal.ofBits, Ideal.ieee]

/-! ## The running maximum of two logits -/

/-- A maximum folded from `-∞` over two real logits is the larger of the two. -/
theorem max_bot_max (l0 l1 : ℝ) :
    max (⊥ : EReal) (max (max (⊥ : EReal) (l0 : EReal)) (l1 : EReal)) = ((max l0 l1 : ℝ) : EReal) := by
  rw [max_bot_left, max_bot_left, coe_max]

/-! ## The two-class softmax as a logistic -/

/-- Over the reals: `e^(l0-m) / (e^(l0-m) + e^(l1-m)) = 1 / (1 + e^(-(l0-l1)))` for every shift `m`. -/
theorem real_softmax2_fst (l0 l1 m : ℝ) :
    Real.exp (l0 - m) * (1 / (Real.exp (l0 - m) + Real.exp (l1 - m))) = (1 + Real.exp (-(l0 - l1)))⁻¹ := by
  have h : Real.exp (l1 - m) = Real.exp (l0 - m) * Real.exp (-(l0 - l1)) := by
    rw [← Real.exp_add]; congr 1; ring
  rw [h]
  have hp := Real.exp_pos (l0 - m)
  have hq := Real.exp_pos (-(l0 - l1))
  field_simp

/-- Over the reals: `e^(l1-m) / (e^(l0-m) + e^(l1-m)) = 1 - 1 / (1 + e^(-(l0-l1)))` for every shift `m`. -/
theorem real_softmax2_snd (l0 l1 m : ℝ) :
    Real.exp (l1 - m) * (1 / (Real.exp (l0 - m) + Real.exp (l1 - m))) = 1 - (1 + Real.exp (-(l0 - l1)))⁻¹ := by
  rw [← real_softmax2_fst l0 l1 m]
  have hp := Real.exp_pos (l0 - m)
  have hq := Real.exp_pos (l1 - m)
  field_simp
  ring

/-- The denominator of a shifted two-class softmax is the real `e^(l0-m) + e^(l1-m)`. -/
theorem softmax2_denom (l0 l1 m : ℝ) :
    (0 : EReal) + (Ideal.exp ((l0 : EReal) - (m : EReal)) + Ideal.exp ((l1 : EReal) - (m : EReal)))
      = ((Real.exp (l0 - m) + Real.exp (l1 - m) : ℝ) : EReal) := by
  rw [zero_add, exp_coe_sub, exp_coe_sub, EReal.coe_add]

/-- First component of a two-class softmax with any real shift `m`: the logistic of `l0 - l1`. -/
theorem softmax2_fst_shift (l0 l1 m : ℝ) :
    Ideal.div (Ideal.exp ((l0 : EReal) - (m : EReal)))
        ((0 : EReal) + (Ideal.exp ((l0 : EReal) - (m : EReal)) + Ideal.exp ((l1 : EReal) - (m : EReal))))
      = Ideal.logistic ((l0 - l1 : ℝ) : EReal) := by
  have hne : Real.exp (l0 - m) + Real.exp (l1 - m) ≠ 0 := by positivity
  rw [softmax2_denom, Ideal.div_coe hne, exp_coe_sub, ← EReal.coe_mul, logistic_coe, real_softmax2_fst]

/-- Second component of a two-class softmax with any real shift `m`: one minus the logistic of `l0 - l1`. -/
theorem softmax2_snd_shift (l0 l1 m : ℝ) :
    Ideal.div (Ideal.exp ((l1 : EReal) - (m : EReal)))
        ((0 : EReal) + (Ideal.exp ((l0 : EReal) - (m : EReal)) + Ideal.exp ((l1 : EReal) - (m : EReal))))
      = (1 : EReal) - Ideal.logistic ((l0 - l1 : ℝ) : EReal) := by
  have hne : Real.exp (l0 - m) + Real.exp (l1 - m) ≠ 0 := by positivity
  rw [softmax2_denom, Ideal.div_coe hne, exp_coe_sub, ← EReal.coe_mul, logistic_coe, real_softmax2_snd,
    EReal.coe_sub, EReal.coe_one]

/-- First component of the two-class softmax shifted by the larger logit: the logistic of `l0 - l1`. -/
theorem softmax2_fst (l0 l1 : ℝ) :
    Ideal.div (Ideal.exp ((l0 : EReal) - ((max l0 l1 : ℝ) : EReal)))
        ((0 : EReal) + (Ideal.exp ((l0 : EReal) - ((max l0 l1 : ℝ) : EReal))
          + Ideal.exp ((l1 : EReal) - ((max l0 l1 : ℝ) : EReal))))
      = Ideal.logistic ((l0 - l1 : ℝ) : EReal) :=
  softmax2_fst_shift l0 l1 (max l0 l1)

/-- Second component of the two-class softmax shifted by the larger logit: one minus the logistic of `l0 - l1`. -/
theorem softmax2_snd (l0 l1 : ℝ) :
    Ideal.div (Ideal.exp ((l1 : EReal) - ((max l0 l1 : ℝ) : EReal)))
        ((0 : EReal) + (Ideal.exp ((l0 : EReal) - ((max l0 l1 : ℝ) : EReal))
          + Ideal.exp ((l1 : EReal) - ((max l0 l1 : ℝ) : EReal))))
      = (1 : EReal) - Ideal.logistic ((l0 - l1 : ℝ) : EReal) :=
  softmax2_snd_shift l0 l1 (max l0 l1)

/-- The second component written with the f32 word of `1.0` as the minuend. -/
theorem softmax2_snd_word (l0 l1 : ℝ) :
    Ideal.div (Ideal.exp ((l1 : EReal) - ((max l0 l1 : ℝ) : EReal)))
        ((0 : EReal) + (Ideal.exp ((l0 : EReal) - ((max l0 l1 : ℝ) : EReal))
          + Ideal.exp ((l1 : EReal) - ((max l0 l1 : ℝ) : EReal))))
      = Ideal.ofBits .f32 0x3F800000#32 - Ideal.logistic ((l0 - l1 : ℝ) : EReal) := by
  rw [ofBits_one_f32]; exact softmax2_snd l0 l1

/-! ## The difference of two affine logits

Two logits `l_a = (0 + ∑ k, e k · a k) + β_a` and `l_b = (0 + ∑ k, e k · b k) + β_b` sharing the
feature vector `e` differ by the affine form in the differences of weights and biases:
`l_a - l_b = (0 + ∑ k, e k · (a k - b k)) + (β_a - β_b)`.  All terms are real numbers, so the
extended-real expressions are the coercions of the corresponding real ones. -/

section Logits
variable {ι : Type*}

/-- An affine logit `(0 + ∑ k, e k · a k) + β` over the extended reals is the coercion of the real one. -/
theorem logit_coe (s : Finset ι) (ep a : ι → ℝ) (ba : ℝ) :
    ((0 : EReal) + ∑ k ∈ s, (ep k : EReal) * (a k : EReal)) + (ba : EReal)
      = ((∑ k ∈ s, ep k * a k + ba : ℝ) : EReal) := by
  rw [zero_add, EReal.coe_add, coe_finset_sum_mul]

/-- Over the reals: the difference of two affine logits is the affine form in the differences. -/
theorem real_logit_diff (s : Finset ι) (ep a b : ι → ℝ) (ba bb : ℝ) :
    ∑ k ∈ s, ep k * (a k - b k) + (ba - bb) = ∑ k ∈ s, ep k * a k + ba - (∑ k ∈ s, ep k * b k + bb) := by
  simp only [mul_sub, Finset.sum_sub_distrib]; ring

/-- Over the reals, with the weights as the left factors. -/
theorem real_logit_diff' (s : Finset ι) (ep a b : ι → ℝ) (ba bb : ℝ) :
    ∑ k ∈ s, (a k - b k) * ep k + (ba - bb) = ∑ k ∈ s, a k * ep k + ba - (∑ k ∈ s, b k * ep k + bb) := by
  simp only [sub_mul, Finset.sum_sub_distrib]; ring

/-- The affine form in the differences of weights and biases, over the extended reals, is the coercion of
    the real difference of the two logits. -/
theorem logit_diff_coe (s : Finset ι) (ep a b : ι → ℝ) (ba bb : ℝ) :
    ((0 : EReal) + ∑ k ∈ s, (ep k : EReal) * ((a k : EReal) - (b k : EReal))) + ((ba : EReal) - (bb : EReal))
      = ((∑ k ∈ s, ep k * a k + ba - (∑ k ∈ s, ep k * b k + bb) : ℝ) : EReal) := by
  rw [← real_logit_diff, EReal.coe_add, EReal.coe_sub, coe_finset_sum_mul, zero_add]
  simp only [EReal.coe_sub]

/-- The same with the weights as the left factors of the products. -/
theorem logit_diff_coe' (s : Finset ι) (ep a b : ι → ℝ) (ba bb : ℝ) :
    ((0 : EReal) + ∑ k ∈ s, ((a k : EReal) - (b k : EReal)) * (ep k : EReal)) + ((ba : EReal) - (bb : EReal))
      = ((∑ k ∈ s, a k * ep k + ba - (∑ k ∈ s, b k * ep k + bb) : ℝ) : EReal) := by
  rw [← real_logit_diff', EReal.coe_add, EReal.coe_sub, coe_finset_sum_mul, zero_add]
  simp only [EReal.coe_sub]

/-- The difference of two affine logits over the extended reals is the coercion of the real difference. -/
theorem logit_sub_coe (s : Finset ι) (ep a b : ι → ℝ) (ba bb : ℝ) :
    (((0 : EReal) + ∑ k ∈ s, (ep k : EReal) * (a k : EReal)) + (ba : EReal))
        - (((0 : EReal) + ∑ k ∈ s, (ep k : EReal) * (b k : EReal)) + (bb : EReal))
      = ((∑ k ∈ s, ep k * a k + ba - (∑ k ∈ s, ep k * b k + bb) : ℝ) : EReal) := by
  rw [logit_coe, logit_coe, ← EReal.coe_sub]

/-- The affine form in the differences equals the difference of the two affine logits, over the extended reals. -/
theorem logit_diff (s : Finset ι) (ep a b : ι → ℝ) (ba bb : ℝ) :
    ((0 : EReal) + ∑ k ∈ s, (ep k : EReal) * ((a k : EReal) - (b k : EReal))) + ((ba : EReal) - (bb : EReal))
      = (((0 : EReal) + ∑ k ∈ s, (ep k : EReal) * (a k : EReal)) + (ba : EReal))
        - (((0 : EReal) + ∑ k ∈ s, (ep k : EReal) * (b k : EReal)) + (bb : EReal)) := by
  rw [logit_diff_coe, logit_sub_coe]

/-- The same with the weights as the left factors of the products. -/
theorem logit_diff' (s : Finset ι) (ep a b : ι → ℝ) (ba bb : ℝ) :
    ((0 : EReal) + ∑ k ∈ s, ((a k : EReal) - (b k : EReal)) * (ep k : EReal)) + ((ba : EReal) - (bb : EReal))
      = (((0 : EReal) + ∑ k ∈ s, (a k : EReal) * (ep k : EReal)) + (ba : EReal))
        - (((0 : EReal) + ∑ k ∈ s, (b k : EReal) * (ep k : EReal)) + (bb : EReal)) := by
  rw [logit_diff_coe', logit_coe, logit_coe, ← EReal.coe_sub]

end Logits

end Cert.Lib.Softmax2
-- ==== Proof.LibEdgeHead.lean ====
/-
  The per-edge two-class head on the extended reals, under realness hypotheses.

  An edge carries a feature vector `r` and two affine logits `l_a = (∑ k, r k · a k) + β_a` and
  `l_b = (∑ k, r k · b k) + β_b`.  A softmax over the two, computed with any real shift `m`
  (the running maximum in particular), has components `σ(l_a - l_b)` and `1 - σ(l_a - l_b)` with
  `σ(x) = 1 / (1 + e^(-x))` the logistic, and `l_a - l_b = (∑ k, r k · (a k - b k)) + (β_a - β_b)` is the
  affine form in the differences of the weights and biases.  All entries are real numbers, so no
  infinity arises, and the two results are real numbers strictly between 0 and 1.
  The sum of the two exponentials is stated both as `0 + (s₀ + s₁)` and as `0 + ∑ c : Fin 2, s c`, and the
  maximum both as nested `max` from `-∞` and as the fold of `max` from `-∞` over `Fin 2`.
-/
import Idealize.ShloMosaic.PureOps.Ideal
import proofs.«116980_j2911987826887_2_alg».proof.Proof.LibRealSum
import proofs.«116980_j2911987826887_2_alg».proof.Proof.LibSoftmax2

namespace Cert.Lib.EdgeHead

open Idealize.ShloMosaic Cert.RealSum Cert.Lib.Softmax2
open scoped BigOperators

/-! ## Closure of the real numbers under the operations of the head -/

/-- The difference of two real numbers is a real number. -/
theorem isReal_sub {x y : EReal} (hx : IsReal x) (hy : IsReal y) : IsReal (x - y) := by
  obtain ⟨p, rfl⟩ := hx
  obtain ⟨q, rfl⟩ := hy
  exact ⟨p - q, (EReal.coe_sub p q).symm⟩

/-- The exponential of a real number is a real number. -/
theorem isReal_exp {x : EReal} (hx : IsReal x) : IsReal (Ideal.exp x) := by
  obtain ⟨p, rfl⟩ := hx
  exact ⟨Real.exp p, rfl⟩

/-- The larger of `-∞` and a real number is that real number. -/
theorem isReal_max_bot {x : EReal} (hx : IsReal x) : IsReal (max ⊥ x) := by
  rw [max_bot_left]; exact hx

/-- The fold of `max` over the two entries of a pair is the nested maximum, first entry innermost. -/
theorem fold_max_fin2 (init : EReal) (l : Fin 2 → EReal) :
    (Finset.univ : Finset (Fin 2)).fold max init l = max (max init (l 0)) (l 1) := by
  have h : (Finset.univ : Finset (Fin 2)) = {0, 1} := by decide
  rw [h, Finset.fold_insert (by decide), Finset.fold_singleton, max_comm (l 1) init, ← max_assoc,
    max_comm (l 0) init]

/-- The running maximum of two real logits, nested from `-∞`, is a real number. -/
theorem isReal_max2 {l0 l1 : EReal} (h0 : IsReal l0) (h1 : IsReal l1) :
    IsReal (max ⊥ (max (max ⊥ l0) l1)) :=
  isReal_max_bot ((isReal_max_bot h0).max h1)

/-- The fold of `max` from `-∞` over a pair of real logits is a real number. -/
theorem isReal_fold_max_fin2 {l : Fin 2 → EReal} (hl : ∀ c, IsReal (l c)) :
    IsReal ((Finset.univ : Finset (Fin 2)).fold max ⊥ l) := by
  rw [fold_max_fin2]; exact (isReal_max_bot (hl 0)).max (hl 1)

/-- The larger of `-∞` and that fold is a real number too. -/
theorem isReal_max_bot_fold_max_fin2 {l : Fin 2 → EReal} (hl : ∀ c, IsReal (l c)) :
    IsReal (max ⊥ ((Finset.univ : Finset (Fin 2)).fold max ⊥ l)) :=
  isReal_max_bot (isReal_fold_max_fin2 hl)

/-- An affine form `(∑ k, r k · a k) + β` with real entries is a real number. -/
theorem isReal_logit {ι : Type} [Fintype ι] {r a : ι → EReal} {ba : EReal}
    (hr : ∀ k, IsReal (r k)) (ha : ∀ k, IsReal (a k)) (hba : IsReal ba) :
    IsReal ((∑ k, r k * a k) + ba) :=
  (isReal_sum _ _ fun k _ => (hr k).mul (ha k)).add hba

/-- The affine form in the differences `(∑ k, r k · (a k - b k)) + (β_a - β_b)` with real entries is a real number. -/
theorem isReal_logit_diff {ι : Type} [Fintype ι] {r a b : ι → EReal} {ba bb : EReal}
    (hr : ∀ k, IsReal (r k)) (ha : ∀ k, IsReal (a k)) (hb : ∀ k, IsReal (b k))
    (hba : IsReal ba) (hbb : IsReal bb) :
    IsReal ((∑ k, r k * (a k - b k)) + (ba - bb)) :=
  (isReal_sum _ _ fun k _ => (hr k).mul (isReal_sub (ha k) (hb k))).add (isReal_sub hba hbb)

/-- The logistic of a real number is a real number strictly between 0 and 1. -/
theorem logistic_real {d : EReal} (hd : IsReal d) :
    ∃ p : ℝ, Ideal.logistic d = (p : EReal) ∧ 0 < p ∧ p < 1 := by
  obtain ⟨x, rfl⟩ := hd
  exact ⟨_, Softmax2.logistic_coe x, real_logistic_mem x⟩

/-- One minus the logistic of a real number is a real number strictly between 0 and 1. -/
theorem one_sub_logistic_real {d : EReal} (hd : IsReal d) :
    ∃ q : ℝ, (1 : EReal) - Ideal.logistic d = (q : EReal) ∧ 0 < q ∧ q < 1 := by
  obtain ⟨p, hp, h0, h1⟩ := logistic_real hd
  refine ⟨1 - p, ?_, by linarith, by linarith⟩
  rw [hp, EReal.coe_sub, EReal.coe_one]

/-- The logistic of a real number is a real number. -/
theorem isReal_logistic {d : EReal} (hd : IsReal d) : IsReal (Ideal.logistic d) :=
  let ⟨p, hp, _⟩ := logistic_real hd; ⟨p, hp⟩

/-- One minus the logistic of a real number is a real number. -/
theorem isReal_one_sub_logistic {d : EReal} (hd : IsReal d) : IsReal ((1 : EReal) - Ideal.logistic d) :=
  let ⟨q, hq, _⟩ := one_sub_logistic_real hd; ⟨q, hq⟩

/-! ## The two-class softmax of real logits with a real shift -/

/-- First component: `e^(l0-m) / (0 + (e^(l0-m) + e^(l1-m))) = σ(l0 - l1)` for real `l0 l1 m`. -/
theorem softmax2_fst_real {l0 l1 m : EReal} (h0 : IsReal l0) (h1 : IsReal l1) (hm : IsReal m) :
    Ideal.div (Ideal.exp (l0 - m)) (0 + (Ideal.exp (l0 - m) + Ideal.exp (l1 - m))) = Ideal.logistic (l0 - l1) := by
  obtain ⟨x0, rfl⟩ := h0
  obtain ⟨x1, rfl⟩ := h1
  obtain ⟨y, rfl⟩ := hm
  rw [softmax2_fst_shift, EReal.coe_sub]

/-- Second component: `e^(l1-m) / (0 + (e^(l0-m) + e^(l1-m))) = 1 - σ(l0 - l1)` for real `l0 l1 m`. -/
theorem softmax2_snd_real {l0 l1 m : EReal} (h0 : IsReal l0) (h1 : IsReal l1) (hm : IsReal m) :
    Ideal.div (Ideal.exp (l1 - m)) (0 + (Ideal.exp (l0 - m) + Ideal.exp (l1 - m)))
      = (1 : EReal) - Ideal.logistic (l0 - l1) := by
  obtain ⟨x0, rfl⟩ := h0
  obtain ⟨x1, rfl⟩ := h1
  obtain ⟨y, rfl⟩ := hm
  rw [softmax2_snd_shift, EReal.coe_sub]

/-- First component with the denominator written as a sum over the pair of classes. -/
theorem softmax2_fin2_zero {l : Fin 2 → EReal} {m : EReal} (hl : ∀ c, IsReal (l c)) (hm : IsReal m) :
    Ideal.div (Ideal.exp (l 0 - m)) (0 + ∑ c : Fin 2, Ideal.exp (l c - m)) = Ideal.logistic (l 0 - l 1) := by
  rw [Fin.sum_univ_two]; exact softmax2_fst_real (hl 0) (hl 1) hm

/-- Second component with the denominator written as a sum over the pair of classes. -/
theorem softmax2_fin2_one {l : Fin 2 → EReal} {m : EReal} (hl : ∀ c, IsReal (l c)) (hm : IsReal m) :
    Ideal.div (Ideal.exp (l 1 - m)) (0 + ∑ c : Fin 2, Ideal.exp (l c - m))
      = (1 : EReal) - Ideal.logistic (l 0 - l 1) := by
  rw [Fin.sum_univ_two]; exact softmax2_snd_real (hl 0) (hl 1) hm

/-- Either component, by the class index. -/
theorem softmax2_fin2 {l : Fin 2 → EReal} {m : EReal} (hl : ∀ c, IsReal (l c)) (hm : IsReal m) (c : Fin 2) :
    Ideal.div (Ideal.exp (l c - m)) (0 + ∑ c' : Fin 2, Ideal.exp (l c' - m))
      = if c = 0 then Ideal.logistic (l 0 - l 1) else (1 : EReal) - Ideal.logistic (l 0 - l 1) := by
  match c with
  | 0 => rw [if_pos rfl]; exact softmax2_fin2_zero hl hm
  | 1 => rw [if_neg (by decide)]; exact softmax2_fin2_one hl hm

/-! ## The difference of the two logits -/

/-- For real entries, `(∑ k, r k · (a k - b k)) + (β_a - β_b) = ((∑ k, r k · a k) + β_a) - ((∑ k, r k · b k) + β_b)`. -/
theorem logit_diff_real {ι : Type} [Fintype ι] {r a b : ι → EReal} {ba bb : EReal}
    (hr : ∀ k, IsReal (r k)) (ha : ∀ k, IsReal (a k)) (hb : ∀ k, IsReal (b k))
    (hba : IsReal ba) (hbb : IsReal bb) :
    (∑ k, r k * (a k - b k)) + (ba - bb) = ((∑ k, r k * a k) + ba) - ((∑ k, r k * b k) + bb) := by
  choose r' hr' using hr
  choose a' ha' using ha
  choose b' hb' using hb
  obtain ⟨ba', rfl⟩ := hba
  obtain ⟨bb', rfl⟩ := hbb
  obtain rfl : r = fun k => ((r' k : ℝ) : EReal) := funext hr'
  obtain rfl : a = fun k => ((a' k : ℝ) : EReal) := funext ha'
  obtain rfl : b = fun k => ((b' k : ℝ) : EReal) := funext hb'
  have h := Softmax2.logit_diff Finset.univ r' a' b' ba' bb'
  simp only [zero_add] at h
  exact h

/-- The same with the weights as the left factors of the products. -/
theorem logit_diff_real' {ι : Type} [Fintype ι] {r a b : ι → EReal} {ba bb : EReal}
    (hr : ∀ k, IsReal (r k)) (ha : ∀ k, IsReal (a k)) (hb : ∀ k, IsReal (b k))
    (hba : IsReal ba) (hbb : IsReal bb) :
    (∑ k, (a k - b k) * r k) + (ba - bb) = ((∑ k, a k * r k) + ba) - ((∑ k, b k * r k) + bb) := by
  have h := logit_diff_real hr ha hb hba hbb
  simp only [mul_comm (r _)] at h
  exact h

/-! ## The head: softmax of the two affine logits against the logistic of the affine difference -/

section Head
variable {ι : Type} [Fintype ι] {r a b : ι → EReal} {ba bb m : EReal}

/-- First class: the softmax component of the first affine logit is the logistic of the affine form in the
    differences of the weights and biases, for real entries and any real shift `m`. -/
theorem head_fst (hr : ∀ k, IsReal (r k)) (ha : ∀ k, IsReal (a k)) (hb : ∀ k, IsReal (b k))
    (hba : IsReal ba) (hbb : IsReal bb) (hm : IsReal m) :
    Ideal.div (Ideal.exp (((∑ k, r k * a k) + ba) - m))
        (0 + (Ideal.exp (((∑ k, r k * a k) + ba) - m) + Ideal.exp (((∑ k, r k * b k) + bb) - m)))
      = Ideal.logistic ((∑ k, r k * (a k - b k)) + (ba - bb)) := by
  rw [logit_diff_real hr ha hb hba hbb]
  exact softmax2_fst_real (isReal_logit hr ha hba) (isReal_logit hr hb hbb) hm

/-- Second class: the softmax component of the second affine logit is one minus that logistic. -/
theorem head_snd (hr : ∀ k, IsReal (r k)) (ha : ∀ k, IsReal (a k)) (hb : ∀ k, IsReal (b k))
    (hba : IsReal ba) (hbb : IsReal bb) (hm : IsReal m) :
    Ideal.div (Ideal.exp (((∑ k, r k * b k) + bb) - m))
        (0 + (Ideal.exp (((∑ k, r k * a k) + ba) - m) + Ideal.exp (((∑ k, r k * b k) + bb) - m)))
      = (1 : EReal) - Ideal.logistic ((∑ k, r k * (a k - b k)) + (ba - bb)) := by
  rw [logit_diff_real hr ha hb hba hbb]
  exact softmax2_snd_real (isReal_logit hr ha hba) (isReal_logit hr hb hbb) hm

/-- Second class with the f32 word of `1.0` as the minuend. -/
theorem head_snd_word (hr : ∀ k, IsReal (r k)) (ha : ∀ k, IsReal (a k)) (hb : ∀ k, IsReal (b k))
    (hba : IsReal ba) (hbb : IsReal bb) (hm : IsReal m) :
    Ideal.div (Ideal.exp (((∑ k, r k * b k) + bb) - m))
        (0 + (Ideal.exp (((∑ k, r k * a k) + ba) - m) + Ideal.exp (((∑ k, r k * b k) + bb) - m)))
      = Ideal.ofBits .f32 0x3F800000#32 - Ideal.logistic ((∑ k, r k * (a k - b k)) + (ba - bb)) := by
  rw [Softmax2.ofBits_one_f32]; exact head_snd hr ha hb hba hbb hm

/-- First class with the shift spelled as the running maximum nested from `-∞`. -/
theorem head_fst_max (hr : ∀ k, IsReal (r k)) (ha : ∀ k, IsReal (a k)) (hb : ∀ k, IsReal (b k))
    (hba : IsReal ba) (hbb : IsReal bb) :
    Ideal.div (Ideal.exp (((∑ k, r k * a k) + ba)
          - max ⊥ (max (max ⊥ ((∑ k, r k * a k) + ba)) ((∑ k, r k * b k) + bb))))
        (0 + (Ideal.exp (((∑ k, r k * a k) + ba)
            - max ⊥ (max (max ⊥ ((∑ k, r k * a k) + ba)) ((∑ k, r k * b k) + bb)))
          + Ideal.exp (((∑ k, r k * b k) + bb)
            - max ⊥ (max (max ⊥ ((∑ k, r k * a k) + ba)) ((∑ k, r k * b k) + bb)))))
      = Ideal.logistic ((∑ k, r k * (a k - b k)) + (ba - bb)) :=
  head_fst hr ha hb hba hbb (isReal_max2 (isReal_logit hr ha hba) (isReal_logit hr hb hbb))

/-- Second class with the shift spelled as the running maximum nested from `-∞`. -/
theorem head_snd_max (hr : ∀ k, IsReal (r k)) (ha : ∀ k, IsReal (a k)) (hb : ∀ k, IsReal (b k))
    (hba : IsReal ba) (hbb : IsReal bb) :
    Ideal.div (Ideal.exp (((∑ k, r k * b k) + bb)
          - max ⊥ (max (max ⊥ ((∑ k, r k * a k) + ba)) ((∑ k, r k * b k) + bb))))
        (0 + (Ideal.exp (((∑ k, r k * a k) + ba)
            - max ⊥ (max (max ⊥ ((∑ k, r k * a k) + ba)) ((∑ k, r k * b k) + bb)))
          + Ideal.exp (((∑ k, r k * b k) + bb)
            - max ⊥ (max (max ⊥ ((∑ k, r k * a k) + ba)) ((∑ k, r k * b k) + bb)))))
      = (1 : EReal) - Ideal.logistic ((∑ k, r k * (a k - b k)) + (ba - bb)) :=
  head_snd hr ha hb hba hbb (isReal_max2 (isReal_logit hr ha hba) (isReal_logit hr hb hbb))

end Head

/-! ## The head with the two logits held as a pair -/

section Pair
variable {ι : Type} [Fintype ι] {r a b : ι → EReal} {ba bb m : EReal} {l : Fin 2 → EReal}

/-- A pair of logits whose entries are the two affine forms: its components by class, the denominator a sum
    over the pair, any real shift `m`. -/
theorem head_pair (hr : ∀ k, IsReal (r k)) (ha : ∀ k, IsReal (a k)) (hb : ∀ k, IsReal (b k))
    (hba : IsReal ba) (hbb : IsReal bb) (hm : IsReal m)
    (h0 : l 0 = (∑ k, r k * a k) + ba) (h1 : l 1 = (∑ k, r k * b k) + bb) (c : Fin 2) :
    Ideal.div (Ideal.exp (l c - m)) (0 + ∑ c' : Fin 2, Ideal.exp (l c' - m))
      = if c = 0 then Ideal.logistic ((∑ k, r k * (a k - b k)) + (ba - bb))
        else (1 : EReal) - Ideal.logistic ((∑ k, r k * (a k - b k)) + (ba - bb)) := by
  have hl : ∀ c, IsReal (l c) := fun c => by
    match c with
    | 0 => rw [h0]; exact isReal_logit hr ha hba
    | 1 => rw [h1]; exact isReal_logit hr hb hbb
  rw [softmax2_fin2 hl hm c, h0, h1, logit_diff_real hr ha hb hba hbb]

/-- The shift a row maximum produces over a pair of real logits, `max -∞ (fold max -∞ l)`, is real; so
    `head_pair` applies with it. -/
theorem head_pair_fold (hr : ∀ k, IsReal (r k)) (ha : ∀ k, IsReal (a k)) (hb : ∀ k, IsReal (b k))
    (hba : IsReal ba) (hbb : IsReal bb)
    (h0 : l 0 = (∑ k, r k * a k) + ba) (h1 : l 1 = (∑ k, r k * b k) + bb) (c : Fin 2) :
    Ideal.div (Ideal.exp (l c - max ⊥ ((Finset.univ : Finset (Fin 2)).fold max ⊥ l)))
        (0 + ∑ c' : Fin 2, Ideal.exp (l c' - max ⊥ ((Finset.univ : Finset (Fin 2)).fold max ⊥ l)))
      = if c = 0 then Ideal.logistic ((∑ k, r k * (a k - b k)) + (ba - bb))
        else (1 : EReal) - Ideal.logistic ((∑ k, r k * (a k - b k)) + (ba - bb)) := by
  have hl : ∀ c, IsReal (l c) := fun c => by
    match c with
    | 0 => rw [h0]; exact isReal_logit hr ha hba
    | 1 => rw [h1]; exact isReal_logit hr hb hbb
  exact head_pair hr ha hb hba hbb (isReal_max_bot_fold_max_fin2 hl) h0 h1 c

end Pair

end Cert.Lib.EdgeHead
-- ==== Proof.EdgeLaw.lean ====
import proofs.«116980_j2911987826887_2_alg».proof.Proof.SpecArr
import proofs.«116980_j2911987826887_2_alg».proof.Proof.SpecReal
import proofs.«116980_j2911987826887_2_alg».proof.Proof.LibEdgeHead

/-!
# The two routes to the edge head's class probabilities agree

The reference takes the softmax of two logits `l c = (Σ_k r_k · w6[k,c]) + b6[c]`; the kernel takes the logistic of
`(Σ_k r_k · (w6[k,0] − w6[k,1])) + (b6[0] − b6[1])` and one minus it. For real hidden activations, weights and biases
these are the same numbers (distributivity needs finiteness, which the precondition gives). The hidden activations
depend on the pair of embedding rows through their entrywise product only, so the pair's order does not matter.
-/

noncomputable section

namespace Cert.Spec

open Idealize.ShloMosaic Cert.RealSum Cert.Lib

/-- The hidden activations do not depend on the order of the pair. -/
theorem edgeHidden_comm (u v : Fin 128 → EReal) (w5 : Fin 128 → Fin 512 → EReal) (b5 : Fin 512 → EReal) (k : Fin 512) :
    edgeHidden u v w5 b5 k = edgeHidden v u w5 b5 k := by
  unfold edgeHidden dense
  simp only [mul_comm (u _) (v _)]

/-- Nor does the logit difference. -/
theorem edgeLogitDiff_comm (u v : Fin 128 → EReal) (w5 : Fin 128 → Fin 512 → EReal) (b5 : Fin 512 → EReal)
    (dw : Fin 512 → EReal) (db : EReal) : edgeLogitDiff u v w5 b5 dw db = edgeLogitDiff v u w5 b5 dw db := by
  unfold edgeLogitDiff
  simp only [edgeHidden_comm u v]

/-- The softmax of the two logits is the logistic of their difference (class 0) and one minus it (class 1), the
    difference taken through the difference column and the difference of the biases. -/
theorem refEdge_eq (u v : Fin 128 → EReal) (w5 : Fin 128 → Fin 512 → EReal) (b5 : Fin 512 → EReal)
    (w6 : Fin 512 → Fin 2 → EReal) (b6 : Fin 2 → EReal)
    (hu : ∀ q, IsReal (u q)) (hv : ∀ q, IsReal (v q)) (hw5 : ∀ q k, IsReal (w5 q k)) (hb5 : ∀ k, IsReal (b5 k))
    (hw6 : ∀ k c, IsReal (w6 k c)) (hb6 : ∀ c, IsReal (b6 c)) (c : Fin 2) :
    refEdge u v w5 b5 w6 b6 c
      = if c = 0 then Ideal.logistic (edgeLogitDiff u v w5 b5 (fun k => w6 k 0 - w6 k 1) (b6 0 - b6 1))
        else Ideal.ofBits .f32 0x3F800000#32
          - Ideal.logistic (edgeLogitDiff u v w5 b5 (fun k => w6 k 0 - w6 k 1) (b6 0 - b6 1)) := by
  unfold refEdge edgeTop edgeLogitDiff
  rw [Softmax2.ofBits_neg_inf_f32, Softmax2.ofBits_one_f32,
    ← zero_add (∑ c' : Fin 2, Ideal.exp (edgeLogit u v w5 b5 w6 b6 c' - _))]
  exact EdgeHead.head_pair_fold (r := edgeHidden u v w5 b5) (a := fun k => w6 k 0) (b := fun k => w6 k 1)
    (ba := b6 0) (bb := b6 1) (l := edgeLogit u v w5 b5 w6 b6)
    (fun k => edgeHidden_real hu hv hw5 hb5 k) (fun k => hw6 k 0) (fun k => hw6 k 1) (hb6 0) (hb6 1) rfl rfl c

/-- One entry of the dense output, both ways: the reference's symmetric scatter of the pair probabilities, and the
    kernel's dense grid with the diagonal masked. -/
theorem entry_eq (h : Fin 1024 → Fin 128 → EReal) (w5 : Fin 128 → Fin 512 → EReal) (b5 : Fin 512 → EReal)
    (w6 : Fin 512 → Fin 2 → EReal) (b6 : Fin 2 → EReal)
    (hh : ∀ n q, IsReal (h n q)) (hw5 : ∀ q k, IsReal (w5 q k)) (hb5 : ∀ k, IsReal (b5 k))
    (hw6 : ∀ k c, IsReal (w6 k c)) (hb6 : ∀ c, IsReal (b6 c)) (a b : Fin 1024) (c : Fin 2) :
    (if a = b then Ideal.ofBits .f32 0x00000000#32
      else if a < b then refEdge (h a) (h b) w5 b5 w6 b6 c else refEdge (h b) (h a) w5 b5 w6 b6 c)
      = kernelEdge h w5 b5 (fun k => w6 k 0 - w6 k 1) (b6 0 - b6 1) c a b := by
  unfold kernelEdge
  by_cases hab : a = b
  · subst hab
    simp only [if_pos (rfl : a = a), if_true]
  · have hba : ¬ b = a := fun e => hab e.symm
    simp only [if_neg hab, if_neg hba]
    by_cases hlt : a < b
    · simp only [if_pos hlt]
      exact refEdge_eq (h a) (h b) w5 b5 w6 b6 (hh a) (hh b) hw5 hb5 hw6 hb6 c
    · simp only [if_neg hlt]
      rw [refEdge_eq (h b) (h a) w5 b5 w6 b6 (hh b) (hh a) hw5 hb5 hw6 hb6 c, edgeLogitDiff_comm (h b) (h a)]

end Cert.Spec

end
-- ==== Proof.ValueEq.lean ====
import proofs.«116980_j2911987826887_2_alg».proof.Proof.Claims
import proofs.«116980_j2911987826887_2_alg».proof.Proof.RefScatter
import proofs.«116980_j2911987826887_2_alg».proof.Proof.KernelValue
import proofs.«116980_j2911987826887_2_alg».proof.Proof.PreReal
import proofs.«116980_j2911987826887_2_alg».proof.Proof.EdgeLaw

/-!
# The two result arrays are one function of the argument arrays

Entry `(a, b, c)` of the reference's result is zero on the diagonal and otherwise the softmax probability of class `c`
for the unordered pair of embedding rows `{a, b}` (its symmetric scatter over the upper triangle's index pairs); the
same entry of the kernel program's result is its dense grid's class-`c` probability for the ordered pair `(a, b)`, the
diagonal masked to zero. The embeddings are one function of the arguments on both sides, every argument entry is a real
number by the precondition, and for real numbers the two routes to the probabilities agree.
-/

noncomputable section

namespace Cert.Proof.Value

open Idealize.ShloMosaic Idealize.ShloMosaic.TcCoe Idealize.SL.Sem Idealize.ShloMosaic.ValueIdx
open Cert.RealSum Cert.Proof.Claims
open Cert.ReferenceIdeal.RefStages Cert.ReferenceIdeal.RefFinal

theorem valueEq (hB : Cert.KernelIdeal.KValue.EdgeValue) : ValueEq := by
  intro m ρ m' hpre hagree c
  obtain ⟨e0, e1, e2, e3, e4, e5, e6, e7, e8, e9, e10, e11⟩ := hagree c
  obtain ⟨r1, r2, r3, r4, r5, r6, r7, r8, r9, r10, r11⟩ := Cert.PreReal.real_of_pre _ _ _ _ _ _ _ _ _ _ _ _ (hpre c)
  have hA1 : (launchArgs m' c).a1 = m ((c.tc : Thread Cert.KernelIdeal.nD Cert.KernelIdeal.τ).loc Cert.KernelIdeal.main_arg1) := e1
  have hA2 : (launchArgs m' c).a2 = m ((c.tc : Thread Cert.KernelIdeal.nD Cert.KernelIdeal.τ).loc Cert.KernelIdeal.main_arg2) := e2
  have hA3 : (launchArgs m' c).a3 = m ((c.tc : Thread Cert.KernelIdeal.nD Cert.KernelIdeal.τ).loc Cert.KernelIdeal.main_arg3) := e3
  have hA4 : (launchArgs m' c).a4 = m ((c.tc : Thread Cert.KernelIdeal.nD Cert.KernelIdeal.τ).loc Cert.KernelIdeal.main_arg4) := e4
  have hA5 : (launchArgs m' c).a5 = m ((c.tc : Thread Cert.KernelIdeal.nD Cert.KernelIdeal.τ).loc Cert.KernelIdeal.main_arg5) := e5
  have hA6 : (launchArgs m' c).a6 = m ((c.tc : Thread Cert.KernelIdeal.nD Cert.KernelIdeal.τ).loc Cert.KernelIdeal.main_arg6) := e6
  have hA7 : (launchArgs m' c).a7 = m ((c.tc : Thread Cert.KernelIdeal.nD Cert.KernelIdeal.τ).loc Cert.KernelIdeal.main_arg7) := e7
  have hA8 : (launchArgs m' c).a8 = m ((c.tc : Thread Cert.KernelIdeal.nD Cert.KernelIdeal.τ).loc Cert.KernelIdeal.main_arg8) := e8
  have hA9 : (launchArgs m' c).a9 = m ((c.tc : Thread Cert.KernelIdeal.nD Cert.KernelIdeal.τ).loc Cert.KernelIdeal.main_arg9) := e9
  have hA10 : (launchArgs m' c).a10 = m ((c.tc : Thread Cert.KernelIdeal.nD Cert.KernelIdeal.τ).loc Cert.KernelIdeal.main_arg10) := e10
  have hA11 : (launchArgs m' c).a11 = m ((c.tc : Thread Cert.KernelIdeal.nD Cert.KernelIdeal.τ).loc Cert.KernelIdeal.main_arg11) := e11
  funext i
  obtain ⟨a, b, cls, rfl⟩ : ∃ (a : Fin 1024) (b : Fin 1024) (cls : Fin 2), i = ix3 a b cls := ⟨i 0, i 1, i 2, eq_ix3 i⟩
  refine (Cert.ReferenceIdeal.RefScatter.out_stage (launchArgs m' c) a b cls).trans ?_
  refine Eq.trans ?_ (Cert.KernelIdeal.KValue.kernel_out m ρ hB c a b cls).symm
  have hH : ∀ n : Fin 1024, Cert.ReferenceIdeal.RefScatter.H (launchArgs m' c) n
      = Cert.Spec.hmlp (Cert.Spec.mat (A := 1024) (B := 128) (m ((c.tc : Thread Cert.KernelIdeal.nD Cert.KernelIdeal.τ).loc Cert.KernelIdeal.main_arg1)))
          (Cert.Spec.mat (A := 128) (B := 512) (m ((c.tc : Thread Cert.KernelIdeal.nD Cert.KernelIdeal.τ).loc Cert.KernelIdeal.main_arg2)))
          (Cert.Spec.vec (A := 512) (m ((c.tc : Thread Cert.KernelIdeal.nD Cert.KernelIdeal.τ).loc Cert.KernelIdeal.main_arg3)))
          (Cert.Spec.mat (A := 512) (B := 512) (m ((c.tc : Thread Cert.KernelIdeal.nD Cert.KernelIdeal.τ).loc Cert.KernelIdeal.main_arg4)))
          (Cert.Spec.vec (A := 512) (m ((c.tc : Thread Cert.KernelIdeal.nD Cert.KernelIdeal.τ).loc Cert.KernelIdeal.main_arg5)))
          (Cert.Spec.mat (A := 512) (B := 128) (m ((c.tc : Thread Cert.KernelIdeal.nD Cert.KernelIdeal.τ).loc Cert.KernelIdeal.main_arg6)))
          (Cert.Spec.vec (A := 128) (m ((c.tc : Thread Cert.KernelIdeal.nD Cert.KernelIdeal.τ).loc Cert.KernelIdeal.main_arg7))) n := by
    intro n
    funext q
    refine (Cert.ReferenceIdeal.RefValue.h_stage (launchArgs m' c) n q).trans ?_
    rw [hA1, hA2, hA3, hA4, hA5, hA6, hA7]
  dsimp only [Cert.ReferenceIdeal.RefScatter.P]
  rw [hH a, hH b, hA8, hA9, hA10, hA11]
  exact Cert.Spec.entry_eq _ (Cert.Spec.mat (A := 128) (B := 512) (m ((c.tc : Thread Cert.KernelIdeal.nD Cert.KernelIdeal.τ).loc Cert.KernelIdeal.main_arg8))) (Cert.Spec.vec (A := 512) (m ((c.tc : Thread Cert.KernelIdeal.nD Cert.KernelIdeal.τ).loc Cert.KernelIdeal.main_arg9)))
    (Cert.Spec.mat (A := 512) (B := 2) (m ((c.tc : Thread Cert.KernelIdeal.nD Cert.KernelIdeal.τ).loc Cert.KernelIdeal.main_arg10))) (Cert.Spec.vec (A := 2) (m ((c.tc : Thread Cert.KernelIdeal.nD Cert.KernelIdeal.τ).loc Cert.KernelIdeal.main_arg11)))
    (fun n q => Cert.Spec.hmlp_real (fun n q => r1 (ix2 n q)) (fun q k => r2 (ix2 q k)) (fun k => r3 (ix1 k))
      (fun q k => r4 (ix2 q k)) (fun k => r5 (ix1 k)) (fun q f => r6 (ix2 q f)) (fun f => r7 (ix1 f)) n q)
    (fun q k => r8 (ix2 q k)) (fun k => r9 (ix1 k)) (fun k c' => r10 (ix2 k c')) (fun c' => r11 (ix1 c')) a b cls

end Cert.Proof.Value

end
-- ==== Proof.LibLoadAt.lean ====
/-
  A load through a unit-stride rectangle, read at explicit coordinates.

  A rectangle of sizes `(a, b, …)` at offsets `off` inside an array picks, at its own position `(p, q, …)`, the
  array's element whose coordinate on each axis is the offset plus the position. The target coordinates are named by
  the caller and tied to the offsets by one equation per axis, so that offsets a program computes can be read through
  their closed form. Ranks one to three, any extents, any element type; no program needed.
-/
import Idealize.ShloMosaic.Lib.Pipeline.Value
import Idealize.ShloMosaic.Lib.ValueIdx

namespace Cert.LoadAt

open Idealize.ShloMosaic Idealize.ShloMosaic.ValueIdx

variable {Val : EltTy → Type} {e : EltTy}

/-- A window of `a` consecutive entries of a vector. -/
theorem ld_unit1 {A a : ℕ} (X : (⟨1, ![A]⟩ : Shape).Idx → Val e) {off : Fin 1 → ℕ}
    (inb : ∀ i, off i + (![a] : Fin 1 → ℕ) i ≤ (⟨1, ![A]⟩ : Shape).size i)
    (p : Fin a) (P : Fin A) (hP : P.val = off 0 + p.val) :
    View.ld X (Rect.unit (s := ⟨1, ![A]⟩) off ![a] inb) (ix1 p) = X (ix1 P) := by
  show X _ = X _
  congr 1
  funext i
  apply Fin.ext
  match i with
  | ⟨0, _⟩ => show off 0 + 1 * p.val = P.val; rw [Nat.one_mul, hP]

/-- An `a × b` box of a matrix. -/
theorem ld_unit2 {A B a b : ℕ} (X : (⟨2, ![A, B]⟩ : Shape).Idx → Val e) {off : Fin 2 → ℕ}
    (inb : ∀ i, off i + (![a, b] : Fin 2 → ℕ) i ≤ (⟨2, ![A, B]⟩ : Shape).size i)
    (p : Fin a) (q : Fin b) (P : Fin A) (Q : Fin B) (hP : P.val = off 0 + p.val) (hQ : Q.val = off 1 + q.val) :
    View.ld X (Rect.unit (s := ⟨2, ![A, B]⟩) off ![a, b] inb) (ix2 p q) = X (ix2 P Q) := by
  show X _ = X _
  congr 1
  funext i
  apply Fin.ext
  match i with
  | ⟨0, _⟩ => show off 0 + 1 * p.val = P.val; rw [Nat.one_mul, hP]
  | ⟨1, _⟩ => show off 1 + 1 * q.val = Q.val; rw [Nat.one_mul, hQ]

/-- An `a × b × c` box of a rank-3 array. -/
theorem ld_unit3 {A B C a b c : ℕ} (X : (⟨3, ![A, B, C]⟩ : Shape).Idx → Val e) {off : Fin 3 → ℕ}
    (inb : ∀ i, off i + (![a, b, c] : Fin 3 → ℕ) i ≤ (⟨3, ![A, B, C]⟩ : Shape).size i)
    (p : Fin a) (q : Fin b) (r : Fin c) (P : Fin A) (Q : Fin B) (R : Fin C)
    (hP : P.val = off 0 + p.val) (hQ : Q.val = off 1 + q.val) (hR : R.val = off 2 + r.val) :
    View.ld X (Rect.unit (s := ⟨3, ![A, B, C]⟩) off ![a, b, c] inb) (ix3 p q r) = X (ix3 P Q R) := by
  show X _ = X _
  congr 1
  funext i
  apply Fin.ext
  match i with
  | ⟨0, _⟩ => show off 0 + 1 * p.val = P.val; rw [Nat.one_mul, hP]
  | ⟨1, _⟩ => show off 1 + 1 * q.val = Q.val; rw [Nat.one_mul, hQ]
  | ⟨2, _⟩ => show off 2 + 1 * r.val = R.val; rw [Nat.one_mul, hR]

end Cert.LoadAt
-- ==== Proof.LibLayerOps.lean ====
/-
  The operations of a dense layer read at one entry, on the extended reals (general lemmas: any extents).

  * a product against a weight matrix that is TRANSPOSED FIRST, as an operation of its own, and then multiplied
    plainly (x · Wᵀ with W of shape N×K): entry (p, c) is Σ_q x[p, q] · W[c, q] — for the vector unit's matmul into
    a zero accumulator and for the host's dot_general alike;
  * a bias vector of length C laid out as a 1×C row and repeated down the rows, by either spelling (a shape cast
    followed by a broadcast; two broadcasts by dimension map): entry (p, c) is the bias's entry c — for every C,
    the one-column case C = 1 included (there the row's only coordinate is 0, which is what a unit axis is read at).
-/
import proofs.«116980_j2911987826887_2_alg».proof.Proof.LibPlainDot
import Idealize.ShloMosaic.Lib.ValueLayout
import Idealize.ShloMosaic.Lib.Pipeline.Value

noncomputable section

open scoped BigOperators

namespace Cert.LayerOps

open Idealize.ShloMosaic Idealize.ShloMosaic.ValueIdx

variable {M K N : Nat} {d : DotDims ⟨2, ![M, K]⟩ ⟨2, ![K, N]⟩ ⟨2, ![M, N]⟩}

/-- The vector unit's product against a transposed weight matrix, into a zero accumulator, at entry (p, c). -/
theorem matmul_transposed_apply (h : PlainDot.IsPlain d) (prec : Option ContractPrecision) {φ₁ φ₂ : FTy}
    (l : FVec Ideal ⟨2, ![M, K]⟩ φ₁) (w : FVec Ideal ⟨2, ![N, K]⟩ φ₂)
    (ht : (⟨2, ![N, K]⟩ : Shape).Transposes [1, 0] ⟨2, ![K, N]⟩) (p : Fin M) (c : Fin N) :
    matmul d prec l (transpose ⟨2, ![K, N]⟩ [1, 0] w ht) (constant ⟨2, ![M, N]⟩ .f32 0x00000000#32) (ix2 p c)
      = ∑ q : Fin K, l (ix2 p q) * w (ix2 c q) :=
  (PlainDot.matmul_zero_apply h prec l (transpose ⟨2, ![K, N]⟩ [1, 0] w ht) p c).trans
    (Finset.sum_congr rfl fun q _ => congrArg (l (ix2 p q) * ·) (transpose_ix2_apply w ht q c))

/-- The host's product against a transposed weight matrix, at entry (p, c). -/
theorem dotGeneral_transposed_apply (h : PlainDot.IsPlain d) (prec : Option ContractPrecision) {φ₁ φ₂ : FTy}
    (l : FVec Ideal ⟨2, ![M, K]⟩ φ₁) (w : FVec Ideal ⟨2, ![N, K]⟩ φ₂)
    (ht : (⟨2, ![N, K]⟩ : Shape).Transposes [1, 0] ⟨2, ![K, N]⟩) (p : Fin M) (c : Fin N) :
    Host.dotGeneral d prec l (transpose ⟨2, ![K, N]⟩ [1, 0] w ht) (ix2 p c)
      = ∑ q : Fin K, l (ix2 p q) * w (ix2 c q) :=
  (PlainDot.dotGeneral_apply h prec l (transpose ⟨2, ![K, N]⟩ [1, 0] w ht) p c).trans
    (Finset.sum_congr rfl fun q _ => congrArg (l (ix2 p q) * ·) (transpose_ix2_apply w ht q c))

/-- A bias cast to a row and broadcast down R rows, at entry (p, c): any C. -/
theorem bias_cast_rows {α : Type} {R C : Nat} (v : (⟨1, ![C]⟩ : Shape).Idx → α)
    (hs : (⟨1, ![C]⟩ : Shape).ShapeCasts ⟨2, ![1, C]⟩) (hb : (⟨2, ![1, C]⟩ : Shape).Broadcasts ⟨2, ![R, C]⟩)
    (p : Fin R) (c : Fin C) :
    broadcastTo ⟨2, ![R, C]⟩ (shapeCast ⟨2, ![1, C]⟩ v hs) hb (ix2 p c) = v (ix1 c) :=
  (broadcastTo_1b_ab_apply (shapeCast ⟨2, ![1, C]⟩ v hs) hb p c).trans (shapeCast_a_1a_apply v hs 0 c)

/-- A coordinate below C is what a broadcast reads on an axis of extent C: itself, or 0 when C = 1 (then it IS 0). -/
private theorem coord_or_zero {C : Nat} (c : Fin C) : c.val = if C = 1 then 0 else c.val := by
  split
  · have := c.isLt; omega
  · rfl

/-- A bias broadcast to a row and then down N rows, both by dimension map, at entry (n, c): any C. -/
theorem bias_bcast_rows {α : Type} {R C : Nat} (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![R, C]⟩ ![0, 1]) (n : Fin R) (c : Fin C) :
    broadcastInDim ⟨2, ![R, C]⟩ ![0, 1] h2 (broadcastInDim ⟨2, ![1, C]⟩ ![1] h1 b) (ix2 n c) = b (ix1 c) :=
  (broadcastInDim_apply ![0, 1] h2 _ (ix2 n c) (ix2 (0 : Fin 1) c) (fun a => by
    match a with
    | ⟨0, _⟩ => rfl
    | ⟨1, _⟩ => exact coord_or_zero c)).trans
  (broadcastInDim_apply ![1] h1 b (ix2 (0 : Fin 1) c) (ix1 c) (fun a => by
    match a with
    | ⟨0, _⟩ => exact coord_or_zero c))

end Cert.LayerOps

end
-- ==== Proof.Region1Row.lean ====
/-
  Region 1 of the kernel (the edge head), one row: the value of a row's stored payload.

  Each grid point handles eight embedding rows. For a row a it loads h[a, ·] as a 1×128 vector, multiplies it lane by
  lane with every embedding row h[b, ·] (a broadcast down the 1024 rows), pushes the 1024×128 products through the
  hidden layer (product with w5, bias b5, rectifier), weights the 512 hidden activations by the difference column dw,
  sums them along the lanes, adds the bias difference db, and applies the logistic: a column, indexed by b, of
  σ(logit difference of the pair (h a, h b)). The stored payload is that column and one minus it, both set to zero
  where b = a (the lane's index word equals the row's word), laid out class-major as a [2, 1, 1024] block.
  The program groups the eight rows' operations into named terms differently from row to row; all eight are one function of
  the row's word and the loaded row (the equations `cut0` … `cut7`, by unfolding), and that function's value at (class, 0, b) is the
  specification's `kernelEdge` at (class, a, b) (`row_value`).
-/
import proofs.«116980_j2911987826887_2_alg».proof.Proof.Gen.KernelIdeal.Skeleton
import proofs.«116980_j2911987826887_2_alg».proof.Proof.Spec
import proofs.«116980_j2911987826887_2_alg».proof.Proof.LibRowLayer
import proofs.«116980_j2911987826887_2_alg».proof.Proof.LibAxisFold
import proofs.«116980_j2911987826887_2_alg».proof.Proof.LibLayerOps
import proofs.«116980_j2911987826887_2_alg».proof.Proof.LibColumn
import Idealize.ShloMosaic.Lib.Pipeline.Value
import Idealize.ShloMosaic.Lib.ValueIdx

noncomputable section

open scoped BigOperators

namespace Cert.KernelIdeal.Region1

open Idealize.ShloMosaic Idealize.ShloMosaic.ValueIdx Cert.KernelIdeal Cert.KernelIdeal.Gen

/-- The hidden layer's product contracts the left operand's lanes with the right operand's rows: a plain matrix product. -/
theorem isPlain5 : Cert.PlainDot.IsPlain dot_S1024x128_S128x512_S1024x512_1_0_0_1_n_n := ⟨rfl, rfl, rfl, rfl, rfl, rfl⟩

/-- The layout tail of a row's payload: two columns laid side by side, transposed and given a unit middle axis read, at
    (class, 0, lane), the class's column at the lane. -/
theorem tail_apply (x0 x1 : FVec Ideal S1024x1 .f32) (cls : Fin 2) (b : Fin 1024) :
    shapeCast S2x1x1024 (transpose S2x1024 [1, 0] (concatenate S1024x2 1 [⟨S1024x1, x0⟩, ⟨S1024x1, x1⟩] concatenates_S1024x1_S1024x1_S1024x2_d1) transposes_S1024x2_p1_0_S2x1024) shapeCasts_S2x1024_S2x1x1024 (ix3 cls (0 : Fin 1) b)
      = if cls = 0 then x0 (ix2 b (0 : Fin 1)) else x1 (ix2 b (0 : Fin 1)) := by
  refine (shapeCast_apply _ _ _ (ix2 cls b) ?_).trans ?_
  · rw [Shape.rowMajor_val_two, Shape.rowMajor_val_three]
    show cls.val * 1024 + b.val = (cls.val * 1 + 0) * 1024 + b.val
    omega
  refine (transpose_apply _ _ _ _ (ix2 b cls) ?_).trans ?_
  · intro a
    match a with
    | ⟨0, _⟩ => rfl
    | ⟨1, _⟩ => rfl
  by_cases hc : cls = 0
  · subst hc
    rw [if_pos rfl]
    refine concatenate_apply_piece (t := S1024x2) (1 : Fin 2) [⟨S1024x1, x0⟩, ⟨S1024x1, x1⟩] _ _ 0 (by simp) S1024x1 x0 rfl rfl 0 rfl (ix2 b (0 : Fin 1)) ?_ ?_
    · intro c hc
      match c with
      | ⟨0, _⟩ => rfl
      | ⟨1, _⟩ => exact absurd rfl hc
    · rfl
  · obtain rfl : cls = 1 := by omega
    rw [if_neg hc]
    refine concatenate_apply_piece (t := S1024x2) (1 : Fin 2) [⟨S1024x1, x0⟩, ⟨S1024x1, x1⟩] _ _ 1 (by simp) S1024x1 x1 rfl rfl 1 rfl (ix2 b (0 : Fin 1)) ?_ ?_
    · intro c hc
      match c with
      | ⟨0, _⟩ => rfl
      | ⟨1, _⟩ => exact absurd rfl hc
    · rfl

/-- One row's logistic column: the pair products of the broadcast row with every embedding row, through the hidden
    layer (product, bias, rectifier), weighted by the difference column, summed along the lanes, plus the bias
    difference, through the logistic. -/
def lgcol (v2 : FVec Ideal S128x512 .bf16) (v3 : Vec Ideal S512 .f32) (v5 : FVec Ideal S1x512 .f32) (v7 : FVec Ideal S1x1 .f32)
    (v10 : FVec Ideal S1024x128 .bf16) (vrow : Vec Ideal S1x128 .f32) : FVec Ideal S1024x1 .f32 :=
  logistic (addf (shapeCast S1024x1 (multiReduction .add [1] S1024
    (mulf (maximumf (addf (matmul dot_S1024x128_S128x512_S1024x512_1_0_0_1_n_n none
        (mulf (broadcastTo S1024x128 (shapeCast S1x128 (truncf .bf16 (shapeCast S128 vrow shapeCasts_S1x128_S128) bitsLt_bf16_f32) shapeCasts_S128_S1x128) broadcasts_S1x128_S1024x128) v10)
        v2 (constant S1024x512 .f32 0x00000000#32))
      (broadcastTo S1024x512 (shapeCast S1x512 v3 shapeCasts_S512_S1x512) broadcasts_S1x512_S1024x512))
      (broadcast S1024x512 (Scalar.ofBits .f32 0x00000000#32)))
      (broadcastTo S1024x512 v5 broadcasts_S1x512_S1024x512))
    0x00000000#32 reduces_S1024x512_S1024 (.inl rfl) rfl) shapeCasts_S1024_S1024x1) (broadcastTo S1024x1 v7 broadcasts_S1x1_S1024x1))

/-- The logit difference of the pair (loaded row, embedding row b) as the payload spells it. -/
def pairLogit (v2 : FVec Ideal S128x512 .bf16) (v3 : Vec Ideal S512 .f32) (v5 : FVec Ideal S1x512 .f32) (v7 : FVec Ideal S1x1 .f32)
    (v10 : FVec Ideal S1024x128 .bf16) (vrow : Vec Ideal S1x128 .f32) (b : Fin 1024) : EReal :=
  (∑ k : Fin 512, max ((∑ q : Fin 128, (vrow (ix2 (0 : Fin 1) q) * v10 (ix2 b q)) * v2 (ix2 q k)) + v3 (ix1 k))
      (Ideal.ofBits .f32 0x00000000#32) * v5 (ix2 (0 : Fin 1) k)) + v7 (ix2 (0 : Fin 1) (0 : Fin 1))

/-- The logistic column at lane b is the logistic of the pair's logit difference. -/
theorem lgcol_apply (v2 : FVec Ideal S128x512 .bf16) (v3 : Vec Ideal S512 .f32) (v5 : FVec Ideal S1x512 .f32) (v7 : FVec Ideal S1x1 .f32)
    (v10 : FVec Ideal S1024x128 .bf16) (vrow : Vec Ideal S1x128 .f32) (b : Fin 1024) :
    lgcol v2 v3 v5 v7 v10 vrow (ix2 b (0 : Fin 1)) = Ideal.logistic (pairLogit v2 v3 v5 v7 v10 vrow b) := by
  unfold lgcol pairLogit
  refine congrArg Ideal.logistic ?_
  refine congrArg₂ (· + ·) ?_ ?_
  · refine (Cert.Column.shapeCast_a_a1_apply _ _ b 0).trans ?_
    refine (Cert.AxisFold.row_sum _ _ _ _ b).trans ?_
    refine Finset.sum_congr rfl fun k _ => ?_
    refine congrArg₂ (· * ·) ?_ ?_
    · refine congrArg₂ max ?_ rfl
      refine (Cert.RowLayer.kernel_dense isPlain5 (by decide) none _ _ v3 _ _ b k).trans ?_
      refine congrArg₂ (· + ·) (Finset.sum_congr rfl fun q _ => ?_) rfl
      refine congrArg₂ (· * ·) (congrArg₂ (· * ·) ?_ rfl) rfl
      refine (Cert.LayerOps.bias_cast_rows _ _ _ b q).trans ?_
      refine shapeCast_apply _ _ _ (ix2 (0 : Fin 1) q) ?_
      rw [Shape.rowMajor_val_two, Shape.rowMajor_val_one]
      show 0 * 128 + q.val = q.val
      omega
    · refine broadcastTo_apply _ _ _ (ix2 (0 : Fin 1) k) ?_
      intro a
      match a with
      | ⟨0, _⟩ => rfl
      | ⟨1, _⟩ => rfl
  · refine broadcastTo_apply _ _ _ (ix2 (0 : Fin 1) (0 : Fin 1)) ?_
    intro a
    match a with
    | ⟨0, _⟩ => rfl
    | ⟨1, _⟩ => rfl

/-- A row's stored payload from its logistic column: the column and one minus it, both zeroed where the lane's index
    word equals the row's word, laid as classes 0 and 1. -/
def rowOut (lg : FVec Ideal S1024x1 .f32) (v11 : IVec S1024x1 32) (w : BitVec 32) : FVec Ideal S2x1x1024 .f32 :=
  shapeCast S2x1x1024 (transpose S2x1024 [1, 0] (concatenate S1024x2 1
    [⟨S1024x1, select (cmpi .ne v11 (broadcast S1024x1 w)) lg (broadcast S1024x1 (Scalar.ofBits .f32 0x00000000#32))⟩,
     ⟨S1024x1, select (cmpi .ne v11 (broadcast S1024x1 w)) (subf (broadcast S1024x1 (Scalar.ofBits .f32 0x3F800000#32)) lg)
        (broadcast S1024x1 (Scalar.ofBits .f32 0x00000000#32))⟩]
    concatenates_S1024x1_S1024x1_S1024x2_d1) transposes_S1024x2_p1_0_S2x1024) shapeCasts_S2x1024_S2x1x1024

/-- A row's output at (class, 0, b): zero where the lane's word is the row's word; else the column's entry for class 0
    and one minus it for class 1. -/
theorem rowOut_apply (lg : FVec Ideal S1024x1 .f32) (v11 : IVec S1024x1 32) (w : BitVec 32) (cls : Fin 2) (b : Fin 1024) :
    rowOut lg v11 w (ix3 cls (0 : Fin 1) b)
      = Scalar.select (IntOp.cmpi .ne (v11 (ix2 b (0 : Fin 1))) w)
          (if cls = 0 then lg (ix2 b (0 : Fin 1)) else Ideal.ofBits .f32 0x3F800000#32 - lg (ix2 b (0 : Fin 1)))
          (Ideal.ofBits .f32 0x00000000#32) := by
  unfold rowOut
  refine (tail_apply _ _ cls b).trans ?_
  by_cases hc : cls = 0
  · rw [if_pos hc, if_pos hc]; rfl
  · rw [if_neg hc, if_neg hc]; rfl

/-- The generic row payload is the row's output of its logistic column. -/
theorem pay12_eq (v2 : FVec Ideal S128x512 .bf16) (v3 : Vec Ideal S512 .f32) (v5 : FVec Ideal S1x512 .f32) (v7 : FVec Ideal S1x1 .f32)
    (v10 : FVec Ideal S1024x128 .bf16) (v11 : IVec S1024x1 32) (w : BitVec 32) (vrow : Vec Ideal S1x128 .f32) :
    k1_pay12 (F := Ideal) v2 v3 v5 v7 v10 v11 w vrow = rowOut (lgcol v2 v3 v5 v7 v10 vrow) v11 w := rfl

/-- A select on "the lane's index word differs from the row's word" is the choice on "the lane is the row". -/
theorem mask_select {α : Type} (b a : Fin 1024) (w : BitVec 32) (hw : w.toNat = a.val) (X Z : α) :
    Scalar.select (IntOp.cmpi .ne (BitVec.ofNat 32 b.val) w) X Z = if b = a then Z else X := by
  have hb : (BitVec.ofNat 32 b.val).toNat = b.val := by
    rw [BitVec.toNat_ofNat]; exact Nat.mod_eq_of_lt (by have := b.isLt; omega)
  by_cases h : b = a
  · subst h
    have e : BitVec.ofNat 32 b.val = w := BitVec.eq_of_toNat_eq (by rw [hb, hw])
    rw [if_pos rfl, e]; simp [Scalar.select, IntOp.cmpi]
  · have e : BitVec.ofNat 32 b.val ≠ w := fun e => h (Fin.ext (by rw [← hb, e, hw]))
    have e' : (BitVec.ofNat 32 b.val != w) = true := bne_iff_ne.mpr e
    rw [if_neg h]
    show (if BitVec.ofBool (BitVec.ofNat 32 b.val != w) = 1#1 then X else Z) = X
    rw [e']; rfl

/-- The word of row 8·n + j, as the body computes it from the grid coordinate n, is that number. -/
theorem rowWord_toNat (n j : ℕ) (hn : n < 128) (hj : j < 8) :
    (Scalar.addi (Scalar.muli (BitVec.ofNat 32 n) 8#32) (BitVec.ofNat 32 j)).toNat = 8 * n + j := by
  simp only [Scalar.addi, Scalar.muli, IntOp.addi, IntOp.muli, BitVec.toNat_add, BitVec.toNat_mul, BitVec.toNat_ofNat]
  omega

/-- ONE ROW'S VALUE: the generic row payload, given the loaded embedding row a (as a 1×128 vector agreeing with row a of
    the resident embedding) and the row's index word, holds at (class, 0, b) the edge head of the pair (h a, h b). -/
theorem row_value (x0 : Vec Ideal S1024x128 .f32) (x1 : Vec Ideal S128x512 .f32) (x2 : Vec Ideal S512 .f32)
    (x3 : Vec Ideal S1x512 .f32) (x4 : Vec Ideal S1x1 .f32) (vrow : Vec Ideal S1x128 .f32) (w : BitVec 32) (a : Fin 1024)
    (hrow : ∀ q : Fin 128, vrow (ix2 (0 : Fin 1) q) = x0 (ix2 a q)) (hw : w.toNat = a.val) (cls : Fin 2) (b : Fin 1024) :
    k1_pay12 (F := Ideal) (k1_pay2 x1) x2 (k1_pay3 x3) (k1_pay4 x4) (k1_pay5 x0)
        (iota .tc S1024x1 32 [0] iota_S1024x1_d0_w32) w vrow (ix3 cls (0 : Fin 1) b)
      = Cert.Spec.kernelEdge (fun n q => x0 (ix2 n q)) (fun q k => x1 (ix2 q k)) (fun k => x2 (ix1 k))
          (fun k => x3 (ix2 (0 : Fin 1) k)) (x4 (ix2 (0 : Fin 1) (0 : Fin 1))) cls a b := by
  have hD : pairLogit (k1_pay2 x1) x2 (k1_pay3 x3) (k1_pay4 x4) (k1_pay5 x0) vrow b
      = Cert.Spec.edgeLogitDiff (fun q => x0 (ix2 a q)) (fun q => x0 (ix2 b q)) (fun q k => x1 (ix2 q k)) (fun k => x2 (ix1 k))
          (fun k => x3 (ix2 (0 : Fin 1) k)) (x4 (ix2 (0 : Fin 1) (0 : Fin 1))) := by
    unfold pairLogit Cert.Spec.edgeLogitDiff Cert.Spec.edgeHidden Cert.Spec.dense k1_pay2 k1_pay3 k1_pay4 k1_pay5
    simp only [shapeCast_self, hrow]
    rfl
  rw [pay12_eq]
  refine (rowOut_apply _ _ _ cls b).trans ?_
  rw [iota_single_apply]
  refine (mask_select b a w hw _ _).trans ?_
  rw [lgcol_apply, hD]
  rfl

section Cuts
variable {F : FTy → Type} [FloatOps F]
variable (v0 : BitVec 32) (v2 : FVec F S128x512 .bf16) (v3 : Vec F S512 .f32) (v5 : FVec F S1x512 .f32) (v7 : FVec F S1x1 .f32)
  (v10 : FVec F S1024x128 .bf16) (v11 : IVec S1024x1 32) (vr : Vec F S1x128 .f32) (w : BitVec 32)

/-- Row 1's payload is the common function of the row's word and loaded row (and so are the other rows' below). -/
theorem cut1 : k1_pay11 v0 v2 v3 v5 v7 v10 v11 vr = k1_pay12 v2 v3 v5 v7 v10 v11 (Scalar.addi v0 1#32) vr := rfl
/-- Row 3's cut. -/
theorem cut3 : k1_pay15 v7 v11 w (k1_pay13 v2 v3 v10 vr) (k1_pay14 v5) = k1_pay12 v2 v3 v5 v7 v10 v11 w vr := rfl
/-- Row 4's cut. -/
theorem cut4 : k1_pay20 (k1_pay16 v2 v3 v5 v7 v10 vr) (k1_pay17 v2 v3 v5 v7 v10 vr) (k1_pay18 v0 v11) (k1_pay19 (F := F))
    = k1_pay12 v2 v3 v5 v7 v10 v11 (Scalar.addi v0 4#32) vr := rfl
/-- Row 5's cut. -/
theorem cut5 : k1_pay21 v0 v2 v3 v5 v7 v10 v11 vr = k1_pay12 v2 v3 v5 v7 v10 v11 (Scalar.addi v0 5#32) vr := rfl
/-- Row 6's cut. -/
theorem cut6 : k1_pay22 v0 v2 v3 v5 v7 v10 v11 w vr = k1_pay12 v2 v3 v5 v7 v10 v11 (Scalar.addi v0 w) vr := rfl
/-- Row 7's cut. -/
theorem cut7 : k1_pay1 v5 v7 v11 w (k1_pay23 v2 v3 v10 vr) = k1_pay12 v2 v3 v5 v7 v10 v11 w vr := rfl
/-- Row 0's cut (its word and its operands still in the loads' own terms). -/
theorem cut0 (i : grid1.Coords) (v1 : Vec F S128x512 .f32) (v4 : Vec F S1x512 .f32) (v6 : Vec F S1x1 .f32) (v8 : Vec F S1024x128 .f32) :
    k1_pay10 (k1_pay8 i v1 v3 v4 v6 v8 vr) (k1_pay9 i v1 v3 v4 v6 v8 vr)
      = k1_pay12 (k1_pay2 v1) v3 (k1_pay3 v4) (k1_pay4 v6) (k1_pay5 v8) (iota .tc S1024x1 32 [0] iota_S1024x1_d0_w32)
          (Scalar.addi (Scalar.muli (BitVec.ofNat 32 (i 0).val) 8#32) 0#32) vr := rfl
end Cuts

end Cert.KernelIdeal.Region1
end
-- ==== Proof.Region1Pieces.lean ====
/-
  Region 1 of the kernel (the edge head), one grid point: what the body leaves in the output's staging buffer.

  Grid point n handles the eight embedding rows 8·n, …, 8·n + 7. For row 8·n + j it loads that row of the resident
  embedding (a load at an offset computed from the grid coordinate), forms the row's class-major [2, 1, 1024] payload
  (Region1Row.lean) and stores it to the rectangle at offsets (0, j, 0) of the [2, 8, 1024] block. The eight rectangles
  tile the block along its middle axis, so the block read back is ONE function of its index: entry (class, j, b) is the
  edge head `kernelEdge` of the pair of embedding rows (8·n + j, b), zero on the diagonal b = 8·n + j.
  The five inputs are staged whole (each window's only block is its whole array), so in terms of the arrays the region
  finds, the staging buffer after point t holds at (class, j, b) the edge head at (class, 8·t + j, b).
-/
import proofs.«116980_j2911987826887_2_alg».proof.Proof.Gen.KernelIdeal.Frame
import proofs.«116980_j2911987826887_2_alg».proof.Proof.LibLoadAt
import proofs.«116980_j2911987826887_2_alg».proof.Proof.Region1Row
import Idealize.ShloMosaic.Lib.Pipeline.Value
import Idealize.ShloMosaic.Lib.Tactic

set_option maxRecDepth 16384

noncomputable section

namespace Cert.KernelIdeal.Region1

open Idealize.ShloMosaic Idealize.ShloMosaic.TcCoe Idealize.SL.Sem Idealize.ShloMosaic.ValueIdx Idealize.ShloMosaic.Tactic
open Idealize.ShloMosaic.Pipeline (Dat)
open Cert.KernelIdeal Cert.KernelIdeal.Gen

/-- Row 8·n + j of the embedding: the row grid point n handles at its j-th step. -/
def rowOf (n : Fin 128) (j : Fin 8) : Fin 1024 := ⟨8 * n.val + j.val, by have := n.isLt; have := j.isLt; omega⟩

/-- What grid point n leaves in its [2, 8, 1024] output block, as one function of the block's index: entry (class, j, b)
    is the edge head of the pair (row 8·n + j, row b). -/
def blockFn (x0 : Vec Ideal S1024x128 .f32) (x1 : Vec Ideal S128x512 .f32) (x2 : Vec Ideal S512 .f32)
    (x3 : Vec Ideal S1x512 .f32) (x4 : Vec Ideal S1x1 .f32) (n : Fin 128) : Vec Ideal S2x8x1024 .f32 :=
  fun y => Cert.Spec.kernelEdge (fun n q => x0 (ix2 n q)) (fun q k => x1 (ix2 q k)) (fun k => x2 (ix1 k))
    (fun k => x3 (ix2 (0 : Fin 1) k)) (x4 (ix2 (0 : Fin 1) (0 : Fin 1))) (y 0) (rowOf n (y 1)) (y 2)

/-- The one-axis zero offsets, as a function. -/
theorem hz1 : (![0] : Fin 1 → Nat) = fun _ => 0 := funext fun a => by fin_cases a; rfl
/-- The two-axis zero offsets, as a function. -/
theorem hz2 : (![0, 0] : Fin 2 → Nat) = fun _ => 0 := funext fun a => by fin_cases a <;> rfl

/-- The load of one embedding row through the rectangle at the body's computed offset reads row 8·n + r. -/
theorem rowLoad (x0 : Vec Ideal S1024x128 .f32) (i : grid1.Coords) (r : Fin 8)
    (inb : ∀ a, (k1_off1 i (BitVec.ofNat 32 r.val)) a + S1x128.size a ≤ S1024x128.size a) (q : Fin 128) :
    View.ld x0 (Rect.unit (s := S1024x128) (k1_off1 i (BitVec.ofNat 32 r.val)) S1x128.size inb) (ix2 (0 : Fin 1) q)
      = x0 (ix2 (rowOf (i 0) r) q) := by
  refine Cert.LoadAt.ld_unit2 x0 inb (0 : Fin 1) q (rowOf (i 0) r) q ?_ ?_
  · rw [k1_off1_eq]; show 8 * (i 0).val + r.val = (8 * (i 0).val + r.val) + 0; omega
  · rw [k1_off1_eq]; show q.val = 0 + q.val; omega

/-- One stored piece: a payload equal to the common row function at row r's word and loaded row is, at each index of
    the rectangle of row r, the block function at the index's place in the block. -/
theorem piece_ok (x0 : Vec Ideal S1024x128 .f32) (x1 : Vec Ideal S128x512 .f32) (x2 : Vec Ideal S512 .f32)
    (x3 : Vec Ideal S1x512 .f32) (x4 : Vec Ideal S1x1 .f32) (i : grid1.Coords) (r : Fin 8)
    (vrow : Vec Ideal S1x128 .f32) (w : BitVec 32)
    (inbR : ∀ a, (![0, r.val, 0] : Fin 3 → Nat) a + (![2, 1, 1024] : Fin 3 → Nat) a ≤ S2x8x1024.size a)
    (hrow : ∀ q : Fin 128, vrow (ix2 (0 : Fin 1) q) = x0 (ix2 (rowOf (i 0) r) q)) (hw : w.toNat = 8 * (i 0).val + r.val)
    (P : FVec Ideal S2x1x1024 .f32)
    (hP : P = k1_pay12 (F := Ideal) (k1_pay2 x1) x2 (k1_pay3 x3) (k1_pay4 x4) (k1_pay5 x0)
      (iota .tc S1024x1 32 [0] iota_S1024x1_d0_w32) w vrow)
    (x : S2x1x1024.Idx) :
    P x = blockFn x0 x1 x2 x3 x4 (i 0) ((Rect.unit (s := S2x8x1024) ![0, r.val, 0] ![2, 1, 1024] inbR).emb x) := by
  obtain ⟨cls, u, b, rfl⟩ : ∃ (cls : Fin 2) (u : Fin 1) (b : Fin 1024), x = ix3 cls u b := ⟨x 0, x 1, x 2, eq_ix3 x⟩
  obtain rfl : u = 0 := Subsingleton.elim _ _
  subst hP
  refine (row_value x0 x1 x2 x3 x4 vrow w (rowOf (i 0) r) hrow hw cls b).trans ?_
  unfold blockFn
  have e0 : ((Rect.unit (s := S2x8x1024) ![0, r.val, 0] ![2, 1, 1024] inbR).emb (ix3 cls (0 : Fin 1) b)) 0 = cls :=
    Fin.ext (by show 0 + 1 * cls.val = cls.val; omega)
  have e1 : ((Rect.unit (s := S2x8x1024) ![0, r.val, 0] ![2, 1, 1024] inbR).emb (ix3 cls (0 : Fin 1) b)) 1 = r :=
    Fin.ext (by show r.val + 1 * 0 = r.val; omega)
  have e2 : ((Rect.unit (s := S2x8x1024) ![0, r.val, 0] ![2, 1, 1024] inbR).emb (ix3 cls (0 : Fin 1) b)) 2 = b :=
    Fin.ext (by show 0 + 1 * b.val = b.val; omega)
  rw [e0, e1, e2]

/-- THE BODY'S BLOCK: on whole staging buffers holding the five inputs, the eight stores of one grid point leave in the
    output's staging buffer the block function of the point's coordinate: the eight pieces tile the block along its middle
    axis, and piece j is the common row function at row 8·n + j. -/
theorem out1_eq (c : Dev nD) (i : grid1.Coords) (arg1 : Memref sig .tc .vmem S1024x128 .f32) (harg1 : arg1.IsWhole) (arg2 : Memref sig .tc .vmem S128x512 .f32) (harg2 : arg2.IsWhole) (arg3 : Memref sig .tc .vmem S512 .f32) (harg3 : arg3.IsWhole) (arg4 : Memref sig .tc .vmem S1x512 .f32) (harg4 : arg4.IsWhole) (arg5 : Memref sig .tc .vmem S1x1 .f32) (harg5 : arg5.IsWhole) (arg6 : Memref sig .tc .vmem S2x8x1024 .f32) (harg6 : arg6.IsWhole)
    (x0 : Vec Ideal S1024x128 .f32) (x1 : Vec Ideal S128x512 .f32) (x2 : Vec Ideal S512 .f32) (x3 : Vec Ideal S1x512 .f32) (x4 : Vec Ideal S1x1 .f32) :
    out1_A_5 (F := Ideal) c i arg1 harg1 arg2 harg2 arg3 harg3 arg4 harg4 arg5 harg5 arg6 harg6 x0 x1 x2 x3 x4 = blockFn x0 x1 x2 x3 x4 (i 0) := by
  unfold out1_A_5
  rw [View.read_writes_eq_canon _ _ _ (cover1_A_5 c i arg1 harg1 arg2 harg2 arg3 harg3 arg4 harg4 arg5 harg5 arg6 harg6 x0 x1 x2 x3 x4)]
  funext y
  refine View.canon_apply_of_pieces (blockFn x0 x1 x2 x3 x4 (i 0)) _ ?_ y (cover1_A_5 c i arg1 harg1 arg2 harg2 arg3 harg3 arg4 harg4 arg5 harg5 arg6 harg6 x0 x1 x2 x3 x4 y)
  unfold kernelRun1_A
  dsimp only
  sl_unfold_run_names
  simp only [View.readAt_eq_ld, harg1.read_unread, harg2.read_unread, harg3.read_unread, harg4.read_unread, harg5.read_unread,
    View.ld_unit_zero (S := S128x512) hz2, View.ld_unit_zero (S := S512) hz1, View.ld_unit_zero (S := S1x512) hz2,
    View.ld_unit_zero (S := S1x1) hz2, View.ld_unit_zero (S := S1024x128) hz2]
  refine List.forall_mem_cons.mpr ⟨?_, List.forall_mem_cons.mpr ⟨?_, List.forall_mem_cons.mpr ⟨?_, List.forall_mem_cons.mpr ⟨?_,
    List.forall_mem_cons.mpr ⟨?_, List.forall_mem_cons.mpr ⟨?_, List.forall_mem_cons.mpr ⟨?_, List.forall_mem_cons.mpr ⟨?_,
    fun _ h => absurd h List.not_mem_nil⟩⟩⟩⟩⟩⟩⟩⟩
  · exact piece_ok x0 x1 x2 x3 x4 i ⟨7, by decide⟩ _ _ inb_S2x8x1024_S2x1x1024_0_7_0 (fun q => rowLoad x0 i ⟨7, by decide⟩ _ q) (rowWord_toNat (i 0).val 7 (i 0).isLt (by decide)) _ (cut7 _ _ _ _ _ _ _ _)
  · exact piece_ok x0 x1 x2 x3 x4 i ⟨6, by decide⟩ _ _ inb_S2x8x1024_S2x1x1024_0_6_0 (fun q => rowLoad x0 i ⟨6, by decide⟩ _ q) (rowWord_toNat (i 0).val 6 (i 0).isLt (by decide)) _ (cut6 _ _ _ _ _ _ _ _ _)
  · exact piece_ok x0 x1 x2 x3 x4 i ⟨5, by decide⟩ _ _ inb_S2x8x1024_S2x1x1024_0_5_0 (fun q => rowLoad x0 i ⟨5, by decide⟩ _ q) (rowWord_toNat (i 0).val 5 (i 0).isLt (by decide)) _ (cut5 _ _ _ _ _ _ _ _)
  · exact piece_ok x0 x1 x2 x3 x4 i ⟨4, by decide⟩ _ _ inb_S2x8x1024_S2x1x1024_0_4_0 (fun q => rowLoad x0 i ⟨4, by decide⟩ _ q) (rowWord_toNat (i 0).val 4 (i 0).isLt (by decide)) _ (cut4 _ _ _ _ _ _ _ _)
  · exact piece_ok x0 x1 x2 x3 x4 i ⟨3, by decide⟩ _ _ inb_S2x8x1024_S2x1x1024_0_3_0 (fun q => rowLoad x0 i ⟨3, by decide⟩ _ q) (rowWord_toNat (i 0).val 3 (i 0).isLt (by decide)) _ (cut3 _ _ _ _ _ _ _ _)
  · exact piece_ok x0 x1 x2 x3 x4 i ⟨2, by decide⟩ _ _ inb_S2x8x1024_S2x1x1024_0_2_0 (fun q => rowLoad x0 i ⟨2, by decide⟩ _ q) (rowWord_toNat (i 0).val 2 (i 0).isLt (by decide)) _ rfl
  · exact piece_ok x0 x1 x2 x3 x4 i ⟨1, by decide⟩ _ _ inb_S2x8x1024_S2x1x1024_0_1_0 (fun q => rowLoad x0 i ⟨1, by decide⟩ _ q) (rowWord_toNat (i 0).val 1 (i 0).isLt (by decide)) _ (cut1 _ _ _ _ _ _ _ _)
  · exact piece_ok x0 x1 x2 x3 x4 i ⟨0, by decide⟩ _ _ inb_S2x8x1024_S2x1x1024_0_0_0 (fun q => rowLoad x0 i ⟨0, by decide⟩ _ q) (rowWord_toNat (i 0).val 0 (i 0).isLt (by decide)) _ (cut0 _ _ i _ _ _ _)

/-! ## From the body's block to the region's entry contents -/

section Entry
variable (V : (c : Dev nD) → (b : Ref sig .tc) → Buf (Elt Ideal) ((c : Thread nD τ).loc b))

/-- Every input window's block index is zero at every grid point: each input's one block is its whole array. -/
theorem idx_in : ∀ t : Fin cfg1.N,
    (win1_0.index t 0 = 0 ∧ win1_0.index t 1 = 0) ∧ (win1_1.index t 0 = 0 ∧ win1_1.index t 1 = 0) ∧ win1_2.index t 0 = 0
      ∧ (win1_3.index t 0 = 0 ∧ win1_3.index t 1 = 0) ∧ (win1_4.index t 0 = 0 ∧ win1_4.index t 1 = 0) :=
  (by decide +kernel : ∀ t : Fin grid1.N, _)

/-- The grid is one axis of 128 points: a point's one coordinate is its number. -/
theorem coords_val : ∀ t : Fin cfg1.N, (grid1.coords t 0).val = t.val :=
  (by decide +kernel : ∀ t : Fin grid1.N, _)

/-- The embedding's block at any point is the whole embedding. -/
theorem iblk_0 (c : Dev nD) (t : Fin cfg1.N) : (iblk1 (F := Ideal) V c 0 t : Vec Ideal S1024x128 .f32) = V c main_v0 := by
  funext j
  unfold iblk1
  rw [View.read_apply]
  show V c main_v0 _ = V c main_v0 _
  congr 1
  funext a
  apply Fin.ext
  match a with
  | ⟨0, _⟩ => show win1_0.index t 0 * 1024 + 1 * (j 0).val = (j 0).val; rw [(idx_in t).1.1]; omega
  | ⟨1, _⟩ => show win1_0.index t 1 * 128 + 1 * (j 1).val = (j 1).val; rw [(idx_in t).1.2]; omega

/-- The hidden layer's weight block at any point is the whole matrix. -/
theorem iblk_1 (c : Dev nD) (t : Fin cfg1.N) : (iblk1 (F := Ideal) V c 1 t : Vec Ideal S128x512 .f32) = V c main_arg8 := by
  funext j
  unfold iblk1
  rw [View.read_apply]
  show V c main_arg8 _ = V c main_arg8 _
  congr 1
  funext a
  apply Fin.ext
  match a with
  | ⟨0, _⟩ => show win1_1.index t 0 * 128 + 1 * (j 0).val = (j 0).val; rw [(idx_in t).2.1.1]; omega
  | ⟨1, _⟩ => show win1_1.index t 1 * 512 + 1 * (j 1).val = (j 1).val; rw [(idx_in t).2.1.2]; omega

/-- The hidden layer's bias block at any point is the whole vector. -/
theorem iblk_2 (c : Dev nD) (t : Fin cfg1.N) : (iblk1 (F := Ideal) V c 2 t : Vec Ideal S512 .f32) = V c main_arg9 := by
  funext j
  unfold iblk1
  rw [View.read_apply]
  show V c main_arg9 _ = V c main_arg9 _
  congr 1
  funext a
  apply Fin.ext
  match a with
  | ⟨0, _⟩ => show win1_2.index t 0 * 512 + 1 * (j 0).val = (j 0).val; rw [(idx_in t).2.2.1]; omega

/-- The difference column's block at any point is the whole row vector. -/
theorem iblk_3 (c : Dev nD) (t : Fin cfg1.N) : (iblk1 (F := Ideal) V c 3 t : Vec Ideal S1x512 .f32) = V c main_v6 := by
  funext j
  unfold iblk1
  rw [View.read_apply]
  show V c main_v6 _ = V c main_v6 _
  congr 1
  funext a
  apply Fin.ext
  match a with
  | ⟨0, _⟩ => show win1_3.index t 0 * 1 + 1 * (j 0).val = (j 0).val; rw [(idx_in t).2.2.2.1.1]; omega
  | ⟨1, _⟩ => show win1_3.index t 1 * 512 + 1 * (j 1).val = (j 1).val; rw [(idx_in t).2.2.2.1.2]; omega

/-- The bias difference's block at any point is the whole 1×1 array. -/
theorem iblk_4 (c : Dev nD) (t : Fin cfg1.N) : (iblk1 (F := Ideal) V c 4 t : Vec Ideal S1x1 .f32) = V c main_v10 := by
  funext j
  unfold iblk1
  rw [View.read_apply]
  show V c main_v10 _ = V c main_v10 _
  congr 1
  funext a
  apply Fin.ext
  match a with
  | ⟨0, _⟩ => show win1_4.index t 0 * 1 + 1 * (j 0).val = (j 0).val; rw [(idx_in t).2.2.2.2.1]; omega
  | ⟨1, _⟩ => show win1_4.index t 1 * 1 + 1 * (j 1).val = (j 1).val; rw [(idx_in t).2.2.2.2.2]; omega

/-- What the output's staging buffer holds after the body at point t: the block function of the region's entry arrays
    at the point's number. -/
theorem outsAt1_blockFn (c : Dev nD) (t : Fin cfg1.N) :
    outsAt1 (F := Ideal) V c t
      = blockFn (V c main_v0) (V c main_arg8) (V c main_arg9) (V c main_v6) (V c main_v10) (grid1.coords t 0) := by
  unfold outsAt1
  rw [iblk_0 V c t, iblk_1 V c t, iblk_2 V c t, iblk_3 V c t, iblk_4 V c t]
  exact out1_eq c (grid1.coords t) (ms1_0 t) (hs1_0 t) (ms1_1 t) (hs1_1 t) (ms1_2 t) (hs1_2 t) (ms1_3 t) (hs1_3 t)
    (ms1_4 t) (hs1_4 t) (ms1_5 t) (hs1_5 t) (V c main_v0) (V c main_arg8) (V c main_arg9) (V c main_v6) (V c main_v10)

/-- The same entry by entry: after point t the staging buffer's entry (class, j, b) is the edge head of the pair of
    embedding rows (8·t + j, b) of the arrays the region finds. -/
theorem outsAt1_apply (c : Dev nD) (t : Fin cfg1.N) (y : S2x8x1024.Idx) (i : S2x1024x1024.Idx)
    (h0 : (i 0).val = (y 0).val) (h1 : (i 1).val = 8 * t.val + (y 1).val) (h2 : (i 2).val = (y 2).val) :
    outsAt1 (F := Ideal) V c t y
      = Cert.Spec.kernelEdge (fun n q => V c main_v0 (ix2 n q)) (fun q k => V c main_arg8 (ix2 q k))
          (fun k => V c main_arg9 (ix1 k)) (fun k => V c main_v6 (ix2 (0 : Fin 1) k))
          (V c main_v10 (ix2 (0 : Fin 1) (0 : Fin 1))) (i 0) (i 1) (i 2) := by
  rw [outsAt1_blockFn V c t]
  unfold blockFn
  have e0 : (y 0 : Fin 2) = i 0 := Fin.ext h0.symm
  have e1 : rowOf (grid1.coords t 0) (y 1) = i 1 := Fin.ext (by show 8 * (grid1.coords t 0).val + (y 1).val = (i 1).val; rw [coords_val t, h1])
  have e2 : (y 2 : Fin 1024) = i 2 := Fin.ext h2.symm
  rw [e0, e1, e2]

end Entry

end Cert.KernelIdeal.Region1
end
-- ==== Proof.Region1Final.lean ====
import proofs.«116980_j2911987826887_2_alg».proof.Proof.Gen.KernelIdeal.Frame
import proofs.«116980_j2911987826887_2_alg».proof.Proof.Spec
import Idealize.ShloMosaic.Lib.Pipeline.Value
import Idealize.ShloMosaic.Lib.ValueIdx

/-!
# The edge-head region as one whole-array function

The second region walks 128 grid points; point `t` writes back the block of eight rows `8 t … 8 t + 7` (both classes,
all 1024 columns) of the class-major output. When every block holds the specification's edge function at the block's
own rows, the 128 blocks tile the array, which therefore ends holding that function everywhere.
-/

noncomputable section

namespace Cert.KernelIdeal.Region1F

open Idealize.ShloMosaic Idealize.ShloMosaic.TcCoe Idealize.ShloMosaic.ValueIdx Idealize.SL.Sem
open Idealize.ShloMosaic.Pipeline (Dat)
open Cert.KernelIdeal Cert.KernelIdeal.Gen

/-- The printed index map of the output window, decided over the 128 grid points: block zero on the class axis and on
    the column axis, block `t` on the row axis. -/
theorem idx_facts : ∀ t : Fin cfg1.N,
    win1_5.index t (0 : Fin 3) = 0 ∧ win1_5.index t (1 : Fin 3) = t.val ∧ win1_5.index t (2 : Fin 3) = 0 :=
  (by decide +kernel : ∀ t : Fin grid1.N, _)

section
variable (V : (c : Dev nD) → (b : Ref sig .tc) → Buf (Elt Ideal) ((c : Thread nD τ).loc b))

/-- The whole-array function: the specification's edge output of the five arrays as the region finds them (the node
    embeddings, the hidden layer's weights and bias, the difference column and the bias difference), index by index. -/
def G1 (c : Dev nD) : S2x1024x1024.Idx → EReal := fun i =>
  Cert.Spec.kernelEdge (fun n q => (V c main_v0 : S1024x128.Idx → EReal) (ix2 n q))
    (fun q k => (V c main_arg8 : S128x512.Idx → EReal) (ix2 q k))
    (fun k => (V c main_arg9 : S512.Idx → EReal) (ix1 k))
    (fun k => (V c main_v6 : S1x512.Idx → EReal) (ix2 (0 : Fin 1) k))
    ((V c main_v10 : S1x1.Idx → EReal) (ix2 (0 : Fin 1) (0 : Fin 1))) (i 0) (i 1) (i 2)

/-- What point `t` writes back is block `t` of the whole-array function, when the staging block after the point
    holds, at (class, j, b), that function at (class, 8 t + j, b). -/
theorem flushed_eq (c : Dev nD)
    (hblk : ∀ (t : Fin cfg1.N) (y : S2x8x1024.Idx) (i : S2x1024x1024.Idx), (i 0).val = (y 0).val →
      (i 1).val = 8 * t.val + (y 1).val → (i 2).val = (y 2).val → outsAt1 (F := Ideal) V c t y = G1 V c i)
    (t : Fin cfg1.N) :
    (dat1 (F := Ideal) V c).flushed 5 t = ((cfg1.win 5).blk t).view.read (Elt Ideal) (G1 V c) := by
  show (cfg1.win 5).cut (grid1.coords t) ((dat1 (F := Ideal) V c).after 5 t) = _
  rw [after1_5]
  obtain ⟨e0, e1, e2⟩ := idx_facts t
  funext j
  show outsAt1 (F := Ideal) V c t j = G1 V c (((cfg1.win 5).blk t).view.emb j)
  refine hblk t j _ ?_ ?_ ?_
  · show win1_5.index t (0 : Fin 3) * 2 + 1 * (j 0).val = (j 0).val
    omega
  · show win1_5.index t (1 : Fin 3) * 8 + 1 * (j 1).val = 8 * t.val + (j 1).val
    omega
  · show win1_5.index t (2 : Fin 3) * 1024 + 1 * (j 2).val = (j 2).val
    omega

/-- An index of the output array is in point `t`'s block iff each coordinate is in the block's range on its axis. -/
theorem mem_blk (t : Fin cfg1.N) (i : S2x1024x1024.Idx) :
    i ∈ ((cfg1.win 5).blk t).view.set ↔ ∀ a : Fin 3, win1_5.index t a * S2x8x1024.size a ≤ (i a).val
      ∧ (i a).val < win1_5.index t a * S2x8x1024.size a + S2x8x1024.size a := by
  show i ∈ ((View.whole main_v11).slice (win1_5.rect t)).set ↔ _
  rw [View.set_slice_whole, Rect.mem_set_unit]
  exact Iff.rfl

/-- Row `r` of the output array (either class, any column) is written back by point `r / 8`. -/
theorem cover (i : S2x1024x1024.Idx) :
    ∃ t : Fin cfg1.N, (cfg1.win 5).flush t = true ∧ i ∈ ((cfg1.win 5).blk t).view.set := by
  have hi0 : (i 0).val < 2 := (i 0).isLt
  have hi1 : (i 1).val < 1024 := (i 1).isLt
  have hi2 : (i 2).val < 1024 := (i 2).isLt
  have hN : cfg1.N = 128 := N_1
  have ht : (i 1).val / 8 < cfg1.N := by rw [hN]; omega
  obtain ⟨e0, e1, e2⟩ := idx_facts ⟨(i 1).val / 8, ht⟩
  have e1' : win1_5.index ⟨(i 1).val / 8, ht⟩ (1 : Fin 3) = (i 1).val / 8 := e1
  refine ⟨⟨(i 1).val / 8, ht⟩, flush1_5 _, ?_⟩
  rw [mem_blk]
  intro a
  match a with
  | ⟨0, _⟩ =>
    show win1_5.index ⟨(i 1).val / 8, ht⟩ (0 : Fin 3) * 2 ≤ (i 0).val
      ∧ (i 0).val < win1_5.index ⟨(i 1).val / 8, ht⟩ (0 : Fin 3) * 2 + 2
    omega
  | ⟨1, _⟩ =>
    show win1_5.index ⟨(i 1).val / 8, ht⟩ (1 : Fin 3) * 8 ≤ (i 1).val
      ∧ (i 1).val < win1_5.index ⟨(i 1).val / 8, ht⟩ (1 : Fin 3) * 8 + 8
    omega
  | ⟨2, _⟩ =>
    show win1_5.index ⟨(i 1).val / 8, ht⟩ (2 : Fin 3) * 1024 ≤ (i 2).val
      ∧ (i 2).val < win1_5.index ⟨(i 1).val / 8, ht⟩ (2 : Fin 3) * 1024 + 1024
    omega

/-- The output array after the region: the specification's edge function of the arrays as the region finds them. -/
theorem out_final (c : Dev nD)
    (hblk : ∀ (t : Fin cfg1.N) (y : S2x8x1024.Idx) (i : S2x1024x1024.Idx), (i 0).val = (y 0).val →
      (i 1).val = 8 * t.val + (y 1).val → (i 2).val = (y 2).val → outsAt1 (F := Ideal) V c t y = G1 V c i) :
    (dat1 (F := Ideal) V c).arrAt 5 cfg1.N = G1 V c :=
  (dat1 (F := Ideal) V c).arrAt_eq_of_cover 5 (G1 V c) (fun t _ => flushed_eq V c hblk t) cover

/-- The block hypothesis from its spelling with the array index built from the block's coordinates. -/
theorem hblk_of_ix3 (c : Dev nD)
    (hb : ∀ (t : Fin cfg1.N) (y : S2x8x1024.Idx), 8 * t.val + (y 1).val < 1024)
    (h : ∀ t : Fin cfg1.N, outsAt1 (F := Ideal) V c t
      = fun y => G1 V c (ix3 (y 0) (⟨8 * t.val + (y 1).val, hb t y⟩ : Fin 1024) (y 2)))
    (t : Fin cfg1.N) (y : S2x8x1024.Idx) (i : S2x1024x1024.Idx) (h0 : (i 0).val = (y 0).val)
    (h1 : (i 1).val = 8 * t.val + (y 1).val) (h2 : (i 2).val = (y 2).val) :
    outsAt1 (F := Ideal) V c t y = G1 V c i := by
  have a0 : (y 0 : Fin 2) = i 0 := Fin.ext h0.symm
  have a1 : (⟨8 * t.val + (y 1).val, hb t y⟩ : Fin 1024) = i 1 := Fin.ext h1.symm
  have a2 : (y 2 : Fin 1024) = i 2 := Fin.ext h2.symm
  have e : ix3 (y 0 : Fin 2) (⟨8 * t.val + (y 1).val, hb t y⟩ : Fin 1024) (y 2 : Fin 1024) = i := by
    rw [a0, a1, a2]
    exact (eq_ix3 i).symm
  rw [h t]
  exact congrArg (G1 V c) e

end

end Cert.KernelIdeal.Region1F

end
-- ==== Proof.Region1Value.lean ====
import proofs.«116980_j2911987826887_2_alg».proof.Proof.KernelValue
import proofs.«116980_j2911987826887_2_alg».proof.Proof.Region1Pieces
import proofs.«116980_j2911987826887_2_alg».proof.Proof.Region1Final

/-!
# The second region's output array

After the last grid point the edge head's output array holds, at `(class, a, b)`, the kernel's class probability for the
ordered pair of embedding rows `(a, b)` (zero on the diagonal): each point's staging block is that function's rows
`8t … 8t+7`, and the 128 blocks cover the array.
-/

noncomputable section

namespace Cert.KernelIdeal.Region1V

open Cert.KernelIdeal Cert.KernelIdeal.Gen Idealize.ShloMosaic

theorem edgeValue : Cert.KernelIdeal.KValue.EdgeValue := fun V c =>
  (Cert.KernelIdeal.Region1F.out_final V c
    (fun t y i h0 h1 h2 => Cert.KernelIdeal.Region1.outsAt1_apply V c t y i h0 h1 h2)).trans rfl

end Cert.KernelIdeal.Region1V

end
-- ==== Proof.lean ====
/-
  The certificate of this kernel against its reference, over the extended reals.

  Both programs compute, for 1024 nodes with 128 features, a node embedding `h` (two leaky-rectified dense layers, a third
  dense layer and a residual) and then, for every ordered pair of distinct nodes `(a, b)`, the two class probabilities of
  an edge head applied to the entrywise product `h a ⊙ h b`; the diagonal is zero. The reference enumerates the strict
  upper triangle's index pairs at run time (the positions of the true entries of a triangular mask, by a running count,
  a count per value and a second running sum), evaluates the head once per pair, takes a two-class softmax, and scatters
  the result symmetrically. The kernel program fills the dense grid directly, eight rows per grid point, with the
  logistic of the logit difference and one minus it. The two agree entry by entry for finite inputs:
  the index enumeration hits every pair `a < b` and only such pairs, the product `h a ⊙ h b` is symmetric, and for real
  numbers `softmax(l0, l1) = (σ(l0 − l1), 1 − σ(l0 − l1))` with `l0 − l1` computed through the difference of the two
  weight columns (distributivity, which is where finiteness is used).

  The frames of the two kernel programs are the generated ones; the reference's frame is its run with the result dropped;
  the idealization rewrote nothing.
-/
import proofs.«116980_j2911987826887_2_alg».proof.Defs
import proofs.«116980_j2911987826887_2_alg».proof.Proof.Claims
import proofs.«116980_j2911987826887_2_alg».proof.Proof.ValueEq
import proofs.«116980_j2911987826887_2_alg».proof.Proof.Region1Value

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, Cert.Proof.Claims.preserves,
    Cert.Proof.Claims.algebraic (Cert.Proof.Value.valueEq Cert.KernelIdeal.Region1V.edgeValue)⟩

end Cert.Proof

end
